-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v386) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x320x128x240 : Shape := ⟨4, ![2, 320, 128, 240]⟩
abbrev S_ : Shape := ⟨0, ![]⟩

class Facts : Prop where
  bcast_S_S2x320x128x240 : S_.BroadcastsInDim S2x320x128x240 (![] : Fin 0 → Fin S2x320x128x240.rank)
  reducesTo_S2x320x128x240_S_d0_1_2_3 : S2x320x128x240.ReducesTo [0, 1, 2, 3] S_
  h_S_ : 0 < S_.numel

variable [Facts]

def fn {F : FTy → Type} [FloatOps F] (main_arg0 : FVec F S2x320x128x240 .f32) (main_arg1 : FVec F S2x320x128x240 .f32) : IVec S_ 1 :=
  let main_v0 : FVec F S2x320x128x240 .f32 := Host.absf main_arg0
  let main_cst : FVec F S_ .f32 := constant S_ .f32 0x7F800000#32
  let main_v1 : FVec F S2x320x128x240 .f32 := broadcastInDim S2x320x128x240 ![] bcast_S_S2x320x128x240 main_cst
  let main_v2 : IVec S2x320x128x240 1 := cmpf .olt main_v0 main_v1
  let main_c : IVec S_ 1 := constantI S_ 1 1#1
  let main_v3 : IVec S_ 1 := (fun x v => Host.reduce IntOp.andi x v reducesTo_S2x320x128x240_S_d0_1_2_3 h_S_) main_v2 main_c
  let main_v4 : FVec F S2x320x128x240 .f32 := Host.absf main_arg1
  let main_cst_0 : FVec F S_ .f32 := constant S_ .f32 0x7F800000#32
  let main_v5 : FVec F S2x320x128x240 .f32 := broadcastInDim S2x320x128x240 ![] bcast_S_S2x320x128x240 main_cst_0
  let main_v6 : IVec S2x320x128x240 1 := cmpf .olt main_v4 main_v5
  let main_c_1 : IVec S_ 1 := constantI S_ 1 1#1
  let main_v7 : IVec S_ 1 := (fun x v => Host.reduce IntOp.andi x v reducesTo_S2x320x128x240_S_d0_1_2_3 h_S_) main_v6 main_c_1
  let main_v8 : IVec S_ 1 := andi main_v3 main_v7
  main_v8
-- ==== Kernel.lean ====
abbrev S2x320x128x240 : Shape := ⟨4, ![2, 320, 128, 240]⟩
abbrev S2x40x48x128x240 : Shape := ⟨5, ![2, 40, 48, 128, 240]⟩
abbrev S1x8x128x240 : Shape := ⟨4, ![1, 8, 128, 240]⟩
abbrev S1x1x48x128x240 : Shape := ⟨5, ![1, 1, 48, 128, 240]⟩
abbrev S48x128x240 : Shape := ⟨3, ![48, 128, 240]⟩
abbrev S8x128x240 : Shape := ⟨3, ![8, 128, 240]⟩
abbrev S128x240 : Shape := ⟨2, ![128, 240]⟩
abbrev S1x1x1x128x240 : Shape := ⟨5, ![1, 1, 1, 128, 240]⟩
abbrev S8x128x239 : Shape := ⟨3, ![8, 128, 239]⟩
abbrev S128x239 : Shape := ⟨2, ![128, 239]⟩
abbrev S1x1x1x128x239 : Shape := ⟨5, ![1, 1, 1, 128, 239]⟩
abbrev S8x128x238 : Shape := ⟨3, ![8, 128, 238]⟩
abbrev S128x238 : Shape := ⟨2, ![128, 238]⟩
abbrev S1x1x1x128x238 : Shape := ⟨5, ![1, 1, 1, 128, 238]⟩
abbrev S8x128x237 : Shape := ⟨3, ![8, 128, 237]⟩
abbrev S128x237 : Shape := ⟨2, ![128, 237]⟩
abbrev S1x1x1x128x237 : Shape := ⟨5, ![1, 1, 1, 128, 237]⟩
abbrev S8x128x236 : Shape := ⟨3, ![8, 128, 236]⟩
abbrev S128x236 : Shape := ⟨2, ![128, 236]⟩
abbrev S1x1x1x128x236 : Shape := ⟨5, ![1, 1, 1, 128, 236]⟩
abbrev S8x128x235 : Shape := ⟨3, ![8, 128, 235]⟩
abbrev S128x235 : Shape := ⟨2, ![128, 235]⟩
abbrev S1x1x1x128x235 : Shape := ⟨5, ![1, 1, 1, 128, 235]⟩
abbrev S8x128x234 : Shape := ⟨3, ![8, 128, 234]⟩
abbrev S128x234 : Shape := ⟨2, ![128, 234]⟩
abbrev S1x1x1x128x234 : Shape := ⟨5, ![1, 1, 1, 128, 234]⟩
abbrev S8x128x233 : Shape := ⟨3, ![8, 128, 233]⟩
abbrev S128x233 : Shape := ⟨2, ![128, 233]⟩
abbrev S1x1x1x128x233 : Shape := ⟨5, ![1, 1, 1, 128, 233]⟩
abbrev S8x128x232 : Shape := ⟨3, ![8, 128, 232]⟩
abbrev S128x232 : Shape := ⟨2, ![128, 232]⟩
abbrev S1x1x1x128x232 : Shape := ⟨5, ![1, 1, 1, 128, 232]⟩
abbrev S8x128x231 : Shape := ⟨3, ![8, 128, 231]⟩
abbrev S128x231 : Shape := ⟨2, ![128, 231]⟩
abbrev S1x1x1x128x231 : Shape := ⟨5, ![1, 1, 1, 128, 231]⟩
abbrev S8x128x230 : Shape := ⟨3, ![8, 128, 230]⟩
abbrev S128x230 : Shape := ⟨2, ![128, 230]⟩
abbrev S1x1x1x128x230 : Shape := ⟨5, ![1, 1, 1, 128, 230]⟩
abbrev S8x128x229 : Shape := ⟨3, ![8, 128, 229]⟩
abbrev S128x229 : Shape := ⟨2, ![128, 229]⟩
abbrev S1x1x1x128x229 : Shape := ⟨5, ![1, 1, 1, 128, 229]⟩
abbrev S8x128x228 : Shape := ⟨3, ![8, 128, 228]⟩
abbrev S128x228 : Shape := ⟨2, ![128, 228]⟩
abbrev S1x1x1x128x228 : Shape := ⟨5, ![1, 1, 1, 128, 228]⟩
abbrev S8x128x227 : Shape := ⟨3, ![8, 128, 227]⟩
abbrev S128x227 : Shape := ⟨2, ![128, 227]⟩
abbrev S1x1x1x128x227 : Shape := ⟨5, ![1, 1, 1, 128, 227]⟩
abbrev S8x128x226 : Shape := ⟨3, ![8, 128, 226]⟩
abbrev S128x226 : Shape := ⟨2, ![128, 226]⟩
abbrev S1x1x1x128x226 : Shape := ⟨5, ![1, 1, 1, 128, 226]⟩
abbrev S8x128x225 : Shape := ⟨3, ![8, 128, 225]⟩
abbrev S128x225 : Shape := ⟨2, ![128, 225]⟩
abbrev S1x1x1x128x225 : Shape := ⟨5, ![1, 1, 1, 128, 225]⟩
abbrev S8x128x224 : Shape := ⟨3, ![8, 128, 224]⟩
abbrev S128x224 : Shape := ⟨2, ![128, 224]⟩
abbrev S1x1x1x128x224 : Shape := ⟨5, ![1, 1, 1, 128, 224]⟩
abbrev S8x128x223 : Shape := ⟨3, ![8, 128, 223]⟩
abbrev S128x223 : Shape := ⟨2, ![128, 223]⟩
abbrev S1x1x1x128x223 : Shape := ⟨5, ![1, 1, 1, 128, 223]⟩
abbrev S8x128x222 : Shape := ⟨3, ![8, 128, 222]⟩
abbrev S128x222 : Shape := ⟨2, ![128, 222]⟩
abbrev S1x1x1x128x222 : Shape := ⟨5, ![1, 1, 1, 128, 222]⟩
abbrev S8x128x221 : Shape := ⟨3, ![8, 128, 221]⟩
abbrev S128x221 : Shape := ⟨2, ![128, 221]⟩
abbrev S1x1x1x128x221 : Shape := ⟨5, ![1, 1, 1, 128, 221]⟩
abbrev S8x128x220 : Shape := ⟨3, ![8, 128, 220]⟩
abbrev S128x220 : Shape := ⟨2, ![128, 220]⟩
abbrev S1x1x1x128x220 : Shape := ⟨5, ![1, 1, 1, 128, 220]⟩
abbrev S8x128x219 : Shape := ⟨3, ![8, 128, 219]⟩
abbrev S128x219 : Shape := ⟨2, ![128, 219]⟩
abbrev S1x1x1x128x219 : Shape := ⟨5, ![1, 1, 1, 128, 219]⟩
abbrev S8x128x218 : Shape := ⟨3, ![8, 128, 218]⟩
abbrev S128x218 : Shape := ⟨2, ![128, 218]⟩
abbrev S1x1x1x128x218 : Shape := ⟨5, ![1, 1, 1, 128, 218]⟩
abbrev S8x128x217 : Shape := ⟨3, ![8, 128, 217]⟩
abbrev S128x217 : Shape := ⟨2, ![128, 217]⟩
abbrev S1x1x1x128x217 : Shape := ⟨5, ![1, 1, 1, 128, 217]⟩
abbrev S8x128x216 : Shape := ⟨3, ![8, 128, 216]⟩
abbrev S128x216 : Shape := ⟨2, ![128, 216]⟩
abbrev S1x1x1x128x216 : Shape := ⟨5, ![1, 1, 1, 128, 216]⟩
abbrev S8x128x215 : Shape := ⟨3, ![8, 128, 215]⟩
abbrev S128x215 : Shape := ⟨2, ![128, 215]⟩
abbrev S1x1x1x128x215 : Shape := ⟨5, ![1, 1, 1, 128, 215]⟩
abbrev S8x128x214 : Shape := ⟨3, ![8, 128, 214]⟩
abbrev S128x214 : Shape := ⟨2, ![128, 214]⟩
abbrev S1x1x1x128x214 : Shape := ⟨5, ![1, 1, 1, 128, 214]⟩
abbrev S8x128x213 : Shape := ⟨3, ![8, 128, 213]⟩
abbrev S128x213 : Shape := ⟨2, ![128, 213]⟩
abbrev S1x1x1x128x213 : Shape := ⟨5, ![1, 1, 1, 128, 213]⟩
abbrev S8x128x212 : Shape := ⟨3, ![8, 128, 212]⟩
abbrev S128x212 : Shape := ⟨2, ![128, 212]⟩
abbrev S1x1x1x128x212 : Shape := ⟨5, ![1, 1, 1, 128, 212]⟩
abbrev S8x128x211 : Shape := ⟨3, ![8, 128, 211]⟩
abbrev S128x211 : Shape := ⟨2, ![128, 211]⟩
abbrev S1x1x1x128x211 : Shape := ⟨5, ![1, 1, 1, 128, 211]⟩
abbrev S8x128x210 : Shape := ⟨3, ![8, 128, 210]⟩
abbrev S128x210 : Shape := ⟨2, ![128, 210]⟩
abbrev S1x1x1x128x210 : Shape := ⟨5, ![1, 1, 1, 128, 210]⟩
abbrev S8x128x209 : Shape := ⟨3, ![8, 128, 209]⟩
abbrev S128x209 : Shape := ⟨2, ![128, 209]⟩
abbrev S1x1x1x128x209 : Shape := ⟨5, ![1, 1, 1, 128, 209]⟩
abbrev S8x128x208 : Shape := ⟨3, ![8, 128, 208]⟩
abbrev S128x208 : Shape := ⟨2, ![128, 208]⟩
abbrev S1x1x1x128x208 : Shape := ⟨5, ![1, 1, 1, 128, 208]⟩
abbrev S8x128x207 : Shape := ⟨3, ![8, 128, 207]⟩
abbrev S128x207 : Shape := ⟨2, ![128, 207]⟩
abbrev S1x1x1x128x207 : Shape := ⟨5, ![1, 1, 1, 128, 207]⟩
abbrev S8x128x206 : Shape := ⟨3, ![8, 128, 206]⟩
abbrev S128x206 : Shape := ⟨2, ![128, 206]⟩
abbrev S1x1x1x128x206 : Shape := ⟨5, ![1, 1, 1, 128, 206]⟩
abbrev S8x128x205 : Shape := ⟨3, ![8, 128, 205]⟩
abbrev S128x205 : Shape := ⟨2, ![128, 205]⟩
abbrev S1x1x1x128x205 : Shape := ⟨5, ![1, 1, 1, 128, 205]⟩
abbrev S8x128x204 : Shape := ⟨3, ![8, 128, 204]⟩
abbrev S128x204 : Shape := ⟨2, ![128, 204]⟩
abbrev S1x1x1x128x204 : Shape := ⟨5, ![1, 1, 1, 128, 204]⟩
abbrev S8x128x203 : Shape := ⟨3, ![8, 128, 203]⟩
abbrev S128x203 : Shape := ⟨2, ![128, 203]⟩
abbrev S1x1x1x128x203 : Shape := ⟨5, ![1, 1, 1, 128, 203]⟩
abbrev S8x128x202 : Shape := ⟨3, ![8, 128, 202]⟩
abbrev S128x202 : Shape := ⟨2, ![128, 202]⟩
abbrev S1x1x1x128x202 : Shape := ⟨5, ![1, 1, 1, 128, 202]⟩
abbrev S8x128x201 : Shape := ⟨3, ![8, 128, 201]⟩
abbrev S128x201 : Shape := ⟨2, ![128, 201]⟩
abbrev S1x1x1x128x201 : Shape := ⟨5, ![1, 1, 1, 128, 201]⟩
abbrev S8x128x200 : Shape := ⟨3, ![8, 128, 200]⟩
abbrev S128x200 : Shape := ⟨2, ![128, 200]⟩
abbrev S1x1x1x128x200 : Shape := ⟨5, ![1, 1, 1, 128, 200]⟩
abbrev S8x128x199 : Shape := ⟨3, ![8, 128, 199]⟩
abbrev S128x199 : Shape := ⟨2, ![128, 199]⟩
abbrev S1x1x1x128x199 : Shape := ⟨5, ![1, 1, 1, 128, 199]⟩
abbrev S8x128x198 : Shape := ⟨3, ![8, 128, 198]⟩
abbrev S128x198 : Shape := ⟨2, ![128, 198]⟩
abbrev S1x1x1x128x198 : Shape := ⟨5, ![1, 1, 1, 128, 198]⟩
abbrev S8x128x197 : Shape := ⟨3, ![8, 128, 197]⟩
abbrev S128x197 : Shape := ⟨2, ![128, 197]⟩
abbrev S1x1x1x128x197 : Shape := ⟨5, ![1, 1, 1, 128, 197]⟩
abbrev S8x128x196 : Shape := ⟨3, ![8, 128, 196]⟩
abbrev S128x196 : Shape := ⟨2, ![128, 196]⟩
abbrev S1x1x1x128x196 : Shape := ⟨5, ![1, 1, 1, 128, 196]⟩
abbrev S8x128x195 : Shape := ⟨3, ![8, 128, 195]⟩
abbrev S128x195 : Shape := ⟨2, ![128, 195]⟩
abbrev S1x1x1x128x195 : Shape := ⟨5, ![1, 1, 1, 128, 195]⟩
abbrev S8x128x194 : Shape := ⟨3, ![8, 128, 194]⟩
abbrev S128x194 : Shape := ⟨2, ![128, 194]⟩
abbrev S1x1x1x128x194 : Shape := ⟨5, ![1, 1, 1, 128, 194]⟩
abbrev S8x128x193 : Shape := ⟨3, ![8, 128, 193]⟩
abbrev S128x193 : Shape := ⟨2, ![128, 193]⟩
abbrev S1x1x1x128x193 : Shape := ⟨5, ![1, 1, 1, 128, 193]⟩

abbrev nBuf : Space → Nat
  | .hbm => 3
  | .vmem => 6
  | .smem => 0
  | _ => 0

abbrev bufTy : (tb : Table) → Fin (tcTables nBuf tb) → BufTy
  | .hbm, ⟨0, _⟩ => ⟨S2x320x128x240, .f32⟩
  | .hbm, ⟨1, _⟩ => ⟨S2x320x128x240, .f32⟩
  | .hbm, ⟨2, _⟩ => ⟨S2x40x48x128x240, .f32⟩
  | .local _ .vmem, ⟨0, _⟩ => ⟨S1x8x128x240, .f32⟩
  | .local _ .vmem, ⟨1, _⟩ => ⟨S1x8x128x240, .f32⟩
  | .local _ .vmem, ⟨2, _⟩ => ⟨S1x8x128x240, .f32⟩
  | .local _ .vmem, ⟨3, _⟩ => ⟨S1x8x128x240, .f32⟩
  | .local _ .vmem, ⟨4, _⟩ => ⟨S1x1x48x128x240, .f32⟩
  | .local _ .vmem, ⟨5, _⟩ => ⟨S1x1x48x128x240, .f32⟩
  | _, _ => ⟨S2x320x128x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 40], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x128x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x48x128x240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x48x128x240_S1x1x48x128x240_0_0_0_0_0 : ∀ a, (![0, 0, 0, 0, 0] : Fin 5 → Nat) a + S1x1x48x128x240.size a ≤ S1x1x48x128x240.size a
  h_S1x1x48x128x240 : 0 < S1x1x48x128x240.numel
  shapeCasts_S1x1x48x128x240_S48x128x240 : S1x1x48x128x240.ShapeCasts S48x128x240
  shapeCasts_S48x128x240_S1x1x48x128x240 : S48x128x240.ShapeCasts S1x1x48x128x240
  inb_S1x8x128x240_S1x8x128x240_0_0_0_0 : ∀ a, (![0, 0, 0, 0] : Fin 4 → Nat) a + S1x8x128x240.size a ≤ S1x8x128x240.size a
  h_S1x8x128x240 : 0 < S1x8x128x240.numel
  shapeCasts_S1x8x128x240_S8x128x240 : S1x8x128x240.ShapeCasts S8x128x240
  reduces_S8x128x240_S128x240 : S8x128x240.Reduces [0] S128x240
  inb_S1x1x48x128x240_S1x1x1x128x240_0_0_0_0_0 : ∀ a, (![0, 0, 0, 0, 0] : Fin 5 → Nat) a + S1x1x1x128x240.size a ≤ S1x1x48x128x240.size a
  h_S1x1x1x128x240 : 0 < S1x1x1x128x240.numel
  shapeCasts_S1x1x1x128x240_S128x240 : S1x1x1x128x240.ShapeCasts S128x240
  shapeCasts_S128x240_S1x1x1x128x240 : S128x240.ShapeCasts S1x1x1x128x240
  slices_S8x128x240_o0_0_1_S8x128x239 : S8x128x240.Slices ![0, 0, 1] S8x128x239
  slices_S8x128x240_o0_0_0_S8x128x239 : S8x128x240.Slices ![0, 0, 0] S8x128x239
  reduces_S8x128x239_S128x239 : S8x128x239.Reduces [0] S128x239
  inb_S1x1x48x128x240_S1x1x1x128x239_0_0_1_0_1 : ∀ a, (![0, 0, 1, 0, 1] : Fin 5 → Nat) a + S1x1x1x128x239.size a ≤ S1x1x48x128x240.size a
  h_S1x1x1x128x239 : 0 < S1x1x1x128x239.numel
  shapeCasts_S1x1x1x128x239_S128x239 : S1x1x1x128x239.ShapeCasts S128x239
  shapeCasts_S128x239_S1x1x1x128x239 : S128x239.ShapeCasts S1x1x1x128x239
  slices_S8x128x240_o0_0_2_S8x128x238 : S8x128x240.Slices ![0, 0, 2] S8x128x238
  slices_S8x128x240_o0_0_0_S8x128x238 : S8x128x240.Slices ![0, 0, 0] S8x128x238
  reduces_S8x128x238_S128x238 : S8x128x238.Reduces [0] S128x238
  inb_S1x1x48x128x240_S1x1x1x128x238_0_0_2_0_2 : ∀ a, (![0, 0, 2, 0, 2] : Fin 5 → Nat) a + S1x1x1x128x238.size a ≤ S1x1x48x128x240.size a
  h_S1x1x1x128x238 : 0 < S1x1x1x128x238.numel
  shapeCasts_S1x1x1x128x238_S128x238 : S1x1x1x128x238.ShapeCasts S128x238
  shapeCasts_S128x238_S1x1x1x128x238 : S128x238.ShapeCasts S1x1x1x128x238
  slices_S8x128x240_o0_0_3_S8x128x237 : S8x128x240.Slices ![0, 0, 3] S8x128x237
  slices_S8x128x240_o0_0_0_S8x128x237 : S8x128x240.Slices ![0, 0, 0] S8x128x237
  reduces_S8x128x237_S128x237 : S8x128x237.Reduces [0] S128x237
  inb_S1x1x48x128x240_S1x1x1x128x237_0_0_3_0_3 : ∀ a, (![0, 0, 3, 0, 3] : Fin 5 → Nat) a + S1x1x1x128x237.size a ≤ S1x1x48x128x240.size a
  h_S1x1x1x128x237 : 0 < S1x1x1x128x237.numel
  shapeCasts_S1x1x1x128x237_S128x237 : S1x1x1x128x237.ShapeCasts S128x237
  shapeCasts_S128x237_S1x1x1x128x237 : S128x237.ShapeCasts S1x1x1x128x237
  slices_S8x128x240_o0_0_4_S8x128x236 : S8x128x240.Slices ![0, 0, 4] S8x128x236
  slices_S8x128x240_o0_0_0_S8x128x236 : S8x128x240.Slices ![0, 0, 0] S8x128x236
  reduces_S8x128x236_S128x236 : S8x128x236.Reduces [0] S128x236
  inb_S1x1x48x128x240_S1x1x1x128x236_0_0_4_0_4 : ∀ a, (![0, 0, 4, 0, 4] : Fin 5 → Nat) a + S1x1x1x128x236.size a ≤ S1x1x48x128x240.size a
  h_S1x1x1x128x236 : 0 < S1x1x1x128x236.numel
  shapeCasts_S1x1x1x128x236_S128x236 : S1x1x1x128x236.ShapeCasts S128x236
  shapeCasts_S128x236_S1x1x1x128x236 : S128x236.ShapeCasts S1x1x1x128x236
  slices_S8x128x240_o0_0_5_S8x128x235 : S8x128x240.Slices ![0, 0, 5] S8x128x235
  slices_S8x128x240_o0_0_0_S8x128x235 : S8x128x240.Slices ![0, 0, 0] S8x128x235
  reduces_S8x128x235_S128x235 : S8x128x235.Reduces [0] S128x235
  inb_S1x1x48x128x240_S1x1x1x128x235_0_0_5_0_5 : ∀ a, (![0, 0, 5, 0, 5] : Fin 5 → Nat) a + S1x1x1x128x235.size a ≤ S1x1x48x128x240.size a
  h_S1x1x1x128x235 : 0 < S1x1x1x128x235.numel
  shapeCasts_S1x1x1x128x235_S128x235 : S1x1x1x128x235.ShapeCasts S128x235
  shapeCasts_S128x235_S1x1x1x128x235 : S128x235.ShapeCasts S1x1x1x128x235
  slices_S8x128x240_o0_0_6_S8x128x234 : S8x128x240.Slices ![0, 0, 6] S8x128x234
  slices_S8x128x240_o0_0_0_S8x128x234 : S8x128x240.Slices ![0, 0, 0] S8x128x234
  reduces_S8x128x234_S128x234 : S8x128x234.Reduces [0] S128x234
  inb_S1x1x48x128x240_S1x1x1x128x234_0_0_6_0_6 : ∀ a, (![0, 0, 6, 0, 6] : Fin 5 → Nat) a + S1x1x1x128x234.size a ≤ S1x1x48x128x240.size a
  h_S1x1x1x128x234 : 0 < S1x1x1x128x234.numel
  shapeCasts_S1x1x1x128x234_S128x234 : S1x1x1x128x234.ShapeCasts S128x234
  shapeCasts_S128x234_S1x1x1x128x234 : S128x234.ShapeCasts S1x1x1x128x234
  slices_S8x128x240_o0_0_7_S8x128x233 : S8x128x240.Slices ![0, 0, 7] S8x128x233
  slices_S8x128x240_o0_0_0_S8x128x233 : S8x128x240.Slices ![0, 0, 0] S8x128x233
  reduces_S8x128x233_S128x233 : S8x128x233.Reduces [0] S128x233
  inb_S1x1x48x128x240_S1x1x1x128x233_0_0_7_0_7 : ∀ a, (![0, 0, 7, 0, 7] : Fin 5 → Nat) a + S1x1x1x128x233.size a ≤ S1x1x48x128x240.size a
  h_S1x1x1x128x233 : 0 < S1x1x1x128x233.numel
  shapeCasts_S1x1x1x128x233_S128x233 : S1x1x1x128x233.ShapeCasts S128x233
  shapeCasts_S128x233_S1x1x1x128x233 : S128x233.ShapeCasts S1x1x1x128x233
  slices_S8x128x240_o0_0_8_S8x128x232 : S8x128x240.Slices ![0, 0, 8] S8x128x232
  slices_S8x128x240_o0_0_0_S8x128x232 : S8x128x240.Slices ![0, 0, 0] S8x128x232
  reduces_S8x128x232_S128x232 : S8x128x232.Reduces [0] S128x232
  inb_S1x1x48x128x240_S1x1x1x128x232_0_0_8_0_8 : ∀ a, (![0, 0, 8, 0, 8] : Fin 5 → Nat) a + S1x1x1x128x232.size a ≤ S1x1x48x128x240.size a
  h_S1x1x1x128x232 : 0 < S1x1x1x128x232.numel
  shapeCasts_S1x1x1x128x232_S128x232 : S1x1x1x128x232.ShapeCasts S128x232
  shapeCasts_S128x232_S1x1x1x128x232 : S128x232.ShapeCasts S1x1x1x128x232
  slices_S8x128x240_o0_0_9_S8x128x231 : S8x128x240.Slices ![0, 0, 9] S8x128x231
  slices_S8x128x240_o0_0_0_S8x128x231 : S8x128x240.Slices ![0, 0, 0] S8x128x231
  reduces_S8x128x231_S128x231 : S8x128x231.Reduces [0] S128x231
  inb_S1x1x48x128x240_S1x1x1x128x231_0_0_9_0_9 : ∀ a, (![0, 0, 9, 0, 9] : Fin 5 → Nat) a + S1x1x1x128x231.size a ≤ S1x1x48x128x240.size a
  h_S1x1x1x128x231 : 0 < S1x1x1x128x231.numel
  shapeCasts_S1x1x1x128x231_S128x231 : S1x1x1x128x231.ShapeCasts S128x231
  shapeCasts_S128x231_S1x1x1x128x231 : S128x231.ShapeCasts S1x1x1x128x231
  slices_S8x128x240_o0_0_10_S8x128x230 : S8x128x240.Slices ![0, 0, 10] S8x128x230
  slices_S8x128x240_o0_0_0_S8x128x230 : S8x128x240.Slices ![0, 0, 0] S8x128x230
  reduces_S8x128x230_S128x230 : S8x128x230.Reduces [0] S128x230
  inb_S1x1x48x128x240_S1x1x1x128x230_0_0_10_0_10 : ∀ a, (![0, 0, 10, 0, 10] : Fin 5 → Nat) a + S1x1x1x128x230.size a ≤ S1x1x48x128x240.size a
  h_S1x1x1x128x230 : 0 < S1x1x1x128x230.numel
  shapeCasts_S1x1x1x128x230_S128x230 : S1x1x1x128x230.ShapeCasts S128x230
  shapeCasts_S128x230_S1x1x1x128x230 : S128x230.ShapeCasts S1x1x1x128x230
  slices_S8x128x240_o0_0_11_S8x128x229 : S8x128x240.Slices ![0, 0, 11] S8x128x229
  slices_S8x128x240_o0_0_0_S8x128x229 : S8x128x240.Slices ![0, 0, 0] S8x128x229
  reduces_S8x128x229_S128x229 : S8x128x229.Reduces [0] S128x229
  inb_S1x1x48x128x240_S1x1x1x128x229_0_0_11_0_11 : ∀ a, (![0, 0, 11, 0, 11] : Fin 5 → Nat) a + S1x1x1x128x229.size a ≤ S1x1x48x128x240.size a
  h_S1x1x1x128x229 : 0 < S1x1x1x128x229.numel
  shapeCasts_S1x1x1x128x229_S128x229 : S1x1x1x128x229.ShapeCasts S128x229
  shapeCasts_S128x229_S1x1x1x128x229 : S128x229.ShapeCasts S1x1x1x128x229
  slices_S8x128x240_o0_0_12_S8x128x228 : S8x128x240.Slices ![0, 0, 12] S8x128x228
  slices_S8x128x240_o0_0_0_S8x128x228 : S8x128x240.Slices ![0, 0, 0] S8x128x228
  reduces_S8x128x228_S128x228 : S8x128x228.Reduces [0] S128x228
  inb_S1x1x48x128x240_S1x1x1x128x228_0_0_12_0_12 : ∀ a, (![0, 0, 12, 0, 12] : Fin 5 → Nat) a + S1x1x1x128x228.size a ≤ S1x1x48x128x240.size a
  h_S1x1x1x128x228 : 0 < S1x1x1x128x228.numel
  shapeCasts_S1x1x1x128x228_S128x228 : S1x1x1x128x228.ShapeCasts S128x228
  shapeCasts_S128x228_S1x1x1x128x228 : S128x228.ShapeCasts S1x1x1x128x228
  slices_S8x128x240_o0_0_13_S8x128x227 : S8x128x240.Slices ![0, 0, 13] S8x128x227
  slices_S8x128x240_o0_0_0_S8x128x227 : S8x128x240.Slices ![0, 0, 0] S8x128x227
  reduces_S8x128x227_S128x227 : S8x128x227.Reduces [0] S128x227
  inb_S1x1x48x128x240_S1x1x1x128x227_0_0_13_0_13 : ∀ a, (![0, 0, 13, 0, 13] : Fin 5 → Nat) a + S1x1x1x128x227.size a ≤ S1x1x48x128x240.size a
  h_S1x1x1x128x227 : 0 < S1x1x1x128x227.numel
  shapeCasts_S1x1x1x128x227_S128x227 : S1x1x1x128x227.ShapeCasts S128x227
  shapeCasts_S128x227_S1x1x1x128x227 : S128x227.ShapeCasts S1x1x1x128x227
  slices_S8x128x240_o0_0_14_S8x128x226 : S8x128x240.Slices ![0, 0, 14] S8x128x226
  slices_S8x128x240_o0_0_0_S8x128x226 : S8x128x240.Slices ![0, 0, 0] S8x128x226
  reduces_S8x128x226_S128x226 : S8x128x226.Reduces [0] S128x226
  inb_S1x1x48x128x240_S1x1x1x128x226_0_0_14_0_14 : ∀ a, (![0, 0, 14, 0, 14] : Fin 5 → Nat) a + S1x1x1x128x226.size a ≤ S1x1x48x128x240.size a
  h_S1x1x1x128x226 : 0 < S1x1x1x128x226.numel
  shapeCasts_S1x1x1x128x226_S128x226 : S1x1x1x128x226.ShapeCasts S128x226
  shapeCasts_S128x226_S1x1x1x128x226 : S128x226.ShapeCasts S1x1x1x128x226
  slices_S8x128x240_o0_0_15_S8x128x225 : S8x128x240.Slices ![0, 0, 15] S8x128x225
  slices_S8x128x240_o0_0_0_S8x128x225 : S8x128x240.Slices ![0, 0, 0] S8x128x225
  reduces_S8x128x225_S128x225 : S8x128x225.Reduces [0] S128x225
  inb_S1x1x48x128x240_S1x1x1x128x225_0_0_15_0_15 : ∀ a, (![0, 0, 15, 0, 15] : Fin 5 → Nat) a + S1x1x1x128x225.size a ≤ S1x1x48x128x240.size a
  h_S1x1x1x128x225 : 0 < S1x1x1x128x225.numel
  shapeCasts_S1x1x1x128x225_S128x225 : S1x1x1x128x225.ShapeCasts S128x225
  shapeCasts_S128x225_S1x1x1x128x225 : S128x225.ShapeCasts S1x1x1x128x225
  slices_S8x128x240_o0_0_16_S8x128x224 : S8x128x240.Slices ![0, 0, 16] S8x128x224
  slices_S8x128x240_o0_0_0_S8x128x224 : S8x128x240.Slices ![0, 0, 0] S8x128x224
  reduces_S8x128x224_S128x224 : S8x128x224.Reduces [0] S128x224
  inb_S1x1x48x128x240_S1x1x1x128x224_0_0_16_0_16 : ∀ a, (![0, 0, 16, 0, 16] : Fin 5 → Nat) a + S1x1x1x128x224.size a ≤ S1x1x48x128x240.size a
  h_S1x1x1x128x224 : 0 < S1x1x1x128x224.numel
  shapeCasts_S1x1x1x128x224_S128x224 : S1x1x1x128x224.ShapeCasts S128x224
  shapeCasts_S128x224_S1x1x1x128x224 : S128x224.ShapeCasts S1x1x1x128x224
  slices_S8x128x240_o0_0_17_S8x128x223 : S8x128x240.Slices ![0, 0, 17] S8x128x223
  slices_S8x128x240_o0_0_0_S8x128x223 : S8x128x240.Slices ![0, 0, 0] S8x128x223
  reduces_S8x128x223_S128x223 : S8x128x223.Reduces [0] S128x223
  inb_S1x1x48x128x240_S1x1x1x128x223_0_0_17_0_17 : ∀ a, (![0, 0, 17, 0, 17] : Fin 5 → Nat) a + S1x1x1x128x223.size a ≤ S1x1x48x128x240.size a
  h_S1x1x1x128x223 : 0 < S1x1x1x128x223.numel
  shapeCasts_S1x1x1x128x223_S128x223 : S1x1x1x128x223.ShapeCasts S128x223
  shapeCasts_S128x223_S1x1x1x128x223 : S128x223.ShapeCasts S1x1x1x128x223
  slices_S8x128x240_o0_0_18_S8x128x222 : S8x128x240.Slices ![0, 0, 18] S8x128x222
  slices_S8x128x240_o0_0_0_S8x128x222 : S8x128x240.Slices ![0, 0, 0] S8x128x222
  reduces_S8x128x222_S128x222 : S8x128x222.Reduces [0] S128x222
  inb_S1x1x48x128x240_S1x1x1x128x222_0_0_18_0_18 : ∀ a, (![0, 0, 18, 0, 18] : Fin 5 → Nat) a + S1x1x1x128x222.size a ≤ S1x1x48x128x240.size a
  h_S1x1x1x128x222 : 0 < S1x1x1x128x222.numel
  shapeCasts_S1x1x1x128x222_S128x222 : S1x1x1x128x222.ShapeCasts S128x222
  shapeCasts_S128x222_S1x1x1x128x222 : S128x222.ShapeCasts S1x1x1x128x222
  slices_S8x128x240_o0_0_19_S8x128x221 : S8x128x240.Slices ![0, 0, 19] S8x128x221
  slices_S8x128x240_o0_0_0_S8x128x221 : S8x128x240.Slices ![0, 0, 0] S8x128x221
  reduces_S8x128x221_S128x221 : S8x128x221.Reduces [0] S128x221
  inb_S1x1x48x128x240_S1x1x1x128x221_0_0_19_0_19 : ∀ a, (![0, 0, 19, 0, 19] : Fin 5 → Nat) a + S1x1x1x128x221.size a ≤ S1x1x48x128x240.size a
  h_S1x1x1x128x221 : 0 < S1x1x1x128x221.numel
  shapeCasts_S1x1x1x128x221_S128x221 : S1x1x1x128x221.ShapeCasts S128x221
  shapeCasts_S128x221_S1x1x1x128x221 : S128x221.ShapeCasts S1x1x1x128x221
  slices_S8x128x240_o0_0_20_S8x128x220 : S8x128x240.Slices ![0, 0, 20] S8x128x220
  slices_S8x128x240_o0_0_0_S8x128x220 : S8x128x240.Slices ![0, 0, 0] S8x128x220
  reduces_S8x128x220_S128x220 : S8x128x220.Reduces [0] S128x220
  inb_S1x1x48x128x240_S1x1x1x128x220_0_0_20_0_20 : ∀ a, (![0, 0, 20, 0, 20] : Fin 5 → Nat) a + S1x1x1x128x220.size a ≤ S1x1x48x128x240.size a
  h_S1x1x1x128x220 : 0 < S1x1x1x128x220.numel
  shapeCasts_S1x1x1x128x220_S128x220 : S1x1x1x128x220.ShapeCasts S128x220
  shapeCasts_S128x220_S1x1x1x128x220 : S128x220.ShapeCasts S1x1x1x128x220
  slices_S8x128x240_o0_0_21_S8x128x219 : S8x128x240.Slices ![0, 0, 21] S8x128x219
  slices_S8x128x240_o0_0_0_S8x128x219 : S8x128x240.Slices ![0, 0, 0] S8x128x219
  reduces_S8x128x219_S128x219 : S8x128x219.Reduces [0] S128x219
  inb_S1x1x48x128x240_S1x1x1x128x219_0_0_21_0_21 : ∀ a, (![0, 0, 21, 0, 21] : Fin 5 → Nat) a + S1x1x1x128x219.size a ≤ S1x1x48x128x240.size a
  h_S1x1x1x128x219 : 0 < S1x1x1x128x219.numel
  shapeCasts_S1x1x1x128x219_S128x219 : S1x1x1x128x219.ShapeCasts S128x219
  shapeCasts_S128x219_S1x1x1x128x219 : S128x219.ShapeCasts S1x1x1x128x219
  slices_S8x128x240_o0_0_22_S8x128x218 : S8x128x240.Slices ![0, 0, 22] S8x128x218
  slices_S8x128x240_o0_0_0_S8x128x218 : S8x128x240.Slices ![0, 0, 0] S8x128x218
  reduces_S8x128x218_S128x218 : S8x128x218.Reduces [0] S128x218
  inb_S1x1x48x128x240_S1x1x1x128x218_0_0_22_0_22 : ∀ a, (![0, 0, 22, 0, 22] : Fin 5 → Nat) a + S1x1x1x128x218.size a ≤ S1x1x48x128x240.size a
  h_S1x1x1x128x218 : 0 < S1x1x1x128x218.numel
  shapeCasts_S1x1x1x128x218_S128x218 : S1x1x1x128x218.ShapeCasts S128x218
  shapeCasts_S128x218_S1x1x1x128x218 : S128x218.ShapeCasts S1x1x1x128x218
  slices_S8x128x240_o0_0_23_S8x128x217 : S8x128x240.Slices ![0, 0, 23] S8x128x217
  slices_S8x128x240_o0_0_0_S8x128x217 : S8x128x240.Slices ![0, 0, 0] S8x128x217
  reduces_S8x128x217_S128x217 : S8x128x217.Reduces [0] S128x217
  inb_S1x1x48x128x240_S1x1x1x128x217_0_0_23_0_23 : ∀ a, (![0, 0, 23, 0, 23] : Fin 5 → Nat) a + S1x1x1x128x217.size a ≤ S1x1x48x128x240.size a
  h_S1x1x1x128x217 : 0 < S1x1x1x128x217.numel
  shapeCasts_S1x1x1x128x217_S128x217 : S1x1x1x128x217.ShapeCasts S128x217
  shapeCasts_S128x217_S1x1x1x128x217 : S128x217.ShapeCasts S1x1x1x128x217
  slices_S8x128x240_o0_0_24_S8x128x216 : S8x128x240.Slices ![0, 0, 24] S8x128x216
  slices_S8x128x240_o0_0_0_S8x128x216 : S8x128x240.Slices ![0, 0, 0] S8x128x216
  reduces_S8x128x216_S128x216 : S8x128x216.Reduces [0] S128x216
  inb_S1x1x48x128x240_S1x1x1x128x216_0_0_24_0_24 : ∀ a, (![0, 0, 24, 0, 24] : Fin 5 → Nat) a + S1x1x1x128x216.size a ≤ S1x1x48x128x240.size a
  h_S1x1x1x128x216 : 0 < S1x1x1x128x216.numel
  shapeCasts_S1x1x1x128x216_S128x216 : S1x1x1x128x216.ShapeCasts S128x216
  shapeCasts_S128x216_S1x1x1x128x216 : S128x216.ShapeCasts S1x1x1x128x216
  slices_S8x128x240_o0_0_25_S8x128x215 : S8x128x240.Slices ![0, 0, 25] S8x128x215
  slices_S8x128x240_o0_0_0_S8x128x215 : S8x128x240.Slices ![0, 0, 0] S8x128x215
  reduces_S8x128x215_S128x215 : S8x128x215.Reduces [0] S128x215
  inb_S1x1x48x128x240_S1x1x1x128x215_0_0_25_0_25 : ∀ a, (![0, 0, 25, 0, 25] : Fin 5 → Nat) a + S1x1x1x128x215.size a ≤ S1x1x48x128x240.size a
  h_S1x1x1x128x215 : 0 < S1x1x1x128x215.numel
  shapeCasts_S1x1x1x128x215_S128x215 : S1x1x1x128x215.ShapeCasts S128x215
  shapeCasts_S128x215_S1x1x1x128x215 : S128x215.ShapeCasts S1x1x1x128x215
  slices_S8x128x240_o0_0_26_S8x128x214 : S8x128x240.Slices ![0, 0, 26] S8x128x214
  slices_S8x128x240_o0_0_0_S8x128x214 : S8x128x240.Slices ![0, 0, 0] S8x128x214
  reduces_S8x128x214_S128x214 : S8x128x214.Reduces [0] S128x214
  inb_S1x1x48x128x240_S1x1x1x128x214_0_0_26_0_26 : ∀ a, (![0, 0, 26, 0, 26] : Fin 5 → Nat) a + S1x1x1x128x214.size a ≤ S1x1x48x128x240.size a
  h_S1x1x1x128x214 : 0 < S1x1x1x128x214.numel
  shapeCasts_S1x1x1x128x214_S128x214 : S1x1x1x128x214.ShapeCasts S128x214
  shapeCasts_S128x214_S1x1x1x128x214 : S128x214.ShapeCasts S1x1x1x128x214
  slices_S8x128x240_o0_0_27_S8x128x213 : S8x128x240.Slices ![0, 0, 27] S8x128x213
  slices_S8x128x240_o0_0_0_S8x128x213 : S8x128x240.Slices ![0, 0, 0] S8x128x213
  reduces_S8x128x213_S128x213 : S8x128x213.Reduces [0] S128x213
  inb_S1x1x48x128x240_S1x1x1x128x213_0_0_27_0_27 : ∀ a, (![0, 0, 27, 0, 27] : Fin 5 → Nat) a + S1x1x1x128x213.size a ≤ S1x1x48x128x240.size a
  h_S1x1x1x128x213 : 0 < S1x1x1x128x213.numel
  shapeCasts_S1x1x1x128x213_S128x213 : S1x1x1x128x213.ShapeCasts S128x213
  shapeCasts_S128x213_S1x1x1x128x213 : S128x213.ShapeCasts S1x1x1x128x213
  slices_S8x128x240_o0_0_28_S8x128x212 : S8x128x240.Slices ![0, 0, 28] S8x128x212
  slices_S8x128x240_o0_0_0_S8x128x212 : S8x128x240.Slices ![0, 0, 0] S8x128x212
  reduces_S8x128x212_S128x212 : S8x128x212.Reduces [0] S128x212
  inb_S1x1x48x128x240_S1x1x1x128x212_0_0_28_0_28 : ∀ a, (![0, 0, 28, 0, 28] : Fin 5 → Nat) a + S1x1x1x128x212.size a ≤ S1x1x48x128x240.size a
  h_S1x1x1x128x212 : 0 < S1x1x1x128x212.numel
  shapeCasts_S1x1x1x128x212_S128x212 : S1x1x1x128x212.ShapeCasts S128x212
  shapeCasts_S128x212_S1x1x1x128x212 : S128x212.ShapeCasts S1x1x1x128x212
  slices_S8x128x240_o0_0_29_S8x128x211 : S8x128x240.Slices ![0, 0, 29] S8x128x211
  slices_S8x128x240_o0_0_0_S8x128x211 : S8x128x240.Slices ![0, 0, 0] S8x128x211
  reduces_S8x128x211_S128x211 : S8x128x211.Reduces [0] S128x211
  inb_S1x1x48x128x240_S1x1x1x128x211_0_0_29_0_29 : ∀ a, (![0, 0, 29, 0, 29] : Fin 5 → Nat) a + S1x1x1x128x211.size a ≤ S1x1x48x128x240.size a
  h_S1x1x1x128x211 : 0 < S1x1x1x128x211.numel
  shapeCasts_S1x1x1x128x211_S128x211 : S1x1x1x128x211.ShapeCasts S128x211
  shapeCasts_S128x211_S1x1x1x128x211 : S128x211.ShapeCasts S1x1x1x128x211
  slices_S8x128x240_o0_0_30_S8x128x210 : S8x128x240.Slices ![0, 0, 30] S8x128x210
  slices_S8x128x240_o0_0_0_S8x128x210 : S8x128x240.Slices ![0, 0, 0] S8x128x210
  reduces_S8x128x210_S128x210 : S8x128x210.Reduces [0] S128x210
  inb_S1x1x48x128x240_S1x1x1x128x210_0_0_30_0_30 : ∀ a, (![0, 0, 30, 0, 30] : Fin 5 → Nat) a + S1x1x1x128x210.size a ≤ S1x1x48x128x240.size a
  h_S1x1x1x128x210 : 0 < S1x1x1x128x210.numel
  shapeCasts_S1x1x1x128x210_S128x210 : S1x1x1x128x210.ShapeCasts S128x210
  shapeCasts_S128x210_S1x1x1x128x210 : S128x210.ShapeCasts S1x1x1x128x210
  slices_S8x128x240_o0_0_31_S8x128x209 : S8x128x240.Slices ![0, 0, 31] S8x128x209
  slices_S8x128x240_o0_0_0_S8x128x209 : S8x128x240.Slices ![0, 0, 0] S8x128x209
  reduces_S8x128x209_S128x209 : S8x128x209.Reduces [0] S128x209
  inb_S1x1x48x128x240_S1x1x1x128x209_0_0_31_0_31 : ∀ a, (![0, 0, 31, 0, 31] : Fin 5 → Nat) a + S1x1x1x128x209.size a ≤ S1x1x48x128x240.size a
  h_S1x1x1x128x209 : 0 < S1x1x1x128x209.numel
  shapeCasts_S1x1x1x128x209_S128x209 : S1x1x1x128x209.ShapeCasts S128x209
  shapeCasts_S128x209_S1x1x1x128x209 : S128x209.ShapeCasts S1x1x1x128x209
  slices_S8x128x240_o0_0_32_S8x128x208 : S8x128x240.Slices ![0, 0, 32] S8x128x208
  slices_S8x128x240_o0_0_0_S8x128x208 : S8x128x240.Slices ![0, 0, 0] S8x128x208
  reduces_S8x128x208_S128x208 : S8x128x208.Reduces [0] S128x208
  inb_S1x1x48x128x240_S1x1x1x128x208_0_0_32_0_32 : ∀ a, (![0, 0, 32, 0, 32] : Fin 5 → Nat) a + S1x1x1x128x208.size a ≤ S1x1x48x128x240.size a
  h_S1x1x1x128x208 : 0 < S1x1x1x128x208.numel
  shapeCasts_S1x1x1x128x208_S128x208 : S1x1x1x128x208.ShapeCasts S128x208
  shapeCasts_S128x208_S1x1x1x128x208 : S128x208.ShapeCasts S1x1x1x128x208
  slices_S8x128x240_o0_0_33_S8x128x207 : S8x128x240.Slices ![0, 0, 33] S8x128x207
  slices_S8x128x240_o0_0_0_S8x128x207 : S8x128x240.Slices ![0, 0, 0] S8x128x207
  reduces_S8x128x207_S128x207 : S8x128x207.Reduces [0] S128x207
  inb_S1x1x48x128x240_S1x1x1x128x207_0_0_33_0_33 : ∀ a, (![0, 0, 33, 0, 33] : Fin 5 → Nat) a + S1x1x1x128x207.size a ≤ S1x1x48x128x240.size a
  h_S1x1x1x128x207 : 0 < S1x1x1x128x207.numel
  shapeCasts_S1x1x1x128x207_S128x207 : S1x1x1x128x207.ShapeCasts S128x207
  shapeCasts_S128x207_S1x1x1x128x207 : S128x207.ShapeCasts S1x1x1x128x207
  slices_S8x128x240_o0_0_34_S8x128x206 : S8x128x240.Slices ![0, 0, 34] S8x128x206
  slices_S8x128x240_o0_0_0_S8x128x206 : S8x128x240.Slices ![0, 0, 0] S8x128x206
  reduces_S8x128x206_S128x206 : S8x128x206.Reduces [0] S128x206
  inb_S1x1x48x128x240_S1x1x1x128x206_0_0_34_0_34 : ∀ a, (![0, 0, 34, 0, 34] : Fin 5 → Nat) a + S1x1x1x128x206.size a ≤ S1x1x48x128x240.size a
  h_S1x1x1x128x206 : 0 < S1x1x1x128x206.numel
  shapeCasts_S1x1x1x128x206_S128x206 : S1x1x1x128x206.ShapeCasts S128x206
  shapeCasts_S128x206_S1x1x1x128x206 : S128x206.ShapeCasts S1x1x1x128x206
  slices_S8x128x240_o0_0_35_S8x128x205 : S8x128x240.Slices ![0, 0, 35] S8x128x205
  slices_S8x128x240_o0_0_0_S8x128x205 : S8x128x240.Slices ![0, 0, 0] S8x128x205
  reduces_S8x128x205_S128x205 : S8x128x205.Reduces [0] S128x205
  inb_S1x1x48x128x240_S1x1x1x128x205_0_0_35_0_35 : ∀ a, (![0, 0, 35, 0, 35] : Fin 5 → Nat) a + S1x1x1x128x205.size a ≤ S1x1x48x128x240.size a
  h_S1x1x1x128x205 : 0 < S1x1x1x128x205.numel
  shapeCasts_S1x1x1x128x205_S128x205 : S1x1x1x128x205.ShapeCasts S128x205
  shapeCasts_S128x205_S1x1x1x128x205 : S128x205.ShapeCasts S1x1x1x128x205
  slices_S8x128x240_o0_0_36_S8x128x204 : S8x128x240.Slices ![0, 0, 36] S8x128x204
  slices_S8x128x240_o0_0_0_S8x128x204 : S8x128x240.Slices ![0, 0, 0] S8x128x204
  reduces_S8x128x204_S128x204 : S8x128x204.Reduces [0] S128x204
  inb_S1x1x48x128x240_S1x1x1x128x204_0_0_36_0_36 : ∀ a, (![0, 0, 36, 0, 36] : Fin 5 → Nat) a + S1x1x1x128x204.size a ≤ S1x1x48x128x240.size a
  h_S1x1x1x128x204 : 0 < S1x1x1x128x204.numel
  shapeCasts_S1x1x1x128x204_S128x204 : S1x1x1x128x204.ShapeCasts S128x204
  shapeCasts_S128x204_S1x1x1x128x204 : S128x204.ShapeCasts S1x1x1x128x204
  slices_S8x128x240_o0_0_37_S8x128x203 : S8x128x240.Slices ![0, 0, 37] S8x128x203
  slices_S8x128x240_o0_0_0_S8x128x203 : S8x128x240.Slices ![0, 0, 0] S8x128x203
  reduces_S8x128x203_S128x203 : S8x128x203.Reduces [0] S128x203
  inb_S1x1x48x128x240_S1x1x1x128x203_0_0_37_0_37 : ∀ a, (![0, 0, 37, 0, 37] : Fin 5 → Nat) a + S1x1x1x128x203.size a ≤ S1x1x48x128x240.size a
  h_S1x1x1x128x203 : 0 < S1x1x1x128x203.numel
  shapeCasts_S1x1x1x128x203_S128x203 : S1x1x1x128x203.ShapeCasts S128x203
  shapeCasts_S128x203_S1x1x1x128x203 : S128x203.ShapeCasts S1x1x1x128x203
  slices_S8x128x240_o0_0_38_S8x128x202 : S8x128x240.Slices ![0, 0, 38] S8x128x202
  slices_S8x128x240_o0_0_0_S8x128x202 : S8x128x240.Slices ![0, 0, 0] S8x128x202
  reduces_S8x128x202_S128x202 : S8x128x202.Reduces [0] S128x202
  inb_S1x1x48x128x240_S1x1x1x128x202_0_0_38_0_38 : ∀ a, (![0, 0, 38, 0, 38] : Fin 5 → Nat) a + S1x1x1x128x202.size a ≤ S1x1x48x128x240.size a
  h_S1x1x1x128x202 : 0 < S1x1x1x128x202.numel
  shapeCasts_S1x1x1x128x202_S128x202 : S1x1x1x128x202.ShapeCasts S128x202
  shapeCasts_S128x202_S1x1x1x128x202 : S128x202.ShapeCasts S1x1x1x128x202
  slices_S8x128x240_o0_0_39_S8x128x201 : S8x128x240.Slices ![0, 0, 39] S8x128x201
  slices_S8x128x240_o0_0_0_S8x128x201 : S8x128x240.Slices ![0, 0, 0] S8x128x201
  reduces_S8x128x201_S128x201 : S8x128x201.Reduces [0] S128x201
  inb_S1x1x48x128x240_S1x1x1x128x201_0_0_39_0_39 : ∀ a, (![0, 0, 39, 0, 39] : Fin 5 → Nat) a + S1x1x1x128x201.size a ≤ S1x1x48x128x240.size a
  h_S1x1x1x128x201 : 0 < S1x1x1x128x201.numel
  shapeCasts_S1x1x1x128x201_S128x201 : S1x1x1x128x201.ShapeCasts S128x201
  shapeCasts_S128x201_S1x1x1x128x201 : S128x201.ShapeCasts S1x1x1x128x201
  slices_S8x128x240_o0_0_40_S8x128x200 : S8x128x240.Slices ![0, 0, 40] S8x128x200
  slices_S8x128x240_o0_0_0_S8x128x200 : S8x128x240.Slices ![0, 0, 0] S8x128x200
  reduces_S8x128x200_S128x200 : S8x128x200.Reduces [0] S128x200
  inb_S1x1x48x128x240_S1x1x1x128x200_0_0_40_0_40 : ∀ a, (![0, 0, 40, 0, 40] : Fin 5 → Nat) a + S1x1x1x128x200.size a ≤ S1x1x48x128x240.size a
  h_S1x1x1x128x200 : 0 < S1x1x1x128x200.numel
  shapeCasts_S1x1x1x128x200_S128x200 : S1x1x1x128x200.ShapeCasts S128x200
  shapeCasts_S128x200_S1x1x1x128x200 : S128x200.ShapeCasts S1x1x1x128x200
  slices_S8x128x240_o0_0_41_S8x128x199 : S8x128x240.Slices ![0, 0, 41] S8x128x199
  slices_S8x128x240_o0_0_0_S8x128x199 : S8x128x240.Slices ![0, 0, 0] S8x128x199
  reduces_S8x128x199_S128x199 : S8x128x199.Reduces [0] S128x199
  inb_S1x1x48x128x240_S1x1x1x128x199_0_0_41_0_41 : ∀ a, (![0, 0, 41, 0, 41] : Fin 5 → Nat) a + S1x1x1x128x199.size a ≤ S1x1x48x128x240.size a
  h_S1x1x1x128x199 : 0 < S1x1x1x128x199.numel
  shapeCasts_S1x1x1x128x199_S128x199 : S1x1x1x128x199.ShapeCasts S128x199
  shapeCasts_S128x199_S1x1x1x128x199 : S128x199.ShapeCasts S1x1x1x128x199
  slices_S8x128x240_o0_0_42_S8x128x198 : S8x128x240.Slices ![0, 0, 42] S8x128x198
  slices_S8x128x240_o0_0_0_S8x128x198 : S8x128x240.Slices ![0, 0, 0] S8x128x198
  reduces_S8x128x198_S128x198 : S8x128x198.Reduces [0] S128x198
  inb_S1x1x48x128x240_S1x1x1x128x198_0_0_42_0_42 : ∀ a, (![0, 0, 42, 0, 42] : Fin 5 → Nat) a + S1x1x1x128x198.size a ≤ S1x1x48x128x240.size a
  h_S1x1x1x128x198 : 0 < S1x1x1x128x198.numel
  shapeCasts_S1x1x1x128x198_S128x198 : S1x1x1x128x198.ShapeCasts S128x198
  shapeCasts_S128x198_S1x1x1x128x198 : S128x198.ShapeCasts S1x1x1x128x198
  slices_S8x128x240_o0_0_43_S8x128x197 : S8x128x240.Slices ![0, 0, 43] S8x128x197
  slices_S8x128x240_o0_0_0_S8x128x197 : S8x128x240.Slices ![0, 0, 0] S8x128x197
  reduces_S8x128x197_S128x197 : S8x128x197.Reduces [0] S128x197
  inb_S1x1x48x128x240_S1x1x1x128x197_0_0_43_0_43 : ∀ a, (![0, 0, 43, 0, 43] : Fin 5 → Nat) a + S1x1x1x128x197.size a ≤ S1x1x48x128x240.size a
  h_S1x1x1x128x197 : 0 < S1x1x1x128x197.numel
  shapeCasts_S1x1x1x128x197_S128x197 : S1x1x1x128x197.ShapeCasts S128x197
  shapeCasts_S128x197_S1x1x1x128x197 : S128x197.ShapeCasts S1x1x1x128x197
  slices_S8x128x240_o0_0_44_S8x128x196 : S8x128x240.Slices ![0, 0, 44] S8x128x196
  slices_S8x128x240_o0_0_0_S8x128x196 : S8x128x240.Slices ![0, 0, 0] S8x128x196
  reduces_S8x128x196_S128x196 : S8x128x196.Reduces [0] S128x196
  inb_S1x1x48x128x240_S1x1x1x128x196_0_0_44_0_44 : ∀ a, (![0, 0, 44, 0, 44] : Fin 5 → Nat) a + S1x1x1x128x196.size a ≤ S1x1x48x128x240.size a
  h_S1x1x1x128x196 : 0 < S1x1x1x128x196.numel
  shapeCasts_S1x1x1x128x196_S128x196 : S1x1x1x128x196.ShapeCasts S128x196
  shapeCasts_S128x196_S1x1x1x128x196 : S128x196.ShapeCasts S1x1x1x128x196
  slices_S8x128x240_o0_0_45_S8x128x195 : S8x128x240.Slices ![0, 0, 45] S8x128x195
  slices_S8x128x240_o0_0_0_S8x128x195 : S8x128x240.Slices ![0, 0, 0] S8x128x195
  reduces_S8x128x195_S128x195 : S8x128x195.Reduces [0] S128x195
  inb_S1x1x48x128x240_S1x1x1x128x195_0_0_45_0_45 : ∀ a, (![0, 0, 45, 0, 45] : Fin 5 → Nat) a + S1x1x1x128x195.size a ≤ S1x1x48x128x240.size a
  h_S1x1x1x128x195 : 0 < S1x1x1x128x195.numel
  shapeCasts_S1x1x1x128x195_S128x195 : S1x1x1x128x195.ShapeCasts S128x195
  shapeCasts_S128x195_S1x1x1x128x195 : S128x195.ShapeCasts S1x1x1x128x195
  slices_S8x128x240_o0_0_46_S8x128x194 : S8x128x240.Slices ![0, 0, 46] S8x128x194
  slices_S8x128x240_o0_0_0_S8x128x194 : S8x128x240.Slices ![0, 0, 0] S8x128x194
  reduces_S8x128x194_S128x194 : S8x128x194.Reduces [0] S128x194
  inb_S1x1x48x128x240_S1x1x1x128x194_0_0_46_0_46 : ∀ a, (![0, 0, 46, 0, 46] : Fin 5 → Nat) a + S1x1x1x128x194.size a ≤ S1x1x48x128x240.size a
  h_S1x1x1x128x194 : 0 < S1x1x1x128x194.numel
  shapeCasts_S1x1x1x128x194_S128x194 : S1x1x1x128x194.ShapeCasts S128x194
  shapeCasts_S128x194_S1x1x1x128x194 : S128x194.ShapeCasts S1x1x1x128x194
  slices_S8x128x240_o0_0_47_S8x128x193 : S8x128x240.Slices ![0, 0, 47] S8x128x193
  slices_S8x128x240_o0_0_0_S8x128x193 : S8x128x240.Slices ![0, 0, 0] S8x128x193
  reduces_S8x128x193_S128x193 : S8x128x193.Reduces [0] S128x193
  inb_S1x1x48x128x240_S1x1x1x128x193_0_0_47_0_47 : ∀ a, (![0, 0, 47, 0, 47] : Fin 5 → Nat) a + S1x1x1x128x193.size a ≤ S1x1x48x128x240.size a
  h_S1x1x1x128x193 : 0 < S1x1x1x128x193.numel
  shapeCasts_S1x1x1x128x193_S128x193 : S1x1x1x128x193.ShapeCasts S128x193
  shapeCasts_S128x193_S1x1x1x128x193 : S128x193.ShapeCasts S1x1x1x128x193
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x240.size a ≤ S2x320x128x240.size a
  hwx0_0 : ∀ i : grid0.Coords, EltTy.bits .f32 = 32 ∨ (Rect.block (s := S2x320x128x240) S1x8x128x240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x240.size a ≤ S2x320x128x240.size a
  hwx0_1 : ∀ i : grid0.Coords, EltTy.bits .f32 = 32 ∨ (Rect.block (s := S2x320x128x240) S1x8x128x240.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x48x128x240.size a ≤ S2x40x48x128x240.size a
  hwx0_2 : ∀ i : grid0.Coords, EltTy.bits .f32 = 32 ∨ (Rect.block (s := S2x40x48x128x240) S1x1x48x128x240.size (cc0_transform_2 i) (hinb0_2 i)).WholeWords (EltTy.packing .f32)

variable [Facts₀]

abbrev win0_0 : Pipeline.Window sig grid0 :=
  Pipeline.Window.ofSpec (Memref.whole main_arg0) S1x8x128x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x128x240.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x48x128x240.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x320x128x240 : Shape := ⟨4, ![2, 320, 128, 240]⟩
abbrev S2x40x8x128x240 : Shape := ⟨5, ![2, 40, 8, 128, 240]⟩
abbrev S_ : Shape := ⟨0, ![]⟩
abbrev S2x40x128x240 : Shape := ⟨4, ![2, 40, 128, 240]⟩
abbrev S2x40x8x128x239 : Shape := ⟨5, ![2, 40, 8, 128, 239]⟩
abbrev S2x40x128x239 : Shape := ⟨4, ![2, 40, 128, 239]⟩
abbrev S2x40x8x128x238 : Shape := ⟨5, ![2, 40, 8, 128, 238]⟩
abbrev S2x40x128x238 : Shape := ⟨4, ![2, 40, 128, 238]⟩
abbrev S2x40x8x128x237 : Shape := ⟨5, ![2, 40, 8, 128, 237]⟩
abbrev S2x40x128x237 : Shape := ⟨4, ![2, 40, 128, 237]⟩
abbrev S2x40x8x128x236 : Shape := ⟨5, ![2, 40, 8, 128, 236]⟩
abbrev S2x40x128x236 : Shape := ⟨4, ![2, 40, 128, 236]⟩
abbrev S2x40x8x128x235 : Shape := ⟨5, ![2, 40, 8, 128, 235]⟩
abbrev S2x40x128x235 : Shape := ⟨4, ![2, 40, 128, 235]⟩
abbrev S2x40x8x128x234 : Shape := ⟨5, ![2, 40, 8, 128, 234]⟩
abbrev S2x40x128x234 : Shape := ⟨4, ![2, 40, 128, 234]⟩
abbrev S2x40x8x128x233 : Shape := ⟨5, ![2, 40, 8, 128, 233]⟩
abbrev S2x40x128x233 : Shape := ⟨4, ![2, 40, 128, 233]⟩
abbrev S2x40x8x128x232 : Shape := ⟨5, ![2, 40, 8, 128, 232]⟩
abbrev S2x40x128x232 : Shape := ⟨4, ![2, 40, 128, 232]⟩
abbrev S2x40x8x128x231 : Shape := ⟨5, ![2, 40, 8, 128, 231]⟩
abbrev S2x40x128x231 : Shape := ⟨4, ![2, 40, 128, 231]⟩
abbrev S2x40x8x128x230 : Shape := ⟨5, ![2, 40, 8, 128, 230]⟩
abbrev S2x40x128x230 : Shape := ⟨4, ![2, 40, 128, 230]⟩
abbrev S2x40x8x128x229 : Shape := ⟨5, ![2, 40, 8, 128, 229]⟩
abbrev S2x40x128x229 : Shape := ⟨4, ![2, 40, 128, 229]⟩
abbrev S2x40x8x128x228 : Shape := ⟨5, ![2, 40, 8, 128, 228]⟩
abbrev S2x40x128x228 : Shape := ⟨4, ![2, 40, 128, 228]⟩
abbrev S2x40x8x128x227 : Shape := ⟨5, ![2, 40, 8, 128, 227]⟩
abbrev S2x40x128x227 : Shape := ⟨4, ![2, 40, 128, 227]⟩
abbrev S2x40x8x128x226 : Shape := ⟨5, ![2, 40, 8, 128, 226]⟩
abbrev S2x40x128x226 : Shape := ⟨4, ![2, 40, 128, 226]⟩
abbrev S2x40x8x128x225 : Shape := ⟨5, ![2, 40, 8, 128, 225]⟩
abbrev S2x40x128x225 : Shape := ⟨4, ![2, 40, 128, 225]⟩
abbrev S2x40x8x128x224 : Shape := ⟨5, ![2, 40, 8, 128, 224]⟩
abbrev S2x40x128x224 : Shape := ⟨4, ![2, 40, 128, 224]⟩
abbrev S2x40x8x128x223 : Shape := ⟨5, ![2, 40, 8, 128, 223]⟩
abbrev S2x40x128x223 : Shape := ⟨4, ![2, 40, 128, 223]⟩
abbrev S2x40x8x128x222 : Shape := ⟨5, ![2, 40, 8, 128, 222]⟩
abbrev S2x40x128x222 : Shape := ⟨4, ![2, 40, 128, 222]⟩
abbrev S2x40x8x128x221 : Shape := ⟨5, ![2, 40, 8, 128, 221]⟩
abbrev S2x40x128x221 : Shape := ⟨4, ![2, 40, 128, 221]⟩
abbrev S2x40x8x128x220 : Shape := ⟨5, ![2, 40, 8, 128, 220]⟩
abbrev S2x40x128x220 : Shape := ⟨4, ![2, 40, 128, 220]⟩
abbrev S2x40x8x128x219 : Shape := ⟨5, ![2, 40, 8, 128, 219]⟩
abbrev S2x40x128x219 : Shape := ⟨4, ![2, 40, 128, 219]⟩
abbrev S2x40x8x128x218 : Shape := ⟨5, ![2, 40, 8, 128, 218]⟩
abbrev S2x40x128x218 : Shape := ⟨4, ![2, 40, 128, 218]⟩
abbrev S2x40x8x128x217 : Shape := ⟨5, ![2, 40, 8, 128, 217]⟩
abbrev S2x40x128x217 : Shape := ⟨4, ![2, 40, 128, 217]⟩
abbrev S2x40x8x128x216 : Shape := ⟨5, ![2, 40, 8, 128, 216]⟩
abbrev S2x40x128x216 : Shape := ⟨4, ![2, 40, 128, 216]⟩
abbrev S2x40x8x128x215 : Shape := ⟨5, ![2, 40, 8, 128, 215]⟩
abbrev S2x40x128x215 : Shape := ⟨4, ![2, 40, 128, 215]⟩
abbrev S2x40x8x128x214 : Shape := ⟨5, ![2, 40, 8, 128, 214]⟩
abbrev S2x40x128x214 : Shape := ⟨4, ![2, 40, 128, 214]⟩
abbrev S2x40x8x128x213 : Shape := ⟨5, ![2, 40, 8, 128, 213]⟩
abbrev S2x40x128x213 : Shape := ⟨4, ![2, 40, 128, 213]⟩
abbrev S2x40x8x128x212 : Shape := ⟨5, ![2, 40, 8, 128, 212]⟩
abbrev S2x40x128x212 : Shape := ⟨4, ![2, 40, 128, 212]⟩
abbrev S2x40x8x128x211 : Shape := ⟨5, ![2, 40, 8, 128, 211]⟩
abbrev S2x40x128x211 : Shape := ⟨4, ![2, 40, 128, 211]⟩
abbrev S2x40x8x128x210 : Shape := ⟨5, ![2, 40, 8, 128, 210]⟩
abbrev S2x40x128x210 : Shape := ⟨4, ![2, 40, 128, 210]⟩
abbrev S2x40x8x128x209 : Shape := ⟨5, ![2, 40, 8, 128, 209]⟩
abbrev S2x40x128x209 : Shape := ⟨4, ![2, 40, 128, 209]⟩
abbrev S2x40x8x128x208 : Shape := ⟨5, ![2, 40, 8, 128, 208]⟩
abbrev S2x40x128x208 : Shape := ⟨4, ![2, 40, 128, 208]⟩
abbrev S2x40x8x128x207 : Shape := ⟨5, ![2, 40, 8, 128, 207]⟩
abbrev S2x40x128x207 : Shape := ⟨4, ![2, 40, 128, 207]⟩
abbrev S2x40x8x128x206 : Shape := ⟨5, ![2, 40, 8, 128, 206]⟩
abbrev S2x40x128x206 : Shape := ⟨4, ![2, 40, 128, 206]⟩
abbrev S2x40x8x128x205 : Shape := ⟨5, ![2, 40, 8, 128, 205]⟩
abbrev S2x40x128x205 : Shape := ⟨4, ![2, 40, 128, 205]⟩
abbrev S2x40x8x128x204 : Shape := ⟨5, ![2, 40, 8, 128, 204]⟩
abbrev S2x40x128x204 : Shape := ⟨4, ![2, 40, 128, 204]⟩
abbrev S2x40x8x128x203 : Shape := ⟨5, ![2, 40, 8, 128, 203]⟩
abbrev S2x40x128x203 : Shape := ⟨4, ![2, 40, 128, 203]⟩
abbrev S2x40x8x128x202 : Shape := ⟨5, ![2, 40, 8, 128, 202]⟩
abbrev S2x40x128x202 : Shape := ⟨4, ![2, 40, 128, 202]⟩
abbrev S2x40x8x128x201 : Shape := ⟨5, ![2, 40, 8, 128, 201]⟩
abbrev S2x40x128x201 : Shape := ⟨4, ![2, 40, 128, 201]⟩
abbrev S2x40x8x128x200 : Shape := ⟨5, ![2, 40, 8, 128, 200]⟩
abbrev S2x40x128x200 : Shape := ⟨4, ![2, 40, 128, 200]⟩
abbrev S2x40x8x128x199 : Shape := ⟨5, ![2, 40, 8, 128, 199]⟩
abbrev S2x40x128x199 : Shape := ⟨4, ![2, 40, 128, 199]⟩
abbrev S2x40x8x128x198 : Shape := ⟨5, ![2, 40, 8, 128, 198]⟩
abbrev S2x40x128x198 : Shape := ⟨4, ![2, 40, 128, 198]⟩
abbrev S2x40x8x128x197 : Shape := ⟨5, ![2, 40, 8, 128, 197]⟩
abbrev S2x40x128x197 : Shape := ⟨4, ![2, 40, 128, 197]⟩
abbrev S2x40x8x128x196 : Shape := ⟨5, ![2, 40, 8, 128, 196]⟩
abbrev S2x40x128x196 : Shape := ⟨4, ![2, 40, 128, 196]⟩
abbrev S2x40x8x128x195 : Shape := ⟨5, ![2, 40, 8, 128, 195]⟩
abbrev S2x40x128x195 : Shape := ⟨4, ![2, 40, 128, 195]⟩
abbrev S2x40x8x128x194 : Shape := ⟨5, ![2, 40, 8, 128, 194]⟩
abbrev S2x40x128x194 : Shape := ⟨4, ![2, 40, 128, 194]⟩
abbrev S2x40x8x128x193 : Shape := ⟨5, ![2, 40, 8, 128, 193]⟩
abbrev S2x40x128x193 : Shape := ⟨4, ![2, 40, 128, 193]⟩
abbrev S2x40x1x128x240 : Shape := ⟨5, ![2, 40, 1, 128, 240]⟩
abbrev S2x40x16x128x240 : Shape := ⟨5, ![2, 40, 16, 128, 240]⟩
abbrev S2x40x48x128x240 : Shape := ⟨5, ![2, 40, 48, 128, 240]⟩

abbrev nBuf : Space → Nat
  | .hbm => 579
  | .vmem => 0
  | .smem => 0
  | _ => 0

abbrev hbmTy0_0 (i : Nat) : BufTy := match i % 128 with
  | 0 => ⟨S2x320x128x240, .f32⟩
  | 1 => ⟨S2x320x128x240, .f32⟩
  | 2 => ⟨S2x40x8x128x240, .f32⟩
  | 3 => ⟨S2x40x8x128x240, .f32⟩
  | 4 => ⟨S2x40x8x128x240, .f32⟩
  | 5 => ⟨S_, .f32⟩
  | 6 => ⟨S2x40x128x240, .f32⟩
  | 7 => ⟨S_, .f32⟩
  | 8 => ⟨S2x40x128x240, .f32⟩
  | 9 => ⟨S2x40x128x240, .f32⟩
  | 10 => ⟨S2x40x8x128x239, .f32⟩
  | 11 => ⟨S2x40x8x128x239, .f32⟩
  | 12 => ⟨S2x40x8x128x239, .f32⟩
  | 13 => ⟨S_, .f32⟩
  | 14 => ⟨S2x40x128x239, .f32⟩
  | 15 => ⟨S_, .f32⟩
  | 16 => ⟨S2x40x128x239, .f32⟩
  | 17 => ⟨S2x40x128x239, .f32⟩
  | 18 => ⟨S_, .i32⟩
  | 19 => ⟨S_, .f32⟩
  | 20 => ⟨S2x40x128x240, .f32⟩
  | 21 => ⟨S2x40x8x128x238, .f32⟩
  | 22 => ⟨S2x40x8x128x238, .f32⟩
  | 23 => ⟨S2x40x8x128x238, .f32⟩
  | 24 => ⟨S_, .f32⟩
  | 25 => ⟨S2x40x128x238, .f32⟩
  | 26 => ⟨S_, .f32⟩
  | 27 => ⟨S2x40x128x238, .f32⟩
  | 28 => ⟨S2x40x128x238, .f32⟩
  | 29 => ⟨S_, .i32⟩
  | 30 => ⟨S_, .f32⟩
  | 31 => ⟨S2x40x128x240, .f32⟩
  | 32 => ⟨S2x40x8x128x237, .f32⟩
  | 33 => ⟨S2x40x8x128x237, .f32⟩
  | 34 => ⟨S2x40x8x128x237, .f32⟩
  | 35 => ⟨S_, .f32⟩
  | 36 => ⟨S2x40x128x237, .f32⟩
  | 37 => ⟨S_, .f32⟩
  | 38 => ⟨S2x40x128x237, .f32⟩
  | 39 => ⟨S2x40x128x237, .f32⟩
  | 40 => ⟨S_, .i32⟩
  | 41 => ⟨S_, .f32⟩
  | 42 => ⟨S2x40x128x240, .f32⟩
  | 43 => ⟨S2x40x8x128x236, .f32⟩
  | 44 => ⟨S2x40x8x128x236, .f32⟩
  | 45 => ⟨S2x40x8x128x236, .f32⟩
  | 46 => ⟨S_, .f32⟩
  | 47 => ⟨S2x40x128x236, .f32⟩
  | 48 => ⟨S_, .f32⟩
  | 49 => ⟨S2x40x128x236, .f32⟩
  | 50 => ⟨S2x40x128x236, .f32⟩
  | 51 => ⟨S_, .i32⟩
  | 52 => ⟨S_, .f32⟩
  | 53 => ⟨S2x40x128x240, .f32⟩
  | 54 => ⟨S2x40x8x128x235, .f32⟩
  | 55 => ⟨S2x40x8x128x235, .f32⟩
  | 56 => ⟨S2x40x8x128x235, .f32⟩
  | 57 => ⟨S_, .f32⟩
  | 58 => ⟨S2x40x128x235, .f32⟩
  | 59 => ⟨S_, .f32⟩
  | 60 => ⟨S2x40x128x235, .f32⟩
  | 61 => ⟨S2x40x128x235, .f32⟩
  | 62 => ⟨S_, .i32⟩
  | 63 => ⟨S_, .f32⟩
  | 64 => ⟨S2x40x128x240, .f32⟩
  | 65 => ⟨S2x40x8x128x234, .f32⟩
  | 66 => ⟨S2x40x8x128x234, .f32⟩
  | 67 => ⟨S2x40x8x128x234, .f32⟩
  | 68 => ⟨S_, .f32⟩
  | 69 => ⟨S2x40x128x234, .f32⟩
  | 70 => ⟨S_, .f32⟩
  | 71 => ⟨S2x40x128x234, .f32⟩
  | 72 => ⟨S2x40x128x234, .f32⟩
  | 73 => ⟨S_, .i32⟩
  | 74 => ⟨S_, .f32⟩
  | 75 => ⟨S2x40x128x240, .f32⟩
  | 76 => ⟨S2x40x8x128x233, .f32⟩
  | 77 => ⟨S2x40x8x128x233, .f32⟩
  | 78 => ⟨S2x40x8x128x233, .f32⟩
  | 79 => ⟨S_, .f32⟩
  | 80 => ⟨S2x40x128x233, .f32⟩
  | 81 => ⟨S_, .f32⟩
  | 82 => ⟨S2x40x128x233, .f32⟩
  | 83 => ⟨S2x40x128x233, .f32⟩
  | 84 => ⟨S_, .i32⟩
  | 85 => ⟨S_, .f32⟩
  | 86 => ⟨S2x40x128x240, .f32⟩
  | 87 => ⟨S2x40x8x128x232, .f32⟩
  | 88 => ⟨S2x40x8x128x232, .f32⟩
  | 89 => ⟨S2x40x8x128x232, .f32⟩
  | 90 => ⟨S_, .f32⟩
  | 91 => ⟨S2x40x128x232, .f32⟩
  | 92 => ⟨S_, .f32⟩
  | 93 => ⟨S2x40x128x232, .f32⟩
  | 94 => ⟨S2x40x128x232, .f32⟩
  | 95 => ⟨S_, .i32⟩
  | 96 => ⟨S_, .f32⟩
  | 97 => ⟨S2x40x128x240, .f32⟩
  | 98 => ⟨S2x40x8x128x231, .f32⟩
  | 99 => ⟨S2x40x8x128x231, .f32⟩
  | 100 => ⟨S2x40x8x128x231, .f32⟩
  | 101 => ⟨S_, .f32⟩
  | 102 => ⟨S2x40x128x231, .f32⟩
  | 103 => ⟨S_, .f32⟩
  | 104 => ⟨S2x40x128x231, .f32⟩
  | 105 => ⟨S2x40x128x231, .f32⟩
  | 106 => ⟨S_, .i32⟩
  | 107 => ⟨S_, .f32⟩
  | 108 => ⟨S2x40x128x240, .f32⟩
  | 109 => ⟨S2x40x8x128x230, .f32⟩
  | 110 => ⟨S2x40x8x128x230, .f32⟩
  | 111 => ⟨S2x40x8x128x230, .f32⟩
  | 112 => ⟨S_, .f32⟩
  | 113 => ⟨S2x40x128x230, .f32⟩
  | 114 => ⟨S_, .f32⟩
  | 115 => ⟨S2x40x128x230, .f32⟩
  | 116 => ⟨S2x40x128x230, .f32⟩
  | 117 => ⟨S_, .i32⟩
  | 118 => ⟨S_, .f32⟩
  | 119 => ⟨S2x40x128x240, .f32⟩
  | 120 => ⟨S2x40x8x128x229, .f32⟩
  | 121 => ⟨S2x40x8x128x229, .f32⟩
  | 122 => ⟨S2x40x8x128x229, .f32⟩
  | 123 => ⟨S_, .f32⟩
  | 124 => ⟨S2x40x128x229, .f32⟩
  | 125 => ⟨S_, .f32⟩
  | 126 => ⟨S2x40x128x229, .f32⟩
  | 127 => ⟨S2x40x128x229, .f32⟩
  | _ => ⟨S2x320x128x240, .f32⟩

abbrev hbmTy0_1 (i : Nat) : BufTy := match i % 128 with
  | 0 => ⟨S_, .i32⟩
  | 1 => ⟨S_, .f32⟩
  | 2 => ⟨S2x40x128x240, .f32⟩
  | 3 => ⟨S2x40x8x128x228, .f32⟩
  | 4 => ⟨S2x40x8x128x228, .f32⟩
  | 5 => ⟨S2x40x8x128x228, .f32⟩
  | 6 => ⟨S_, .f32⟩
  | 7 => ⟨S2x40x128x228, .f32⟩
  | 8 => ⟨S_, .f32⟩
  | 9 => ⟨S2x40x128x228, .f32⟩
  | 10 => ⟨S2x40x128x228, .f32⟩
  | 11 => ⟨S_, .i32⟩
  | 12 => ⟨S_, .f32⟩
  | 13 => ⟨S2x40x128x240, .f32⟩
  | 14 => ⟨S2x40x8x128x227, .f32⟩
  | 15 => ⟨S2x40x8x128x227, .f32⟩
  | 16 => ⟨S2x40x8x128x227, .f32⟩
  | 17 => ⟨S_, .f32⟩
  | 18 => ⟨S2x40x128x227, .f32⟩
  | 19 => ⟨S_, .f32⟩
  | 20 => ⟨S2x40x128x227, .f32⟩
  | 21 => ⟨S2x40x128x227, .f32⟩
  | 22 => ⟨S_, .i32⟩
  | 23 => ⟨S_, .f32⟩
  | 24 => ⟨S2x40x128x240, .f32⟩
  | 25 => ⟨S2x40x8x128x226, .f32⟩
  | 26 => ⟨S2x40x8x128x226, .f32⟩
  | 27 => ⟨S2x40x8x128x226, .f32⟩
  | 28 => ⟨S_, .f32⟩
  | 29 => ⟨S2x40x128x226, .f32⟩
  | 30 => ⟨S_, .f32⟩
  | 31 => ⟨S2x40x128x226, .f32⟩
  | 32 => ⟨S2x40x128x226, .f32⟩
  | 33 => ⟨S_, .i32⟩
  | 34 => ⟨S_, .f32⟩
  | 35 => ⟨S2x40x128x240, .f32⟩
  | 36 => ⟨S2x40x8x128x225, .f32⟩
  | 37 => ⟨S2x40x8x128x225, .f32⟩
  | 38 => ⟨S2x40x8x128x225, .f32⟩
  | 39 => ⟨S_, .f32⟩
  | 40 => ⟨S2x40x128x225, .f32⟩
  | 41 => ⟨S_, .f32⟩
  | 42 => ⟨S2x40x128x225, .f32⟩
  | 43 => ⟨S2x40x128x225, .f32⟩
  | 44 => ⟨S_, .i32⟩
  | 45 => ⟨S_, .f32⟩
  | 46 => ⟨S2x40x128x240, .f32⟩
  | 47 => ⟨S2x40x8x128x224, .f32⟩
  | 48 => ⟨S2x40x8x128x224, .f32⟩
  | 49 => ⟨S2x40x8x128x224, .f32⟩
  | 50 => ⟨S_, .f32⟩
  | 51 => ⟨S2x40x128x224, .f32⟩
  | 52 => ⟨S_, .f32⟩
  | 53 => ⟨S2x40x128x224, .f32⟩
  | 54 => ⟨S2x40x128x224, .f32⟩
  | 55 => ⟨S_, .i32⟩
  | 56 => ⟨S_, .f32⟩
  | 57 => ⟨S2x40x128x240, .f32⟩
  | 58 => ⟨S2x40x8x128x223, .f32⟩
  | 59 => ⟨S2x40x8x128x223, .f32⟩
  | 60 => ⟨S2x40x8x128x223, .f32⟩
  | 61 => ⟨S_, .f32⟩
  | 62 => ⟨S2x40x128x223, .f32⟩
  | 63 => ⟨S_, .f32⟩
  | 64 => ⟨S2x40x128x223, .f32⟩
  | 65 => ⟨S2x40x128x223, .f32⟩
  | 66 => ⟨S_, .i32⟩
  | 67 => ⟨S_, .f32⟩
  | 68 => ⟨S2x40x128x240, .f32⟩
  | 69 => ⟨S2x40x8x128x222, .f32⟩
  | 70 => ⟨S2x40x8x128x222, .f32⟩
  | 71 => ⟨S2x40x8x128x222, .f32⟩
  | 72 => ⟨S_, .f32⟩
  | 73 => ⟨S2x40x128x222, .f32⟩
  | 74 => ⟨S_, .f32⟩
  | 75 => ⟨S2x40x128x222, .f32⟩
  | 76 => ⟨S2x40x128x222, .f32⟩
  | 77 => ⟨S_, .i32⟩
  | 78 => ⟨S_, .f32⟩
  | 79 => ⟨S2x40x128x240, .f32⟩
  | 80 => ⟨S2x40x8x128x221, .f32⟩
  | 81 => ⟨S2x40x8x128x221, .f32⟩
  | 82 => ⟨S2x40x8x128x221, .f32⟩
  | 83 => ⟨S_, .f32⟩
  | 84 => ⟨S2x40x128x221, .f32⟩
  | 85 => ⟨S_, .f32⟩
  | 86 => ⟨S2x40x128x221, .f32⟩
  | 87 => ⟨S2x40x128x221, .f32⟩
  | 88 => ⟨S_, .i32⟩
  | 89 => ⟨S_, .f32⟩
  | 90 => ⟨S2x40x128x240, .f32⟩
  | 91 => ⟨S2x40x8x128x220, .f32⟩
  | 92 => ⟨S2x40x8x128x220, .f32⟩
  | 93 => ⟨S2x40x8x128x220, .f32⟩
  | 94 => ⟨S_, .f32⟩
  | 95 => ⟨S2x40x128x220, .f32⟩
  | 96 => ⟨S_, .f32⟩
  | 97 => ⟨S2x40x128x220, .f32⟩
  | 98 => ⟨S2x40x128x220, .f32⟩
  | 99 => ⟨S_, .i32⟩
  | 100 => ⟨S_, .f32⟩
  | 101 => ⟨S2x40x128x240, .f32⟩
  | 102 => ⟨S2x40x8x128x219, .f32⟩
  | 103 => ⟨S2x40x8x128x219, .f32⟩
  | 104 => ⟨S2x40x8x128x219, .f32⟩
  | 105 => ⟨S_, .f32⟩
  | 106 => ⟨S2x40x128x219, .f32⟩
  | 107 => ⟨S_, .f32⟩
  | 108 => ⟨S2x40x128x219, .f32⟩
  | 109 => ⟨S2x40x128x219, .f32⟩
  | 110 => ⟨S_, .i32⟩
  | 111 => ⟨S_, .f32⟩
  | 112 => ⟨S2x40x128x240, .f32⟩
  | 113 => ⟨S2x40x8x128x218, .f32⟩
  | 114 => ⟨S2x40x8x128x218, .f32⟩
  | 115 => ⟨S2x40x8x128x218, .f32⟩
  | 116 => ⟨S_, .f32⟩
  | 117 => ⟨S2x40x128x218, .f32⟩
  | 118 => ⟨S_, .f32⟩
  | 119 => ⟨S2x40x128x218, .f32⟩
  | 120 => ⟨S2x40x128x218, .f32⟩
  | 121 => ⟨S_, .i32⟩
  | 122 => ⟨S_, .f32⟩
  | 123 => ⟨S2x40x128x240, .f32⟩
  | 124 => ⟨S2x40x8x128x217, .f32⟩
  | 125 => ⟨S2x40x8x128x217, .f32⟩
  | 126 => ⟨S2x40x8x128x217, .f32⟩
  | 127 => ⟨S_, .f32⟩
  | _ => ⟨S2x320x128x240, .f32⟩

abbrev hbmTy0_2 (i : Nat) : BufTy := match i % 128 with
  | 0 => ⟨S2x40x128x217, .f32⟩
  | 1 => ⟨S_, .f32⟩
  | 2 => ⟨S2x40x128x217, .f32⟩
  | 3 => ⟨S2x40x128x217, .f32⟩
  | 4 => ⟨S_, .i32⟩
  | 5 => ⟨S_, .f32⟩
  | 6 => ⟨S2x40x128x240, .f32⟩
  | 7 => ⟨S2x40x8x128x216, .f32⟩
  | 8 => ⟨S2x40x8x128x216, .f32⟩
  | 9 => ⟨S2x40x8x128x216, .f32⟩
  | 10 => ⟨S_, .f32⟩
  | 11 => ⟨S2x40x128x216, .f32⟩
  | 12 => ⟨S_, .f32⟩
  | 13 => ⟨S2x40x128x216, .f32⟩
  | 14 => ⟨S2x40x128x216, .f32⟩
  | 15 => ⟨S_, .i32⟩
  | 16 => ⟨S_, .f32⟩
  | 17 => ⟨S2x40x128x240, .f32⟩
  | 18 => ⟨S2x40x8x128x215, .f32⟩
  | 19 => ⟨S2x40x8x128x215, .f32⟩
  | 20 => ⟨S2x40x8x128x215, .f32⟩
  | 21 => ⟨S_, .f32⟩
  | 22 => ⟨S2x40x128x215, .f32⟩
  | 23 => ⟨S_, .f32⟩
  | 24 => ⟨S2x40x128x215, .f32⟩
  | 25 => ⟨S2x40x128x215, .f32⟩
  | 26 => ⟨S_, .i32⟩
  | 27 => ⟨S_, .f32⟩
  | 28 => ⟨S2x40x128x240, .f32⟩
  | 29 => ⟨S2x40x8x128x214, .f32⟩
  | 30 => ⟨S2x40x8x128x214, .f32⟩
  | 31 => ⟨S2x40x8x128x214, .f32⟩
  | 32 => ⟨S_, .f32⟩
  | 33 => ⟨S2x40x128x214, .f32⟩
  | 34 => ⟨S_, .f32⟩
  | 35 => ⟨S2x40x128x214, .f32⟩
  | 36 => ⟨S2x40x128x214, .f32⟩
  | 37 => ⟨S_, .i32⟩
  | 38 => ⟨S_, .f32⟩
  | 39 => ⟨S2x40x128x240, .f32⟩
  | 40 => ⟨S2x40x8x128x213, .f32⟩
  | 41 => ⟨S2x40x8x128x213, .f32⟩
  | 42 => ⟨S2x40x8x128x213, .f32⟩
  | 43 => ⟨S_, .f32⟩
  | 44 => ⟨S2x40x128x213, .f32⟩
  | 45 => ⟨S_, .f32⟩
  | 46 => ⟨S2x40x128x213, .f32⟩
  | 47 => ⟨S2x40x128x213, .f32⟩
  | 48 => ⟨S_, .i32⟩
  | 49 => ⟨S_, .f32⟩
  | 50 => ⟨S2x40x128x240, .f32⟩
  | 51 => ⟨S2x40x8x128x212, .f32⟩
  | 52 => ⟨S2x40x8x128x212, .f32⟩
  | 53 => ⟨S2x40x8x128x212, .f32⟩
  | 54 => ⟨S_, .f32⟩
  | 55 => ⟨S2x40x128x212, .f32⟩
  | 56 => ⟨S_, .f32⟩
  | 57 => ⟨S2x40x128x212, .f32⟩
  | 58 => ⟨S2x40x128x212, .f32⟩
  | 59 => ⟨S_, .i32⟩
  | 60 => ⟨S_, .f32⟩
  | 61 => ⟨S2x40x128x240, .f32⟩
  | 62 => ⟨S2x40x8x128x211, .f32⟩
  | 63 => ⟨S2x40x8x128x211, .f32⟩
  | 64 => ⟨S2x40x8x128x211, .f32⟩
  | 65 => ⟨S_, .f32⟩
  | 66 => ⟨S2x40x128x211, .f32⟩
  | 67 => ⟨S_, .f32⟩
  | 68 => ⟨S2x40x128x211, .f32⟩
  | 69 => ⟨S2x40x128x211, .f32⟩
  | 70 => ⟨S_, .i32⟩
  | 71 => ⟨S_, .f32⟩
  | 72 => ⟨S2x40x128x240, .f32⟩
  | 73 => ⟨S2x40x8x128x210, .f32⟩
  | 74 => ⟨S2x40x8x128x210, .f32⟩
  | 75 => ⟨S2x40x8x128x210, .f32⟩
  | 76 => ⟨S_, .f32⟩
  | 77 => ⟨S2x40x128x210, .f32⟩
  | 78 => ⟨S_, .f32⟩
  | 79 => ⟨S2x40x128x210, .f32⟩
  | 80 => ⟨S2x40x128x210, .f32⟩
  | 81 => ⟨S_, .i32⟩
  | 82 => ⟨S_, .f32⟩
  | 83 => ⟨S2x40x128x240, .f32⟩
  | 84 => ⟨S2x40x8x128x209, .f32⟩
  | 85 => ⟨S2x40x8x128x209, .f32⟩
  | 86 => ⟨S2x40x8x128x209, .f32⟩
  | 87 => ⟨S_, .f32⟩
  | 88 => ⟨S2x40x128x209, .f32⟩
  | 89 => ⟨S_, .f32⟩
  | 90 => ⟨S2x40x128x209, .f32⟩
  | 91 => ⟨S2x40x128x209, .f32⟩
  | 92 => ⟨S_, .i32⟩
  | 93 => ⟨S_, .f32⟩
  | 94 => ⟨S2x40x128x240, .f32⟩
  | 95 => ⟨S2x40x8x128x208, .f32⟩
  | 96 => ⟨S2x40x8x128x208, .f32⟩
  | 97 => ⟨S2x40x8x128x208, .f32⟩
  | 98 => ⟨S_, .f32⟩
  | 99 => ⟨S2x40x128x208, .f32⟩
  | 100 => ⟨S_, .f32⟩
  | 101 => ⟨S2x40x128x208, .f32⟩
  | 102 => ⟨S2x40x128x208, .f32⟩
  | 103 => ⟨S_, .i32⟩
  | 104 => ⟨S_, .f32⟩
  | 105 => ⟨S2x40x128x240, .f32⟩
  | 106 => ⟨S2x40x8x128x207, .f32⟩
  | 107 => ⟨S2x40x8x128x207, .f32⟩
  | 108 => ⟨S2x40x8x128x207, .f32⟩
  | 109 => ⟨S_, .f32⟩
  | 110 => ⟨S2x40x128x207, .f32⟩
  | 111 => ⟨S_, .f32⟩
  | 112 => ⟨S2x40x128x207, .f32⟩
  | 113 => ⟨S2x40x128x207, .f32⟩
  | 114 => ⟨S_, .i32⟩
  | 115 => ⟨S_, .f32⟩
  | 116 => ⟨S2x40x128x240, .f32⟩
  | 117 => ⟨S2x40x8x128x206, .f32⟩
  | 118 => ⟨S2x40x8x128x206, .f32⟩
  | 119 => ⟨S2x40x8x128x206, .f32⟩
  | 120 => ⟨S_, .f32⟩
  | 121 => ⟨S2x40x128x206, .f32⟩
  | 122 => ⟨S_, .f32⟩
  | 123 => ⟨S2x40x128x206, .f32⟩
  | 124 => ⟨S2x40x128x206, .f32⟩
  | 125 => ⟨S_, .i32⟩
  | 126 => ⟨S_, .f32⟩
  | 127 => ⟨S2x40x128x240, .f32⟩
  | _ => ⟨S2x320x128x240, .f32⟩

abbrev hbmTy0_3 (i : Nat) : BufTy := match i % 128 with
  | 0 => ⟨S2x40x8x128x205, .f32⟩
  | 1 => ⟨S2x40x8x128x205, .f32⟩
  | 2 => ⟨S2x40x8x128x205, .f32⟩
  | 3 => ⟨S_, .f32⟩
  | 4 => ⟨S2x40x128x205, .f32⟩
  | 5 => ⟨S_, .f32⟩
  | 6 => ⟨S2x40x128x205, .f32⟩
  | 7 => ⟨S2x40x128x205, .f32⟩
  | 8 => ⟨S_, .i32⟩
  | 9 => ⟨S_, .f32⟩
  | 10 => ⟨S2x40x128x240, .f32⟩
  | 11 => ⟨S2x40x8x128x204, .f32⟩
  | 12 => ⟨S2x40x8x128x204, .f32⟩
  | 13 => ⟨S2x40x8x128x204, .f32⟩
  | 14 => ⟨S_, .f32⟩
  | 15 => ⟨S2x40x128x204, .f32⟩
  | 16 => ⟨S_, .f32⟩
  | 17 => ⟨S2x40x128x204, .f32⟩
  | 18 => ⟨S2x40x128x204, .f32⟩
  | 19 => ⟨S_, .i32⟩
  | 20 => ⟨S_, .f32⟩
  | 21 => ⟨S2x40x128x240, .f32⟩
  | 22 => ⟨S2x40x8x128x203, .f32⟩
  | 23 => ⟨S2x40x8x128x203, .f32⟩
  | 24 => ⟨S2x40x8x128x203, .f32⟩
  | 25 => ⟨S_, .f32⟩
  | 26 => ⟨S2x40x128x203, .f32⟩
  | 27 => ⟨S_, .f32⟩
  | 28 => ⟨S2x40x128x203, .f32⟩
  | 29 => ⟨S2x40x128x203, .f32⟩
  | 30 => ⟨S_, .i32⟩
  | 31 => ⟨S_, .f32⟩
  | 32 => ⟨S2x40x128x240, .f32⟩
  | 33 => ⟨S2x40x8x128x202, .f32⟩
  | 34 => ⟨S2x40x8x128x202, .f32⟩
  | 35 => ⟨S2x40x8x128x202, .f32⟩
  | 36 => ⟨S_, .f32⟩
  | 37 => ⟨S2x40x128x202, .f32⟩
  | 38 => ⟨S_, .f32⟩
  | 39 => ⟨S2x40x128x202, .f32⟩
  | 40 => ⟨S2x40x128x202, .f32⟩
  | 41 => ⟨S_, .i32⟩
  | 42 => ⟨S_, .f32⟩
  | 43 => ⟨S2x40x128x240, .f32⟩
  | 44 => ⟨S2x40x8x128x201, .f32⟩
  | 45 => ⟨S2x40x8x128x201, .f32⟩
  | 46 => ⟨S2x40x8x128x201, .f32⟩
  | 47 => ⟨S_, .f32⟩
  | 48 => ⟨S2x40x128x201, .f32⟩
  | 49 => ⟨S_, .f32⟩
  | 50 => ⟨S2x40x128x201, .f32⟩
  | 51 => ⟨S2x40x128x201, .f32⟩
  | 52 => ⟨S_, .i32⟩
  | 53 => ⟨S_, .f32⟩
  | 54 => ⟨S2x40x128x240, .f32⟩
  | 55 => ⟨S2x40x8x128x200, .f32⟩
  | 56 => ⟨S2x40x8x128x200, .f32⟩
  | 57 => ⟨S2x40x8x128x200, .f32⟩
  | 58 => ⟨S_, .f32⟩
  | 59 => ⟨S2x40x128x200, .f32⟩
  | 60 => ⟨S_, .f32⟩
  | 61 => ⟨S2x40x128x200, .f32⟩
  | 62 => ⟨S2x40x128x200, .f32⟩
  | 63 => ⟨S_, .i32⟩
  | 64 => ⟨S_, .f32⟩
  | 65 => ⟨S2x40x128x240, .f32⟩
  | 66 => ⟨S2x40x8x128x199, .f32⟩
  | 67 => ⟨S2x40x8x128x199, .f32⟩
  | 68 => ⟨S2x40x8x128x199, .f32⟩
  | 69 => ⟨S_, .f32⟩
  | 70 => ⟨S2x40x128x199, .f32⟩
  | 71 => ⟨S_, .f32⟩
  | 72 => ⟨S2x40x128x199, .f32⟩
  | 73 => ⟨S2x40x128x199, .f32⟩
  | 74 => ⟨S_, .i32⟩
  | 75 => ⟨S_, .f32⟩
  | 76 => ⟨S2x40x128x240, .f32⟩
  | 77 => ⟨S2x40x8x128x198, .f32⟩
  | 78 => ⟨S2x40x8x128x198, .f32⟩
  | 79 => ⟨S2x40x8x128x198, .f32⟩
  | 80 => ⟨S_, .f32⟩
  | 81 => ⟨S2x40x128x198, .f32⟩
  | 82 => ⟨S_, .f32⟩
  | 83 => ⟨S2x40x128x198, .f32⟩
  | 84 => ⟨S2x40x128x198, .f32⟩
  | 85 => ⟨S_, .i32⟩
  | 86 => ⟨S_, .f32⟩
  | 87 => ⟨S2x40x128x240, .f32⟩
  | 88 => ⟨S2x40x8x128x197, .f32⟩
  | 89 => ⟨S2x40x8x128x197, .f32⟩
  | 90 => ⟨S2x40x8x128x197, .f32⟩
  | 91 => ⟨S_, .f32⟩
  | 92 => ⟨S2x40x128x197, .f32⟩
  | 93 => ⟨S_, .f32⟩
  | 94 => ⟨S2x40x128x197, .f32⟩
  | 95 => ⟨S2x40x128x197, .f32⟩
  | 96 => ⟨S_, .i32⟩
  | 97 => ⟨S_, .f32⟩
  | 98 => ⟨S2x40x128x240, .f32⟩
  | 99 => ⟨S2x40x8x128x196, .f32⟩
  | 100 => ⟨S2x40x8x128x196, .f32⟩
  | 101 => ⟨S2x40x8x128x196, .f32⟩
  | 102 => ⟨S_, .f32⟩
  | 103 => ⟨S2x40x128x196, .f32⟩
  | 104 => ⟨S_, .f32⟩
  | 105 => ⟨S2x40x128x196, .f32⟩
  | 106 => ⟨S2x40x128x196, .f32⟩
  | 107 => ⟨S_, .i32⟩
  | 108 => ⟨S_, .f32⟩
  | 109 => ⟨S2x40x128x240, .f32⟩
  | 110 => ⟨S2x40x8x128x195, .f32⟩
  | 111 => ⟨S2x40x8x128x195, .f32⟩
  | 112 => ⟨S2x40x8x128x195, .f32⟩
  | 113 => ⟨S_, .f32⟩
  | 114 => ⟨S2x40x128x195, .f32⟩
  | 115 => ⟨S_, .f32⟩
  | 116 => ⟨S2x40x128x195, .f32⟩
  | 117 => ⟨S2x40x128x195, .f32⟩
  | 118 => ⟨S_, .i32⟩
  | 119 => ⟨S_, .f32⟩
  | 120 => ⟨S2x40x128x240, .f32⟩
  | 121 => ⟨S2x40x8x128x194, .f32⟩
  | 122 => ⟨S2x40x8x128x194, .f32⟩
  | 123 => ⟨S2x40x8x128x194, .f32⟩
  | 124 => ⟨S_, .f32⟩
  | 125 => ⟨S2x40x128x194, .f32⟩
  | 126 => ⟨S_, .f32⟩
  | 127 => ⟨S2x40x128x194, .f32⟩
  | _ => ⟨S2x320x128x240, .f32⟩

abbrev hbmTy0_4 (i : Nat) : BufTy := match i % 128 with
  | 0 => ⟨S2x40x128x194, .f32⟩
  | 1 => ⟨S_, .i32⟩
  | 2 => ⟨S_, .f32⟩
  | 3 => ⟨S2x40x128x240, .f32⟩
  | 4 => ⟨S2x40x8x128x193, .f32⟩
  | 5 => ⟨S2x40x8x128x193, .f32⟩
  | 6 => ⟨S2x40x8x128x193, .f32⟩
  | 7 => ⟨S_, .f32⟩
  | 8 => ⟨S2x40x128x193, .f32⟩
  | 9 => ⟨S_, .f32⟩
  | 10 => ⟨S2x40x128x193, .f32⟩
  | 11 => ⟨S2x40x128x193, .f32⟩
  | 12 => ⟨S_, .i32⟩
  | 13 => ⟨S_, .f32⟩
  | 14 => ⟨S2x40x128x240, .f32⟩
  | 15 => ⟨S2x40x1x128x240, .f32⟩
  | 16 => ⟨S2x40x1x128x240, .f32⟩
  | 17 => ⟨S2x40x1x128x240, .f32⟩
  | 18 => ⟨S2x40x1x128x240, .f32⟩
  | 19 => ⟨S2x40x1x128x240, .f32⟩
  | 20 => ⟨S2x40x1x128x240, .f32⟩
  | 21 => ⟨S2x40x1x128x240, .f32⟩
  | 22 => ⟨S2x40x1x128x240, .f32⟩
  | 23 => ⟨S2x40x1x128x240, .f32⟩
  | 24 => ⟨S2x40x1x128x240, .f32⟩
  | 25 => ⟨S2x40x1x128x240, .f32⟩
  | 26 => ⟨S2x40x1x128x240, .f32⟩
  | 27 => ⟨S2x40x1x128x240, .f32⟩
  | 28 => ⟨S2x40x1x128x240, .f32⟩
  | 29 => ⟨S2x40x1x128x240, .f32⟩
  | 30 => ⟨S2x40x1x128x240, .f32⟩
  | 31 => ⟨S2x40x1x128x240, .f32⟩
  | 32 => ⟨S2x40x1x128x240, .f32⟩
  | 33 => ⟨S2x40x1x128x240, .f32⟩
  | 34 => ⟨S2x40x1x128x240, .f32⟩
  | 35 => ⟨S2x40x1x128x240, .f32⟩
  | 36 => ⟨S2x40x1x128x240, .f32⟩
  | 37 => ⟨S2x40x1x128x240, .f32⟩
  | 38 => ⟨S2x40x1x128x240, .f32⟩
  | 39 => ⟨S2x40x1x128x240, .f32⟩
  | 40 => ⟨S2x40x1x128x240, .f32⟩
  | 41 => ⟨S2x40x1x128x240, .f32⟩
  | 42 => ⟨S2x40x1x128x240, .f32⟩
  | 43 => ⟨S2x40x1x128x240, .f32⟩
  | 44 => ⟨S2x40x1x128x240, .f32⟩
  | 45 => ⟨S2x40x1x128x240, .f32⟩
  | 46 => ⟨S2x40x1x128x240, .f32⟩
  | 47 => ⟨S2x40x1x128x240, .f32⟩
  | 48 => ⟨S2x40x1x128x240, .f32⟩
  | 49 => ⟨S2x40x1x128x240, .f32⟩
  | 50 => ⟨S2x40x1x128x240, .f32⟩
  | 51 => ⟨S2x40x1x128x240, .f32⟩
  | 52 => ⟨S2x40x1x128x240, .f32⟩
  | 53 => ⟨S2x40x1x128x240, .f32⟩
  | 54 => ⟨S2x40x1x128x240, .f32⟩
  | 55 => ⟨S2x40x1x128x240, .f32⟩
  | 56 => ⟨S2x40x1x128x240, .f32⟩
  | 57 => ⟨S2x40x1x128x240, .f32⟩
  | 58 => ⟨S2x40x1x128x240, .f32⟩
  | 59 => ⟨S2x40x1x128x240, .f32⟩
  | 60 => ⟨S2x40x1x128x240, .f32⟩
  | 61 => ⟨S2x40x1x128x240, .f32⟩
  | 62 => ⟨S2x40x1x128x240, .f32⟩
  | 63 => ⟨S2x40x16x128x240, .f32⟩
  | 64 => ⟨S2x40x16x128x240, .f32⟩
  | 65 => ⟨S2x40x16x128x240, .f32⟩
  | 66 => ⟨S2x40x48x128x240, .f32⟩
  | _ => ⟨S2x320x128x240, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x320x128x240, .f32⟩

abbrev bufTy : (tb : Table) → Fin (tcTables nBuf tb) → BufTy
  | .hbm, ⟨i, _⟩ => hbmTy i
  | _, _ => ⟨S2x320x128x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_call2_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_c_11 : Ref sig .tc := ⟨.hbm, 51, rfl⟩
abbrev main_call3_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_cst_13 : Ref sig .tc := ⟨.hbm, 59, rfl⟩
abbrev main_v38 : Ref sig .tc := ⟨.hbm, 60, rfl⟩
abbrev main_v39 : Ref sig .tc := ⟨.hbm, 61, rfl⟩
abbrev main_c_14 : Ref sig .tc := ⟨.hbm, 62, rfl⟩
abbrev main_call4_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_15 : Ref sig .tc := ⟨.hbm, 68, rfl⟩
abbrev main_v44 : Ref sig .tc := ⟨.hbm, 69, rfl⟩
abbrev main_cst_16 : Ref sig .tc := ⟨.hbm, 70, rfl⟩
abbrev main_v45 : Ref sig .tc := ⟨.hbm, 71, rfl⟩
abbrev main_v46 : Ref sig .tc := ⟨.hbm, 72, rfl⟩
abbrev main_c_17 : Ref sig .tc := ⟨.hbm, 73, rfl⟩
abbrev main_call5_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_18 : Ref sig .tc := ⟨.hbm, 79, rfl⟩
abbrev main_v51 : Ref sig .tc := ⟨.hbm, 80, rfl⟩
abbrev main_cst_19 : Ref sig .tc := ⟨.hbm, 81, rfl⟩
abbrev main_v52 : Ref sig .tc := ⟨.hbm, 82, rfl⟩
abbrev main_v53 : Ref sig .tc := ⟨.hbm, 83, rfl⟩
abbrev main_c_20 : Ref sig .tc := ⟨.hbm, 84, rfl⟩
abbrev main_call6_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_21 : Ref sig .tc := ⟨.hbm, 90, rfl⟩
abbrev main_v58 : Ref sig .tc := ⟨.hbm, 91, rfl⟩
abbrev main_cst_22 : Ref sig .tc := ⟨.hbm, 92, rfl⟩
abbrev main_v59 : Ref sig .tc := ⟨.hbm, 93, rfl⟩
abbrev main_v60 : Ref sig .tc := ⟨.hbm, 94, rfl⟩
abbrev main_c_23 : Ref sig .tc := ⟨.hbm, 95, rfl⟩
abbrev main_call7_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_24 : Ref sig .tc := ⟨.hbm, 101, rfl⟩
abbrev main_v65 : Ref sig .tc := ⟨.hbm, 102, rfl⟩
abbrev main_cst_25 : Ref sig .tc := ⟨.hbm, 103, rfl⟩
abbrev main_v66 : Ref sig .tc := ⟨.hbm, 104, rfl⟩
abbrev main_v67 : Ref sig .tc := ⟨.hbm, 105, rfl⟩
abbrev main_c_26 : Ref sig .tc := ⟨.hbm, 106, rfl⟩
abbrev main_call8_v0 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_27 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩
abbrev main_c_29 : Ref sig .tc := ⟨.hbm, 117, rfl⟩
abbrev main_call9_v0 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_30 : Ref sig .tc := ⟨.hbm, 123, rfl⟩
abbrev main_v79 : Ref sig .tc := ⟨.hbm, 124, rfl⟩
abbrev main_cst_31 : Ref sig .tc := ⟨.hbm, 125, rfl⟩
abbrev main_v80 : Ref sig .tc := ⟨.hbm, 126, rfl⟩
abbrev main_v81 : Ref sig .tc := ⟨.hbm, 127, rfl⟩
abbrev main_c_32 : Ref sig .tc := ⟨.hbm, 128, rfl⟩
abbrev main_call10_v0 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_33 : Ref sig .tc := ⟨.hbm, 134, rfl⟩
abbrev main_v86 : Ref sig .tc := ⟨.hbm, 135, rfl⟩
abbrev main_cst_34 : Ref sig .tc := ⟨.hbm, 136, rfl⟩
abbrev main_v87 : Ref sig .tc := ⟨.hbm, 137, rfl⟩
abbrev main_v88 : Ref sig .tc := ⟨.hbm, 138, rfl⟩
abbrev main_c_35 : Ref sig .tc := ⟨.hbm, 139, rfl⟩
abbrev main_call11_v0 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_36 : Ref sig .tc := ⟨.hbm, 145, rfl⟩
abbrev main_v93 : Ref sig .tc := ⟨.hbm, 146, rfl⟩
abbrev main_cst_37 : Ref sig .tc := ⟨.hbm, 147, rfl⟩
abbrev main_v94 : Ref sig .tc := ⟨.hbm, 148, rfl⟩
abbrev main_v95 : Ref sig .tc := ⟨.hbm, 149, rfl⟩
abbrev main_c_38 : Ref sig .tc := ⟨.hbm, 150, rfl⟩
abbrev main_call12_v0 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_39 : Ref sig .tc := ⟨.hbm, 156, rfl⟩
abbrev main_v100 : Ref sig .tc := ⟨.hbm, 157, rfl⟩
abbrev main_cst_40 : Ref sig .tc := ⟨.hbm, 158, rfl⟩
abbrev main_v101 : Ref sig .tc := ⟨.hbm, 159, rfl⟩
abbrev main_v102 : Ref sig .tc := ⟨.hbm, 160, rfl⟩
abbrev main_c_41 : Ref sig .tc := ⟨.hbm, 161, rfl⟩
abbrev main_call13_v0 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_42 : Ref sig .tc := ⟨.hbm, 167, rfl⟩
abbrev main_v107 : Ref sig .tc := ⟨.hbm, 168, rfl⟩
abbrev main_cst_43 : Ref sig .tc := ⟨.hbm, 169, rfl⟩
abbrev main_v108 : Ref sig .tc := ⟨.hbm, 170, rfl⟩
abbrev main_v109 : Ref sig .tc := ⟨.hbm, 171, rfl⟩
abbrev main_c_44 : Ref sig .tc := ⟨.hbm, 172, rfl⟩
abbrev main_call14_v0 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_45 : Ref sig .tc := ⟨.hbm, 178, rfl⟩
abbrev main_v114 : Ref sig .tc := ⟨.hbm, 179, rfl⟩
abbrev main_cst_46 : Ref sig .tc := ⟨.hbm, 180, rfl⟩
abbrev main_v115 : Ref sig .tc := ⟨.hbm, 181, rfl⟩
abbrev main_v116 : Ref sig .tc := ⟨.hbm, 182, rfl⟩
abbrev main_c_47 : Ref sig .tc := ⟨.hbm, 183, rfl⟩
abbrev main_call15_v0 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_cst_48 : Ref sig .tc := ⟨.hbm, 189, rfl⟩
abbrev main_v121 : Ref sig .tc := ⟨.hbm, 190, rfl⟩
abbrev main_cst_49 : Ref sig .tc := ⟨.hbm, 191, rfl⟩
abbrev main_v122 : Ref sig .tc := ⟨.hbm, 192, rfl⟩
abbrev main_v123 : Ref sig .tc := ⟨.hbm, 193, rfl⟩
abbrev main_c_50 : Ref sig .tc := ⟨.hbm, 194, rfl⟩
abbrev main_call16_v0 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_51 : Ref sig .tc := ⟨.hbm, 200, rfl⟩
abbrev main_v128 : Ref sig .tc := ⟨.hbm, 201, rfl⟩
abbrev main_cst_52 : Ref sig .tc := ⟨.hbm, 202, rfl⟩
abbrev main_v129 : Ref sig .tc := ⟨.hbm, 203, rfl⟩
abbrev main_v130 : Ref sig .tc := ⟨.hbm, 204, rfl⟩
abbrev main_c_53 : Ref sig .tc := ⟨.hbm, 205, rfl⟩
abbrev main_call17_v0 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_cst_54 : Ref sig .tc := ⟨.hbm, 211, rfl⟩
abbrev main_v135 : Ref sig .tc := ⟨.hbm, 212, rfl⟩
abbrev main_cst_55 : Ref sig .tc := ⟨.hbm, 213, rfl⟩
abbrev main_v136 : Ref sig .tc := ⟨.hbm, 214, rfl⟩
abbrev main_v137 : Ref sig .tc := ⟨.hbm, 215, rfl⟩
abbrev main_c_56 : Ref sig .tc := ⟨.hbm, 216, rfl⟩
abbrev main_call18_v0 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_57 : Ref sig .tc := ⟨.hbm, 222, rfl⟩
abbrev main_v142 : Ref sig .tc := ⟨.hbm, 223, rfl⟩
abbrev main_cst_58 : Ref sig .tc := ⟨.hbm, 224, rfl⟩
abbrev main_v143 : Ref sig .tc := ⟨.hbm, 225, rfl⟩
abbrev main_v144 : Ref sig .tc := ⟨.hbm, 226, rfl⟩
abbrev main_c_59 : Ref sig .tc := ⟨.hbm, 227, rfl⟩
abbrev main_call19_v0 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_60 : Ref sig .tc := ⟨.hbm, 233, rfl⟩
abbrev main_v149 : Ref sig .tc := ⟨.hbm, 234, rfl⟩
abbrev main_cst_61 : Ref sig .tc := ⟨.hbm, 235, rfl⟩
abbrev main_v150 : Ref sig .tc := ⟨.hbm, 236, rfl⟩
abbrev main_v151 : Ref sig .tc := ⟨.hbm, 237, rfl⟩
abbrev main_c_62 : Ref sig .tc := ⟨.hbm, 238, rfl⟩
abbrev main_call20_v0 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_cst_63 : Ref sig .tc := ⟨.hbm, 244, rfl⟩
abbrev main_v156 : Ref sig .tc := ⟨.hbm, 245, rfl⟩
abbrev main_cst_64 : Ref sig .tc := ⟨.hbm, 246, rfl⟩
abbrev main_v157 : Ref sig .tc := ⟨.hbm, 247, rfl⟩
abbrev main_v158 : Ref sig .tc := ⟨.hbm, 248, rfl⟩
abbrev main_c_65 : Ref sig .tc := ⟨.hbm, 249, rfl⟩
abbrev main_call21_v0 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_cst_66 : Ref sig .tc := ⟨.hbm, 255, rfl⟩
abbrev main_v163 : Ref sig .tc := ⟨.hbm, 256, rfl⟩
abbrev main_cst_67 : Ref sig .tc := ⟨.hbm, 257, rfl⟩
abbrev main_v164 : Ref sig .tc := ⟨.hbm, 258, rfl⟩
abbrev main_v165 : Ref sig .tc := ⟨.hbm, 259, rfl⟩
abbrev main_c_68 : Ref sig .tc := ⟨.hbm, 260, rfl⟩
abbrev main_call22_v0 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_cst_69 : Ref sig .tc := ⟨.hbm, 266, rfl⟩
abbrev main_v170 : Ref sig .tc := ⟨.hbm, 267, rfl⟩
abbrev main_cst_70 : Ref sig .tc := ⟨.hbm, 268, rfl⟩
abbrev main_v171 : Ref sig .tc := ⟨.hbm, 269, rfl⟩
abbrev main_v172 : Ref sig .tc := ⟨.hbm, 270, rfl⟩
abbrev main_c_71 : Ref sig .tc := ⟨.hbm, 271, rfl⟩
abbrev main_call23_v0 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_cst_72 : Ref sig .tc := ⟨.hbm, 277, rfl⟩
abbrev main_v177 : Ref sig .tc := ⟨.hbm, 278, rfl⟩
abbrev main_cst_73 : Ref sig .tc := ⟨.hbm, 279, rfl⟩
abbrev main_v178 : Ref sig .tc := ⟨.hbm, 280, rfl⟩
abbrev main_v179 : Ref sig .tc := ⟨.hbm, 281, rfl⟩
abbrev main_c_74 : Ref sig .tc := ⟨.hbm, 282, rfl⟩
abbrev main_call24_v0 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_cst_75 : Ref sig .tc := ⟨.hbm, 288, rfl⟩
abbrev main_v184 : Ref sig .tc := ⟨.hbm, 289, rfl⟩
abbrev main_cst_76 : Ref sig .tc := ⟨.hbm, 290, rfl⟩
abbrev main_v185 : Ref sig .tc := ⟨.hbm, 291, rfl⟩
abbrev main_v186 : Ref sig .tc := ⟨.hbm, 292, rfl⟩
abbrev main_c_77 : Ref sig .tc := ⟨.hbm, 293, rfl⟩
abbrev main_call25_v0 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_cst_78 : Ref sig .tc := ⟨.hbm, 299, rfl⟩
abbrev main_v191 : Ref sig .tc := ⟨.hbm, 300, rfl⟩
abbrev main_cst_79 : Ref sig .tc := ⟨.hbm, 301, rfl⟩
abbrev main_v192 : Ref sig .tc := ⟨.hbm, 302, rfl⟩
abbrev main_v193 : Ref sig .tc := ⟨.hbm, 303, rfl⟩
abbrev main_c_80 : Ref sig .tc := ⟨.hbm, 304, rfl⟩
abbrev main_call26_v0 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_cst_81 : Ref sig .tc := ⟨.hbm, 310, rfl⟩
abbrev main_v198 : Ref sig .tc := ⟨.hbm, 311, rfl⟩
abbrev main_cst_82 : Ref sig .tc := ⟨.hbm, 312, rfl⟩
abbrev main_v199 : Ref sig .tc := ⟨.hbm, 313, rfl⟩
abbrev main_v200 : Ref sig .tc := ⟨.hbm, 314, rfl⟩
abbrev main_c_83 : Ref sig .tc := ⟨.hbm, 315, rfl⟩
abbrev main_call27_v0 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_cst_84 : Ref sig .tc := ⟨.hbm, 321, rfl⟩
abbrev main_v205 : Ref sig .tc := ⟨.hbm, 322, rfl⟩
abbrev main_cst_85 : Ref sig .tc := ⟨.hbm, 323, rfl⟩
abbrev main_v206 : Ref sig .tc := ⟨.hbm, 324, rfl⟩
abbrev main_v207 : Ref sig .tc := ⟨.hbm, 325, rfl⟩
abbrev main_c_86 : Ref sig .tc := ⟨.hbm, 326, rfl⟩
abbrev main_call28_v0 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_cst_87 : Ref sig .tc := ⟨.hbm, 332, rfl⟩
abbrev main_v212 : Ref sig .tc := ⟨.hbm, 333, rfl⟩
abbrev main_cst_88 : Ref sig .tc := ⟨.hbm, 334, rfl⟩
abbrev main_v213 : Ref sig .tc := ⟨.hbm, 335, rfl⟩
abbrev main_v214 : Ref sig .tc := ⟨.hbm, 336, rfl⟩
abbrev main_c_89 : Ref sig .tc := ⟨.hbm, 337, rfl⟩
abbrev main_call29_v0 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_cst_90 : Ref sig .tc := ⟨.hbm, 343, rfl⟩
abbrev main_v219 : Ref sig .tc := ⟨.hbm, 344, rfl⟩
abbrev main_cst_91 : Ref sig .tc := ⟨.hbm, 345, rfl⟩
abbrev main_v220 : Ref sig .tc := ⟨.hbm, 346, rfl⟩
abbrev main_v221 : Ref sig .tc := ⟨.hbm, 347, rfl⟩
abbrev main_c_92 : Ref sig .tc := ⟨.hbm, 348, rfl⟩
abbrev main_call30_v0 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_cst_93 : Ref sig .tc := ⟨.hbm, 354, rfl⟩
abbrev main_v226 : Ref sig .tc := ⟨.hbm, 355, rfl⟩
abbrev main_cst_94 : Ref sig .tc := ⟨.hbm, 356, rfl⟩
abbrev main_v227 : Ref sig .tc := ⟨.hbm, 357, rfl⟩
abbrev main_v228 : Ref sig .tc := ⟨.hbm, 358, rfl⟩
abbrev main_c_95 : Ref sig .tc := ⟨.hbm, 359, rfl⟩
abbrev main_call31_v0 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_cst_96 : Ref sig .tc := ⟨.hbm, 365, rfl⟩
abbrev main_v233 : Ref sig .tc := ⟨.hbm, 366, rfl⟩
abbrev main_cst_97 : Ref sig .tc := ⟨.hbm, 367, rfl⟩
abbrev main_v234 : Ref sig .tc := ⟨.hbm, 368, rfl⟩
abbrev main_v235 : Ref sig .tc := ⟨.hbm, 369, rfl⟩
abbrev main_c_98 : Ref sig .tc := ⟨.hbm, 370, rfl⟩
abbrev main_call32_v0 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_cst_99 : Ref sig .tc := ⟨.hbm, 376, rfl⟩
abbrev main_v240 : Ref sig .tc := ⟨.hbm, 377, rfl⟩
abbrev main_cst_100 : Ref sig .tc := ⟨.hbm, 378, rfl⟩
abbrev main_v241 : Ref sig .tc := ⟨.hbm, 379, rfl⟩
abbrev main_v242 : Ref sig .tc := ⟨.hbm, 380, rfl⟩
abbrev main_c_101 : Ref sig .tc := ⟨.hbm, 381, rfl⟩
abbrev main_call33_v0 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_cst_102 : Ref sig .tc := ⟨.hbm, 387, rfl⟩
abbrev main_v247 : Ref sig .tc := ⟨.hbm, 388, rfl⟩
abbrev main_cst_103 : Ref sig .tc := ⟨.hbm, 389, rfl⟩
abbrev main_v248 : Ref sig .tc := ⟨.hbm, 390, rfl⟩
abbrev main_v249 : Ref sig .tc := ⟨.hbm, 391, rfl⟩
abbrev main_c_104 : Ref sig .tc := ⟨.hbm, 392, rfl⟩
abbrev main_call34_v0 : Ref sig .tc := ⟨.hbm, 393, rfl⟩
abbrev main_v250 : Ref sig .tc := ⟨.hbm, 394, rfl⟩
abbrev main_v251 : Ref sig .tc := ⟨.hbm, 395, rfl⟩
abbrev main_v252 : Ref sig .tc := ⟨.hbm, 396, rfl⟩
abbrev main_v253 : Ref sig .tc := ⟨.hbm, 397, rfl⟩
abbrev main_cst_105 : Ref sig .tc := ⟨.hbm, 398, rfl⟩
abbrev main_v254 : Ref sig .tc := ⟨.hbm, 399, rfl⟩
abbrev main_cst_106 : Ref sig .tc := ⟨.hbm, 400, rfl⟩
abbrev main_v255 : Ref sig .tc := ⟨.hbm, 401, rfl⟩
abbrev main_v256 : Ref sig .tc := ⟨.hbm, 402, rfl⟩
abbrev main_c_107 : Ref sig .tc := ⟨.hbm, 403, rfl⟩
abbrev main_call35_v0 : Ref sig .tc := ⟨.hbm, 404, rfl⟩
abbrev main_v257 : Ref sig .tc := ⟨.hbm, 405, rfl⟩
abbrev main_v258 : Ref sig .tc := ⟨.hbm, 406, rfl⟩
abbrev main_v259 : Ref sig .tc := ⟨.hbm, 407, rfl⟩
abbrev main_v260 : Ref sig .tc := ⟨.hbm, 408, rfl⟩
abbrev main_cst_108 : Ref sig .tc := ⟨.hbm, 409, rfl⟩
abbrev main_v261 : Ref sig .tc := ⟨.hbm, 410, rfl⟩
abbrev main_cst_109 : Ref sig .tc := ⟨.hbm, 411, rfl⟩
abbrev main_v262 : Ref sig .tc := ⟨.hbm, 412, rfl⟩
abbrev main_v263 : Ref sig .tc := ⟨.hbm, 413, rfl⟩
abbrev main_c_110 : Ref sig .tc := ⟨.hbm, 414, rfl⟩
abbrev main_call36_v0 : Ref sig .tc := ⟨.hbm, 415, rfl⟩
abbrev main_v264 : Ref sig .tc := ⟨.hbm, 416, rfl⟩
abbrev main_v265 : Ref sig .tc := ⟨.hbm, 417, rfl⟩
abbrev main_v266 : Ref sig .tc := ⟨.hbm, 418, rfl⟩
abbrev main_v267 : Ref sig .tc := ⟨.hbm, 419, rfl⟩
abbrev main_cst_111 : Ref sig .tc := ⟨.hbm, 420, rfl⟩
abbrev main_v268 : Ref sig .tc := ⟨.hbm, 421, rfl⟩
abbrev main_cst_112 : Ref sig .tc := ⟨.hbm, 422, rfl⟩
abbrev main_v269 : Ref sig .tc := ⟨.hbm, 423, rfl⟩
abbrev main_v270 : Ref sig .tc := ⟨.hbm, 424, rfl⟩
abbrev main_c_113 : Ref sig .tc := ⟨.hbm, 425, rfl⟩
abbrev main_call37_v0 : Ref sig .tc := ⟨.hbm, 426, rfl⟩
abbrev main_v271 : Ref sig .tc := ⟨.hbm, 427, rfl⟩
abbrev main_v272 : Ref sig .tc := ⟨.hbm, 428, rfl⟩
abbrev main_v273 : Ref sig .tc := ⟨.hbm, 429, rfl⟩
abbrev main_v274 : Ref sig .tc := ⟨.hbm, 430, rfl⟩
abbrev main_cst_114 : Ref sig .tc := ⟨.hbm, 431, rfl⟩
abbrev main_v275 : Ref sig .tc := ⟨.hbm, 432, rfl⟩
abbrev main_cst_115 : Ref sig .tc := ⟨.hbm, 433, rfl⟩
abbrev main_v276 : Ref sig .tc := ⟨.hbm, 434, rfl⟩
abbrev main_v277 : Ref sig .tc := ⟨.hbm, 435, rfl⟩
abbrev main_c_116 : Ref sig .tc := ⟨.hbm, 436, rfl⟩
abbrev main_call38_v0 : Ref sig .tc := ⟨.hbm, 437, rfl⟩
abbrev main_v278 : Ref sig .tc := ⟨.hbm, 438, rfl⟩
abbrev main_v279 : Ref sig .tc := ⟨.hbm, 439, rfl⟩
abbrev main_v280 : Ref sig .tc := ⟨.hbm, 440, rfl⟩
abbrev main_v281 : Ref sig .tc := ⟨.hbm, 441, rfl⟩
abbrev main_cst_117 : Ref sig .tc := ⟨.hbm, 442, rfl⟩
abbrev main_v282 : Ref sig .tc := ⟨.hbm, 443, rfl⟩
abbrev main_cst_118 : Ref sig .tc := ⟨.hbm, 444, rfl⟩
abbrev main_v283 : Ref sig .tc := ⟨.hbm, 445, rfl⟩
abbrev main_v284 : Ref sig .tc := ⟨.hbm, 446, rfl⟩
abbrev main_c_119 : Ref sig .tc := ⟨.hbm, 447, rfl⟩
abbrev main_call39_v0 : Ref sig .tc := ⟨.hbm, 448, rfl⟩
abbrev main_v285 : Ref sig .tc := ⟨.hbm, 449, rfl⟩
abbrev main_v286 : Ref sig .tc := ⟨.hbm, 450, rfl⟩
abbrev main_v287 : Ref sig .tc := ⟨.hbm, 451, rfl⟩
abbrev main_v288 : Ref sig .tc := ⟨.hbm, 452, rfl⟩
abbrev main_cst_120 : Ref sig .tc := ⟨.hbm, 453, rfl⟩
abbrev main_v289 : Ref sig .tc := ⟨.hbm, 454, rfl⟩
abbrev main_cst_121 : Ref sig .tc := ⟨.hbm, 455, rfl⟩
abbrev main_v290 : Ref sig .tc := ⟨.hbm, 456, rfl⟩
abbrev main_v291 : Ref sig .tc := ⟨.hbm, 457, rfl⟩
abbrev main_c_122 : Ref sig .tc := ⟨.hbm, 458, rfl⟩
abbrev main_call40_v0 : Ref sig .tc := ⟨.hbm, 459, rfl⟩
abbrev main_v292 : Ref sig .tc := ⟨.hbm, 460, rfl⟩
abbrev main_v293 : Ref sig .tc := ⟨.hbm, 461, rfl⟩
abbrev main_v294 : Ref sig .tc := ⟨.hbm, 462, rfl⟩
abbrev main_v295 : Ref sig .tc := ⟨.hbm, 463, rfl⟩
abbrev main_cst_123 : Ref sig .tc := ⟨.hbm, 464, rfl⟩
abbrev main_v296 : Ref sig .tc := ⟨.hbm, 465, rfl⟩
abbrev main_cst_124 : Ref sig .tc := ⟨.hbm, 466, rfl⟩
abbrev main_v297 : Ref sig .tc := ⟨.hbm, 467, rfl⟩
abbrev main_v298 : Ref sig .tc := ⟨.hbm, 468, rfl⟩
abbrev main_c_125 : Ref sig .tc := ⟨.hbm, 469, rfl⟩
abbrev main_call41_v0 : Ref sig .tc := ⟨.hbm, 470, rfl⟩
abbrev main_v299 : Ref sig .tc := ⟨.hbm, 471, rfl⟩
abbrev main_v300 : Ref sig .tc := ⟨.hbm, 472, rfl⟩
abbrev main_v301 : Ref sig .tc := ⟨.hbm, 473, rfl⟩
abbrev main_v302 : Ref sig .tc := ⟨.hbm, 474, rfl⟩
abbrev main_cst_126 : Ref sig .tc := ⟨.hbm, 475, rfl⟩
abbrev main_v303 : Ref sig .tc := ⟨.hbm, 476, rfl⟩
abbrev main_cst_127 : Ref sig .tc := ⟨.hbm, 477, rfl⟩
abbrev main_v304 : Ref sig .tc := ⟨.hbm, 478, rfl⟩
abbrev main_v305 : Ref sig .tc := ⟨.hbm, 479, rfl⟩
abbrev main_c_128 : Ref sig .tc := ⟨.hbm, 480, rfl⟩
abbrev main_call42_v0 : Ref sig .tc := ⟨.hbm, 481, rfl⟩
abbrev main_v306 : Ref sig .tc := ⟨.hbm, 482, rfl⟩
abbrev main_v307 : Ref sig .tc := ⟨.hbm, 483, rfl⟩
abbrev main_v308 : Ref sig .tc := ⟨.hbm, 484, rfl⟩
abbrev main_v309 : Ref sig .tc := ⟨.hbm, 485, rfl⟩
abbrev main_cst_129 : Ref sig .tc := ⟨.hbm, 486, rfl⟩
abbrev main_v310 : Ref sig .tc := ⟨.hbm, 487, rfl⟩
abbrev main_cst_130 : Ref sig .tc := ⟨.hbm, 488, rfl⟩
abbrev main_v311 : Ref sig .tc := ⟨.hbm, 489, rfl⟩
abbrev main_v312 : Ref sig .tc := ⟨.hbm, 490, rfl⟩
abbrev main_c_131 : Ref sig .tc := ⟨.hbm, 491, rfl⟩
abbrev main_call43_v0 : Ref sig .tc := ⟨.hbm, 492, rfl⟩
abbrev main_v313 : Ref sig .tc := ⟨.hbm, 493, rfl⟩
abbrev main_v314 : Ref sig .tc := ⟨.hbm, 494, rfl⟩
abbrev main_v315 : Ref sig .tc := ⟨.hbm, 495, rfl⟩
abbrev main_v316 : Ref sig .tc := ⟨.hbm, 496, rfl⟩
abbrev main_cst_132 : Ref sig .tc := ⟨.hbm, 497, rfl⟩
abbrev main_v317 : Ref sig .tc := ⟨.hbm, 498, rfl⟩
abbrev main_cst_133 : Ref sig .tc := ⟨.hbm, 499, rfl⟩
abbrev main_v318 : Ref sig .tc := ⟨.hbm, 500, rfl⟩
abbrev main_v319 : Ref sig .tc := ⟨.hbm, 501, rfl⟩
abbrev main_c_134 : Ref sig .tc := ⟨.hbm, 502, rfl⟩
abbrev main_call44_v0 : Ref sig .tc := ⟨.hbm, 503, rfl⟩
abbrev main_v320 : Ref sig .tc := ⟨.hbm, 504, rfl⟩
abbrev main_v321 : Ref sig .tc := ⟨.hbm, 505, rfl⟩
abbrev main_v322 : Ref sig .tc := ⟨.hbm, 506, rfl⟩
abbrev main_v323 : Ref sig .tc := ⟨.hbm, 507, rfl⟩
abbrev main_cst_135 : Ref sig .tc := ⟨.hbm, 508, rfl⟩
abbrev main_v324 : Ref sig .tc := ⟨.hbm, 509, rfl⟩
abbrev main_cst_136 : Ref sig .tc := ⟨.hbm, 510, rfl⟩
abbrev main_v325 : Ref sig .tc := ⟨.hbm, 511, rfl⟩
abbrev main_v326 : Ref sig .tc := ⟨.hbm, 512, rfl⟩
abbrev main_c_137 : Ref sig .tc := ⟨.hbm, 513, rfl⟩
abbrev main_call45_v0 : Ref sig .tc := ⟨.hbm, 514, rfl⟩
abbrev main_v327 : Ref sig .tc := ⟨.hbm, 515, rfl⟩
abbrev main_v328 : Ref sig .tc := ⟨.hbm, 516, rfl⟩
abbrev main_v329 : Ref sig .tc := ⟨.hbm, 517, rfl⟩
abbrev main_v330 : Ref sig .tc := ⟨.hbm, 518, rfl⟩
abbrev main_cst_138 : Ref sig .tc := ⟨.hbm, 519, rfl⟩
abbrev main_v331 : Ref sig .tc := ⟨.hbm, 520, rfl⟩
abbrev main_cst_139 : Ref sig .tc := ⟨.hbm, 521, rfl⟩
abbrev main_v332 : Ref sig .tc := ⟨.hbm, 522, rfl⟩
abbrev main_v333 : Ref sig .tc := ⟨.hbm, 523, rfl⟩
abbrev main_c_140 : Ref sig .tc := ⟨.hbm, 524, rfl⟩
abbrev main_call46_v0 : Ref sig .tc := ⟨.hbm, 525, rfl⟩
abbrev main_v334 : Ref sig .tc := ⟨.hbm, 526, rfl⟩
abbrev main_v335 : Ref sig .tc := ⟨.hbm, 527, rfl⟩
abbrev main_v336 : Ref sig .tc := ⟨.hbm, 528, rfl⟩
abbrev main_v337 : Ref sig .tc := ⟨.hbm, 529, rfl⟩
abbrev main_v338 : Ref sig .tc := ⟨.hbm, 530, rfl⟩
abbrev main_v339 : Ref sig .tc := ⟨.hbm, 531, rfl⟩
abbrev main_v340 : Ref sig .tc := ⟨.hbm, 532, rfl⟩
abbrev main_v341 : Ref sig .tc := ⟨.hbm, 533, rfl⟩
abbrev main_v342 : Ref sig .tc := ⟨.hbm, 534, rfl⟩
abbrev main_v343 : Ref sig .tc := ⟨.hbm, 535, rfl⟩
abbrev main_v344 : Ref sig .tc := ⟨.hbm, 536, rfl⟩
abbrev main_v345 : Ref sig .tc := ⟨.hbm, 537, rfl⟩
abbrev main_v346 : Ref sig .tc := ⟨.hbm, 538, rfl⟩
abbrev main_v347 : Ref sig .tc := ⟨.hbm, 539, rfl⟩
abbrev main_v348 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_v355 : Ref sig .tc := ⟨.hbm, 547, rfl⟩
abbrev main_v356 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩
abbrev main_v362 : Ref sig .tc := ⟨.hbm, 554, rfl⟩
abbrev main_v363 : Ref sig .tc := ⟨.hbm, 555, rfl⟩
abbrev main_v364 : Ref sig .tc := ⟨.hbm, 556, rfl⟩
abbrev main_v365 : Ref sig .tc := ⟨.hbm, 557, rfl⟩
abbrev main_v366 : Ref sig .tc := ⟨.hbm, 558, rfl⟩
abbrev main_v367 : Ref sig .tc := ⟨.hbm, 559, rfl⟩
abbrev main_v368 : Ref sig .tc := ⟨.hbm, 560, rfl⟩
abbrev main_v369 : Ref sig .tc := ⟨.hbm, 561, rfl⟩
abbrev main_v370 : Ref sig .tc := ⟨.hbm, 562, rfl⟩
abbrev main_v371 : Ref sig .tc := ⟨.hbm, 563, rfl⟩
abbrev main_v372 : Ref sig .tc := ⟨.hbm, 564, rfl⟩
abbrev main_v373 : Ref sig .tc := ⟨.hbm, 565, rfl⟩
abbrev main_v374 : Ref sig .tc := ⟨.hbm, 566, rfl⟩
abbrev main_v375 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_v379 : Ref sig .tc := ⟨.hbm, 571, rfl⟩
abbrev main_v380 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩
abbrev main_v385 : Ref sig .tc := ⟨.hbm, 577, rfl⟩
abbrev main_v386 : Ref sig .tc := ⟨.hbm, 578, rfl⟩

abbrev nD : Nat := 1
abbrev τ : Topo := Topo.v7x

variable {F : FTy → Type} [FloatOps F]

class Facts₀ : Prop where
  shapeCasts_S2x320x128x240_S2x40x8x128x240 : S2x320x128x240.ShapeCasts S2x40x8x128x240
  reducesTo_S2x40x8x128x240_S2x40x128x240_d2 : S2x40x8x128x240.ReducesTo [2] S2x40x128x240
  h_S_ : 0 < S_.numel
  bcast_S_S2x40x128x240 : S_.BroadcastsInDim S2x40x128x240 (![] : Fin 0 → Fin S2x40x128x240.rank)
  slices_S2x40x8x128x240_S2x40x8x128x239_0_0_0_0_1 : S2x40x8x128x240.Slices ![0, 0, 0, 0, 1] S2x40x8x128x239
  slices_S2x40x8x128x240_S2x40x8x128x239_0_0_0_0_0 : S2x40x8x128x240.Slices ![0, 0, 0, 0, 0] S2x40x8x128x239
  reducesTo_S2x40x8x128x239_S2x40x128x239_d2 : S2x40x8x128x239.ReducesTo [2] S2x40x128x239
  bcast_S_S2x40x128x239 : S_.BroadcastsInDim S2x40x128x239 (![] : Fin 0 → Fin S2x40x128x239.rank)
  pads_S2x40x128x239_S2x40x128x240_000_000_000_100 : S2x40x128x239.Pads (![0, 0, 0, 1] : Fin 4 → Nat) ![0, 0, 0, 0] ![0, 0, 0, 0] S2x40x128x240
  slices_S2x40x8x128x240_S2x40x8x128x238_0_0_0_0_2 : S2x40x8x128x240.Slices ![0, 0, 0, 0, 2] S2x40x8x128x238
  slices_S2x40x8x128x240_S2x40x8x128x238_0_0_0_0_0 : S2x40x8x128x240.Slices ![0, 0, 0, 0, 0] S2x40x8x128x238
  reducesTo_S2x40x8x128x238_S2x40x128x238_d2 : S2x40x8x128x238.ReducesTo [2] S2x40x128x238
  bcast_S_S2x40x128x238 : S_.BroadcastsInDim S2x40x128x238 (![] : Fin 0 → Fin S2x40x128x238.rank)
  pads_S2x40x128x238_S2x40x128x240_000_000_000_200 : S2x40x128x238.Pads (![0, 0, 0, 2] : Fin 4 → Nat) ![0, 0, 0, 0] ![0, 0, 0, 0] S2x40x128x240
  slices_S2x40x8x128x240_S2x40x8x128x237_0_0_0_0_3 : S2x40x8x128x240.Slices ![0, 0, 0, 0, 3] S2x40x8x128x237
  slices_S2x40x8x128x240_S2x40x8x128x237_0_0_0_0_0 : S2x40x8x128x240.Slices ![0, 0, 0, 0, 0] S2x40x8x128x237
  reducesTo_S2x40x8x128x237_S2x40x128x237_d2 : S2x40x8x128x237.ReducesTo [2] S2x40x128x237
  bcast_S_S2x40x128x237 : S_.BroadcastsInDim S2x40x128x237 (![] : Fin 0 → Fin S2x40x128x237.rank)
  pads_S2x40x128x237_S2x40x128x240_000_000_000_300 : S2x40x128x237.Pads (![0, 0, 0, 3] : Fin 4 → Nat) ![0, 0, 0, 0] ![0, 0, 0, 0] S2x40x128x240
  slices_S2x40x8x128x240_S2x40x8x128x236_0_0_0_0_4 : S2x40x8x128x240.Slices ![0, 0, 0, 0, 4] S2x40x8x128x236
  slices_S2x40x8x128x240_S2x40x8x128x236_0_0_0_0_0 : S2x40x8x128x240.Slices ![0, 0, 0, 0, 0] S2x40x8x128x236
  reducesTo_S2x40x8x128x236_S2x40x128x236_d2 : S2x40x8x128x236.ReducesTo [2] S2x40x128x236
  bcast_S_S2x40x128x236 : S_.BroadcastsInDim S2x40x128x236 (![] : Fin 0 → Fin S2x40x128x236.rank)
  pads_S2x40x128x236_S2x40x128x240_000_000_000_400 : S2x40x128x236.Pads (![0, 0, 0, 4] : Fin 4 → Nat) ![0, 0, 0, 0] ![0, 0, 0, 0] S2x40x128x240
  slices_S2x40x8x128x240_S2x40x8x128x235_0_0_0_0_5 : S2x40x8x128x240.Slices ![0, 0, 0, 0, 5] S2x40x8x128x235
  slices_S2x40x8x128x240_S2x40x8x128x235_0_0_0_0_0 : S2x40x8x128x240.Slices ![0, 0, 0, 0, 0] S2x40x8x128x235
  reducesTo_S2x40x8x128x235_S2x40x128x235_d2 : S2x40x8x128x235.ReducesTo [2] S2x40x128x235
  bcast_S_S2x40x128x235 : S_.BroadcastsInDim S2x40x128x235 (![] : Fin 0 → Fin S2x40x128x235.rank)
  pads_S2x40x128x235_S2x40x128x240_000_000_000_500 : S2x40x128x235.Pads (![0, 0, 0, 5] : Fin 4 → Nat) ![0, 0, 0, 0] ![0, 0, 0, 0] S2x40x128x240
  slices_S2x40x8x128x240_S2x40x8x128x234_0_0_0_0_6 : S2x40x8x128x240.Slices ![0, 0, 0, 0, 6] S2x40x8x128x234
  slices_S2x40x8x128x240_S2x40x8x128x234_0_0_0_0_0 : S2x40x8x128x240.Slices ![0, 0, 0, 0, 0] S2x40x8x128x234
  reducesTo_S2x40x8x128x234_S2x40x128x234_d2 : S2x40x8x128x234.ReducesTo [2] S2x40x128x234
  bcast_S_S2x40x128x234 : S_.BroadcastsInDim S2x40x128x234 (![] : Fin 0 → Fin S2x40x128x234.rank)
  pads_S2x40x128x234_S2x40x128x240_000_000_000_600 : S2x40x128x234.Pads (![0, 0, 0, 6] : Fin 4 → Nat) ![0, 0, 0, 0] ![0, 0, 0, 0] S2x40x128x240
  slices_S2x40x8x128x240_S2x40x8x128x233_0_0_0_0_7 : S2x40x8x128x240.Slices ![0, 0, 0, 0, 7] S2x40x8x128x233
  slices_S2x40x8x128x240_S2x40x8x128x233_0_0_0_0_0 : S2x40x8x128x240.Slices ![0, 0, 0, 0, 0] S2x40x8x128x233
  reducesTo_S2x40x8x128x233_S2x40x128x233_d2 : S2x40x8x128x233.ReducesTo [2] S2x40x128x233
  bcast_S_S2x40x128x233 : S_.BroadcastsInDim S2x40x128x233 (![] : Fin 0 → Fin S2x40x128x233.rank)
  pads_S2x40x128x233_S2x40x128x240_000_000_000_700 : S2x40x128x233.Pads (![0, 0, 0, 7] : Fin 4 → Nat) ![0, 0, 0, 0] ![0, 0, 0, 0] S2x40x128x240
  slices_S2x40x8x128x240_S2x40x8x128x232_0_0_0_0_8 : S2x40x8x128x240.Slices ![0, 0, 0, 0, 8] S2x40x8x128x232
  slices_S2x40x8x128x240_S2x40x8x128x232_0_0_0_0_0 : S2x40x8x128x240.Slices ![0, 0, 0, 0, 0] S2x40x8x128x232
  reducesTo_S2x40x8x128x232_S2x40x128x232_d2 : S2x40x8x128x232.ReducesTo [2] S2x40x128x232
  bcast_S_S2x40x128x232 : S_.BroadcastsInDim S2x40x128x232 (![] : Fin 0 → Fin S2x40x128x232.rank)
  pads_S2x40x128x232_S2x40x128x240_000_000_000_800 : S2x40x128x232.Pads (![0, 0, 0, 8] : Fin 4 → Nat) ![0, 0, 0, 0] ![0, 0, 0, 0] S2x40x128x240
  slices_S2x40x8x128x240_S2x40x8x128x231_0_0_0_0_9 : S2x40x8x128x240.Slices ![0, 0, 0, 0, 9] S2x40x8x128x231
  slices_S2x40x8x128x240_S2x40x8x128x231_0_0_0_0_0 : S2x40x8x128x240.Slices ![0, 0, 0, 0, 0] S2x40x8x128x231
  reducesTo_S2x40x8x128x231_S2x40x128x231_d2 : S2x40x8x128x231.ReducesTo [2] S2x40x128x231
  bcast_S_S2x40x128x231 : S_.BroadcastsInDim S2x40x128x231 (![] : Fin 0 → Fin S2x40x128x231.rank)
  pads_S2x40x128x231_S2x40x128x240_000_000_000_900 : S2x40x128x231.Pads (![0, 0, 0, 9] : Fin 4 → Nat) ![0, 0, 0, 0] ![0, 0, 0, 0] S2x40x128x240
  slices_S2x40x8x128x240_S2x40x8x128x230_0_0_0_0_10 : S2x40x8x128x240.Slices ![0, 0, 0, 0, 10] S2x40x8x128x230
  slices_S2x40x8x128x240_S2x40x8x128x230_0_0_0_0_0 : S2x40x8x128x240.Slices ![0, 0, 0, 0, 0] S2x40x8x128x230
  reducesTo_S2x40x8x128x230_S2x40x128x230_d2 : S2x40x8x128x230.ReducesTo [2] S2x40x128x230
  bcast_S_S2x40x128x230 : S_.BroadcastsInDim S2x40x128x230 (![] : Fin 0 → Fin S2x40x128x230.rank)
  pads_S2x40x128x230_S2x40x128x240_000_000_000_1000 : S2x40x128x230.Pads (![0, 0, 0, 10] : Fin 4 → Nat) ![0, 0, 0, 0] ![0, 0, 0, 0] S2x40x128x240
  slices_S2x40x8x128x240_S2x40x8x128x229_0_0_0_0_11 : S2x40x8x128x240.Slices ![0, 0, 0, 0, 11] S2x40x8x128x229
  slices_S2x40x8x128x240_S2x40x8x128x229_0_0_0_0_0 : S2x40x8x128x240.Slices ![0, 0, 0, 0, 0] S2x40x8x128x229
  reducesTo_S2x40x8x128x229_S2x40x128x229_d2 : S2x40x8x128x229.ReducesTo [2] S2x40x128x229
  bcast_S_S2x40x128x229 : S_.BroadcastsInDim S2x40x128x229 (![] : Fin 0 → Fin S2x40x128x229.rank)
  pads_S2x40x128x229_S2x40x128x240_000_000_000_1100 : S2x40x128x229.Pads (![0, 0, 0, 11] : Fin 4 → Nat) ![0, 0, 0, 0] ![0, 0, 0, 0] S2x40x128x240
  slices_S2x40x8x128x240_S2x40x8x128x228_0_0_0_0_12 : S2x40x8x128x240.Slices ![0, 0, 0, 0, 12] S2x40x8x128x228
  slices_S2x40x8x128x240_S2x40x8x128x228_0_0_0_0_0 : S2x40x8x128x240.Slices ![0, 0, 0, 0, 0] S2x40x8x128x228
  reducesTo_S2x40x8x128x228_S2x40x128x228_d2 : S2x40x8x128x228.ReducesTo [2] S2x40x128x228
  bcast_S_S2x40x128x228 : S_.BroadcastsInDim S2x40x128x228 (![] : Fin 0 → Fin S2x40x128x228.rank)
  pads_S2x40x128x228_S2x40x128x240_000_000_000_1200 : S2x40x128x228.Pads (![0, 0, 0, 12] : Fin 4 → Nat) ![0, 0, 0, 0] ![0, 0, 0, 0] S2x40x128x240
  slices_S2x40x8x128x240_S2x40x8x128x227_0_0_0_0_13 : S2x40x8x128x240.Slices ![0, 0, 0, 0, 13] S2x40x8x128x227
  slices_S2x40x8x128x240_S2x40x8x128x227_0_0_0_0_0 : S2x40x8x128x240.Slices ![0, 0, 0, 0, 0] S2x40x8x128x227
  reducesTo_S2x40x8x128x227_S2x40x128x227_d2 : S2x40x8x128x227.ReducesTo [2] S2x40x128x227
  bcast_S_S2x40x128x227 : S_.BroadcastsInDim S2x40x128x227 (![] : Fin 0 → Fin S2x40x128x227.rank)
  pads_S2x40x128x227_S2x40x128x240_000_000_000_1300 : S2x40x128x227.Pads (![0, 0, 0, 13] : Fin 4 → Nat) ![0, 0, 0, 0] ![0, 0, 0, 0] S2x40x128x240
  slices_S2x40x8x128x240_S2x40x8x128x226_0_0_0_0_14 : S2x40x8x128x240.Slices ![0, 0, 0, 0, 14] S2x40x8x128x226
  slices_S2x40x8x128x240_S2x40x8x128x226_0_0_0_0_0 : S2x40x8x128x240.Slices ![0, 0, 0, 0, 0] S2x40x8x128x226
  reducesTo_S2x40x8x128x226_S2x40x128x226_d2 : S2x40x8x128x226.ReducesTo [2] S2x40x128x226
  bcast_S_S2x40x128x226 : S_.BroadcastsInDim S2x40x128x226 (![] : Fin 0 → Fin S2x40x128x226.rank)
  pads_S2x40x128x226_S2x40x128x240_000_000_000_1400 : S2x40x128x226.Pads (![0, 0, 0, 14] : Fin 4 → Nat) ![0, 0, 0, 0] ![0, 0, 0, 0] S2x40x128x240
  slices_S2x40x8x128x240_S2x40x8x128x225_0_0_0_0_15 : S2x40x8x128x240.Slices ![0, 0, 0, 0, 15] S2x40x8x128x225
  slices_S2x40x8x128x240_S2x40x8x128x225_0_0_0_0_0 : S2x40x8x128x240.Slices ![0, 0, 0, 0, 0] S2x40x8x128x225
  reducesTo_S2x40x8x128x225_S2x40x128x225_d2 : S2x40x8x128x225.ReducesTo [2] S2x40x128x225
  bcast_S_S2x40x128x225 : S_.BroadcastsInDim S2x40x128x225 (![] : Fin 0 → Fin S2x40x128x225.rank)
  pads_S2x40x128x225_S2x40x128x240_000_000_000_1500 : S2x40x128x225.Pads (![0, 0, 0, 15] : Fin 4 → Nat) ![0, 0, 0, 0] ![0, 0, 0, 0] S2x40x128x240
  slices_S2x40x8x128x240_S2x40x8x128x224_0_0_0_0_16 : S2x40x8x128x240.Slices ![0, 0, 0, 0, 16] S2x40x8x128x224
  slices_S2x40x8x128x240_S2x40x8x128x224_0_0_0_0_0 : S2x40x8x128x240.Slices ![0, 0, 0, 0, 0] S2x40x8x128x224
  reducesTo_S2x40x8x128x224_S2x40x128x224_d2 : S2x40x8x128x224.ReducesTo [2] S2x40x128x224
  bcast_S_S2x40x128x224 : S_.BroadcastsInDim S2x40x128x224 (![] : Fin 0 → Fin S2x40x128x224.rank)
  pads_S2x40x128x224_S2x40x128x240_000_000_000_1600 : S2x40x128x224.Pads (![0, 0, 0, 16] : Fin 4 → Nat) ![0, 0, 0, 0] ![0, 0, 0, 0] S2x40x128x240
  slices_S2x40x8x128x240_S2x40x8x128x223_0_0_0_0_17 : S2x40x8x128x240.Slices ![0, 0, 0, 0, 17] S2x40x8x128x223
  slices_S2x40x8x128x240_S2x40x8x128x223_0_0_0_0_0 : S2x40x8x128x240.Slices ![0, 0, 0, 0, 0] S2x40x8x128x223
  reducesTo_S2x40x8x128x223_S2x40x128x223_d2 : S2x40x8x128x223.ReducesTo [2] S2x40x128x223
  bcast_S_S2x40x128x223 : S_.BroadcastsInDim S2x40x128x223 (![] : Fin 0 → Fin S2x40x128x223.rank)
  pads_S2x40x128x223_S2x40x128x240_000_000_000_1700 : S2x40x128x223.Pads (![0, 0, 0, 17] : Fin 4 → Nat) ![0, 0, 0, 0] ![0, 0, 0, 0] S2x40x128x240
  slices_S2x40x8x128x240_S2x40x8x128x222_0_0_0_0_18 : S2x40x8x128x240.Slices ![0, 0, 0, 0, 18] S2x40x8x128x222
  slices_S2x40x8x128x240_S2x40x8x128x222_0_0_0_0_0 : S2x40x8x128x240.Slices ![0, 0, 0, 0, 0] S2x40x8x128x222
  reducesTo_S2x40x8x128x222_S2x40x128x222_d2 : S2x40x8x128x222.ReducesTo [2] S2x40x128x222
  bcast_S_S2x40x128x222 : S_.BroadcastsInDim S2x40x128x222 (![] : Fin 0 → Fin S2x40x128x222.rank)
  pads_S2x40x128x222_S2x40x128x240_000_000_000_1800 : S2x40x128x222.Pads (![0, 0, 0, 18] : Fin 4 → Nat) ![0, 0, 0, 0] ![0, 0, 0, 0] S2x40x128x240
  slices_S2x40x8x128x240_S2x40x8x128x221_0_0_0_0_19 : S2x40x8x128x240.Slices ![0, 0, 0, 0, 19] S2x40x8x128x221
  slices_S2x40x8x128x240_S2x40x8x128x221_0_0_0_0_0 : S2x40x8x128x240.Slices ![0, 0, 0, 0, 0] S2x40x8x128x221
  reducesTo_S2x40x8x128x221_S2x40x128x221_d2 : S2x40x8x128x221.ReducesTo [2] S2x40x128x221
  bcast_S_S2x40x128x221 : S_.BroadcastsInDim S2x40x128x221 (![] : Fin 0 → Fin S2x40x128x221.rank)
  pads_S2x40x128x221_S2x40x128x240_000_000_000_1900 : S2x40x128x221.Pads (![0, 0, 0, 19] : Fin 4 → Nat) ![0, 0, 0, 0] ![0, 0, 0, 0] S2x40x128x240
  slices_S2x40x8x128x240_S2x40x8x128x220_0_0_0_0_20 : S2x40x8x128x240.Slices ![0, 0, 0, 0, 20] S2x40x8x128x220
  slices_S2x40x8x128x240_S2x40x8x128x220_0_0_0_0_0 : S2x40x8x128x240.Slices ![0, 0, 0, 0, 0] S2x40x8x128x220
  reducesTo_S2x40x8x128x220_S2x40x128x220_d2 : S2x40x8x128x220.ReducesTo [2] S2x40x128x220
  bcast_S_S2x40x128x220 : S_.BroadcastsInDim S2x40x128x220 (![] : Fin 0 → Fin S2x40x128x220.rank)
  pads_S2x40x128x220_S2x40x128x240_000_000_000_2000 : S2x40x128x220.Pads (![0, 0, 0, 20] : Fin 4 → Nat) ![0, 0, 0, 0] ![0, 0, 0, 0] S2x40x128x240
  slices_S2x40x8x128x240_S2x40x8x128x219_0_0_0_0_21 : S2x40x8x128x240.Slices ![0, 0, 0, 0, 21] S2x40x8x128x219
  slices_S2x40x8x128x240_S2x40x8x128x219_0_0_0_0_0 : S2x40x8x128x240.Slices ![0, 0, 0, 0, 0] S2x40x8x128x219
  reducesTo_S2x40x8x128x219_S2x40x128x219_d2 : S2x40x8x128x219.ReducesTo [2] S2x40x128x219
  bcast_S_S2x40x128x219 : S_.BroadcastsInDim S2x40x128x219 (![] : Fin 0 → Fin S2x40x128x219.rank)
  pads_S2x40x128x219_S2x40x128x240_000_000_000_2100 : S2x40x128x219.Pads (![0, 0, 0, 21] : Fin 4 → Nat) ![0, 0, 0, 0] ![0, 0, 0, 0] S2x40x128x240
  slices_S2x40x8x128x240_S2x40x8x128x218_0_0_0_0_22 : S2x40x8x128x240.Slices ![0, 0, 0, 0, 22] S2x40x8x128x218
  slices_S2x40x8x128x240_S2x40x8x128x218_0_0_0_0_0 : S2x40x8x128x240.Slices ![0, 0, 0, 0, 0] S2x40x8x128x218
  reducesTo_S2x40x8x128x218_S2x40x128x218_d2 : S2x40x8x128x218.ReducesTo [2] S2x40x128x218
  bcast_S_S2x40x128x218 : S_.BroadcastsInDim S2x40x128x218 (![] : Fin 0 → Fin S2x40x128x218.rank)
  pads_S2x40x128x218_S2x40x128x240_000_000_000_2200 : S2x40x128x218.Pads (![0, 0, 0, 22] : Fin 4 → Nat) ![0, 0, 0, 0] ![0, 0, 0, 0] S2x40x128x240
  slices_S2x40x8x128x240_S2x40x8x128x217_0_0_0_0_23 : S2x40x8x128x240.Slices ![0, 0, 0, 0, 23] S2x40x8x128x217
  slices_S2x40x8x128x240_S2x40x8x128x217_0_0_0_0_0 : S2x40x8x128x240.Slices ![0, 0, 0, 0, 0] S2x40x8x128x217
  reducesTo_S2x40x8x128x217_S2x40x128x217_d2 : S2x40x8x128x217.ReducesTo [2] S2x40x128x217
  bcast_S_S2x40x128x217 : S_.BroadcastsInDim S2x40x128x217 (![] : Fin 0 → Fin S2x40x128x217.rank)
  pads_S2x40x128x217_S2x40x128x240_000_000_000_2300 : S2x40x128x217.Pads (![0, 0, 0, 23] : Fin 4 → Nat) ![0, 0, 0, 0] ![0, 0, 0, 0] S2x40x128x240
  slices_S2x40x8x128x240_S2x40x8x128x216_0_0_0_0_24 : S2x40x8x128x240.Slices ![0, 0, 0, 0, 24] S2x40x8x128x216
  slices_S2x40x8x128x240_S2x40x8x128x216_0_0_0_0_0 : S2x40x8x128x240.Slices ![0, 0, 0, 0, 0] S2x40x8x128x216
  reducesTo_S2x40x8x128x216_S2x40x128x216_d2 : S2x40x8x128x216.ReducesTo [2] S2x40x128x216
  bcast_S_S2x40x128x216 : S_.BroadcastsInDim S2x40x128x216 (![] : Fin 0 → Fin S2x40x128x216.rank)
  pads_S2x40x128x216_S2x40x128x240_000_000_000_2400 : S2x40x128x216.Pads (![0, 0, 0, 24] : Fin 4 → Nat) ![0, 0, 0, 0] ![0, 0, 0, 0] S2x40x128x240
  slices_S2x40x8x128x240_S2x40x8x128x215_0_0_0_0_25 : S2x40x8x128x240.Slices ![0, 0, 0, 0, 25] S2x40x8x128x215
  slices_S2x40x8x128x240_S2x40x8x128x215_0_0_0_0_0 : S2x40x8x128x240.Slices ![0, 0, 0, 0, 0] S2x40x8x128x215
  reducesTo_S2x40x8x128x215_S2x40x128x215_d2 : S2x40x8x128x215.ReducesTo [2] S2x40x128x215
  bcast_S_S2x40x128x215 : S_.BroadcastsInDim S2x40x128x215 (![] : Fin 0 → Fin S2x40x128x215.rank)
  pads_S2x40x128x215_S2x40x128x240_000_000_000_2500 : S2x40x128x215.Pads (![0, 0, 0, 25] : Fin 4 → Nat) ![0, 0, 0, 0] ![0, 0, 0, 0] S2x40x128x240
  slices_S2x40x8x128x240_S2x40x8x128x214_0_0_0_0_26 : S2x40x8x128x240.Slices ![0, 0, 0, 0, 26] S2x40x8x128x214
  slices_S2x40x8x128x240_S2x40x8x128x214_0_0_0_0_0 : S2x40x8x128x240.Slices ![0, 0, 0, 0, 0] S2x40x8x128x214
  reducesTo_S2x40x8x128x214_S2x40x128x214_d2 : S2x40x8x128x214.ReducesTo [2] S2x40x128x214
  bcast_S_S2x40x128x214 : S_.BroadcastsInDim S2x40x128x214 (![] : Fin 0 → Fin S2x40x128x214.rank)
  pads_S2x40x128x214_S2x40x128x240_000_000_000_2600 : S2x40x128x214.Pads (![0, 0, 0, 26] : Fin 4 → Nat) ![0, 0, 0, 0] ![0, 0, 0, 0] S2x40x128x240
  slices_S2x40x8x128x240_S2x40x8x128x213_0_0_0_0_27 : S2x40x8x128x240.Slices ![0, 0, 0, 0, 27] S2x40x8x128x213
  slices_S2x40x8x128x240_S2x40x8x128x213_0_0_0_0_0 : S2x40x8x128x240.Slices ![0, 0, 0, 0, 0] S2x40x8x128x213
  reducesTo_S2x40x8x128x213_S2x40x128x213_d2 : S2x40x8x128x213.ReducesTo [2] S2x40x128x213
  bcast_S_S2x40x128x213 : S_.BroadcastsInDim S2x40x128x213 (![] : Fin 0 → Fin S2x40x128x213.rank)
  pads_S2x40x128x213_S2x40x128x240_000_000_000_2700 : S2x40x128x213.Pads (![0, 0, 0, 27] : Fin 4 → Nat) ![0, 0, 0, 0] ![0, 0, 0, 0] S2x40x128x240
  slices_S2x40x8x128x240_S2x40x8x128x212_0_0_0_0_28 : S2x40x8x128x240.Slices ![0, 0, 0, 0, 28] S2x40x8x128x212
  slices_S2x40x8x128x240_S2x40x8x128x212_0_0_0_0_0 : S2x40x8x128x240.Slices ![0, 0, 0, 0, 0] S2x40x8x128x212
  reducesTo_S2x40x8x128x212_S2x40x128x212_d2 : S2x40x8x128x212.ReducesTo [2] S2x40x128x212
  bcast_S_S2x40x128x212 : S_.BroadcastsInDim S2x40x128x212 (![] : Fin 0 → Fin S2x40x128x212.rank)
  pads_S2x40x128x212_S2x40x128x240_000_000_000_2800 : S2x40x128x212.Pads (![0, 0, 0, 28] : Fin 4 → Nat) ![0, 0, 0, 0] ![0, 0, 0, 0] S2x40x128x240
  slices_S2x40x8x128x240_S2x40x8x128x211_0_0_0_0_29 : S2x40x8x128x240.Slices ![0, 0, 0, 0, 29] S2x40x8x128x211
  slices_S2x40x8x128x240_S2x40x8x128x211_0_0_0_0_0 : S2x40x8x128x240.Slices ![0, 0, 0, 0, 0] S2x40x8x128x211
  reducesTo_S2x40x8x128x211_S2x40x128x211_d2 : S2x40x8x128x211.ReducesTo [2] S2x40x128x211
  bcast_S_S2x40x128x211 : S_.BroadcastsInDim S2x40x128x211 (![] : Fin 0 → Fin S2x40x128x211.rank)
  pads_S2x40x128x211_S2x40x128x240_000_000_000_2900 : S2x40x128x211.Pads (![0, 0, 0, 29] : Fin 4 → Nat) ![0, 0, 0, 0] ![0, 0, 0, 0] S2x40x128x240
  slices_S2x40x8x128x240_S2x40x8x128x210_0_0_0_0_30 : S2x40x8x128x240.Slices ![0, 0, 0, 0, 30] S2x40x8x128x210
  slices_S2x40x8x128x240_S2x40x8x128x210_0_0_0_0_0 : S2x40x8x128x240.Slices ![0, 0, 0, 0, 0] S2x40x8x128x210
  reducesTo_S2x40x8x128x210_S2x40x128x210_d2 : S2x40x8x128x210.ReducesTo [2] S2x40x128x210
  bcast_S_S2x40x128x210 : S_.BroadcastsInDim S2x40x128x210 (![] : Fin 0 → Fin S2x40x128x210.rank)
  pads_S2x40x128x210_S2x40x128x240_000_000_000_3000 : S2x40x128x210.Pads (![0, 0, 0, 30] : Fin 4 → Nat) ![0, 0, 0, 0] ![0, 0, 0, 0] S2x40x128x240
  slices_S2x40x8x128x240_S2x40x8x128x209_0_0_0_0_31 : S2x40x8x128x240.Slices ![0, 0, 0, 0, 31] S2x40x8x128x209
  slices_S2x40x8x128x240_S2x40x8x128x209_0_0_0_0_0 : S2x40x8x128x240.Slices ![0, 0, 0, 0, 0] S2x40x8x128x209
  reducesTo_S2x40x8x128x209_S2x40x128x209_d2 : S2x40x8x128x209.ReducesTo [2] S2x40x128x209
  bcast_S_S2x40x128x209 : S_.BroadcastsInDim S2x40x128x209 (![] : Fin 0 → Fin S2x40x128x209.rank)
  pads_S2x40x128x209_S2x40x128x240_000_000_000_3100 : S2x40x128x209.Pads (![0, 0, 0, 31] : Fin 4 → Nat) ![0, 0, 0, 0] ![0, 0, 0, 0] S2x40x128x240
  slices_S2x40x8x128x240_S2x40x8x128x208_0_0_0_0_32 : S2x40x8x128x240.Slices ![0, 0, 0, 0, 32] S2x40x8x128x208
  slices_S2x40x8x128x240_S2x40x8x128x208_0_0_0_0_0 : S2x40x8x128x240.Slices ![0, 0, 0, 0, 0] S2x40x8x128x208
  reducesTo_S2x40x8x128x208_S2x40x128x208_d2 : S2x40x8x128x208.ReducesTo [2] S2x40x128x208
  bcast_S_S2x40x128x208 : S_.BroadcastsInDim S2x40x128x208 (![] : Fin 0 → Fin S2x40x128x208.rank)
  pads_S2x40x128x208_S2x40x128x240_000_000_000_3200 : S2x40x128x208.Pads (![0, 0, 0, 32] : Fin 4 → Nat) ![0, 0, 0, 0] ![0, 0, 0, 0] S2x40x128x240
  slices_S2x40x8x128x240_S2x40x8x128x207_0_0_0_0_33 : S2x40x8x128x240.Slices ![0, 0, 0, 0, 33] S2x40x8x128x207
  slices_S2x40x8x128x240_S2x40x8x128x207_0_0_0_0_0 : S2x40x8x128x240.Slices ![0, 0, 0, 0, 0] S2x40x8x128x207
  reducesTo_S2x40x8x128x207_S2x40x128x207_d2 : S2x40x8x128x207.ReducesTo [2] S2x40x128x207
  bcast_S_S2x40x128x207 : S_.BroadcastsInDim S2x40x128x207 (![] : Fin 0 → Fin S2x40x128x207.rank)
  pads_S2x40x128x207_S2x40x128x240_000_000_000_3300 : S2x40x128x207.Pads (![0, 0, 0, 33] : Fin 4 → Nat) ![0, 0, 0, 0] ![0, 0, 0, 0] S2x40x128x240
  slices_S2x40x8x128x240_S2x40x8x128x206_0_0_0_0_34 : S2x40x8x128x240.Slices ![0, 0, 0, 0, 34] S2x40x8x128x206
  slices_S2x40x8x128x240_S2x40x8x128x206_0_0_0_0_0 : S2x40x8x128x240.Slices ![0, 0, 0, 0, 0] S2x40x8x128x206
  reducesTo_S2x40x8x128x206_S2x40x128x206_d2 : S2x40x8x128x206.ReducesTo [2] S2x40x128x206
  bcast_S_S2x40x128x206 : S_.BroadcastsInDim S2x40x128x206 (![] : Fin 0 → Fin S2x40x128x206.rank)
  pads_S2x40x128x206_S2x40x128x240_000_000_000_3400 : S2x40x128x206.Pads (![0, 0, 0, 34] : Fin 4 → Nat) ![0, 0, 0, 0] ![0, 0, 0, 0] S2x40x128x240
  slices_S2x40x8x128x240_S2x40x8x128x205_0_0_0_0_35 : S2x40x8x128x240.Slices ![0, 0, 0, 0, 35] S2x40x8x128x205
  slices_S2x40x8x128x240_S2x40x8x128x205_0_0_0_0_0 : S2x40x8x128x240.Slices ![0, 0, 0, 0, 0] S2x40x8x128x205
  reducesTo_S2x40x8x128x205_S2x40x128x205_d2 : S2x40x8x128x205.ReducesTo [2] S2x40x128x205
  bcast_S_S2x40x128x205 : S_.BroadcastsInDim S2x40x128x205 (![] : Fin 0 → Fin S2x40x128x205.rank)
  pads_S2x40x128x205_S2x40x128x240_000_000_000_3500 : S2x40x128x205.Pads (![0, 0, 0, 35] : Fin 4 → Nat) ![0, 0, 0, 0] ![0, 0, 0, 0] S2x40x128x240
  slices_S2x40x8x128x240_S2x40x8x128x204_0_0_0_0_36 : S2x40x8x128x240.Slices ![0, 0, 0, 0, 36] S2x40x8x128x204
  slices_S2x40x8x128x240_S2x40x8x128x204_0_0_0_0_0 : S2x40x8x128x240.Slices ![0, 0, 0, 0, 0] S2x40x8x128x204
  reducesTo_S2x40x8x128x204_S2x40x128x204_d2 : S2x40x8x128x204.ReducesTo [2] S2x40x128x204
  bcast_S_S2x40x128x204 : S_.BroadcastsInDim S2x40x128x204 (![] : Fin 0 → Fin S2x40x128x204.rank)
  pads_S2x40x128x204_S2x40x128x240_000_000_000_3600 : S2x40x128x204.Pads (![0, 0, 0, 36] : Fin 4 → Nat) ![0, 0, 0, 0] ![0, 0, 0, 0] S2x40x128x240
  slices_S2x40x8x128x240_S2x40x8x128x203_0_0_0_0_37 : S2x40x8x128x240.Slices ![0, 0, 0, 0, 37] S2x40x8x128x203
  slices_S2x40x8x128x240_S2x40x8x128x203_0_0_0_0_0 : S2x40x8x128x240.Slices ![0, 0, 0, 0, 0] S2x40x8x128x203
  reducesTo_S2x40x8x128x203_S2x40x128x203_d2 : S2x40x8x128x203.ReducesTo [2] S2x40x128x203
  bcast_S_S2x40x128x203 : S_.BroadcastsInDim S2x40x128x203 (![] : Fin 0 → Fin S2x40x128x203.rank)
  pads_S2x40x128x203_S2x40x128x240_000_000_000_3700 : S2x40x128x203.Pads (![0, 0, 0, 37] : Fin 4 → Nat) ![0, 0, 0, 0] ![0, 0, 0, 0] S2x40x128x240
  slices_S2x40x8x128x240_S2x40x8x128x202_0_0_0_0_38 : S2x40x8x128x240.Slices ![0, 0, 0, 0, 38] S2x40x8x128x202
  slices_S2x40x8x128x240_S2x40x8x128x202_0_0_0_0_0 : S2x40x8x128x240.Slices ![0, 0, 0, 0, 0] S2x40x8x128x202
  reducesTo_S2x40x8x128x202_S2x40x128x202_d2 : S2x40x8x128x202.ReducesTo [2] S2x40x128x202
  bcast_S_S2x40x128x202 : S_.BroadcastsInDim S2x40x128x202 (![] : Fin 0 → Fin S2x40x128x202.rank)
  pads_S2x40x128x202_S2x40x128x240_000_000_000_3800 : S2x40x128x202.Pads (![0, 0, 0, 38] : Fin 4 → Nat) ![0, 0, 0, 0] ![0, 0, 0, 0] S2x40x128x240
  slices_S2x40x8x128x240_S2x40x8x128x201_0_0_0_0_39 : S2x40x8x128x240.Slices ![0, 0, 0, 0, 39] S2x40x8x128x201
  slices_S2x40x8x128x240_S2x40x8x128x201_0_0_0_0_0 : S2x40x8x128x240.Slices ![0, 0, 0, 0, 0] S2x40x8x128x201
  reducesTo_S2x40x8x128x201_S2x40x128x201_d2 : S2x40x8x128x201.ReducesTo [2] S2x40x128x201
  bcast_S_S2x40x128x201 : S_.BroadcastsInDim S2x40x128x201 (![] : Fin 0 → Fin S2x40x128x201.rank)
  pads_S2x40x128x201_S2x40x128x240_000_000_000_3900 : S2x40x128x201.Pads (![0, 0, 0, 39] : Fin 4 → Nat) ![0, 0, 0, 0] ![0, 0, 0, 0] S2x40x128x240
  slices_S2x40x8x128x240_S2x40x8x128x200_0_0_0_0_40 : S2x40x8x128x240.Slices ![0, 0, 0, 0, 40] S2x40x8x128x200
  slices_S2x40x8x128x240_S2x40x8x128x200_0_0_0_0_0 : S2x40x8x128x240.Slices ![0, 0, 0, 0, 0] S2x40x8x128x200
  reducesTo_S2x40x8x128x200_S2x40x128x200_d2 : S2x40x8x128x200.ReducesTo [2] S2x40x128x200
  bcast_S_S2x40x128x200 : S_.BroadcastsInDim S2x40x128x200 (![] : Fin 0 → Fin S2x40x128x200.rank)
  pads_S2x40x128x200_S2x40x128x240_000_000_000_4000 : S2x40x128x200.Pads (![0, 0, 0, 40] : Fin 4 → Nat) ![0, 0, 0, 0] ![0, 0, 0, 0] S2x40x128x240
  slices_S2x40x8x128x240_S2x40x8x128x199_0_0_0_0_41 : S2x40x8x128x240.Slices ![0, 0, 0, 0, 41] S2x40x8x128x199
  slices_S2x40x8x128x240_S2x40x8x128x199_0_0_0_0_0 : S2x40x8x128x240.Slices ![0, 0, 0, 0, 0] S2x40x8x128x199
  reducesTo_S2x40x8x128x199_S2x40x128x199_d2 : S2x40x8x128x199.ReducesTo [2] S2x40x128x199
  bcast_S_S2x40x128x199 : S_.BroadcastsInDim S2x40x128x199 (![] : Fin 0 → Fin S2x40x128x199.rank)
  pads_S2x40x128x199_S2x40x128x240_000_000_000_4100 : S2x40x128x199.Pads (![0, 0, 0, 41] : Fin 4 → Nat) ![0, 0, 0, 0] ![0, 0, 0, 0] S2x40x128x240
  slices_S2x40x8x128x240_S2x40x8x128x198_0_0_0_0_42 : S2x40x8x128x240.Slices ![0, 0, 0, 0, 42] S2x40x8x128x198
  slices_S2x40x8x128x240_S2x40x8x128x198_0_0_0_0_0 : S2x40x8x128x240.Slices ![0, 0, 0, 0, 0] S2x40x8x128x198
  reducesTo_S2x40x8x128x198_S2x40x128x198_d2 : S2x40x8x128x198.ReducesTo [2] S2x40x128x198
  bcast_S_S2x40x128x198 : S_.BroadcastsInDim S2x40x128x198 (![] : Fin 0 → Fin S2x40x128x198.rank)
  pads_S2x40x128x198_S2x40x128x240_000_000_000_4200 : S2x40x128x198.Pads (![0, 0, 0, 42] : Fin 4 → Nat) ![0, 0, 0, 0] ![0, 0, 0, 0] S2x40x128x240
  slices_S2x40x8x128x240_S2x40x8x128x197_0_0_0_0_43 : S2x40x8x128x240.Slices ![0, 0, 0, 0, 43] S2x40x8x128x197
  slices_S2x40x8x128x240_S2x40x8x128x197_0_0_0_0_0 : S2x40x8x128x240.Slices ![0, 0, 0, 0, 0] S2x40x8x128x197
  reducesTo_S2x40x8x128x197_S2x40x128x197_d2 : S2x40x8x128x197.ReducesTo [2] S2x40x128x197
  bcast_S_S2x40x128x197 : S_.BroadcastsInDim S2x40x128x197 (![] : Fin 0 → Fin S2x40x128x197.rank)
  pads_S2x40x128x197_S2x40x128x240_000_000_000_4300 : S2x40x128x197.Pads (![0, 0, 0, 43] : Fin 4 → Nat) ![0, 0, 0, 0] ![0, 0, 0, 0] S2x40x128x240
  slices_S2x40x8x128x240_S2x40x8x128x196_0_0_0_0_44 : S2x40x8x128x240.Slices ![0, 0, 0, 0, 44] S2x40x8x128x196
  slices_S2x40x8x128x240_S2x40x8x128x196_0_0_0_0_0 : S2x40x8x128x240.Slices ![0, 0, 0, 0, 0] S2x40x8x128x196
  reducesTo_S2x40x8x128x196_S2x40x128x196_d2 : S2x40x8x128x196.ReducesTo [2] S2x40x128x196
  bcast_S_S2x40x128x196 : S_.BroadcastsInDim S2x40x128x196 (![] : Fin 0 → Fin S2x40x128x196.rank)
  pads_S2x40x128x196_S2x40x128x240_000_000_000_4400 : S2x40x128x196.Pads (![0, 0, 0, 44] : Fin 4 → Nat) ![0, 0, 0, 0] ![0, 0, 0, 0] S2x40x128x240
  slices_S2x40x8x128x240_S2x40x8x128x195_0_0_0_0_45 : S2x40x8x128x240.Slices ![0, 0, 0, 0, 45] S2x40x8x128x195
  slices_S2x40x8x128x240_S2x40x8x128x195_0_0_0_0_0 : S2x40x8x128x240.Slices ![0, 0, 0, 0, 0] S2x40x8x128x195
  reducesTo_S2x40x8x128x195_S2x40x128x195_d2 : S2x40x8x128x195.ReducesTo [2] S2x40x128x195
  bcast_S_S2x40x128x195 : S_.BroadcastsInDim S2x40x128x195 (![] : Fin 0 → Fin S2x40x128x195.rank)
  pads_S2x40x128x195_S2x40x128x240_000_000_000_4500 : S2x40x128x195.Pads (![0, 0, 0, 45] : Fin 4 → Nat) ![0, 0, 0, 0] ![0, 0, 0, 0] S2x40x128x240
  slices_S2x40x8x128x240_S2x40x8x128x194_0_0_0_0_46 : S2x40x8x128x240.Slices ![0, 0, 0, 0, 46] S2x40x8x128x194
  slices_S2x40x8x128x240_S2x40x8x128x194_0_0_0_0_0 : S2x40x8x128x240.Slices ![0, 0, 0, 0, 0] S2x40x8x128x194
  reducesTo_S2x40x8x128x194_S2x40x128x194_d2 : S2x40x8x128x194.ReducesTo [2] S2x40x128x194
  bcast_S_S2x40x128x194 : S_.BroadcastsInDim S2x40x128x194 (![] : Fin 0 → Fin S2x40x128x194.rank)
  pads_S2x40x128x194_S2x40x128x240_000_000_000_4600 : S2x40x128x194.Pads (![0, 0, 0, 46] : Fin 4 → Nat) ![0, 0, 0, 0] ![0, 0, 0, 0] S2x40x128x240
  slices_S2x40x8x128x240_S2x40x8x128x193_0_0_0_0_47 : S2x40x8x128x240.Slices ![0, 0, 0, 0, 47] S2x40x8x128x193
  slices_S2x40x8x128x240_S2x40x8x128x193_0_0_0_0_0 : S2x40x8x128x240.Slices ![0, 0, 0, 0, 0] S2x40x8x128x193
  reducesTo_S2x40x8x128x193_S2x40x128x193_d2 : S2x40x8x128x193.ReducesTo [2] S2x40x128x193
  bcast_S_S2x40x128x193 : S_.BroadcastsInDim S2x40x128x193 (![] : Fin 0 → Fin S2x40x128x193.rank)
  pads_S2x40x128x193_S2x40x128x240_000_000_000_4700 : S2x40x128x193.Pads (![0, 0, 0, 47] : Fin 4 → Nat) ![0, 0, 0, 0] ![0, 0, 0, 0] S2x40x128x240
  bcast_S2x40x128x240_S2x40x1x128x240_0_1_3_4 : S2x40x128x240.BroadcastsInDim S2x40x1x128x240 (![0, 1, 3, 4] : Fin 4 → Fin S2x40x1x128x240.rank)
  concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2 : Shape.Concatenates [S2x40x1x128x240, S2x40x1x128x240, S2x40x1x128x240, S2x40x1x128x240, S2x40x1x128x240, S2x40x1x128x240, S2x40x1x128x240, S2x40x1x128x240, S2x40x1x128x240, S2x40x1x128x240, S2x40x1x128x240, S2x40x1x128x240, S2x40x1x128x240, S2x40x1x128x240, S2x40x1x128x240, S2x40x1x128x240] S2x40x16x128x240 2
  concatenates_S2x40x16x128x240_S2x40x16x128x240_S2x40x16x128x240_S2x40x48x128x240_d2 : Shape.Concatenates [S2x40x16x128x240, S2x40x16x128x240, S2x40x16x128x240] S2x40x48x128x240 2

variable [Facts₀]

class Facts : Prop extends Facts₀ where

variable [Facts]
-- ==== Proof.Spec.lean ====
/-
  The group-wise correlation cost volume, entry by entry, over the extended reals.

  The two feature arrays have shape [2, 320, 128, 240] (batch, channel, row, column); the 320 channels are 40 groups of 8.
  The volume has shape [2, 40, 48, 128, 240] (batch, group, disparity, row, column). Its entry at disparity `d`, column `x`
  is zero when `x < d`, and otherwise the mean over the group's 8 channels of the left feature at column `x` times the
  right feature at column `x - d`: the sum of the 8 products times the real number 1/8.
-/
import Idealize.ShloMosaic.PureOps.Ideal
import Idealize.ShloMosaic.Lib.ValueIdx

noncomputable section

namespace Cert.Gwc

open Idealize.ShloMosaic Idealize.ShloMosaic.ValueIdx

/-- The shape of a feature array. -/
abbrev SFeat : Shape := ⟨4, ![2, 320, 128, 240]⟩
/-- The shape of the cost volume. -/
abbrev SVol : Shape := ⟨5, ![2, 40, 48, 128, 240]⟩

/-- Channel `k` of group `g`: the groups are runs of 8 consecutive channels. -/
def chan (g : Fin 40) (k : Fin 8) : Fin 320 := ⟨8 * g.val + k.val, by omega⟩

/-- Column `x` moved `d` columns to the left (truncated subtraction; only used where `d ≤ x`). -/
def back (x : Fin 240) (d : Nat) : Fin 240 := ⟨x.val - d, by omega⟩

/-- One entry of the cost volume. -/
def cost (L R : SFeat.Idx → EReal) (b : Fin 2) (g : Fin 40) (d : Fin 48) (h : Fin 128) (x : Fin 240) : EReal :=
  if d.val ≤ x.val then
    (∑ k : Fin 8, L (ix4 b (chan g k) h x) * R (ix4 b (chan g k) h (back x d.val))) * ((1 / 8 : ℝ) : EReal)
  else 0

/-- The whole cost volume as a function of the two feature arrays. -/
def volume (L R : SFeat.Idx → EReal) : SVol.Idx → EReal :=
  fun j => cost L R (j 0) (j 1) (j 2) (j 3) (j 4)

theorem volume_ix5 (L R : SFeat.Idx → EReal) (b : Fin 2) (g : Fin 40) (d : Fin 48) (h : Fin 128) (x : Fin 240) :
    volume L R (ix5 b g d h x) = cost L R b g d h x := rfl

theorem cost_of_le (L R : SFeat.Idx → EReal) (b : Fin 2) (g : Fin 40) (d : Fin 48) (h : Fin 128) (x : Fin 240)
    (hd : d.val ≤ x.val) :
    cost L R b g d h x
      = (∑ k : Fin 8, L (ix4 b (chan g k) h x) * R (ix4 b (chan g k) h (back x d.val))) * ((1 / 8 : ℝ) : EReal) := by
  unfold cost; rw [if_pos hd]

theorem cost_of_lt (L R : SFeat.Idx → EReal) (b : Fin 2) (g : Fin 40) (d : Fin 48) (h : Fin 128) (x : Fin 240)
    (hd : x.val < d.val) : cost L R b g d h x = 0 := by
  unfold cost; rw [if_neg (by omega)]

/-- The float word `0x3E000000` is the real number 1/8. -/
theorem ofBits_eighth : Ideal.ofBits .f32 0x3E000000#32 = ((1 / 8 : ℝ) : EReal) := by
  simp [Ideal.ofBits, Ideal.ieee, -EReal.coe_mul]; norm_num

/-- The float word `0x41000000` is the real number 8. -/
theorem ofBits_eight : Ideal.ofBits .f32 0x41000000#32 = ((8 : ℝ) : EReal) := by
  simp [Ideal.ofBits, Ideal.ieee, -EReal.coe_mul]; norm_num

/-- The float word zero is the real number 0. -/
theorem ofBits_zero : Ideal.ofBits .f32 0x00000000#32 = 0 := by
  simp [Ideal.ofBits, Ideal.ieee]

/-- Dividing by the float 8 is multiplying by the real 1/8, on every extended real. -/
theorem div_eight (s : EReal) : Ideal.div s (Ideal.ofBits .f32 0x41000000#32) = s * ((1 / 8 : ℝ) : EReal) := by
  rw [ofBits_eight]; exact Ideal.div_coe (by norm_num) s

end Cert.Gwc

end
-- ==== Proof.BlockPieces.lean ====
/-
  What the stores of one grid step leave in the output block, entry by entry.

  A block of a feature array is an [8, 128, 240] array (channel within the group, row, column). For a disparity `d`, with
  `n = 240 - d` the number of columns that have a partner `d` columns to the left, the body computes the slice: the last
  `n` columns of the left block (from column `d` on) times the first `n` columns of the right block, summed over the 8
  channels, times the float 1/8, laid out as a [1, 1, 1, 128, n] array. Read at row `r`, column `x` (of the `n`), that is
  the sum over the channels `k` of left (k, r, d + x) times right (k, r, x), times 1/8 — for every width `n` at once.

  The output block is a [1, 1, 48, 128, 240] array (disparity, row, column after two unit axes). The body first stores
  zeros over the whole block, then the disparity-0 slice, then for each disparity `d = 1 … 47` the slice of width `240 - d`
  at disparity `d`, columns `d … 239`. The stores are listed last first. An entry (d, r, c) with `d ≤ c` lies in exactly
  the store of disparity `d` and in the zero store, and the later store wins: the entry is the sum over the 8 channels
  of left (k, r, c) times right (k, r, c - d), times 1/8. An entry with `c < d` lies in the zero store only.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.Pipeline.CanonAppend
import proofs.«179842_j85048942395524_1_alg».proof.Proof.Spec

noncomputable section

namespace Cert.Gwc.Block

open Idealize.ShloMosaic Idealize.ShloMosaic.ValueIdx

/-! ## One slice read at an entry -/

/-- A block of a feature array with `n` columns. -/
abbrev W3 (n : Nat) : Shape := ⟨3, ![8, 128, n]⟩
/-- One slice with `n` columns. -/
abbrev W2 (n : Nat) : Shape := ⟨2, ![128, n]⟩
/-- The same slice with three leading unit axes. -/
abbrev W5 (n : Nat) : Shape := ⟨5, ![1, 1, 1, 128, n]⟩
/-- A block as the body loads it: one leading unit axis. -/
abbrev W4 : Shape := ⟨4, ![1, 8, 128, 240]⟩

/-- The sum over the channels of a product of two blocks of width `n`, times the float 1/8, with three unit axes added,
    read at (0, 0, 0, r, x). -/
theorem mean_apply (n : Nat) (a b : FVec Ideal (W3 n) .f32)
    (h3 : (W3 n).Reduces [0] (W2 n)) (hφ : FKind.Formats .f32)
    (hacc : (0x00000000#32 : BitVec 32) = FKind.add.neutral .f32 hφ)
    (h4 : (W2 n).ShapeCasts (W5 n)) (r : Fin 128) (x : Fin n) :
    shapeCast (W5 n) (mulf (multiReduction .add [0] (W2 n) (mulf a b) 0x00000000#32 h3 hφ hacc)
        (broadcast (W2 n) (Scalar.ofBits (F := Ideal) .f32 0x3E000000#32))) h4 (ix5 0 0 0 r x)
      = (∑ k : Fin 8, a (ix3 k r x) * b (ix3 k r x)) * Ideal.ofBits .f32 0x3E000000#32 := by
  rw [shapeCast_apply _ h4 (ix5 0 0 0 r x) (ix2 r x) (by
    rw [Shape.rowMajor_val_two, Shape.rowMajor_val_five]
    show r.val * n + x.val = ((((0 : Fin 1).val * 1 + (0 : Fin 1).val) * 1 + (0 : Fin 1).val) * 128 + r.val) * n + x.val
    simp)]
  rw [mulf_apply, broadcast_apply]
  refine congrArg (· * Ideal.ofBits .f32 0x3E000000#32) ?_
  refine (Ideal.multiReduction_add_single (mulf a b) 0x00000000#32 h3 hφ hacc (ix2 r x)).trans ?_
  refine Finset.sum_congr rfl fun (k : Fin 8) _ => ?_
  rw [mulf_apply]
  have e : h3.lift (ix2 r x) k = ix3 k r x := by
    funext c; apply Fin.ext
    match c with
    | ⟨0, _⟩ => rfl
    | ⟨1, _⟩ => rfl
    | ⟨2, _⟩ => rfl
  rw [e]

/-- The last `n` columns of a block from column `d` on, read at (k, r, x): the block at column `d + x`. -/
theorem slice_apply (n d : Nat) (v : FVec Ideal (W3 240) .f32) (h : (W3 240).Slices ![0, 0, d] (W3 n))
    (k : Fin 8) (r : Fin 128) (x : Fin n) (hx : d + x.val < 240) :
    extractStridedSlice (W3 n) ![0, 0, d] v h (ix3 k r x) = v (ix3 k r ⟨d + x.val, hx⟩) :=
  extractStridedSlice_apply ![0, 0, d] v h (ix3 k r x) (ix3 k r ⟨d + x.val, hx⟩) (fun a => match a with
    | ⟨0, _⟩ => by show k.val = 0 + k.val; omega
    | ⟨1, _⟩ => by show r.val = 0 + r.val; omega
    | ⟨2, _⟩ => by show d + x.val = d + x.val; rfl)

/-- A loaded block with its leading unit axis dropped, read at (k, r, x). -/
theorem dropUnit_apply (v : W4.Idx → EReal) (h : W4.ShapeCasts (W3 240)) (k : Fin 8) (r : Fin 128) (x : Fin 240) :
    shapeCast (W3 240) v h (ix3 k r x) = v (ix4 0 k r x) :=
  shapeCast_apply v h (ix3 k r x) (ix4 0 k r x) (by
    rw [Shape.rowMajor_val_three, Shape.rowMajor_val_four]
    show (((0 : Fin 1).val * 8 + k.val) * 128 + r.val) * 240 + x.val = (k.val * 128 + r.val) * 240 + x.val
    simp)

/-- The output block. -/
abbrev SBlk : Shape := ⟨5, ![1, 1, 48, 128, 240]⟩
/-- The output block without its unit axes. -/
abbrev SZ3 : Shape := ⟨3, ![48, 128, 240]⟩

/-! ## Stores after which an index is not covered, or covered by a block of one function -/

/-- If no store of the first list covers an index, the stores leave there what the stores before them left. -/
theorem canon_append_of_forall_not_mem {Val : EltTy → Type} {S : Shape} {e : EltTy} [∀ e, Nonempty (Val e)]
    (L' : List (View.Piece Val S e)) :
    ∀ (L : List (View.Piece Val S e)) (y : S.Idx), (∀ p ∈ L, y ∉ p.1.set) → View.canon (L ++ L') y = View.canon L' y
  | [], _, _ => rfl
  | p :: L, y, h => by
    rw [List.cons_append, View.canon_cons_of_not_mem p (L ++ L') (h p List.mem_cons_self)]
    exact canon_append_of_forall_not_mem L' L y fun q hq => h q (List.mem_cons_of_mem _ hq)

/-! ## The shape facts of each disparity's operations -/

theorem sliceL_ok : ∀ d : Fin 48, (W3 240).Slices ![0, 0, d.val] (W3 (240 - d.val)) := by decide
theorem sliceR_ok : ∀ d : Fin 48, (W3 240).Slices ![0, 0, 0] (W3 (240 - d.val)) := by decide
theorem red_ok : ∀ d : Fin 48, (W3 (240 - d.val)).Reduces [0] (W2 (240 - d.val)) := by decide
theorem cast_ok : ∀ d : Fin 48, (W2 (240 - d.val)).ShapeCasts (W5 (240 - d.val)) := by decide
theorem inb_ok : ∀ d : Fin 48, ∀ a, (![0, 0, d.val, 0, d.val] : Fin 5 → Nat) a + (W5 (240 - d.val)).size a ≤ SBlk.size a := by
  decide

/-- The shape facts of the disparity-`d` slice's operations, for `d < 48`. -/
structure Facts (d : Nat) : Prop where
  sl : (W3 240).Slices ![0, 0, d] (W3 (240 - d))
  sr : (W3 240).Slices ![0, 0, 0] (W3 (240 - d))
  red : (W3 (240 - d)).Reduces [0] (W2 (240 - d))
  cast : (W2 (240 - d)).ShapeCasts (W5 (240 - d))
  inb : ∀ a, (![0, 0, d, 0, d] : Fin 5 → Nat) a + (W5 (240 - d)).size a ≤ SBlk.size a

theorem facts (d : Nat) (h : d < 48) : Facts d :=
  ⟨sliceL_ok ⟨d, h⟩, sliceR_ok ⟨d, h⟩, red_ok ⟨d, h⟩, cast_ok ⟨d, h⟩, inb_ok ⟨d, h⟩⟩

/-! ## The stores -/

/-- The float 1/8 the body multiplies by. -/
abbrev eighth : EReal := Ideal.ofBits .f32 0x3E000000#32
/-- The float zero the body fills the block with. -/
abbrev zero : EReal := Ideal.ofBits .f32 0x00000000#32

/-- The slice the body stores at disparity `d ≥ 1`. -/
def slicePay (v5 v7 : FVec Ideal (W3 240) .f32) (d : Nat) (f : Facts d) : FVec Ideal (W5 (240 - d)) .f32 :=
  shapeCast (W5 (240 - d)) (mulf (multiReduction .add [0] (W2 (240 - d))
      (mulf (extractStridedSlice (W3 (240 - d)) ![0, 0, d] v5 f.sl) (extractStridedSlice (W3 (240 - d)) ![0, 0, 0] v7 f.sr))
      0x00000000#32 f.red (.inl rfl) rfl) (broadcast (W2 (240 - d)) (Scalar.ofBits (F := Ideal) .f32 0x3E000000#32))) f.cast

/-- The store of disparity `d ≥ 1`: columns `d … 239` of disparity `d`. -/
def slicePiece (v5 v7 : FVec Ideal (W3 240) .f32) (d : Nat) (f : Facts d) : View.Piece (Elt Ideal) SBlk .f32 :=
  ⟨Rect.unit ![0, 0, d, 0, d] (W5 (240 - d)).size f.inb, slicePay v5 v7 d f⟩

/-- The stores of disparities `d, d - 1, …, 1`, last first. -/
def slices (v5 v7 : FVec Ideal (W3 240) .f32) : (d : Nat) → d < 48 → List (View.Piece (Elt Ideal) SBlk .f32)
  | 0, _ => []
  | d + 1, h => slicePiece v5 v7 (d + 1) (facts (d + 1) h) :: slices v5 v7 d (Nat.lt_of_succ_lt h)

/-- The slice the body stores at disparity 0: no column is cut. -/
def pay0 (v5 v7 : FVec Ideal (W3 240) .f32) (h3 : (W3 240).Reduces [0] (W2 240)) (h4 : (W2 240).ShapeCasts (W5 240)) :
    FVec Ideal (W5 240) .f32 :=
  shapeCast (W5 240) (mulf (multiReduction .add [0] (W2 240) (mulf v5 v7) 0x00000000#32 h3 (.inl rfl) rfl)
    (broadcast (W2 240) (Scalar.ofBits (F := Ideal) .f32 0x3E000000#32))) h4

theorem inb0 : ∀ a, (![0, 0, 0, 0, 0] : Fin 5 → Nat) a + (W5 240).size a ≤ SBlk.size a := by decide
theorem inbZ : ∀ a, (![0, 0, 0, 0, 0] : Fin 5 → Nat) a + SBlk.size a ≤ SBlk.size a := by decide
theorem red0 : (W3 240).Reduces [0] (W2 240) := by decide
theorem cast0 : (W2 240).ShapeCasts (W5 240) := by decide
theorem castZ : SZ3.ShapeCasts SBlk := by decide

/-- The store of disparity 0. -/
def piece0 (v5 v7 : FVec Ideal (W3 240) .f32) : View.Piece (Elt Ideal) SBlk .f32 :=
  ⟨Rect.unit ![0, 0, 0, 0, 0] (W5 240).size inb0, pay0 v5 v7 red0 cast0⟩

/-- The block of zeros. -/
def zeroPay : FVec Ideal SBlk .f32 :=
  shapeCast SBlk (broadcast SZ3 (Scalar.ofBits (F := Ideal) .f32 0x00000000#32)) castZ

/-- The first store: zeros over the whole block. -/
def zeroPiece : View.Piece (Elt Ideal) SBlk .f32 := ⟨Rect.unit ![0, 0, 0, 0, 0] SBlk.size inbZ, zeroPay⟩

/-- All the stores of one grid step, last first. -/
def blockList (v5 v7 : FVec Ideal (W3 240) .f32) : List (View.Piece (Elt Ideal) SBlk .f32) :=
  (slices v5 v7 47 (by decide) ++ [piece0 v5 v7]) ++ [zeroPiece]

/-! ## What they leave -/

/-- The entry at disparity `d`, row `r`, column `c` (as natural numbers). -/
def entry (v5 v7 : FVec Ideal (W3 240) .f32) (d r c : Nat) : EReal :=
  if h : d ≤ c ∧ c < 240 ∧ r < 128 then
    (∑ k : Fin 8, v5 (ix3 k ⟨r, h.2.2⟩ ⟨c, h.2.1⟩) * v7 (ix3 k ⟨r, h.2.2⟩ ⟨c - d, by omega⟩)) * eighth
  else zero

/-- The block the stores leave. -/
def blockG (v5 v7 : FVec Ideal (W3 240) .f32) : SBlk.Idx → EReal :=
  fun y => entry v5 v7 (y 2).val (y 3).val (y 4).val

theorem fin1_eq_zero (a : Fin 1) : a = 0 := Subsingleton.elim _ _

/-- The store of disparity `d ≥ 1` is a block of `blockG`. -/
theorem slicePiece_agree (v5 v7 : FVec Ideal (W3 240) .f32) (d : Nat) (hd : d < 48) (f : Facts d)
    (x : (slicePiece v5 v7 d f).1.shape.Idx) :
    (slicePiece v5 v7 d f).2 x = blockG v5 v7 ((slicePiece v5 v7 d f).1.emb x) := by
  obtain ⟨a0, a1, a2, r, c, rfl⟩ : ∃ (a0 a1 a2 : Fin 1) (r : Fin 128) (c : Fin (240 - d)), x = ix5 a0 a1 a2 r c :=
    ⟨x 0, x 1, x 2, x 3, x 4, eq_ix5 x⟩
  obtain rfl := fin1_eq_zero a0; obtain rfl := fin1_eq_zero a1; obtain rfl := fin1_eq_zero a2
  have hc : c.val < 240 - d := c.isLt
  have hx : d + c.val < 240 := by omega
  show slicePay v5 v7 d f (ix5 0 0 0 r c) = entry v5 v7 (d + 1 * (0 : Fin 1).val) (0 + 1 * r.val) (d + 1 * c.val)
  have e1 : d + 1 * (0 : Fin 1).val = d := by simp
  have e2 : 0 + 1 * r.val = r.val := by omega
  have e3 : d + 1 * c.val = d + c.val := by omega
  rw [e1, e2, e3]
  unfold slicePay entry
  rw [mean_apply (240 - d) _ _ f.red (.inl rfl) rfl f.cast r c, dif_pos ⟨Nat.le_add_right d c.val, hx, r.isLt⟩]
  refine congrArg (· * eighth) (Finset.sum_congr rfl fun k _ => ?_)
  rw [slice_apply (240 - d) d v5 f.sl k r c hx, slice_apply (240 - d) 0 v7 f.sr k r c (by omega)]
  have e4 : (⟨d + c.val - d, by omega⟩ : Fin 240) = ⟨0 + c.val, by omega⟩ := Fin.ext (by simp)
  rw [e4]

/-- The store of disparity 0 is a block of `blockG`. -/
theorem piece0_agree (v5 v7 : FVec Ideal (W3 240) .f32) (x : (piece0 v5 v7).1.shape.Idx) :
    (piece0 v5 v7).2 x = blockG v5 v7 ((piece0 v5 v7).1.emb x) := by
  obtain ⟨a0, a1, a2, r, c, rfl⟩ : ∃ (a0 a1 a2 : Fin 1) (r : Fin 128) (c : Fin 240), x = ix5 a0 a1 a2 r c :=
    ⟨x 0, x 1, x 2, x 3, x 4, eq_ix5 x⟩
  obtain rfl := fin1_eq_zero a0; obtain rfl := fin1_eq_zero a1; obtain rfl := fin1_eq_zero a2
  show pay0 v5 v7 red0 cast0 (ix5 0 0 0 r c) = entry v5 v7 (0 + 1 * (0 : Fin 1).val) (0 + 1 * r.val) (0 + 1 * c.val)
  have e1 : 0 + 1 * (0 : Fin 1).val = 0 := by simp
  have e2 : 0 + 1 * r.val = r.val := by omega
  have e3 : 0 + 1 * c.val = c.val := by omega
  rw [e1, e2, e3]
  unfold pay0 entry
  rw [mean_apply 240 _ _ red0 (.inl rfl) rfl cast0 r c, dif_pos ⟨Nat.zero_le _, c.isLt, r.isLt⟩]
  rfl

/-- Every store of disparities `d, …, 1` is a block of `blockG`. -/
theorem slices_agree (v5 v7 : FVec Ideal (W3 240) .f32) : ∀ (d : Nat) (h : d < 48), ∀ p ∈ slices v5 v7 d h,
    ∀ x : p.1.shape.Idx, p.2 x = blockG v5 v7 (p.1.emb x)
  | 0, _, p, hp, _ => absurd hp List.not_mem_nil
  | d + 1, h, p, hp, x => by
    rcases List.mem_cons.mp hp with rfl | hp'
    · exact slicePiece_agree v5 v7 (d + 1) h _ x
    · exact slices_agree v5 v7 d (Nat.lt_of_succ_lt h) p hp' x

/-- The store of disparity `d'` is among those of disparities `d, …, 1` when `1 ≤ d' ≤ d`. -/
theorem mem_slices (v5 v7 : FVec Ideal (W3 240) .f32) (d' : Nat) (h' : d' < 48) (h1 : 1 ≤ d') :
    ∀ (d : Nat) (h : d < 48), d' ≤ d → slicePiece v5 v7 d' (facts d' h') ∈ slices v5 v7 d h
  | 0, _, hle => by omega
  | d + 1, h, hle => by
    by_cases e : d' = d + 1
    · subst e; exact List.mem_cons_self
    · exact List.mem_cons_of_mem _ (mem_slices v5 v7 d' h' h1 d (Nat.lt_of_succ_lt h) (by omega))

/-- An index whose column is left of its disparity lies in no store of disparities `d, …, 1`. -/
theorem not_mem_slices (v5 v7 : FVec Ideal (W3 240) .f32) (y : SBlk.Idx) (hy : (y 4).val < (y 2).val) :
    ∀ (d : Nat) (h : d < 48), ∀ p ∈ slices v5 v7 d h, y ∉ p.1.set
  | 0, _, p, hp => absurd hp List.not_mem_nil
  | d + 1, h, p, hp => by
    rcases List.mem_cons.mp hp with rfl | hp'
    · intro hm
      have hm' := (Rect.mem_set_unit (inb := (facts (d + 1) h).inb)).mp hm
      have h2 := hm' 2
      have h4 := hm' 4
      have a2 : d + 1 ≤ (y 2).val ∧ (y 2).val < d + 1 + 1 := h2
      have a4 : d + 1 ≤ (y 4).val := h4.1
      omega
    · exact not_mem_slices v5 v7 y hy d (Nat.lt_of_succ_lt h) p hp'

theorem hz5 : (![0, 0, 0, 0, 0] : Fin 5 → Nat) = fun _ => 0 := by
  funext a; match a with | ⟨0, _⟩ => rfl | ⟨1, _⟩ => rfl | ⟨2, _⟩ => rfl | ⟨3, _⟩ => rfl | ⟨4, _⟩ => rfl

/-- **What one grid step leaves in the output block.** -/
theorem canon_blockList (v5 v7 : FVec Ideal (W3 240) .f32) : View.canon (blockList v5 v7) = blockG v5 v7 := by
  funext y
  unfold blockList
  by_cases hy : (y 2).val ≤ (y 4).val
  · refine View.canon_append_of_pieces (blockG v5 v7) [zeroPiece] (slices v5 v7 47 (by decide) ++ [piece0 v5 v7]) ?_ y ?_
    · intro p hp x
      rcases List.mem_append.mp hp with hp | hp
      · exact slices_agree v5 v7 47 (by decide) p hp x
      · obtain rfl := List.mem_singleton.mp hp
        exact piece0_agree v5 v7 x
    · have h2 : (y 2).val < 48 := (y 2).isLt
      have h4 : (y 4).val < 240 := (y 4).isLt
      have h3 : (y 3).val < 128 := (y 3).isLt
      have h0 : (y 0).val < 1 := (y 0).isLt
      have h1 : (y 1).val < 1 := (y 1).isLt
      by_cases hd : (y 2).val = 0
      · refine ⟨piece0 v5 v7, List.mem_append_right _ (List.mem_singleton_self _), (Rect.mem_set_unit (inb := inb0)).mpr fun a => ?_⟩
        match a with
        | ⟨0, _⟩ => exact ⟨Nat.zero_le _, (by show (y 0).val < 0 + 1; omega)⟩
        | ⟨1, _⟩ => exact ⟨Nat.zero_le _, (by show (y 1).val < 0 + 1; omega)⟩
        | ⟨2, _⟩ => exact ⟨Nat.zero_le _, (by show (y 2).val < 0 + 1; omega)⟩
        | ⟨3, _⟩ => exact ⟨Nat.zero_le _, (by show (y 3).val < 0 + 128; omega)⟩
        | ⟨4, _⟩ => exact ⟨Nat.zero_le _, (by show (y 4).val < 0 + 240; omega)⟩
      · refine ⟨slicePiece v5 v7 (y 2).val (facts _ h2), List.mem_append_left _
          (mem_slices v5 v7 (y 2).val h2 (by omega) 47 (by decide) (by omega)), (Rect.mem_set_unit (inb := (facts _ h2).inb)).mpr fun a => ?_⟩
        match a with
        | ⟨0, _⟩ => exact ⟨Nat.zero_le _, (by show (y 0).val < 0 + 1; omega)⟩
        | ⟨1, _⟩ => exact ⟨Nat.zero_le _, (by show (y 1).val < 0 + 1; omega)⟩
        | ⟨2, _⟩ => exact ⟨Nat.le_refl _, (by show (y 2).val < (y 2).val + 1; omega)⟩
        | ⟨3, _⟩ => exact ⟨Nat.zero_le _, (by show (y 3).val < 0 + 128; omega)⟩
        | ⟨4, _⟩ => exact ⟨hy, (by show (y 4).val < (y 2).val + (240 - (y 2).val); omega)⟩
  · have hy' : (y 4).val < (y 2).val := by omega
    rw [canon_append_of_forall_not_mem [zeroPiece] _ y (fun p hp => by
      rcases List.mem_append.mp hp with hp | hp
      · exact not_mem_slices v5 v7 y hy' 47 (by decide) p hp
      · obtain rfl := List.mem_singleton.mp hp
        intro hm
        have h2 := ((Rect.mem_set_unit (inb := inb0)).mp hm) 2
        have a2 : (y 2).val < 0 + 1 := h2.2
        omega)]
    show View.canon [(⟨Rect.unit ![0, 0, 0, 0, 0] SBlk.size inbZ, zeroPay⟩ : View.Piece (Elt Ideal) SBlk .f32)] y = _
    rw [View.canon_unit_zero hz5]
    show zero = entry v5 v7 (y 2).val (y 3).val (y 4).val
    unfold entry
    rw [dif_neg (by omega)]

/-! ## The block is a block of the cost volume -/

/-- When the two loaded blocks are batch `B`, group `G` of the feature arrays `L` and `R` (channel `k` of the block is
    channel `8 G + k` of the array), the entry the stores leave at (d, r, x) is the cost volume's entry at (B, G, d, r, x):
    the float 1/8 is the real 1/8, and the float zero the real 0. -/
theorem entry_eq_cost (L R : Cert.Gwc.SFeat.Idx → EReal) (X0 X1 : W4.Idx → EReal) (h : W4.ShapeCasts (W3 240))
    (B : Fin 2) (G : Fin 40)
    (hX0 : ∀ (k : Fin 8) (r : Fin 128) (x : Fin 240), X0 (ix4 0 k r x) = L (ix4 B (Cert.Gwc.chan G k) r x))
    (hX1 : ∀ (k : Fin 8) (r : Fin 128) (x : Fin 240), X1 (ix4 0 k r x) = R (ix4 B (Cert.Gwc.chan G k) r x))
    (d : Fin 48) (r : Fin 128) (x : Fin 240) :
    entry (shapeCast (W3 240) X0 h) (shapeCast (W3 240) X1 h) d.val r.val x.val = Cert.Gwc.cost L R B G d r x := by
  unfold entry Cert.Gwc.cost
  by_cases hd : d.val ≤ x.val
  · rw [dif_pos ⟨hd, x.isLt, r.isLt⟩, if_pos hd, show eighth = (((1 / 8 : ℝ) : EReal)) from Cert.Gwc.ofBits_eighth]
    refine congrArg (· * (((1 / 8 : ℝ) : EReal))) (Finset.sum_congr rfl fun k _ => ?_)
    rw [dropUnit_apply, dropUnit_apply, hX0, hX1]
    rfl
  · rw [dif_neg (by omega), if_neg hd]
    exact Cert.Gwc.ofBits_zero

end Cert.Gwc.Block

end
-- ==== Proof.KernelBlock.lean ====
/-
  The output block one grid step of the kernel leaves, as a function of the two input blocks.

  The body's stores, as the run of the body finds them, are the list of stores described in BlockPieces: zeros over the
  block, then the disparity-0 slice, then the slices of disparities 1 … 47, each computed from the two loaded blocks with
  their leading unit axis dropped. So the block the step leaves has, at disparity `d`, row `r`, column `c`, the sum over
  the 8 channels of left (k, r, c) times right (k, r, c - d), times the float 1/8, when `d ≤ c`, and zero otherwise.
-/
import proofs.«179842_j85048942395524_1_alg».proof.Proof.KernelIdealFrame
import proofs.«179842_j85048942395524_1_alg».proof.Proof.BlockPieces
import Idealize.ShloMosaic.PureOps.Ideal

set_option maxRecDepth 16384

noncomputable section

namespace Cert.KernelIdeal.BlockValue

open Cert.KernelIdeal Cert.KernelIdeal.Gen Cert.KernelIdeal.GenP Idealize.ShloMosaic Idealize.ShloMosaic.TcCoe Idealize.ShloMosaic.Tactic
open Idealize.SL.Sem Cert.Gwc.Block

theorem hz4 : (![0, 0, 0, 0] : Fin 4 → Nat) = fun _ => 0 := by
  funext a; match a with | ⟨0, _⟩ => rfl | ⟨1, _⟩ => rfl | ⟨2, _⟩ => rfl | ⟨3, _⟩ => rfl

/-- A loaded input block with its leading unit axis dropped. -/
abbrev chans (x : Vec Ideal S1x8x128x240 .f32) : FVec Ideal (W3 240) .f32 :=
  shapeCast S8x128x240 x shapeCasts_S1x8x128x240_S8x128x240

/-- The stores the run of the body finds are the stores of BlockPieces, of the two loaded blocks. -/
theorem run_list (c : Dev nD) (i : grid0.Coords) (arg2 : Memref sig .tc .vmem S1x8x128x240 .f32) (harg2 : arg2.IsWhole)
    (arg3 : Memref sig .tc .vmem S1x8x128x240 .f32) (harg3 : arg3.IsWhole)
    (arg4 : Memref sig .tc .vmem S1x1x48x128x240 .f32) (harg4 : arg4.IsWhole)
    (x0 x1 : Vec Ideal S1x8x128x240 .f32) :
    (kernelRun0_A (F := Ideal) c i arg2 harg2 arg3 harg3 arg4 harg4 x0 x1).1 = blockList (chans x0) (chans x1) := by
  unfold kernelRun0_A
  dsimp only
  sl_unfold_words
  simp only [View.readAt_eq_ld, harg2.read_unread, harg3.read_unread, View.ld_unit_zero (S := S1x8x128x240) hz4]
  rfl

/-- The block a grid step leaves. -/
theorem out_eq (c : Dev nD) (i : grid0.Coords) (arg2 : Memref sig .tc .vmem S1x8x128x240 .f32) (harg2 : arg2.IsWhole)
    (arg3 : Memref sig .tc .vmem S1x8x128x240 .f32) (harg3 : arg3.IsWhole)
    (arg4 : Memref sig .tc .vmem S1x1x48x128x240 .f32) (harg4 : arg4.IsWhole)
    (x0 x1 : Vec Ideal S1x8x128x240 .f32) :
    out0_A_2 (F := Ideal) c i arg2 harg2 arg3 harg3 arg4 harg4 x0 x1 = blockG (chans x0) (chans x1) := by
  unfold out0_A_2
  rw [View.read_writes_junk_eq_canon, run_list, canon_blockList]

end Cert.KernelIdeal.BlockValue

end
-- ==== Proof.KernelVolume.lean ====
/-
  The array the kernel's run leaves: the cost volume of the two argument arrays.

  The grid has 2 x 40 points, one per (batch, group). At point (b, g) each input window stages block (b, g, 0, 0) of its
  feature array — the 8 channels of group g in batch b — and the output window writes back block (b, g, 0, 0, 0) of the
  result array. By KernelBlock the block written back is, entry by entry, the cost volume of the two staged blocks, which
  is the cost volume of the whole arrays at batch b, group g. The 80 output blocks tile the result array, so after the
  run the result array is the cost volume everywhere.
-/
import proofs.«179842_j85048942395524_1_alg».proof.Proof.KernelIdealValue
import proofs.«179842_j85048942395524_1_alg».proof.Proof.KernelBlock

set_option maxRecDepth 16384

noncomputable section

namespace Cert.KernelIdeal.BlockValue

open Cert.KernelIdeal Cert.KernelIdeal.Gen Cert.KernelIdeal.GenP Cert.KernelIdeal.ValueP Idealize.ShloMosaic Idealize.ShloMosaic.TcCoe
open Idealize.SL.Sem Idealize.ShloMosaic.ValueIdx Cert.Gwc.Block
open Idealize.ShloMosaic.Pipeline (Dat)

variable (m : (ℓ : Loc nD τ sig) → Buf (Elt Ideal) ℓ) (ρ : Dev nD → PrngReg)

/-- The printed index maps over the 80 grid points: both input windows move with the output window on the batch and
    group axes, every other block index is zero, and the batch and group block indices stay in range. -/
theorem idx_facts : ∀ t : Fin cfg0.N,
    win0_0.index t (0 : Fin 4) = win0_2.index t (0 : Fin 5) ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5) ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0
    ∧ win0_2.index t (0 : Fin 5) ≤ 1 ∧ win0_2.index t (1 : Fin 5) ≤ 39 :=
  (by decide +kernel : ∀ t : Fin grid0.N, _)

/-- Every (batch, group) block of the result array is some point's. -/
theorem idx_onto : ∀ (q0 : Fin 2) (q1 : Fin 40), ∃ t : Fin cfg0.N, win0_2.index t = ![q0.val, q1.val, 0, 0, 0] :=
  (by decide +kernel : ∀ (q0 : Fin 2) (q1 : Fin 40), ∃ t : Fin grid0.N, win0_2.index t = ![q0.val, q1.val, 0, 0, 0])

/-- What point `t` writes back is block `t` of the cost volume of the argument arrays. -/
theorem flushed_eq (c : Dev nD) (t : Fin cfg0.N) :
    (dats m 0 c).flushed 2 t
      = ((cfg0.win 2).blk t).view.read (Elt Ideal) (Cert.Gwc.volume (V m c main_arg0) (V m c main_arg1)) := by
  show (cfg0.win 2).cut (grid0.coords t) ((dats m 0 c).after 2 t) = _
  rw [after0_2]
  unfold outsAt0
  rw [out_eq c (grid0.coords t) (ms0_0 t) (hs0_0 t) (ms0_1 t) (hs0_1 t) (ms0_2 t) (hs0_2 t) (iblk m c 0 t) (iblk m c 1 t)]
  obtain ⟨e00, e01, e02, e03, e10, e11, e12, e13, z2, z3, z4, b0, b1⟩ := idx_facts t
  funext j
  have hj0 : (j 0).val < 1 := (j 0).isLt
  have hj1 : (j 1).val < 1 := (j 1).isLt
  have hj2 : (j 2).val < 48 := (j 2).isLt
  have hj3 : (j 3).val < 128 := (j 3).isLt
  have hj4 : (j 4).val < 240 := (j 4).isLt
  -- the batch and group of the point, and the entry's own coordinates
  let B : Fin 2 := ⟨win0_2.index t (0 : Fin 5), by omega⟩
  let G : Fin 40 := ⟨win0_2.index t (1 : Fin 5), by omega⟩
  let d : Fin 48 := ⟨(j 2).val, hj2⟩
  let r : Fin 128 := ⟨(j 3).val, hj3⟩
  let x : Fin 240 := ⟨(j 4).val, hj4⟩
  have hE : ((cfg0.win 2).blk t).view.emb j = ix5 B G d r x := by
    funext a; apply Fin.ext
    match a with
    | ⟨0, _⟩ => show win0_2.index t (0 : Fin 5) * 1 + 1 * (j 0).val = win0_2.index t (0 : Fin 5); omega
    | ⟨1, _⟩ => show win0_2.index t (1 : Fin 5) * 1 + 1 * (j 1).val = win0_2.index t (1 : Fin 5); omega
    | ⟨2, _⟩ => show win0_2.index t (2 : Fin 5) * 48 + 1 * (j 2).val = (j 2).val; omega
    | ⟨3, _⟩ => show win0_2.index t (3 : Fin 5) * 128 + 1 * (j 3).val = (j 3).val; omega
    | ⟨4, _⟩ => show win0_2.index t (4 : Fin 5) * 240 + 1 * (j 4).val = (j 4).val; omega
  show entry (chans (iblk m c 0 t)) (chans (iblk m c 1 t)) (j 2).val (j 3).val (j 4).val
    = Cert.Gwc.volume (V m c main_arg0) (V m c main_arg1) (((cfg0.win 2).blk t).view.emb j)
  rw [hE, Cert.Gwc.volume_ix5]
  refine entry_eq_cost (V m c main_arg0) (V m c main_arg1) (iblk m c 0 t) (iblk m c 1 t)
    shapeCasts_S1x8x128x240_S8x128x240 B G ?_ ?_ d r x
  · intro k r' x'
    show V m c main_arg0 (((cfg0.win 0).blk t).view.emb (ix4 0 k r' x')) = _
    refine congrArg (V m c main_arg0) ?_
    funext a; apply Fin.ext
    match a with
    | ⟨0, _⟩ => show win0_0.index t (0 : Fin 4) * 1 + 1 * (0 : Fin 1).val = win0_2.index t (0 : Fin 5); simp only [Fin.val_zero]; omega
    | ⟨1, _⟩ => show win0_0.index t (1 : Fin 4) * 8 + 1 * k.val = 8 * win0_2.index t (1 : Fin 5) + k.val; omega
    | ⟨2, _⟩ => show win0_0.index t (2 : Fin 4) * 128 + 1 * r'.val = r'.val; omega
    | ⟨3, _⟩ => show win0_0.index t (3 : Fin 4) * 240 + 1 * x'.val = x'.val; omega
  · intro k r' x'
    show V m c main_arg1 (((cfg0.win 1).blk t).view.emb (ix4 0 k r' x')) = _
    refine congrArg (V m c main_arg1) ?_
    funext a; apply Fin.ext
    match a with
    | ⟨0, _⟩ => show win0_1.index t (0 : Fin 4) * 1 + 1 * (0 : Fin 1).val = win0_2.index t (0 : Fin 5); simp only [Fin.val_zero]; omega
    | ⟨1, _⟩ => show win0_1.index t (1 : Fin 4) * 8 + 1 * k.val = 8 * win0_2.index t (1 : Fin 5) + k.val; omega
    | ⟨2, _⟩ => show win0_1.index t (2 : Fin 4) * 128 + 1 * r'.val = r'.val; omega
    | ⟨3, _⟩ => show win0_1.index t (3 : Fin 4) * 240 + 1 * x'.val = x'.val; omega

/-- An index of the result array is in point `t`'s block iff each coordinate is in the block's range on its axis. -/
theorem mem_blk (t : Fin cfg0.N) (i : S2x40x48x128x240.Idx) :
    i ∈ ((cfg0.win 2).blk t).view.set ↔ ∀ a : Fin 5, win0_2.index t a * S1x1x48x128x240.size a ≤ (i a).val
      ∧ (i a).val < win0_2.index t a * S1x1x48x128x240.size a + S1x1x48x128x240.size a := by
  show i ∈ ((View.whole main_v0).slice (win0_2.rect t)).set ↔ _
  rw [View.set_slice_whole, Rect.mem_set_unit]
  exact Iff.rfl

/-- Every index of the result array is in the block of the point of its batch and group. -/
theorem cover (i : S2x40x48x128x240.Idx) :
    ∃ t : Fin cfg0.N, (cfg0.win 2).flush t = true ∧ i ∈ ((cfg0.win 2).blk t).view.set := by
  have hi0 : (i 0).val < 2 := (i 0).isLt
  have hi1 : (i 1).val < 40 := (i 1).isLt
  have hi2 : (i 2).val < 48 := (i 2).isLt
  have hi3 : (i 3).val < 128 := (i 3).isLt
  have hi4 : (i 4).val < 240 := (i 4).isLt
  obtain ⟨t, ht⟩ := idx_onto ⟨(i 0).val, hi0⟩ ⟨(i 1).val, hi1⟩
  have q0 : win0_2.index t (0 : Fin 5) = (i 0).val := congrFun ht 0
  have q1 : win0_2.index t (1 : Fin 5) = (i 1).val := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 48 ≤ (i 2).val ∧ (i 2).val < win0_2.index t (2 : Fin 5) * 48 + 48; omega
  | ⟨3, _⟩ => show win0_2.index t (3 : Fin 5) * 128 ≤ (i 3).val ∧ (i 3).val < win0_2.index t (3 : Fin 5) * 128 + 128; omega
  | ⟨4, _⟩ => show win0_2.index t (4 : Fin 5) * 240 ≤ (i 4).val ∧ (i 4).val < win0_2.index t (4 : Fin 5) * 240 + 240; omega

/-- After the run the result array is the cost volume of the argument arrays. -/
theorem final (c : Dev nD) :
    (dats m 0 c).arrAt 2 cfg0.N
      = Cert.Gwc.volume (m ((c : Thread nD τ).loc main_arg0)) (m ((c : Thread nD τ).loc main_arg1)) :=
  (dats m 0 c).arrAt_eq_of_cover 2 (Cert.Gwc.volume (V m c main_arg0) (V m c main_arg1))
    (fun t _ => flushed_eq m c t) cover

/-- The kernel's run: it terminates, the result array is the cost volume of the arguments, the arguments are unchanged. -/
theorem run : θ_run defs (onTc (τ := τ) (main (F := Ideal))) ⟨m, fun _ => 0, ρ⟩ fun r => ∀ c : Dev nD,
      r.2.mem ((c : Thread nD τ).loc main_v0)
        = Cert.Gwc.volume (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.BlockValue

end
-- ==== Proof.RefFeat.lean ====
/-
  The reference's two reshaped arrays and its disparity-zero plane, read entry by entry.

  The reference first views each feature array [2, 320, 128, 240] as [2, 40, 8, 128, 240]: entry (b, g, k, h, x) of the
  view is entry (b, 8 g + k, h, x) of the array. With that, the closed form of one disparity's chain over the views is
  the specification's cost entry. The plane of disparity zero has no cut and no padding and is read directly.
-/
import proofs.«179842_j85048942395524_1_alg».proof.Proof.RefRead
import proofs.«179842_j85048942395524_1_alg».proof.Proof.Spec

noncomputable section

namespace Cert.Gwc.Ref

open Idealize.ShloMosaic Idealize.ShloMosaic.ValueIdx Cert.ReferenceIdeal Cert.ReferenceIdeal.ReadP

/-- The row-major position of (b, g, k, h, x) in [2, 40, 8, 128, 240] is that of (b, 8 g + k, h, x) in [2, 320, 128, 240]. -/
theorem view_idx (b : Fin 2) (g : Fin 40) (k : Fin 8) (h : Fin 128) (x : Fin 240) :
    idx_main_v0 (ix5 b g k h x) = ix4 b (chan g k) h x := by
  have hb := b.isLt; have hg := g.isLt; have hk := k.isLt; have hh := h.isLt; have hx := x.isLt
  funext a
  refine Fin.ext ?_
  match a with
  | ⟨0, _⟩ =>
    show ((((b.val * 40 + g.val) * 8 + k.val) * 128 + h.val) * 240 + x.val) / 9830400 = b.val
    omega
  | ⟨1, _⟩ =>
    show ((((b.val * 40 + g.val) * 8 + k.val) * 128 + h.val) * 240 + x.val) / 30720 % 320 = 8 * g.val + k.val
    omega
  | ⟨2, _⟩ =>
    show ((((b.val * 40 + g.val) * 8 + k.val) * 128 + h.val) * 240 + x.val) / 240 % 128 = h.val
    omega
  | ⟨3, _⟩ =>
    show ((((b.val * 40 + g.val) * 8 + k.val) * 128 + h.val) * 240 + x.val) % 240 = x.val
    omega

/-- The left view at (b, g, k, h, x) is the left array at channel `8 g + k`. -/
theorem viewL (L : FVec Ideal S2x320x128x240 .f32) (b : Fin 2) (g : Fin 40) (k : Fin 8) (h : Fin 128) (x : Fin 240) :
    val_main_v0 (F := Ideal) L (ix5 b g k h x) = L (ix4 b (chan g k) h x) := by
  rw [val_main_v0_apply]
  exact congrArg L (view_idx b g k h x)

/-- The right view at (b, g, k, h, x) is the right array at channel `8 g + k`. -/
theorem viewR (R : FVec Ideal S2x320x128x240 .f32) (b : Fin 2) (g : Fin 40) (k : Fin 8) (h : Fin 128) (x : Fin 240) :
    val_main_v1 (F := Ideal) R (ix5 b g k h x) = R (ix4 b (chan g k) h x) := by
  rw [val_main_v1_apply]
  exact congrArg R (view_idx b g k h x)

/-- The closed form of one disparity's chain, over the two views, is the specification's cost entry. -/
theorem chain_to_cost (L R : FVec Ideal S2x320x128x240 .f32) (b : Fin 2) (g : Fin 40) (d : Fin 48) (h : Fin 128)
    (x : Fin 240) :
    (if d.val ≤ x.val then
        (∑ k : Fin 8, val_main_v0 (F := Ideal) L (ix5 b g k h x)
          * val_main_v1 (F := Ideal) R (ix5 b g k h (back x d.val))) * ((1 / 8 : ℝ) : EReal)
      else 0) = cost L R b g d h x := by
  unfold cost
  simp only [viewL, viewR]

/-- The plane of disparity zero: the product of the two views summed over the 8 channels and divided by the float 8. -/
theorem plane_0 (L R : FVec Ideal S2x320x128x240 .f32) (b : Fin 2) (g : Fin 40) (h : Fin 128) (x : Fin 240) :
    val_main_v5 (F := Ideal) L R (ix4 b g h x) = cost L R b g (⟨0, by decide⟩ : Fin 48) h x := by
  rw [cost_of_le L R b g _ h x (Nat.zero_le _), val_main_v5_apply, val_main_v3_apply, val_main_v4_apply]
  show Ideal.div (Ideal.ofBits .f32 0x00000000#32
      + ∑ k : Fin 8, val_main_v2 (F := Ideal) L R (idx_main_v3 (ix4 b g h x) k)) (Ideal.ofBits .f32 0x41000000#32) = _
  rw [div_eight, ofBits_zero, zero_add]
  refine congrArg (· * ((1 / 8 : ℝ) : EReal)) (Finset.sum_congr rfl fun k _ => ?_)
  have e : idx_main_v3 (ix4 b g h x) k = ix5 b g k h x :=
    funext fun a => match a with | ⟨0, _⟩ => rfl | ⟨1, _⟩ => rfl | ⟨2, _⟩ => rfl | ⟨3, _⟩ => rfl | ⟨4, _⟩ => rfl
  show val_main_v0 (F := Ideal) L (idx_main_v3 (ix4 b g h x) k) * val_main_v1 (F := Ideal) R (idx_main_v3 (ix4 b g h x) k) = _
  rw [e, viewL, viewR]
  rfl

end Cert.Gwc.Ref

end
-- ==== Proof.RefChain.lean ====
/-
  One disparity's chain of the reference, read entry by entry.

  For a disparity `d` the reference cuts the left array to its columns `d ..` and the right array to its first `240 - d`
  columns, multiplies them, sums the 8 channels of each group, divides by the float 8 and pads `d` zero columns on the
  left. The lemma below reads that chain at an index, for every `d` and width `n = 240 - d` at once; the shape side
  conditions are hypotheses, so that it applies to each of the 47 printed chains.
-/
import Idealize.ShloMosaic.Lib.KernelVsHost
import Idealize.ShloMosaic.Lib.Pipeline.Value
import Idealize.ShloMosaic.PureOps.Ideal.Laws
import Idealize.ShloMosaic.Lib.ValueIdx
import proofs.«179842_j85048942395524_1_alg».proof.Proof.Spec

noncomputable section

namespace Cert.Gwc.Ref

open Idealize.ShloMosaic Idealize.ShloMosaic.ValueIdx

/-- The five-axis shape [2, 40, 8, 128, n]: batch, group, channel in the group, row, column. -/
abbrev S5 (n : Nat) : Shape := ⟨5, ![2, 40, 8, 128, n]⟩
/-- The four-axis shape [2, 40, 128, n]: batch, group, row, column. -/
abbrev S4 (n : Nat) : Shape := ⟨4, ![2, 40, 128, n]⟩
/-- The shape of a scalar. -/
abbrev S0 : Shape := ⟨0, ![]⟩

/-- The signed integer word zero converts to the real number 0. -/
theorem sitofp_zero : FloatOps.sitofp (F := Ideal) .f32 (0#32 : BitVec 32) = (0 : EReal) := by
  show (((0#32 : BitVec 32).toInt : ℝ) : EReal) = 0
  simp

/-- One disparity's chain, read at an index. The left array cut to its columns `d ..`, times the right array cut to its
    first `n = 240 - d` columns, summed over the 8 channels of the group, divided by 8, and padded on the left with `d`
    zero columns: at column `x` this is zero when `x < d`, and otherwise the sum over the channels of the left array at
    column `x` times the right array at column `x - d`, times 1/8. -/
theorem chain_apply (d n : Nat) (hdn : d + n = 240)
    (A B : FVec Ideal (S5 240) .f32)
    (hA : (S5 240).Slices ![0, 0, 0, 0, d] (S5 n))
    (hB : (S5 240).Slices ![0, 0, 0, 0, 0] (S5 n))
    (hred : (S5 n).ReducesTo [2] (S4 n))
    (hred' : (S5 n).Reduces [2] (S4 n))
    (hS : 0 < S0.numel)
    (hbc : S0.BroadcastsInDim (S4 n) (![] : Fin 0 → Fin (S4 n).rank))
    (hpad : (S4 n).Pads (![0, 0, 0, d] : Fin 4 → Nat) ![0, 0, 0, 0] ![0, 0, 0, 0] (S4 240))
    (b : Fin 2) (g : Fin 40) (h : Fin 128) (x : Fin 240) :
    pad (S4 240) ![0, 0, 0, d] ![0, 0, 0, 0] ![0, 0, 0, 0]
      (Host.divf (F := Ideal)
        (Host.reduceAdd (F := Ideal)
          (mulf (F := Ideal) (extractStridedSlice (S5 n) ![0, 0, 0, 0, d] A hA)
            (extractStridedSlice (S5 n) ![0, 0, 0, 0, 0] B hB))
          (constant (F := Ideal) S0 .f32 0x00000000#32) hred hS)
        (broadcastInDim (S4 n) ![] hbc (constant (F := Ideal) S0 .f32 0x41000000#32)))
      (sitofp (F := Ideal) .f32 (constantI S0 32 0#32)) hpad hS (ix4 b g h x)
    = if d ≤ x.val then
        (∑ k : Fin 8, A (ix5 b g k h x) * B (ix5 b g k h (back x d))) * ((1 / 8 : ℝ) : EReal)
      else 0 := by
  by_cases hdx : d ≤ x.val
  · rw [if_pos hdx]
    have hxn : x.val - d < n := by have := x.isLt; omega
    -- inside the operand: the pad reads the quotient at column x - d
    refine (pad_apply_of_inside _ _ _ _ _ hpad hS (ix4 b g h x) (ix4 b g h (⟨x.val - d, hxn⟩ : Fin n)) (fun a => by
      match a with
      | ⟨0, _⟩ => show b.val = 0 + b.val * (0 + 1); omega
      | ⟨1, _⟩ => show g.val = 0 + g.val * (0 + 1); omega
      | ⟨2, _⟩ => show h.val = 0 + h.val * (0 + 1); omega
      | ⟨3, _⟩ => show x.val = d + (x.val - d) * (0 + 1); omega)).trans ?_
    -- the quotient: the sum divided by the float 8
    show Ideal.div
        (Ideal.hostReduceAdd hred
          (mulf (F := Ideal) (extractStridedSlice (S5 n) ![0, 0, 0, 0, d] A hA)
            (extractStridedSlice (S5 n) ![0, 0, 0, 0, 0] B hB))
          (Ideal.ofBits .f32 0x00000000#32) (ix4 b g h (⟨x.val - d, hxn⟩ : Fin n)))
        (Ideal.ofBits .f32 0x41000000#32) = _
    rw [div_eight, ofBits_zero, Ideal.hostReduceAdd_single hred hred', zero_add]
    refine congrArg (· * ((1 / 8 : ℝ) : EReal)) (Finset.sum_congr rfl fun k _ => ?_)
    show extractStridedSlice (S5 n) ![0, 0, 0, 0, d] A hA (hred'.lift (ix4 b g h (⟨x.val - d, hxn⟩ : Fin n)) k)
        * extractStridedSlice (S5 n) ![0, 0, 0, 0, 0] B hB (hred'.lift (ix4 b g h (⟨x.val - d, hxn⟩ : Fin n)) k) = _
    rw [extractStridedSlice_apply _ A hA _ (ix5 b g k h x) (fun a => by
          match a with
          | ⟨0, _⟩ => show b.val = 0 + b.val; omega
          | ⟨1, _⟩ => show g.val = 0 + g.val; omega
          | ⟨2, _⟩ => show k.val = 0 + k.val; omega
          | ⟨3, _⟩ => show h.val = 0 + h.val; omega
          | ⟨4, _⟩ => show x.val = d + (x.val - d); omega),
        extractStridedSlice_apply _ B hB _ (ix5 b g k h (back x d)) (fun a => by
          match a with
          | ⟨0, _⟩ => show b.val = 0 + b.val; omega
          | ⟨1, _⟩ => show g.val = 0 + g.val; omega
          | ⟨2, _⟩ => show k.val = 0 + k.val; omega
          | ⟨3, _⟩ => show h.val = 0 + h.val; omega
          | ⟨4, _⟩ => show x.val - d = 0 + (x.val - d); omega)]
  · rw [if_neg hdx]
    -- in the left padding: the pad value, the integer zero converted
    refine (pad_apply_of_not_inside _ _ _ _ _ hpad hS (ix4 b g h x) (3 : Fin 4) (fun hin => hdx (show d ≤ x.val from hin.1))).trans ?_
    exact sitofp_zero

end Cert.Gwc.Ref

end
-- ==== Proof.RefPads1.lean ====
/- Table of cases written out by `bun scratch/gen_ref.js pads 1 8` (run from the unit directory) from the stage names of the generated
   module Gen/ReferenceIdeal/Read.lean (imported through its copy RefRead.lean). Each row is the chain lemma of RefChain.lean at one disparity, followed by the
   passage from the two views to the feature arrays of RefFeat.lean. -/
import proofs.«179842_j85048942395524_1_alg».proof.Proof.RefRead
import proofs.«179842_j85048942395524_1_alg».proof.Proof.RefChain
import proofs.«179842_j85048942395524_1_alg».proof.Proof.RefFeat

noncomputable section

namespace Cert.Gwc.Ref

open Idealize.ShloMosaic Idealize.ShloMosaic.ValueIdx Cert.ReferenceIdeal Cert.ReferenceIdeal.ReadP

/-- The plane of disparity 1: columns `1 ..` of the left view against the first 239 columns of the right view. -/
theorem plane_1 (L R : FVec Ideal S2x320x128x240 .f32) (b : Fin 2) (g : Fin 40) (h : Fin 128) (x : Fin 240) :
    val_main_v12 (F := Ideal) L R (ix4 b g h x) = cost L R b g (⟨1, by decide⟩ : Fin 48) h x := by
  unfold val_main_v12 val_main_v11 val_main_v9 val_main_v8 val_main_v6 val_main_v7 val_main_cst_1 val_main_v10 val_main_cst_2 val_main_call0_v0 val_main_c
  exact (chain_apply 1 239 rfl (val_main_v0 (F := Ideal) L) (val_main_v1 (F := Ideal) R) _ _ _ (by decide) _ _ _ b g h x).trans
    (chain_to_cost L R b g ⟨1, by decide⟩ h x)

/-- The plane of disparity 2: columns `2 ..` of the left view against the first 238 columns of the right view. -/
theorem plane_2 (L R : FVec Ideal S2x320x128x240 .f32) (b : Fin 2) (g : Fin 40) (h : Fin 128) (x : Fin 240) :
    val_main_v19 (F := Ideal) L R (ix4 b g h x) = cost L R b g (⟨2, by decide⟩ : Fin 48) h x := by
  unfold val_main_v19 val_main_v18 val_main_v16 val_main_v15 val_main_v13 val_main_v14 val_main_cst_3 val_main_v17 val_main_cst_4 val_main_call1_v0 val_main_c_5
  exact (chain_apply 2 238 rfl (val_main_v0 (F := Ideal) L) (val_main_v1 (F := Ideal) R) _ _ _ (by decide) _ _ _ b g h x).trans
    (chain_to_cost L R b g ⟨2, by decide⟩ h x)

/-- The plane of disparity 3: columns `3 ..` of the left view against the first 237 columns of the right view. -/
theorem plane_3 (L R : FVec Ideal S2x320x128x240 .f32) (b : Fin 2) (g : Fin 40) (h : Fin 128) (x : Fin 240) :
    val_main_v26 (F := Ideal) L R (ix4 b g h x) = cost L R b g (⟨3, by decide⟩ : Fin 48) h x := by
  unfold val_main_v26 val_main_v25 val_main_v23 val_main_v22 val_main_v20 val_main_v21 val_main_cst_6 val_main_v24 val_main_cst_7 val_main_call2_v0 val_main_c_8
  exact (chain_apply 3 237 rfl (val_main_v0 (F := Ideal) L) (val_main_v1 (F := Ideal) R) _ _ _ (by decide) _ _ _ b g h x).trans
    (chain_to_cost L R b g ⟨3, by decide⟩ h x)

/-- The plane of disparity 4: columns `4 ..` of the left view against the first 236 columns of the right view. -/
theorem plane_4 (L R : FVec Ideal S2x320x128x240 .f32) (b : Fin 2) (g : Fin 40) (h : Fin 128) (x : Fin 240) :
    val_main_v33 (F := Ideal) L R (ix4 b g h x) = cost L R b g (⟨4, by decide⟩ : Fin 48) h x := by
  unfold val_main_v33 val_main_v32 val_main_v30 val_main_v29 val_main_v27 val_main_v28 val_main_cst_9 val_main_v31 val_main_cst_10 val_main_call3_v0 val_main_c_11
  exact (chain_apply 4 236 rfl (val_main_v0 (F := Ideal) L) (val_main_v1 (F := Ideal) R) _ _ _ (by decide) _ _ _ b g h x).trans
    (chain_to_cost L R b g ⟨4, by decide⟩ h x)

/-- The plane of disparity 5: columns `5 ..` of the left view against the first 235 columns of the right view. -/
theorem plane_5 (L R : FVec Ideal S2x320x128x240 .f32) (b : Fin 2) (g : Fin 40) (h : Fin 128) (x : Fin 240) :
    val_main_v40 (F := Ideal) L R (ix4 b g h x) = cost L R b g (⟨5, by decide⟩ : Fin 48) h x := by
  unfold val_main_v40 val_main_v39 val_main_v37 val_main_v36 val_main_v34 val_main_v35 val_main_cst_12 val_main_v38 val_main_cst_13 val_main_call4_v0 val_main_c_14
  exact (chain_apply 5 235 rfl (val_main_v0 (F := Ideal) L) (val_main_v1 (F := Ideal) R) _ _ _ (by decide) _ _ _ b g h x).trans
    (chain_to_cost L R b g ⟨5, by decide⟩ h x)

/-- The plane of disparity 6: columns `6 ..` of the left view against the first 234 columns of the right view. -/
theorem plane_6 (L R : FVec Ideal S2x320x128x240 .f32) (b : Fin 2) (g : Fin 40) (h : Fin 128) (x : Fin 240) :
    val_main_v47 (F := Ideal) L R (ix4 b g h x) = cost L R b g (⟨6, by decide⟩ : Fin 48) h x := by
  unfold val_main_v47 val_main_v46 val_main_v44 val_main_v43 val_main_v41 val_main_v42 val_main_cst_15 val_main_v45 val_main_cst_16 val_main_call5_v0 val_main_c_17
  exact (chain_apply 6 234 rfl (val_main_v0 (F := Ideal) L) (val_main_v1 (F := Ideal) R) _ _ _ (by decide) _ _ _ b g h x).trans
    (chain_to_cost L R b g ⟨6, by decide⟩ h x)

/-- The plane of disparity 7: columns `7 ..` of the left view against the first 233 columns of the right view. -/
theorem plane_7 (L R : FVec Ideal S2x320x128x240 .f32) (b : Fin 2) (g : Fin 40) (h : Fin 128) (x : Fin 240) :
    val_main_v54 (F := Ideal) L R (ix4 b g h x) = cost L R b g (⟨7, by decide⟩ : Fin 48) h x := by
  unfold val_main_v54 val_main_v53 val_main_v51 val_main_v50 val_main_v48 val_main_v49 val_main_cst_18 val_main_v52 val_main_cst_19 val_main_call6_v0 val_main_c_20
  exact (chain_apply 7 233 rfl (val_main_v0 (F := Ideal) L) (val_main_v1 (F := Ideal) R) _ _ _ (by decide) _ _ _ b g h x).trans
    (chain_to_cost L R b g ⟨7, by decide⟩ h x)

/-- The plane of disparity 8: columns `8 ..` of the left view against the first 232 columns of the right view. -/
theorem plane_8 (L R : FVec Ideal S2x320x128x240 .f32) (b : Fin 2) (g : Fin 40) (h : Fin 128) (x : Fin 240) :
    val_main_v61 (F := Ideal) L R (ix4 b g h x) = cost L R b g (⟨8, by decide⟩ : Fin 48) h x := by
  unfold val_main_v61 val_main_v60 val_main_v58 val_main_v57 val_main_v55 val_main_v56 val_main_cst_21 val_main_v59 val_main_cst_22 val_main_call7_v0 val_main_c_23
  exact (chain_apply 8 232 rfl (val_main_v0 (F := Ideal) L) (val_main_v1 (F := Ideal) R) _ _ _ (by decide) _ _ _ b g h x).trans
    (chain_to_cost L R b g ⟨8, by decide⟩ h x)

end Cert.Gwc.Ref

end
-- ==== Proof.RefPads2.lean ====
/- Table of cases written out by `bun scratch/gen_ref.js pads 9 16` (run from the unit directory) from the stage names of the generated
   module Gen/ReferenceIdeal/Read.lean (imported through its copy RefRead.lean). Each row is the chain lemma of RefChain.lean at one disparity, followed by the
   passage from the two views to the feature arrays of RefFeat.lean. -/
import proofs.«179842_j85048942395524_1_alg».proof.Proof.RefRead
import proofs.«179842_j85048942395524_1_alg».proof.Proof.RefChain
import proofs.«179842_j85048942395524_1_alg».proof.Proof.RefFeat

noncomputable section

namespace Cert.Gwc.Ref

open Idealize.ShloMosaic Idealize.ShloMosaic.ValueIdx Cert.ReferenceIdeal Cert.ReferenceIdeal.ReadP

/-- The plane of disparity 9: columns `9 ..` of the left view against the first 231 columns of the right view. -/
theorem plane_9 (L R : FVec Ideal S2x320x128x240 .f32) (b : Fin 2) (g : Fin 40) (h : Fin 128) (x : Fin 240) :
    val_main_v68 (F := Ideal) L R (ix4 b g h x) = cost L R b g (⟨9, by decide⟩ : Fin 48) h x := by
  unfold val_main_v68 val_main_v67 val_main_v65 val_main_v64 val_main_v62 val_main_v63 val_main_cst_24 val_main_v66 val_main_cst_25 val_main_call8_v0 val_main_c_26
  exact (chain_apply 9 231 rfl (val_main_v0 (F := Ideal) L) (val_main_v1 (F := Ideal) R) _ _ _ (by decide) _ _ _ b g h x).trans
    (chain_to_cost L R b g ⟨9, by decide⟩ h x)

/-- The plane of disparity 10: columns `10 ..` of the left view against the first 230 columns of the right view. -/
theorem plane_10 (L R : FVec Ideal S2x320x128x240 .f32) (b : Fin 2) (g : Fin 40) (h : Fin 128) (x : Fin 240) :
    val_main_v75 (F := Ideal) L R (ix4 b g h x) = cost L R b g (⟨10, by decide⟩ : Fin 48) h x := by
  unfold val_main_v75 val_main_v74 val_main_v72 val_main_v71 val_main_v69 val_main_v70 val_main_cst_27 val_main_v73 val_main_cst_28 val_main_call9_v0 val_main_c_29
  exact (chain_apply 10 230 rfl (val_main_v0 (F := Ideal) L) (val_main_v1 (F := Ideal) R) _ _ _ (by decide) _ _ _ b g h x).trans
    (chain_to_cost L R b g ⟨10, by decide⟩ h x)

/-- The plane of disparity 11: columns `11 ..` of the left view against the first 229 columns of the right view. -/
theorem plane_11 (L R : FVec Ideal S2x320x128x240 .f32) (b : Fin 2) (g : Fin 40) (h : Fin 128) (x : Fin 240) :
    val_main_v82 (F := Ideal) L R (ix4 b g h x) = cost L R b g (⟨11, by decide⟩ : Fin 48) h x := by
  unfold val_main_v82 val_main_v81 val_main_v79 val_main_v78 val_main_v76 val_main_v77 val_main_cst_30 val_main_v80 val_main_cst_31 val_main_call10_v0 val_main_c_32
  exact (chain_apply 11 229 rfl (val_main_v0 (F := Ideal) L) (val_main_v1 (F := Ideal) R) _ _ _ (by decide) _ _ _ b g h x).trans
    (chain_to_cost L R b g ⟨11, by decide⟩ h x)

/-- The plane of disparity 12: columns `12 ..` of the left view against the first 228 columns of the right view. -/
theorem plane_12 (L R : FVec Ideal S2x320x128x240 .f32) (b : Fin 2) (g : Fin 40) (h : Fin 128) (x : Fin 240) :
    val_main_v89 (F := Ideal) L R (ix4 b g h x) = cost L R b g (⟨12, by decide⟩ : Fin 48) h x := by
  unfold val_main_v89 val_main_v88 val_main_v86 val_main_v85 val_main_v83 val_main_v84 val_main_cst_33 val_main_v87 val_main_cst_34 val_main_call11_v0 val_main_c_35
  exact (chain_apply 12 228 rfl (val_main_v0 (F := Ideal) L) (val_main_v1 (F := Ideal) R) _ _ _ (by decide) _ _ _ b g h x).trans
    (chain_to_cost L R b g ⟨12, by decide⟩ h x)

/-- The plane of disparity 13: columns `13 ..` of the left view against the first 227 columns of the right view. -/
theorem plane_13 (L R : FVec Ideal S2x320x128x240 .f32) (b : Fin 2) (g : Fin 40) (h : Fin 128) (x : Fin 240) :
    val_main_v96 (F := Ideal) L R (ix4 b g h x) = cost L R b g (⟨13, by decide⟩ : Fin 48) h x := by
  unfold val_main_v96 val_main_v95 val_main_v93 val_main_v92 val_main_v90 val_main_v91 val_main_cst_36 val_main_v94 val_main_cst_37 val_main_call12_v0 val_main_c_38
  exact (chain_apply 13 227 rfl (val_main_v0 (F := Ideal) L) (val_main_v1 (F := Ideal) R) _ _ _ (by decide) _ _ _ b g h x).trans
    (chain_to_cost L R b g ⟨13, by decide⟩ h x)

/-- The plane of disparity 14: columns `14 ..` of the left view against the first 226 columns of the right view. -/
theorem plane_14 (L R : FVec Ideal S2x320x128x240 .f32) (b : Fin 2) (g : Fin 40) (h : Fin 128) (x : Fin 240) :
    val_main_v103 (F := Ideal) L R (ix4 b g h x) = cost L R b g (⟨14, by decide⟩ : Fin 48) h x := by
  unfold val_main_v103 val_main_v102 val_main_v100 val_main_v99 val_main_v97 val_main_v98 val_main_cst_39 val_main_v101 val_main_cst_40 val_main_call13_v0 val_main_c_41
  exact (chain_apply 14 226 rfl (val_main_v0 (F := Ideal) L) (val_main_v1 (F := Ideal) R) _ _ _ (by decide) _ _ _ b g h x).trans
    (chain_to_cost L R b g ⟨14, by decide⟩ h x)

/-- The plane of disparity 15: columns `15 ..` of the left view against the first 225 columns of the right view. -/
theorem plane_15 (L R : FVec Ideal S2x320x128x240 .f32) (b : Fin 2) (g : Fin 40) (h : Fin 128) (x : Fin 240) :
    val_main_v110 (F := Ideal) L R (ix4 b g h x) = cost L R b g (⟨15, by decide⟩ : Fin 48) h x := by
  unfold val_main_v110 val_main_v109 val_main_v107 val_main_v106 val_main_v104 val_main_v105 val_main_cst_42 val_main_v108 val_main_cst_43 val_main_call14_v0 val_main_c_44
  exact (chain_apply 15 225 rfl (val_main_v0 (F := Ideal) L) (val_main_v1 (F := Ideal) R) _ _ _ (by decide) _ _ _ b g h x).trans
    (chain_to_cost L R b g ⟨15, by decide⟩ h x)

/-- The plane of disparity 16: columns `16 ..` of the left view against the first 224 columns of the right view. -/
theorem plane_16 (L R : FVec Ideal S2x320x128x240 .f32) (b : Fin 2) (g : Fin 40) (h : Fin 128) (x : Fin 240) :
    val_main_v117 (F := Ideal) L R (ix4 b g h x) = cost L R b g (⟨16, by decide⟩ : Fin 48) h x := by
  unfold val_main_v117 val_main_v116 val_main_v114 val_main_v113 val_main_v111 val_main_v112 val_main_cst_45 val_main_v115 val_main_cst_46 val_main_call15_v0 val_main_c_47
  exact (chain_apply 16 224 rfl (val_main_v0 (F := Ideal) L) (val_main_v1 (F := Ideal) R) _ _ _ (by decide) _ _ _ b g h x).trans
    (chain_to_cost L R b g ⟨16, by decide⟩ h x)

end Cert.Gwc.Ref

end
-- ==== Proof.RefPads3.lean ====
/- Table of cases written out by `bun scratch/gen_ref.js pads 17 24` (run from the unit directory) from the stage names of the generated
   module Gen/ReferenceIdeal/Read.lean (imported through its copy RefRead.lean). Each row is the chain lemma of RefChain.lean at one disparity, followed by the
   passage from the two views to the feature arrays of RefFeat.lean. -/
import proofs.«179842_j85048942395524_1_alg».proof.Proof.RefRead
import proofs.«179842_j85048942395524_1_alg».proof.Proof.RefChain
import proofs.«179842_j85048942395524_1_alg».proof.Proof.RefFeat

noncomputable section

namespace Cert.Gwc.Ref

open Idealize.ShloMosaic Idealize.ShloMosaic.ValueIdx Cert.ReferenceIdeal Cert.ReferenceIdeal.ReadP

/-- The plane of disparity 17: columns `17 ..` of the left view against the first 223 columns of the right view. -/
theorem plane_17 (L R : FVec Ideal S2x320x128x240 .f32) (b : Fin 2) (g : Fin 40) (h : Fin 128) (x : Fin 240) :
    val_main_v124 (F := Ideal) L R (ix4 b g h x) = cost L R b g (⟨17, by decide⟩ : Fin 48) h x := by
  unfold val_main_v124 val_main_v123 val_main_v121 val_main_v120 val_main_v118 val_main_v119 val_main_cst_48 val_main_v122 val_main_cst_49 val_main_call16_v0 val_main_c_50
  exact (chain_apply 17 223 rfl (val_main_v0 (F := Ideal) L) (val_main_v1 (F := Ideal) R) _ _ _ (by decide) _ _ _ b g h x).trans
    (chain_to_cost L R b g ⟨17, by decide⟩ h x)

/-- The plane of disparity 18: columns `18 ..` of the left view against the first 222 columns of the right view. -/
theorem plane_18 (L R : FVec Ideal S2x320x128x240 .f32) (b : Fin 2) (g : Fin 40) (h : Fin 128) (x : Fin 240) :
    val_main_v131 (F := Ideal) L R (ix4 b g h x) = cost L R b g (⟨18, by decide⟩ : Fin 48) h x := by
  unfold val_main_v131 val_main_v130 val_main_v128 val_main_v127 val_main_v125 val_main_v126 val_main_cst_51 val_main_v129 val_main_cst_52 val_main_call17_v0 val_main_c_53
  exact (chain_apply 18 222 rfl (val_main_v0 (F := Ideal) L) (val_main_v1 (F := Ideal) R) _ _ _ (by decide) _ _ _ b g h x).trans
    (chain_to_cost L R b g ⟨18, by decide⟩ h x)

/-- The plane of disparity 19: columns `19 ..` of the left view against the first 221 columns of the right view. -/
theorem plane_19 (L R : FVec Ideal S2x320x128x240 .f32) (b : Fin 2) (g : Fin 40) (h : Fin 128) (x : Fin 240) :
    val_main_v138 (F := Ideal) L R (ix4 b g h x) = cost L R b g (⟨19, by decide⟩ : Fin 48) h x := by
  unfold val_main_v138 val_main_v137 val_main_v135 val_main_v134 val_main_v132 val_main_v133 val_main_cst_54 val_main_v136 val_main_cst_55 val_main_call18_v0 val_main_c_56
  exact (chain_apply 19 221 rfl (val_main_v0 (F := Ideal) L) (val_main_v1 (F := Ideal) R) _ _ _ (by decide) _ _ _ b g h x).trans
    (chain_to_cost L R b g ⟨19, by decide⟩ h x)

/-- The plane of disparity 20: columns `20 ..` of the left view against the first 220 columns of the right view. -/
theorem plane_20 (L R : FVec Ideal S2x320x128x240 .f32) (b : Fin 2) (g : Fin 40) (h : Fin 128) (x : Fin 240) :
    val_main_v145 (F := Ideal) L R (ix4 b g h x) = cost L R b g (⟨20, by decide⟩ : Fin 48) h x := by
  unfold val_main_v145 val_main_v144 val_main_v142 val_main_v141 val_main_v139 val_main_v140 val_main_cst_57 val_main_v143 val_main_cst_58 val_main_call19_v0 val_main_c_59
  exact (chain_apply 20 220 rfl (val_main_v0 (F := Ideal) L) (val_main_v1 (F := Ideal) R) _ _ _ (by decide) _ _ _ b g h x).trans
    (chain_to_cost L R b g ⟨20, by decide⟩ h x)

/-- The plane of disparity 21: columns `21 ..` of the left view against the first 219 columns of the right view. -/
theorem plane_21 (L R : FVec Ideal S2x320x128x240 .f32) (b : Fin 2) (g : Fin 40) (h : Fin 128) (x : Fin 240) :
    val_main_v152 (F := Ideal) L R (ix4 b g h x) = cost L R b g (⟨21, by decide⟩ : Fin 48) h x := by
  unfold val_main_v152 val_main_v151 val_main_v149 val_main_v148 val_main_v146 val_main_v147 val_main_cst_60 val_main_v150 val_main_cst_61 val_main_call20_v0 val_main_c_62
  exact (chain_apply 21 219 rfl (val_main_v0 (F := Ideal) L) (val_main_v1 (F := Ideal) R) _ _ _ (by decide) _ _ _ b g h x).trans
    (chain_to_cost L R b g ⟨21, by decide⟩ h x)

/-- The plane of disparity 22: columns `22 ..` of the left view against the first 218 columns of the right view. -/
theorem plane_22 (L R : FVec Ideal S2x320x128x240 .f32) (b : Fin 2) (g : Fin 40) (h : Fin 128) (x : Fin 240) :
    val_main_v159 (F := Ideal) L R (ix4 b g h x) = cost L R b g (⟨22, by decide⟩ : Fin 48) h x := by
  unfold val_main_v159 val_main_v158 val_main_v156 val_main_v155 val_main_v153 val_main_v154 val_main_cst_63 val_main_v157 val_main_cst_64 val_main_call21_v0 val_main_c_65
  exact (chain_apply 22 218 rfl (val_main_v0 (F := Ideal) L) (val_main_v1 (F := Ideal) R) _ _ _ (by decide) _ _ _ b g h x).trans
    (chain_to_cost L R b g ⟨22, by decide⟩ h x)

/-- The plane of disparity 23: columns `23 ..` of the left view against the first 217 columns of the right view. -/
theorem plane_23 (L R : FVec Ideal S2x320x128x240 .f32) (b : Fin 2) (g : Fin 40) (h : Fin 128) (x : Fin 240) :
    val_main_v166 (F := Ideal) L R (ix4 b g h x) = cost L R b g (⟨23, by decide⟩ : Fin 48) h x := by
  unfold val_main_v166 val_main_v165 val_main_v163 val_main_v162 val_main_v160 val_main_v161 val_main_cst_66 val_main_v164 val_main_cst_67 val_main_call22_v0 val_main_c_68
  exact (chain_apply 23 217 rfl (val_main_v0 (F := Ideal) L) (val_main_v1 (F := Ideal) R) _ _ _ (by decide) _ _ _ b g h x).trans
    (chain_to_cost L R b g ⟨23, by decide⟩ h x)

/-- The plane of disparity 24: columns `24 ..` of the left view against the first 216 columns of the right view. -/
theorem plane_24 (L R : FVec Ideal S2x320x128x240 .f32) (b : Fin 2) (g : Fin 40) (h : Fin 128) (x : Fin 240) :
    val_main_v173 (F := Ideal) L R (ix4 b g h x) = cost L R b g (⟨24, by decide⟩ : Fin 48) h x := by
  unfold val_main_v173 val_main_v172 val_main_v170 val_main_v169 val_main_v167 val_main_v168 val_main_cst_69 val_main_v171 val_main_cst_70 val_main_call23_v0 val_main_c_71
  exact (chain_apply 24 216 rfl (val_main_v0 (F := Ideal) L) (val_main_v1 (F := Ideal) R) _ _ _ (by decide) _ _ _ b g h x).trans
    (chain_to_cost L R b g ⟨24, by decide⟩ h x)

end Cert.Gwc.Ref

end
-- ==== Proof.RefPads4.lean ====
/- Table of cases written out by `bun scratch/gen_ref.js pads 25 32` (run from the unit directory) from the stage names of the generated
   module Gen/ReferenceIdeal/Read.lean (imported through its copy RefRead.lean). Each row is the chain lemma of RefChain.lean at one disparity, followed by the
   passage from the two views to the feature arrays of RefFeat.lean. -/
import proofs.«179842_j85048942395524_1_alg».proof.Proof.RefRead
import proofs.«179842_j85048942395524_1_alg».proof.Proof.RefChain
import proofs.«179842_j85048942395524_1_alg».proof.Proof.RefFeat

noncomputable section

namespace Cert.Gwc.Ref

open Idealize.ShloMosaic Idealize.ShloMosaic.ValueIdx Cert.ReferenceIdeal Cert.ReferenceIdeal.ReadP

/-- The plane of disparity 25: columns `25 ..` of the left view against the first 215 columns of the right view. -/
theorem plane_25 (L R : FVec Ideal S2x320x128x240 .f32) (b : Fin 2) (g : Fin 40) (h : Fin 128) (x : Fin 240) :
    val_main_v180 (F := Ideal) L R (ix4 b g h x) = cost L R b g (⟨25, by decide⟩ : Fin 48) h x := by
  unfold val_main_v180 val_main_v179 val_main_v177 val_main_v176 val_main_v174 val_main_v175 val_main_cst_72 val_main_v178 val_main_cst_73 val_main_call24_v0 val_main_c_74
  exact (chain_apply 25 215 rfl (val_main_v0 (F := Ideal) L) (val_main_v1 (F := Ideal) R) _ _ _ (by decide) _ _ _ b g h x).trans
    (chain_to_cost L R b g ⟨25, by decide⟩ h x)

/-- The plane of disparity 26: columns `26 ..` of the left view against the first 214 columns of the right view. -/
theorem plane_26 (L R : FVec Ideal S2x320x128x240 .f32) (b : Fin 2) (g : Fin 40) (h : Fin 128) (x : Fin 240) :
    val_main_v187 (F := Ideal) L R (ix4 b g h x) = cost L R b g (⟨26, by decide⟩ : Fin 48) h x := by
  unfold val_main_v187 val_main_v186 val_main_v184 val_main_v183 val_main_v181 val_main_v182 val_main_cst_75 val_main_v185 val_main_cst_76 val_main_call25_v0 val_main_c_77
  exact (chain_apply 26 214 rfl (val_main_v0 (F := Ideal) L) (val_main_v1 (F := Ideal) R) _ _ _ (by decide) _ _ _ b g h x).trans
    (chain_to_cost L R b g ⟨26, by decide⟩ h x)

/-- The plane of disparity 27: columns `27 ..` of the left view against the first 213 columns of the right view. -/
theorem plane_27 (L R : FVec Ideal S2x320x128x240 .f32) (b : Fin 2) (g : Fin 40) (h : Fin 128) (x : Fin 240) :
    val_main_v194 (F := Ideal) L R (ix4 b g h x) = cost L R b g (⟨27, by decide⟩ : Fin 48) h x := by
  unfold val_main_v194 val_main_v193 val_main_v191 val_main_v190 val_main_v188 val_main_v189 val_main_cst_78 val_main_v192 val_main_cst_79 val_main_call26_v0 val_main_c_80
  exact (chain_apply 27 213 rfl (val_main_v0 (F := Ideal) L) (val_main_v1 (F := Ideal) R) _ _ _ (by decide) _ _ _ b g h x).trans
    (chain_to_cost L R b g ⟨27, by decide⟩ h x)

/-- The plane of disparity 28: columns `28 ..` of the left view against the first 212 columns of the right view. -/
theorem plane_28 (L R : FVec Ideal S2x320x128x240 .f32) (b : Fin 2) (g : Fin 40) (h : Fin 128) (x : Fin 240) :
    val_main_v201 (F := Ideal) L R (ix4 b g h x) = cost L R b g (⟨28, by decide⟩ : Fin 48) h x := by
  unfold val_main_v201 val_main_v200 val_main_v198 val_main_v197 val_main_v195 val_main_v196 val_main_cst_81 val_main_v199 val_main_cst_82 val_main_call27_v0 val_main_c_83
  exact (chain_apply 28 212 rfl (val_main_v0 (F := Ideal) L) (val_main_v1 (F := Ideal) R) _ _ _ (by decide) _ _ _ b g h x).trans
    (chain_to_cost L R b g ⟨28, by decide⟩ h x)

/-- The plane of disparity 29: columns `29 ..` of the left view against the first 211 columns of the right view. -/
theorem plane_29 (L R : FVec Ideal S2x320x128x240 .f32) (b : Fin 2) (g : Fin 40) (h : Fin 128) (x : Fin 240) :
    val_main_v208 (F := Ideal) L R (ix4 b g h x) = cost L R b g (⟨29, by decide⟩ : Fin 48) h x := by
  unfold val_main_v208 val_main_v207 val_main_v205 val_main_v204 val_main_v202 val_main_v203 val_main_cst_84 val_main_v206 val_main_cst_85 val_main_call28_v0 val_main_c_86
  exact (chain_apply 29 211 rfl (val_main_v0 (F := Ideal) L) (val_main_v1 (F := Ideal) R) _ _ _ (by decide) _ _ _ b g h x).trans
    (chain_to_cost L R b g ⟨29, by decide⟩ h x)

/-- The plane of disparity 30: columns `30 ..` of the left view against the first 210 columns of the right view. -/
theorem plane_30 (L R : FVec Ideal S2x320x128x240 .f32) (b : Fin 2) (g : Fin 40) (h : Fin 128) (x : Fin 240) :
    val_main_v215 (F := Ideal) L R (ix4 b g h x) = cost L R b g (⟨30, by decide⟩ : Fin 48) h x := by
  unfold val_main_v215 val_main_v214 val_main_v212 val_main_v211 val_main_v209 val_main_v210 val_main_cst_87 val_main_v213 val_main_cst_88 val_main_call29_v0 val_main_c_89
  exact (chain_apply 30 210 rfl (val_main_v0 (F := Ideal) L) (val_main_v1 (F := Ideal) R) _ _ _ (by decide) _ _ _ b g h x).trans
    (chain_to_cost L R b g ⟨30, by decide⟩ h x)

/-- The plane of disparity 31: columns `31 ..` of the left view against the first 209 columns of the right view. -/
theorem plane_31 (L R : FVec Ideal S2x320x128x240 .f32) (b : Fin 2) (g : Fin 40) (h : Fin 128) (x : Fin 240) :
    val_main_v222 (F := Ideal) L R (ix4 b g h x) = cost L R b g (⟨31, by decide⟩ : Fin 48) h x := by
  unfold val_main_v222 val_main_v221 val_main_v219 val_main_v218 val_main_v216 val_main_v217 val_main_cst_90 val_main_v220 val_main_cst_91 val_main_call30_v0 val_main_c_92
  exact (chain_apply 31 209 rfl (val_main_v0 (F := Ideal) L) (val_main_v1 (F := Ideal) R) _ _ _ (by decide) _ _ _ b g h x).trans
    (chain_to_cost L R b g ⟨31, by decide⟩ h x)

/-- The plane of disparity 32: columns `32 ..` of the left view against the first 208 columns of the right view. -/
theorem plane_32 (L R : FVec Ideal S2x320x128x240 .f32) (b : Fin 2) (g : Fin 40) (h : Fin 128) (x : Fin 240) :
    val_main_v229 (F := Ideal) L R (ix4 b g h x) = cost L R b g (⟨32, by decide⟩ : Fin 48) h x := by
  unfold val_main_v229 val_main_v228 val_main_v226 val_main_v225 val_main_v223 val_main_v224 val_main_cst_93 val_main_v227 val_main_cst_94 val_main_call31_v0 val_main_c_95
  exact (chain_apply 32 208 rfl (val_main_v0 (F := Ideal) L) (val_main_v1 (F := Ideal) R) _ _ _ (by decide) _ _ _ b g h x).trans
    (chain_to_cost L R b g ⟨32, by decide⟩ h x)

end Cert.Gwc.Ref

end
-- ==== Proof.RefPads5.lean ====
/- Table of cases written out by `bun scratch/gen_ref.js pads 33 40` (run from the unit directory) from the stage names of the generated
   module Gen/ReferenceIdeal/Read.lean (imported through its copy RefRead.lean). Each row is the chain lemma of RefChain.lean at one disparity, followed by the
   passage from the two views to the feature arrays of RefFeat.lean. -/
import proofs.«179842_j85048942395524_1_alg».proof.Proof.RefRead
import proofs.«179842_j85048942395524_1_alg».proof.Proof.RefChain
import proofs.«179842_j85048942395524_1_alg».proof.Proof.RefFeat

noncomputable section

namespace Cert.Gwc.Ref

open Idealize.ShloMosaic Idealize.ShloMosaic.ValueIdx Cert.ReferenceIdeal Cert.ReferenceIdeal.ReadP

/-- The plane of disparity 33: columns `33 ..` of the left view against the first 207 columns of the right view. -/
theorem plane_33 (L R : FVec Ideal S2x320x128x240 .f32) (b : Fin 2) (g : Fin 40) (h : Fin 128) (x : Fin 240) :
    val_main_v236 (F := Ideal) L R (ix4 b g h x) = cost L R b g (⟨33, by decide⟩ : Fin 48) h x := by
  unfold val_main_v236 val_main_v235 val_main_v233 val_main_v232 val_main_v230 val_main_v231 val_main_cst_96 val_main_v234 val_main_cst_97 val_main_call32_v0 val_main_c_98
  exact (chain_apply 33 207 rfl (val_main_v0 (F := Ideal) L) (val_main_v1 (F := Ideal) R) _ _ _ (by decide) _ _ _ b g h x).trans
    (chain_to_cost L R b g ⟨33, by decide⟩ h x)

/-- The plane of disparity 34: columns `34 ..` of the left view against the first 206 columns of the right view. -/
theorem plane_34 (L R : FVec Ideal S2x320x128x240 .f32) (b : Fin 2) (g : Fin 40) (h : Fin 128) (x : Fin 240) :
    val_main_v243 (F := Ideal) L R (ix4 b g h x) = cost L R b g (⟨34, by decide⟩ : Fin 48) h x := by
  unfold val_main_v243 val_main_v242 val_main_v240 val_main_v239 val_main_v237 val_main_v238 val_main_cst_99 val_main_v241 val_main_cst_100 val_main_call33_v0 val_main_c_101
  exact (chain_apply 34 206 rfl (val_main_v0 (F := Ideal) L) (val_main_v1 (F := Ideal) R) _ _ _ (by decide) _ _ _ b g h x).trans
    (chain_to_cost L R b g ⟨34, by decide⟩ h x)

/-- The plane of disparity 35: columns `35 ..` of the left view against the first 205 columns of the right view. -/
theorem plane_35 (L R : FVec Ideal S2x320x128x240 .f32) (b : Fin 2) (g : Fin 40) (h : Fin 128) (x : Fin 240) :
    val_main_v250 (F := Ideal) L R (ix4 b g h x) = cost L R b g (⟨35, by decide⟩ : Fin 48) h x := by
  unfold val_main_v250 val_main_v249 val_main_v247 val_main_v246 val_main_v244 val_main_v245 val_main_cst_102 val_main_v248 val_main_cst_103 val_main_call34_v0 val_main_c_104
  exact (chain_apply 35 205 rfl (val_main_v0 (F := Ideal) L) (val_main_v1 (F := Ideal) R) _ _ _ (by decide) _ _ _ b g h x).trans
    (chain_to_cost L R b g ⟨35, by decide⟩ h x)

/-- The plane of disparity 36: columns `36 ..` of the left view against the first 204 columns of the right view. -/
theorem plane_36 (L R : FVec Ideal S2x320x128x240 .f32) (b : Fin 2) (g : Fin 40) (h : Fin 128) (x : Fin 240) :
    val_main_v257 (F := Ideal) L R (ix4 b g h x) = cost L R b g (⟨36, by decide⟩ : Fin 48) h x := by
  unfold val_main_v257 val_main_v256 val_main_v254 val_main_v253 val_main_v251 val_main_v252 val_main_cst_105 val_main_v255 val_main_cst_106 val_main_call35_v0 val_main_c_107
  exact (chain_apply 36 204 rfl (val_main_v0 (F := Ideal) L) (val_main_v1 (F := Ideal) R) _ _ _ (by decide) _ _ _ b g h x).trans
    (chain_to_cost L R b g ⟨36, by decide⟩ h x)

/-- The plane of disparity 37: columns `37 ..` of the left view against the first 203 columns of the right view. -/
theorem plane_37 (L R : FVec Ideal S2x320x128x240 .f32) (b : Fin 2) (g : Fin 40) (h : Fin 128) (x : Fin 240) :
    val_main_v264 (F := Ideal) L R (ix4 b g h x) = cost L R b g (⟨37, by decide⟩ : Fin 48) h x := by
  unfold val_main_v264 val_main_v263 val_main_v261 val_main_v260 val_main_v258 val_main_v259 val_main_cst_108 val_main_v262 val_main_cst_109 val_main_call36_v0 val_main_c_110
  exact (chain_apply 37 203 rfl (val_main_v0 (F := Ideal) L) (val_main_v1 (F := Ideal) R) _ _ _ (by decide) _ _ _ b g h x).trans
    (chain_to_cost L R b g ⟨37, by decide⟩ h x)

/-- The plane of disparity 38: columns `38 ..` of the left view against the first 202 columns of the right view. -/
theorem plane_38 (L R : FVec Ideal S2x320x128x240 .f32) (b : Fin 2) (g : Fin 40) (h : Fin 128) (x : Fin 240) :
    val_main_v271 (F := Ideal) L R (ix4 b g h x) = cost L R b g (⟨38, by decide⟩ : Fin 48) h x := by
  unfold val_main_v271 val_main_v270 val_main_v268 val_main_v267 val_main_v265 val_main_v266 val_main_cst_111 val_main_v269 val_main_cst_112 val_main_call37_v0 val_main_c_113
  exact (chain_apply 38 202 rfl (val_main_v0 (F := Ideal) L) (val_main_v1 (F := Ideal) R) _ _ _ (by decide) _ _ _ b g h x).trans
    (chain_to_cost L R b g ⟨38, by decide⟩ h x)

/-- The plane of disparity 39: columns `39 ..` of the left view against the first 201 columns of the right view. -/
theorem plane_39 (L R : FVec Ideal S2x320x128x240 .f32) (b : Fin 2) (g : Fin 40) (h : Fin 128) (x : Fin 240) :
    val_main_v278 (F := Ideal) L R (ix4 b g h x) = cost L R b g (⟨39, by decide⟩ : Fin 48) h x := by
  unfold val_main_v278 val_main_v277 val_main_v275 val_main_v274 val_main_v272 val_main_v273 val_main_cst_114 val_main_v276 val_main_cst_115 val_main_call38_v0 val_main_c_116
  exact (chain_apply 39 201 rfl (val_main_v0 (F := Ideal) L) (val_main_v1 (F := Ideal) R) _ _ _ (by decide) _ _ _ b g h x).trans
    (chain_to_cost L R b g ⟨39, by decide⟩ h x)

/-- The plane of disparity 40: columns `40 ..` of the left view against the first 200 columns of the right view. -/
theorem plane_40 (L R : FVec Ideal S2x320x128x240 .f32) (b : Fin 2) (g : Fin 40) (h : Fin 128) (x : Fin 240) :
    val_main_v285 (F := Ideal) L R (ix4 b g h x) = cost L R b g (⟨40, by decide⟩ : Fin 48) h x := by
  unfold val_main_v285 val_main_v284 val_main_v282 val_main_v281 val_main_v279 val_main_v280 val_main_cst_117 val_main_v283 val_main_cst_118 val_main_call39_v0 val_main_c_119
  exact (chain_apply 40 200 rfl (val_main_v0 (F := Ideal) L) (val_main_v1 (F := Ideal) R) _ _ _ (by decide) _ _ _ b g h x).trans
    (chain_to_cost L R b g ⟨40, by decide⟩ h x)

end Cert.Gwc.Ref

end
-- ==== Proof.RefPads6.lean ====
/- Table of cases written out by `bun scratch/gen_ref.js pads 41 47` (run from the unit directory) from the stage names of the generated
   module Gen/ReferenceIdeal/Read.lean (imported through its copy RefRead.lean). Each row is the chain lemma of RefChain.lean at one disparity, followed by the
   passage from the two views to the feature arrays of RefFeat.lean. -/
import proofs.«179842_j85048942395524_1_alg».proof.Proof.RefRead
import proofs.«179842_j85048942395524_1_alg».proof.Proof.RefChain
import proofs.«179842_j85048942395524_1_alg».proof.Proof.RefFeat

noncomputable section

namespace Cert.Gwc.Ref

open Idealize.ShloMosaic Idealize.ShloMosaic.ValueIdx Cert.ReferenceIdeal Cert.ReferenceIdeal.ReadP

/-- The plane of disparity 41: columns `41 ..` of the left view against the first 199 columns of the right view. -/
theorem plane_41 (L R : FVec Ideal S2x320x128x240 .f32) (b : Fin 2) (g : Fin 40) (h : Fin 128) (x : Fin 240) :
    val_main_v292 (F := Ideal) L R (ix4 b g h x) = cost L R b g (⟨41, by decide⟩ : Fin 48) h x := by
  unfold val_main_v292 val_main_v291 val_main_v289 val_main_v288 val_main_v286 val_main_v287 val_main_cst_120 val_main_v290 val_main_cst_121 val_main_call40_v0 val_main_c_122
  exact (chain_apply 41 199 rfl (val_main_v0 (F := Ideal) L) (val_main_v1 (F := Ideal) R) _ _ _ (by decide) _ _ _ b g h x).trans
    (chain_to_cost L R b g ⟨41, by decide⟩ h x)

/-- The plane of disparity 42: columns `42 ..` of the left view against the first 198 columns of the right view. -/
theorem plane_42 (L R : FVec Ideal S2x320x128x240 .f32) (b : Fin 2) (g : Fin 40) (h : Fin 128) (x : Fin 240) :
    val_main_v299 (F := Ideal) L R (ix4 b g h x) = cost L R b g (⟨42, by decide⟩ : Fin 48) h x := by
  unfold val_main_v299 val_main_v298 val_main_v296 val_main_v295 val_main_v293 val_main_v294 val_main_cst_123 val_main_v297 val_main_cst_124 val_main_call41_v0 val_main_c_125
  exact (chain_apply 42 198 rfl (val_main_v0 (F := Ideal) L) (val_main_v1 (F := Ideal) R) _ _ _ (by decide) _ _ _ b g h x).trans
    (chain_to_cost L R b g ⟨42, by decide⟩ h x)

/-- The plane of disparity 43: columns `43 ..` of the left view against the first 197 columns of the right view. -/
theorem plane_43 (L R : FVec Ideal S2x320x128x240 .f32) (b : Fin 2) (g : Fin 40) (h : Fin 128) (x : Fin 240) :
    val_main_v306 (F := Ideal) L R (ix4 b g h x) = cost L R b g (⟨43, by decide⟩ : Fin 48) h x := by
  unfold val_main_v306 val_main_v305 val_main_v303 val_main_v302 val_main_v300 val_main_v301 val_main_cst_126 val_main_v304 val_main_cst_127 val_main_call42_v0 val_main_c_128
  exact (chain_apply 43 197 rfl (val_main_v0 (F := Ideal) L) (val_main_v1 (F := Ideal) R) _ _ _ (by decide) _ _ _ b g h x).trans
    (chain_to_cost L R b g ⟨43, by decide⟩ h x)

/-- The plane of disparity 44: columns `44 ..` of the left view against the first 196 columns of the right view. -/
theorem plane_44 (L R : FVec Ideal S2x320x128x240 .f32) (b : Fin 2) (g : Fin 40) (h : Fin 128) (x : Fin 240) :
    val_main_v313 (F := Ideal) L R (ix4 b g h x) = cost L R b g (⟨44, by decide⟩ : Fin 48) h x := by
  unfold val_main_v313 val_main_v312 val_main_v310 val_main_v309 val_main_v307 val_main_v308 val_main_cst_129 val_main_v311 val_main_cst_130 val_main_call43_v0 val_main_c_131
  exact (chain_apply 44 196 rfl (val_main_v0 (F := Ideal) L) (val_main_v1 (F := Ideal) R) _ _ _ (by decide) _ _ _ b g h x).trans
    (chain_to_cost L R b g ⟨44, by decide⟩ h x)

/-- The plane of disparity 45: columns `45 ..` of the left view against the first 195 columns of the right view. -/
theorem plane_45 (L R : FVec Ideal S2x320x128x240 .f32) (b : Fin 2) (g : Fin 40) (h : Fin 128) (x : Fin 240) :
    val_main_v320 (F := Ideal) L R (ix4 b g h x) = cost L R b g (⟨45, by decide⟩ : Fin 48) h x := by
  unfold val_main_v320 val_main_v319 val_main_v317 val_main_v316 val_main_v314 val_main_v315 val_main_cst_132 val_main_v318 val_main_cst_133 val_main_call44_v0 val_main_c_134
  exact (chain_apply 45 195 rfl (val_main_v0 (F := Ideal) L) (val_main_v1 (F := Ideal) R) _ _ _ (by decide) _ _ _ b g h x).trans
    (chain_to_cost L R b g ⟨45, by decide⟩ h x)

/-- The plane of disparity 46: columns `46 ..` of the left view against the first 194 columns of the right view. -/
theorem plane_46 (L R : FVec Ideal S2x320x128x240 .f32) (b : Fin 2) (g : Fin 40) (h : Fin 128) (x : Fin 240) :
    val_main_v327 (F := Ideal) L R (ix4 b g h x) = cost L R b g (⟨46, by decide⟩ : Fin 48) h x := by
  unfold val_main_v327 val_main_v326 val_main_v324 val_main_v323 val_main_v321 val_main_v322 val_main_cst_135 val_main_v325 val_main_cst_136 val_main_call45_v0 val_main_c_137
  exact (chain_apply 46 194 rfl (val_main_v0 (F := Ideal) L) (val_main_v1 (F := Ideal) R) _ _ _ (by decide) _ _ _ b g h x).trans
    (chain_to_cost L R b g ⟨46, by decide⟩ h x)

/-- The plane of disparity 47: columns `47 ..` of the left view against the first 193 columns of the right view. -/
theorem plane_47 (L R : FVec Ideal S2x320x128x240 .f32) (b : Fin 2) (g : Fin 40) (h : Fin 128) (x : Fin 240) :
    val_main_v334 (F := Ideal) L R (ix4 b g h x) = cost L R b g (⟨47, by decide⟩ : Fin 48) h x := by
  unfold val_main_v334 val_main_v333 val_main_v331 val_main_v330 val_main_v328 val_main_v329 val_main_cst_138 val_main_v332 val_main_cst_139 val_main_call46_v0 val_main_c_140
  exact (chain_apply 47 193 rfl (val_main_v0 (F := Ideal) L) (val_main_v1 (F := Ideal) R) _ _ _ (by decide) _ _ _ b g h x).trans
    (chain_to_cost L R b g ⟨47, by decide⟩ h x)

end Cert.Gwc.Ref

end
-- ==== Proof.RefStack.lean ====
/-
  Arrays of one shape laid end to end along the third axis, read entry by entry.

  The reference stacks its 48 cost planes in two steps: 16 planes of extent 1 into a block of extent 16, three times, and
  the three blocks into the volume of extent 48. Both steps are the same fact: when every piece has extent `m` on the
  joined axis, position `m * k + r` of the result is position `r` of piece `k`.
-/
import Idealize.ShloMosaic.Lib.Pipeline.Value
import Idealize.ShloMosaic.Lib.ValueIdx

noncomputable section

namespace Cert.Gwc.Ref

open Idealize.ShloMosaic Idealize.ShloMosaic.ValueIdx

/-- The sum of the extents along axis 2 of `l.length` pieces of shape [2, 40, m, 128, 240] is `m * l.length`. -/
theorem extents_sum {α : Type} (m N : Nat) (l : List ((⟨5, ![2, 40, m, 128, 240]⟩ : Shape).Idx → α)) :
    (((l.map fun y => (⟨⟨5, ![2, 40, m, 128, 240]⟩, y⟩ : (s : Shape) × (s.Idx → α))).map (·.1)).map fun s =>
        if h : s.rank = (⟨5, ![2, 40, N, 128, 240]⟩ : Shape).rank then
          s.size ((2 : Fin (⟨5, ![2, 40, N, 128, 240]⟩ : Shape).rank).cast h.symm) else 0).sum
      = m * l.length := by
  induction l with
  | nil => rfl
  | cons y l ih =>
    rw [List.map_cons, List.map_cons, List.map_cons, List.sum_cons, ih, List.length_cons, Nat.mul_succ, Nat.add_comm]
    rfl

/-- Pieces of one shape [2, 40, m, 128, 240] laid end to end along axis 2: the entry at position `m * k + r` of that axis
    is piece `k` at position `r`. -/
theorem concat_same {α : Type} (m N : Nat) (ys : List ((⟨5, ![2, 40, m, 128, 240]⟩ : Shape).Idx → α))
    (hc : Shape.Concatenates ((ys.map fun y => (⟨⟨5, ![2, 40, m, 128, 240]⟩, y⟩ : (s : Shape) × (s.Idx → α))).map (·.1))
      ⟨5, ![2, 40, N, 128, 240]⟩ 2)
    (k : Nat) (hk : k < ys.length) (r : Fin m) (e : Fin N) (he : m * k + r.val = e.val)
    (b : Fin 2) (g : Fin 40) (h : Fin 128) (x : Fin 240) :
    concatenate ⟨5, ![2, 40, N, 128, 240]⟩ 2 (ys.map fun y => ⟨⟨5, ![2, 40, m, 128, 240]⟩, y⟩) hc (ix5 b g e h x)
      = ys[k] (ix5 b g r h x) := by
  refine concatenate_apply_piece 2 _ hc (ix5 b g e h x) k (by rw [List.length_map]; exact hk)
    ⟨5, ![2, 40, m, 128, 240]⟩ ys[k] (by rw [List.getElem_map]) rfl (m * k) ?_ (ix5 b g r h x) ?_ ?_
  · rw [← List.map_take, extents_sum, List.length_take, Nat.min_eq_left (Nat.le_of_lt hk)]
  · intro c hc2
    match c with
    | ⟨0, _⟩ => rfl
    | ⟨1, _⟩ => rfl
    | ⟨2, _⟩ => exact absurd rfl hc2
    | ⟨3, _⟩ => rfl
    | ⟨4, _⟩ => rfl
  · exact he

end Cert.Gwc.Ref

end
-- ==== Proof.RefOuter.lean ====
/-
  The outer step of the reference's stacking: the volume of extent 48 is three blocks of extent 16 laid along the third
  axis, so that disparity `16 q + r` of the volume is position `r` of block `q`.
-/
import proofs.«179842_j85048942395524_1_alg».proof.Proof.RefRead
import proofs.«179842_j85048942395524_1_alg».proof.Proof.RefStack

noncomputable section

namespace Cert.Gwc.Ref

open Idealize.ShloMosaic Idealize.ShloMosaic.ValueIdx Cert.ReferenceIdeal Cert.ReferenceIdeal.ReadP

/-- Disparity `16 q + r` of the stacked volume is position `r` of block `q`. -/
theorem outer (L R : FVec Ideal S2x320x128x240 .f32) (q : Fin 3) (r : Fin 16) (e : Fin 48)
    (he : 16 * q.val + r.val = e.val) (b : Fin 2) (g : Fin 40) (h : Fin 128) (x : Fin 240) :
    val_main_v386 (F := Ideal) L R (ix5 b g e h x)
      = ([val_main_v383 (F := Ideal) L R, val_main_v384 (F := Ideal) L R, val_main_v385 (F := Ideal) L R][q.val]'(by
          show q.val < 3; exact q.isLt)) (ix5 b g r h x) := by
  unfold val_main_v386
  exact concat_same 16 48
    [val_main_v383 (F := Ideal) L R, val_main_v384 (F := Ideal) L R, val_main_v385 (F := Ideal) L R] _ q.val _ r e he b g h x

end Cert.Gwc.Ref

end
-- ==== Proof.RefSlots0.lean ====
/- Table of cases written out by `bun scratch/gen_ref.js slots 0` (run from the unit directory) from the stage names of the generated
   module Gen/ReferenceIdeal/Read.lean (imported through its copy RefRead.lean). Block 0 of the stacking: the 16 planes of disparities 0 .. 15 laid along
   the third axis (the stacking lemma of RefStack.lean at extent 1), then one row per disparity. -/
import proofs.«179842_j85048942395524_1_alg».proof.Proof.RefRead
import proofs.«179842_j85048942395524_1_alg».proof.Proof.RefStack
import proofs.«179842_j85048942395524_1_alg».proof.Proof.RefOuter

noncomputable section

namespace Cert.Gwc.Ref

open Idealize.ShloMosaic Idealize.ShloMosaic.ValueIdx Cert.ReferenceIdeal Cert.ReferenceIdeal.ReadP

/-- Position `r` of block 0 is the `r`-th of its 16 unit planes. -/
theorem block_0 (L R : FVec Ideal S2x320x128x240 .f32) (r : Fin 16) (b : Fin 2) (g : Fin 40) (h : Fin 128) (x : Fin 240) :
    val_main_v383 (F := Ideal) L R (ix5 b g r h x)
      = ([val_main_v335 (F := Ideal) L R,
      val_main_v336 (F := Ideal) L R,
      val_main_v337 (F := Ideal) L R,
      val_main_v338 (F := Ideal) L R,
      val_main_v339 (F := Ideal) L R,
      val_main_v340 (F := Ideal) L R,
      val_main_v341 (F := Ideal) L R,
      val_main_v342 (F := Ideal) L R,
      val_main_v343 (F := Ideal) L R,
      val_main_v344 (F := Ideal) L R,
      val_main_v345 (F := Ideal) L R,
      val_main_v346 (F := Ideal) L R,
      val_main_v347 (F := Ideal) L R,
      val_main_v348 (F := Ideal) L R,
      val_main_v349 (F := Ideal) L R,
      val_main_v350 (F := Ideal) L R][r.val]'(by show r.val < 16; exact r.isLt))
        (ix5 b g (⟨0, by decide⟩ : Fin 1) h x) := by
  unfold val_main_v383
  exact concat_same 1 16 [val_main_v335 (F := Ideal) L R,
      val_main_v336 (F := Ideal) L R,
      val_main_v337 (F := Ideal) L R,
      val_main_v338 (F := Ideal) L R,
      val_main_v339 (F := Ideal) L R,
      val_main_v340 (F := Ideal) L R,
      val_main_v341 (F := Ideal) L R,
      val_main_v342 (F := Ideal) L R,
      val_main_v343 (F := Ideal) L R,
      val_main_v344 (F := Ideal) L R,
      val_main_v345 (F := Ideal) L R,
      val_main_v346 (F := Ideal) L R,
      val_main_v347 (F := Ideal) L R,
      val_main_v348 (F := Ideal) L R,
      val_main_v349 (F := Ideal) L R,
      val_main_v350 (F := Ideal) L R] _ r.val _ ⟨0, by decide⟩ r (by show 1 * r.val + 0 = r.val; omega) b g h x

/-- Disparity 0 of the volume is the plane of disparity 0. -/
theorem slot_0 (L R : FVec Ideal S2x320x128x240 .f32) (b : Fin 2) (g : Fin 40) (h : Fin 128) (x : Fin 240) :
    val_main_v386 (F := Ideal) L R (ix5 b g (⟨0, by decide⟩ : Fin 48) h x) = val_main_v5 (F := Ideal) L R (ix4 b g h x) :=
  (outer L R ⟨0, by decide⟩ ⟨0, by decide⟩ ⟨0, by decide⟩ rfl b g h x).trans
    ((block_0 L R ⟨0, by decide⟩ b g h x).trans
      ((val_main_v335_apply (F := Ideal) L R (ix5 b g (⟨0, by decide⟩ : Fin 1) h x)).trans
        (congrArg (val_main_v5 (F := Ideal) L R) (funext fun a => match a with
          | ⟨0, _⟩ => rfl | ⟨1, _⟩ => rfl | ⟨2, _⟩ => rfl | ⟨3, _⟩ => rfl))))

/-- Disparity 1 of the volume is the plane of disparity 1. -/
theorem slot_1 (L R : FVec Ideal S2x320x128x240 .f32) (b : Fin 2) (g : Fin 40) (h : Fin 128) (x : Fin 240) :
    val_main_v386 (F := Ideal) L R (ix5 b g (⟨1, by decide⟩ : Fin 48) h x) = val_main_v12 (F := Ideal) L R (ix4 b g h x) :=
  (outer L R ⟨0, by decide⟩ ⟨1, by decide⟩ ⟨1, by decide⟩ rfl b g h x).trans
    ((block_0 L R ⟨1, by decide⟩ b g h x).trans
      ((val_main_v336_apply (F := Ideal) L R (ix5 b g (⟨0, by decide⟩ : Fin 1) h x)).trans
        (congrArg (val_main_v12 (F := Ideal) L R) (funext fun a => match a with
          | ⟨0, _⟩ => rfl | ⟨1, _⟩ => rfl | ⟨2, _⟩ => rfl | ⟨3, _⟩ => rfl))))

/-- Disparity 2 of the volume is the plane of disparity 2. -/
theorem slot_2 (L R : FVec Ideal S2x320x128x240 .f32) (b : Fin 2) (g : Fin 40) (h : Fin 128) (x : Fin 240) :
    val_main_v386 (F := Ideal) L R (ix5 b g (⟨2, by decide⟩ : Fin 48) h x) = val_main_v19 (F := Ideal) L R (ix4 b g h x) :=
  (outer L R ⟨0, by decide⟩ ⟨2, by decide⟩ ⟨2, by decide⟩ rfl b g h x).trans
    ((block_0 L R ⟨2, by decide⟩ b g h x).trans
      ((val_main_v337_apply (F := Ideal) L R (ix5 b g (⟨0, by decide⟩ : Fin 1) h x)).trans
        (congrArg (val_main_v19 (F := Ideal) L R) (funext fun a => match a with
          | ⟨0, _⟩ => rfl | ⟨1, _⟩ => rfl | ⟨2, _⟩ => rfl | ⟨3, _⟩ => rfl))))

/-- Disparity 3 of the volume is the plane of disparity 3. -/
theorem slot_3 (L R : FVec Ideal S2x320x128x240 .f32) (b : Fin 2) (g : Fin 40) (h : Fin 128) (x : Fin 240) :
    val_main_v386 (F := Ideal) L R (ix5 b g (⟨3, by decide⟩ : Fin 48) h x) = val_main_v26 (F := Ideal) L R (ix4 b g h x) :=
  (outer L R ⟨0, by decide⟩ ⟨3, by decide⟩ ⟨3, by decide⟩ rfl b g h x).trans
    ((block_0 L R ⟨3, by decide⟩ b g h x).trans
      ((val_main_v338_apply (F := Ideal) L R (ix5 b g (⟨0, by decide⟩ : Fin 1) h x)).trans
        (congrArg (val_main_v26 (F := Ideal) L R) (funext fun a => match a with
          | ⟨0, _⟩ => rfl | ⟨1, _⟩ => rfl | ⟨2, _⟩ => rfl | ⟨3, _⟩ => rfl))))

/-- Disparity 4 of the volume is the plane of disparity 4. -/
theorem slot_4 (L R : FVec Ideal S2x320x128x240 .f32) (b : Fin 2) (g : Fin 40) (h : Fin 128) (x : Fin 240) :
    val_main_v386 (F := Ideal) L R (ix5 b g (⟨4, by decide⟩ : Fin 48) h x) = val_main_v33 (F := Ideal) L R (ix4 b g h x) :=
  (outer L R ⟨0, by decide⟩ ⟨4, by decide⟩ ⟨4, by decide⟩ rfl b g h x).trans
    ((block_0 L R ⟨4, by decide⟩ b g h x).trans
      ((val_main_v339_apply (F := Ideal) L R (ix5 b g (⟨0, by decide⟩ : Fin 1) h x)).trans
        (congrArg (val_main_v33 (F := Ideal) L R) (funext fun a => match a with
          | ⟨0, _⟩ => rfl | ⟨1, _⟩ => rfl | ⟨2, _⟩ => rfl | ⟨3, _⟩ => rfl))))

/-- Disparity 5 of the volume is the plane of disparity 5. -/
theorem slot_5 (L R : FVec Ideal S2x320x128x240 .f32) (b : Fin 2) (g : Fin 40) (h : Fin 128) (x : Fin 240) :
    val_main_v386 (F := Ideal) L R (ix5 b g (⟨5, by decide⟩ : Fin 48) h x) = val_main_v40 (F := Ideal) L R (ix4 b g h x) :=
  (outer L R ⟨0, by decide⟩ ⟨5, by decide⟩ ⟨5, by decide⟩ rfl b g h x).trans
    ((block_0 L R ⟨5, by decide⟩ b g h x).trans
      ((val_main_v340_apply (F := Ideal) L R (ix5 b g (⟨0, by decide⟩ : Fin 1) h x)).trans
        (congrArg (val_main_v40 (F := Ideal) L R) (funext fun a => match a with
          | ⟨0, _⟩ => rfl | ⟨1, _⟩ => rfl | ⟨2, _⟩ => rfl | ⟨3, _⟩ => rfl))))

/-- Disparity 6 of the volume is the plane of disparity 6. -/
theorem slot_6 (L R : FVec Ideal S2x320x128x240 .f32) (b : Fin 2) (g : Fin 40) (h : Fin 128) (x : Fin 240) :
    val_main_v386 (F := Ideal) L R (ix5 b g (⟨6, by decide⟩ : Fin 48) h x) = val_main_v47 (F := Ideal) L R (ix4 b g h x) :=
  (outer L R ⟨0, by decide⟩ ⟨6, by decide⟩ ⟨6, by decide⟩ rfl b g h x).trans
    ((block_0 L R ⟨6, by decide⟩ b g h x).trans
      ((val_main_v341_apply (F := Ideal) L R (ix5 b g (⟨0, by decide⟩ : Fin 1) h x)).trans
        (congrArg (val_main_v47 (F := Ideal) L R) (funext fun a => match a with
          | ⟨0, _⟩ => rfl | ⟨1, _⟩ => rfl | ⟨2, _⟩ => rfl | ⟨3, _⟩ => rfl))))

/-- Disparity 7 of the volume is the plane of disparity 7. -/
theorem slot_7 (L R : FVec Ideal S2x320x128x240 .f32) (b : Fin 2) (g : Fin 40) (h : Fin 128) (x : Fin 240) :
    val_main_v386 (F := Ideal) L R (ix5 b g (⟨7, by decide⟩ : Fin 48) h x) = val_main_v54 (F := Ideal) L R (ix4 b g h x) :=
  (outer L R ⟨0, by decide⟩ ⟨7, by decide⟩ ⟨7, by decide⟩ rfl b g h x).trans
    ((block_0 L R ⟨7, by decide⟩ b g h x).trans
      ((val_main_v342_apply (F := Ideal) L R (ix5 b g (⟨0, by decide⟩ : Fin 1) h x)).trans
        (congrArg (val_main_v54 (F := Ideal) L R) (funext fun a => match a with
          | ⟨0, _⟩ => rfl | ⟨1, _⟩ => rfl | ⟨2, _⟩ => rfl | ⟨3, _⟩ => rfl))))

/-- Disparity 8 of the volume is the plane of disparity 8. -/
theorem slot_8 (L R : FVec Ideal S2x320x128x240 .f32) (b : Fin 2) (g : Fin 40) (h : Fin 128) (x : Fin 240) :
    val_main_v386 (F := Ideal) L R (ix5 b g (⟨8, by decide⟩ : Fin 48) h x) = val_main_v61 (F := Ideal) L R (ix4 b g h x) :=
  (outer L R ⟨0, by decide⟩ ⟨8, by decide⟩ ⟨8, by decide⟩ rfl b g h x).trans
    ((block_0 L R ⟨8, by decide⟩ b g h x).trans
      ((val_main_v343_apply (F := Ideal) L R (ix5 b g (⟨0, by decide⟩ : Fin 1) h x)).trans
        (congrArg (val_main_v61 (F := Ideal) L R) (funext fun a => match a with
          | ⟨0, _⟩ => rfl | ⟨1, _⟩ => rfl | ⟨2, _⟩ => rfl | ⟨3, _⟩ => rfl))))

/-- Disparity 9 of the volume is the plane of disparity 9. -/
theorem slot_9 (L R : FVec Ideal S2x320x128x240 .f32) (b : Fin 2) (g : Fin 40) (h : Fin 128) (x : Fin 240) :
    val_main_v386 (F := Ideal) L R (ix5 b g (⟨9, by decide⟩ : Fin 48) h x) = val_main_v68 (F := Ideal) L R (ix4 b g h x) :=
  (outer L R ⟨0, by decide⟩ ⟨9, by decide⟩ ⟨9, by decide⟩ rfl b g h x).trans
    ((block_0 L R ⟨9, by decide⟩ b g h x).trans
      ((val_main_v344_apply (F := Ideal) L R (ix5 b g (⟨0, by decide⟩ : Fin 1) h x)).trans
        (congrArg (val_main_v68 (F := Ideal) L R) (funext fun a => match a with
          | ⟨0, _⟩ => rfl | ⟨1, _⟩ => rfl | ⟨2, _⟩ => rfl | ⟨3, _⟩ => rfl))))

/-- Disparity 10 of the volume is the plane of disparity 10. -/
theorem slot_10 (L R : FVec Ideal S2x320x128x240 .f32) (b : Fin 2) (g : Fin 40) (h : Fin 128) (x : Fin 240) :
    val_main_v386 (F := Ideal) L R (ix5 b g (⟨10, by decide⟩ : Fin 48) h x) = val_main_v75 (F := Ideal) L R (ix4 b g h x) :=
  (outer L R ⟨0, by decide⟩ ⟨10, by decide⟩ ⟨10, by decide⟩ rfl b g h x).trans
    ((block_0 L R ⟨10, by decide⟩ b g h x).trans
      ((val_main_v345_apply (F := Ideal) L R (ix5 b g (⟨0, by decide⟩ : Fin 1) h x)).trans
        (congrArg (val_main_v75 (F := Ideal) L R) (funext fun a => match a with
          | ⟨0, _⟩ => rfl | ⟨1, _⟩ => rfl | ⟨2, _⟩ => rfl | ⟨3, _⟩ => rfl))))

/-- Disparity 11 of the volume is the plane of disparity 11. -/
theorem slot_11 (L R : FVec Ideal S2x320x128x240 .f32) (b : Fin 2) (g : Fin 40) (h : Fin 128) (x : Fin 240) :
    val_main_v386 (F := Ideal) L R (ix5 b g (⟨11, by decide⟩ : Fin 48) h x) = val_main_v82 (F := Ideal) L R (ix4 b g h x) :=
  (outer L R ⟨0, by decide⟩ ⟨11, by decide⟩ ⟨11, by decide⟩ rfl b g h x).trans
    ((block_0 L R ⟨11, by decide⟩ b g h x).trans
      ((val_main_v346_apply (F := Ideal) L R (ix5 b g (⟨0, by decide⟩ : Fin 1) h x)).trans
        (congrArg (val_main_v82 (F := Ideal) L R) (funext fun a => match a with
          | ⟨0, _⟩ => rfl | ⟨1, _⟩ => rfl | ⟨2, _⟩ => rfl | ⟨3, _⟩ => rfl))))

/-- Disparity 12 of the volume is the plane of disparity 12. -/
theorem slot_12 (L R : FVec Ideal S2x320x128x240 .f32) (b : Fin 2) (g : Fin 40) (h : Fin 128) (x : Fin 240) :
    val_main_v386 (F := Ideal) L R (ix5 b g (⟨12, by decide⟩ : Fin 48) h x) = val_main_v89 (F := Ideal) L R (ix4 b g h x) :=
  (outer L R ⟨0, by decide⟩ ⟨12, by decide⟩ ⟨12, by decide⟩ rfl b g h x).trans
    ((block_0 L R ⟨12, by decide⟩ b g h x).trans
      ((val_main_v347_apply (F := Ideal) L R (ix5 b g (⟨0, by decide⟩ : Fin 1) h x)).trans
        (congrArg (val_main_v89 (F := Ideal) L R) (funext fun a => match a with
          | ⟨0, _⟩ => rfl | ⟨1, _⟩ => rfl | ⟨2, _⟩ => rfl | ⟨3, _⟩ => rfl))))

/-- Disparity 13 of the volume is the plane of disparity 13. -/
theorem slot_13 (L R : FVec Ideal S2x320x128x240 .f32) (b : Fin 2) (g : Fin 40) (h : Fin 128) (x : Fin 240) :
    val_main_v386 (F := Ideal) L R (ix5 b g (⟨13, by decide⟩ : Fin 48) h x) = val_main_v96 (F := Ideal) L R (ix4 b g h x) :=
  (outer L R ⟨0, by decide⟩ ⟨13, by decide⟩ ⟨13, by decide⟩ rfl b g h x).trans
    ((block_0 L R ⟨13, by decide⟩ b g h x).trans
      ((val_main_v348_apply (F := Ideal) L R (ix5 b g (⟨0, by decide⟩ : Fin 1) h x)).trans
        (congrArg (val_main_v96 (F := Ideal) L R) (funext fun a => match a with
          | ⟨0, _⟩ => rfl | ⟨1, _⟩ => rfl | ⟨2, _⟩ => rfl | ⟨3, _⟩ => rfl))))

/-- Disparity 14 of the volume is the plane of disparity 14. -/
theorem slot_14 (L R : FVec Ideal S2x320x128x240 .f32) (b : Fin 2) (g : Fin 40) (h : Fin 128) (x : Fin 240) :
    val_main_v386 (F := Ideal) L R (ix5 b g (⟨14, by decide⟩ : Fin 48) h x) = val_main_v103 (F := Ideal) L R (ix4 b g h x) :=
  (outer L R ⟨0, by decide⟩ ⟨14, by decide⟩ ⟨14, by decide⟩ rfl b g h x).trans
    ((block_0 L R ⟨14, by decide⟩ b g h x).trans
      ((val_main_v349_apply (F := Ideal) L R (ix5 b g (⟨0, by decide⟩ : Fin 1) h x)).trans
        (congrArg (val_main_v103 (F := Ideal) L R) (funext fun a => match a with
          | ⟨0, _⟩ => rfl | ⟨1, _⟩ => rfl | ⟨2, _⟩ => rfl | ⟨3, _⟩ => rfl))))

/-- Disparity 15 of the volume is the plane of disparity 15. -/
theorem slot_15 (L R : FVec Ideal S2x320x128x240 .f32) (b : Fin 2) (g : Fin 40) (h : Fin 128) (x : Fin 240) :
    val_main_v386 (F := Ideal) L R (ix5 b g (⟨15, by decide⟩ : Fin 48) h x) = val_main_v110 (F := Ideal) L R (ix4 b g h x) :=
  (outer L R ⟨0, by decide⟩ ⟨15, by decide⟩ ⟨15, by decide⟩ rfl b g h x).trans
    ((block_0 L R ⟨15, by decide⟩ b g h x).trans
      ((val_main_v350_apply (F := Ideal) L R (ix5 b g (⟨0, by decide⟩ : Fin 1) h x)).trans
        (congrArg (val_main_v110 (F := Ideal) L R) (funext fun a => match a with
          | ⟨0, _⟩ => rfl | ⟨1, _⟩ => rfl | ⟨2, _⟩ => rfl | ⟨3, _⟩ => rfl))))

end Cert.Gwc.Ref

end
-- ==== Proof.RefSlots1.lean ====
/- Table of cases written out by `bun scratch/gen_ref.js slots 1` (run from the unit directory) from the stage names of the generated
   module Gen/ReferenceIdeal/Read.lean (imported through its copy RefRead.lean). Block 1 of the stacking: the 16 planes of disparities 16 .. 31 laid along
   the third axis (the stacking lemma of RefStack.lean at extent 1), then one row per disparity. -/
import proofs.«179842_j85048942395524_1_alg».proof.Proof.RefRead
import proofs.«179842_j85048942395524_1_alg».proof.Proof.RefStack
import proofs.«179842_j85048942395524_1_alg».proof.Proof.RefOuter

noncomputable section

namespace Cert.Gwc.Ref

open Idealize.ShloMosaic Idealize.ShloMosaic.ValueIdx Cert.ReferenceIdeal Cert.ReferenceIdeal.ReadP

/-- Position `r` of block 1 is the `r`-th of its 16 unit planes. -/
theorem block_1 (L R : FVec Ideal S2x320x128x240 .f32) (r : Fin 16) (b : Fin 2) (g : Fin 40) (h : Fin 128) (x : Fin 240) :
    val_main_v384 (F := Ideal) L R (ix5 b g r h x)
      = ([val_main_v351 (F := Ideal) L R,
      val_main_v352 (F := Ideal) L R,
      val_main_v353 (F := Ideal) L R,
      val_main_v354 (F := Ideal) L R,
      val_main_v355 (F := Ideal) L R,
      val_main_v356 (F := Ideal) L R,
      val_main_v357 (F := Ideal) L R,
      val_main_v358 (F := Ideal) L R,
      val_main_v359 (F := Ideal) L R,
      val_main_v360 (F := Ideal) L R,
      val_main_v361 (F := Ideal) L R,
      val_main_v362 (F := Ideal) L R,
      val_main_v363 (F := Ideal) L R,
      val_main_v364 (F := Ideal) L R,
      val_main_v365 (F := Ideal) L R,
      val_main_v366 (F := Ideal) L R][r.val]'(by show r.val < 16; exact r.isLt))
        (ix5 b g (⟨0, by decide⟩ : Fin 1) h x) := by
  unfold val_main_v384
  exact concat_same 1 16 [val_main_v351 (F := Ideal) L R,
      val_main_v352 (F := Ideal) L R,
      val_main_v353 (F := Ideal) L R,
      val_main_v354 (F := Ideal) L R,
      val_main_v355 (F := Ideal) L R,
      val_main_v356 (F := Ideal) L R,
      val_main_v357 (F := Ideal) L R,
      val_main_v358 (F := Ideal) L R,
      val_main_v359 (F := Ideal) L R,
      val_main_v360 (F := Ideal) L R,
      val_main_v361 (F := Ideal) L R,
      val_main_v362 (F := Ideal) L R,
      val_main_v363 (F := Ideal) L R,
      val_main_v364 (F := Ideal) L R,
      val_main_v365 (F := Ideal) L R,
      val_main_v366 (F := Ideal) L R] _ r.val _ ⟨0, by decide⟩ r (by show 1 * r.val + 0 = r.val; omega) b g h x

/-- Disparity 16 of the volume is the plane of disparity 16. -/
theorem slot_16 (L R : FVec Ideal S2x320x128x240 .f32) (b : Fin 2) (g : Fin 40) (h : Fin 128) (x : Fin 240) :
    val_main_v386 (F := Ideal) L R (ix5 b g (⟨16, by decide⟩ : Fin 48) h x) = val_main_v117 (F := Ideal) L R (ix4 b g h x) :=
  (outer L R ⟨1, by decide⟩ ⟨0, by decide⟩ ⟨16, by decide⟩ rfl b g h x).trans
    ((block_1 L R ⟨0, by decide⟩ b g h x).trans
      ((val_main_v351_apply (F := Ideal) L R (ix5 b g (⟨0, by decide⟩ : Fin 1) h x)).trans
        (congrArg (val_main_v117 (F := Ideal) L R) (funext fun a => match a with
          | ⟨0, _⟩ => rfl | ⟨1, _⟩ => rfl | ⟨2, _⟩ => rfl | ⟨3, _⟩ => rfl))))

/-- Disparity 17 of the volume is the plane of disparity 17. -/
theorem slot_17 (L R : FVec Ideal S2x320x128x240 .f32) (b : Fin 2) (g : Fin 40) (h : Fin 128) (x : Fin 240) :
    val_main_v386 (F := Ideal) L R (ix5 b g (⟨17, by decide⟩ : Fin 48) h x) = val_main_v124 (F := Ideal) L R (ix4 b g h x) :=
  (outer L R ⟨1, by decide⟩ ⟨1, by decide⟩ ⟨17, by decide⟩ rfl b g h x).trans
    ((block_1 L R ⟨1, by decide⟩ b g h x).trans
      ((val_main_v352_apply (F := Ideal) L R (ix5 b g (⟨0, by decide⟩ : Fin 1) h x)).trans
        (congrArg (val_main_v124 (F := Ideal) L R) (funext fun a => match a with
          | ⟨0, _⟩ => rfl | ⟨1, _⟩ => rfl | ⟨2, _⟩ => rfl | ⟨3, _⟩ => rfl))))

/-- Disparity 18 of the volume is the plane of disparity 18. -/
theorem slot_18 (L R : FVec Ideal S2x320x128x240 .f32) (b : Fin 2) (g : Fin 40) (h : Fin 128) (x : Fin 240) :
    val_main_v386 (F := Ideal) L R (ix5 b g (⟨18, by decide⟩ : Fin 48) h x) = val_main_v131 (F := Ideal) L R (ix4 b g h x) :=
  (outer L R ⟨1, by decide⟩ ⟨2, by decide⟩ ⟨18, by decide⟩ rfl b g h x).trans
    ((block_1 L R ⟨2, by decide⟩ b g h x).trans
      ((val_main_v353_apply (F := Ideal) L R (ix5 b g (⟨0, by decide⟩ : Fin 1) h x)).trans
        (congrArg (val_main_v131 (F := Ideal) L R) (funext fun a => match a with
          | ⟨0, _⟩ => rfl | ⟨1, _⟩ => rfl | ⟨2, _⟩ => rfl | ⟨3, _⟩ => rfl))))

/-- Disparity 19 of the volume is the plane of disparity 19. -/
theorem slot_19 (L R : FVec Ideal S2x320x128x240 .f32) (b : Fin 2) (g : Fin 40) (h : Fin 128) (x : Fin 240) :
    val_main_v386 (F := Ideal) L R (ix5 b g (⟨19, by decide⟩ : Fin 48) h x) = val_main_v138 (F := Ideal) L R (ix4 b g h x) :=
  (outer L R ⟨1, by decide⟩ ⟨3, by decide⟩ ⟨19, by decide⟩ rfl b g h x).trans
    ((block_1 L R ⟨3, by decide⟩ b g h x).trans
      ((val_main_v354_apply (F := Ideal) L R (ix5 b g (⟨0, by decide⟩ : Fin 1) h x)).trans
        (congrArg (val_main_v138 (F := Ideal) L R) (funext fun a => match a with
          | ⟨0, _⟩ => rfl | ⟨1, _⟩ => rfl | ⟨2, _⟩ => rfl | ⟨3, _⟩ => rfl))))

/-- Disparity 20 of the volume is the plane of disparity 20. -/
theorem slot_20 (L R : FVec Ideal S2x320x128x240 .f32) (b : Fin 2) (g : Fin 40) (h : Fin 128) (x : Fin 240) :
    val_main_v386 (F := Ideal) L R (ix5 b g (⟨20, by decide⟩ : Fin 48) h x) = val_main_v145 (F := Ideal) L R (ix4 b g h x) :=
  (outer L R ⟨1, by decide⟩ ⟨4, by decide⟩ ⟨20, by decide⟩ rfl b g h x).trans
    ((block_1 L R ⟨4, by decide⟩ b g h x).trans
      ((val_main_v355_apply (F := Ideal) L R (ix5 b g (⟨0, by decide⟩ : Fin 1) h x)).trans
        (congrArg (val_main_v145 (F := Ideal) L R) (funext fun a => match a with
          | ⟨0, _⟩ => rfl | ⟨1, _⟩ => rfl | ⟨2, _⟩ => rfl | ⟨3, _⟩ => rfl))))

/-- Disparity 21 of the volume is the plane of disparity 21. -/
theorem slot_21 (L R : FVec Ideal S2x320x128x240 .f32) (b : Fin 2) (g : Fin 40) (h : Fin 128) (x : Fin 240) :
    val_main_v386 (F := Ideal) L R (ix5 b g (⟨21, by decide⟩ : Fin 48) h x) = val_main_v152 (F := Ideal) L R (ix4 b g h x) :=
  (outer L R ⟨1, by decide⟩ ⟨5, by decide⟩ ⟨21, by decide⟩ rfl b g h x).trans
    ((block_1 L R ⟨5, by decide⟩ b g h x).trans
      ((val_main_v356_apply (F := Ideal) L R (ix5 b g (⟨0, by decide⟩ : Fin 1) h x)).trans
        (congrArg (val_main_v152 (F := Ideal) L R) (funext fun a => match a with
          | ⟨0, _⟩ => rfl | ⟨1, _⟩ => rfl | ⟨2, _⟩ => rfl | ⟨3, _⟩ => rfl))))

/-- Disparity 22 of the volume is the plane of disparity 22. -/
theorem slot_22 (L R : FVec Ideal S2x320x128x240 .f32) (b : Fin 2) (g : Fin 40) (h : Fin 128) (x : Fin 240) :
    val_main_v386 (F := Ideal) L R (ix5 b g (⟨22, by decide⟩ : Fin 48) h x) = val_main_v159 (F := Ideal) L R (ix4 b g h x) :=
  (outer L R ⟨1, by decide⟩ ⟨6, by decide⟩ ⟨22, by decide⟩ rfl b g h x).trans
    ((block_1 L R ⟨6, by decide⟩ b g h x).trans
      ((val_main_v357_apply (F := Ideal) L R (ix5 b g (⟨0, by decide⟩ : Fin 1) h x)).trans
        (congrArg (val_main_v159 (F := Ideal) L R) (funext fun a => match a with
          | ⟨0, _⟩ => rfl | ⟨1, _⟩ => rfl | ⟨2, _⟩ => rfl | ⟨3, _⟩ => rfl))))

/-- Disparity 23 of the volume is the plane of disparity 23. -/
theorem slot_23 (L R : FVec Ideal S2x320x128x240 .f32) (b : Fin 2) (g : Fin 40) (h : Fin 128) (x : Fin 240) :
    val_main_v386 (F := Ideal) L R (ix5 b g (⟨23, by decide⟩ : Fin 48) h x) = val_main_v166 (F := Ideal) L R (ix4 b g h x) :=
  (outer L R ⟨1, by decide⟩ ⟨7, by decide⟩ ⟨23, by decide⟩ rfl b g h x).trans
    ((block_1 L R ⟨7, by decide⟩ b g h x).trans
      ((val_main_v358_apply (F := Ideal) L R (ix5 b g (⟨0, by decide⟩ : Fin 1) h x)).trans
        (congrArg (val_main_v166 (F := Ideal) L R) (funext fun a => match a with
          | ⟨0, _⟩ => rfl | ⟨1, _⟩ => rfl | ⟨2, _⟩ => rfl | ⟨3, _⟩ => rfl))))

/-- Disparity 24 of the volume is the plane of disparity 24. -/
theorem slot_24 (L R : FVec Ideal S2x320x128x240 .f32) (b : Fin 2) (g : Fin 40) (h : Fin 128) (x : Fin 240) :
    val_main_v386 (F := Ideal) L R (ix5 b g (⟨24, by decide⟩ : Fin 48) h x) = val_main_v173 (F := Ideal) L R (ix4 b g h x) :=
  (outer L R ⟨1, by decide⟩ ⟨8, by decide⟩ ⟨24, by decide⟩ rfl b g h x).trans
    ((block_1 L R ⟨8, by decide⟩ b g h x).trans
      ((val_main_v359_apply (F := Ideal) L R (ix5 b g (⟨0, by decide⟩ : Fin 1) h x)).trans
        (congrArg (val_main_v173 (F := Ideal) L R) (funext fun a => match a with
          | ⟨0, _⟩ => rfl | ⟨1, _⟩ => rfl | ⟨2, _⟩ => rfl | ⟨3, _⟩ => rfl))))

/-- Disparity 25 of the volume is the plane of disparity 25. -/
theorem slot_25 (L R : FVec Ideal S2x320x128x240 .f32) (b : Fin 2) (g : Fin 40) (h : Fin 128) (x : Fin 240) :
    val_main_v386 (F := Ideal) L R (ix5 b g (⟨25, by decide⟩ : Fin 48) h x) = val_main_v180 (F := Ideal) L R (ix4 b g h x) :=
  (outer L R ⟨1, by decide⟩ ⟨9, by decide⟩ ⟨25, by decide⟩ rfl b g h x).trans
    ((block_1 L R ⟨9, by decide⟩ b g h x).trans
      ((val_main_v360_apply (F := Ideal) L R (ix5 b g (⟨0, by decide⟩ : Fin 1) h x)).trans
        (congrArg (val_main_v180 (F := Ideal) L R) (funext fun a => match a with
          | ⟨0, _⟩ => rfl | ⟨1, _⟩ => rfl | ⟨2, _⟩ => rfl | ⟨3, _⟩ => rfl))))

/-- Disparity 26 of the volume is the plane of disparity 26. -/
theorem slot_26 (L R : FVec Ideal S2x320x128x240 .f32) (b : Fin 2) (g : Fin 40) (h : Fin 128) (x : Fin 240) :
    val_main_v386 (F := Ideal) L R (ix5 b g (⟨26, by decide⟩ : Fin 48) h x) = val_main_v187 (F := Ideal) L R (ix4 b g h x) :=
  (outer L R ⟨1, by decide⟩ ⟨10, by decide⟩ ⟨26, by decide⟩ rfl b g h x).trans
    ((block_1 L R ⟨10, by decide⟩ b g h x).trans
      ((val_main_v361_apply (F := Ideal) L R (ix5 b g (⟨0, by decide⟩ : Fin 1) h x)).trans
        (congrArg (val_main_v187 (F := Ideal) L R) (funext fun a => match a with
          | ⟨0, _⟩ => rfl | ⟨1, _⟩ => rfl | ⟨2, _⟩ => rfl | ⟨3, _⟩ => rfl))))

/-- Disparity 27 of the volume is the plane of disparity 27. -/
theorem slot_27 (L R : FVec Ideal S2x320x128x240 .f32) (b : Fin 2) (g : Fin 40) (h : Fin 128) (x : Fin 240) :
    val_main_v386 (F := Ideal) L R (ix5 b g (⟨27, by decide⟩ : Fin 48) h x) = val_main_v194 (F := Ideal) L R (ix4 b g h x) :=
  (outer L R ⟨1, by decide⟩ ⟨11, by decide⟩ ⟨27, by decide⟩ rfl b g h x).trans
    ((block_1 L R ⟨11, by decide⟩ b g h x).trans
      ((val_main_v362_apply (F := Ideal) L R (ix5 b g (⟨0, by decide⟩ : Fin 1) h x)).trans
        (congrArg (val_main_v194 (F := Ideal) L R) (funext fun a => match a with
          | ⟨0, _⟩ => rfl | ⟨1, _⟩ => rfl | ⟨2, _⟩ => rfl | ⟨3, _⟩ => rfl))))

/-- Disparity 28 of the volume is the plane of disparity 28. -/
theorem slot_28 (L R : FVec Ideal S2x320x128x240 .f32) (b : Fin 2) (g : Fin 40) (h : Fin 128) (x : Fin 240) :
    val_main_v386 (F := Ideal) L R (ix5 b g (⟨28, by decide⟩ : Fin 48) h x) = val_main_v201 (F := Ideal) L R (ix4 b g h x) :=
  (outer L R ⟨1, by decide⟩ ⟨12, by decide⟩ ⟨28, by decide⟩ rfl b g h x).trans
    ((block_1 L R ⟨12, by decide⟩ b g h x).trans
      ((val_main_v363_apply (F := Ideal) L R (ix5 b g (⟨0, by decide⟩ : Fin 1) h x)).trans
        (congrArg (val_main_v201 (F := Ideal) L R) (funext fun a => match a with
          | ⟨0, _⟩ => rfl | ⟨1, _⟩ => rfl | ⟨2, _⟩ => rfl | ⟨3, _⟩ => rfl))))

/-- Disparity 29 of the volume is the plane of disparity 29. -/
theorem slot_29 (L R : FVec Ideal S2x320x128x240 .f32) (b : Fin 2) (g : Fin 40) (h : Fin 128) (x : Fin 240) :
    val_main_v386 (F := Ideal) L R (ix5 b g (⟨29, by decide⟩ : Fin 48) h x) = val_main_v208 (F := Ideal) L R (ix4 b g h x) :=
  (outer L R ⟨1, by decide⟩ ⟨13, by decide⟩ ⟨29, by decide⟩ rfl b g h x).trans
    ((block_1 L R ⟨13, by decide⟩ b g h x).trans
      ((val_main_v364_apply (F := Ideal) L R (ix5 b g (⟨0, by decide⟩ : Fin 1) h x)).trans
        (congrArg (val_main_v208 (F := Ideal) L R) (funext fun a => match a with
          | ⟨0, _⟩ => rfl | ⟨1, _⟩ => rfl | ⟨2, _⟩ => rfl | ⟨3, _⟩ => rfl))))

/-- Disparity 30 of the volume is the plane of disparity 30. -/
theorem slot_30 (L R : FVec Ideal S2x320x128x240 .f32) (b : Fin 2) (g : Fin 40) (h : Fin 128) (x : Fin 240) :
    val_main_v386 (F := Ideal) L R (ix5 b g (⟨30, by decide⟩ : Fin 48) h x) = val_main_v215 (F := Ideal) L R (ix4 b g h x) :=
  (outer L R ⟨1, by decide⟩ ⟨14, by decide⟩ ⟨30, by decide⟩ rfl b g h x).trans
    ((block_1 L R ⟨14, by decide⟩ b g h x).trans
      ((val_main_v365_apply (F := Ideal) L R (ix5 b g (⟨0, by decide⟩ : Fin 1) h x)).trans
        (congrArg (val_main_v215 (F := Ideal) L R) (funext fun a => match a with
          | ⟨0, _⟩ => rfl | ⟨1, _⟩ => rfl | ⟨2, _⟩ => rfl | ⟨3, _⟩ => rfl))))

/-- Disparity 31 of the volume is the plane of disparity 31. -/
theorem slot_31 (L R : FVec Ideal S2x320x128x240 .f32) (b : Fin 2) (g : Fin 40) (h : Fin 128) (x : Fin 240) :
    val_main_v386 (F := Ideal) L R (ix5 b g (⟨31, by decide⟩ : Fin 48) h x) = val_main_v222 (F := Ideal) L R (ix4 b g h x) :=
  (outer L R ⟨1, by decide⟩ ⟨15, by decide⟩ ⟨31, by decide⟩ rfl b g h x).trans
    ((block_1 L R ⟨15, by decide⟩ b g h x).trans
      ((val_main_v366_apply (F := Ideal) L R (ix5 b g (⟨0, by decide⟩ : Fin 1) h x)).trans
        (congrArg (val_main_v222 (F := Ideal) L R) (funext fun a => match a with
          | ⟨0, _⟩ => rfl | ⟨1, _⟩ => rfl | ⟨2, _⟩ => rfl | ⟨3, _⟩ => rfl))))

end Cert.Gwc.Ref

end
-- ==== Proof.RefSlots2.lean ====
/- Table of cases written out by `bun scratch/gen_ref.js slots 2` (run from the unit directory) from the stage names of the generated
   module Gen/ReferenceIdeal/Read.lean (imported through its copy RefRead.lean). Block 2 of the stacking: the 16 planes of disparities 32 .. 47 laid along
   the third axis (the stacking lemma of RefStack.lean at extent 1), then one row per disparity. -/
import proofs.«179842_j85048942395524_1_alg».proof.Proof.RefRead
import proofs.«179842_j85048942395524_1_alg».proof.Proof.RefStack
import proofs.«179842_j85048942395524_1_alg».proof.Proof.RefOuter

noncomputable section

namespace Cert.Gwc.Ref

open Idealize.ShloMosaic Idealize.ShloMosaic.ValueIdx Cert.ReferenceIdeal Cert.ReferenceIdeal.ReadP

/-- Position `r` of block 2 is the `r`-th of its 16 unit planes. -/
theorem block_2 (L R : FVec Ideal S2x320x128x240 .f32) (r : Fin 16) (b : Fin 2) (g : Fin 40) (h : Fin 128) (x : Fin 240) :
    val_main_v385 (F := Ideal) L R (ix5 b g r h x)
      = ([val_main_v367 (F := Ideal) L R,
      val_main_v368 (F := Ideal) L R,
      val_main_v369 (F := Ideal) L R,
      val_main_v370 (F := Ideal) L R,
      val_main_v371 (F := Ideal) L R,
      val_main_v372 (F := Ideal) L R,
      val_main_v373 (F := Ideal) L R,
      val_main_v374 (F := Ideal) L R,
      val_main_v375 (F := Ideal) L R,
      val_main_v376 (F := Ideal) L R,
      val_main_v377 (F := Ideal) L R,
      val_main_v378 (F := Ideal) L R,
      val_main_v379 (F := Ideal) L R,
      val_main_v380 (F := Ideal) L R,
      val_main_v381 (F := Ideal) L R,
      val_main_v382 (F := Ideal) L R][r.val]'(by show r.val < 16; exact r.isLt))
        (ix5 b g (⟨0, by decide⟩ : Fin 1) h x) := by
  unfold val_main_v385
  exact concat_same 1 16 [val_main_v367 (F := Ideal) L R,
      val_main_v368 (F := Ideal) L R,
      val_main_v369 (F := Ideal) L R,
      val_main_v370 (F := Ideal) L R,
      val_main_v371 (F := Ideal) L R,
      val_main_v372 (F := Ideal) L R,
      val_main_v373 (F := Ideal) L R,
      val_main_v374 (F := Ideal) L R,
      val_main_v375 (F := Ideal) L R,
      val_main_v376 (F := Ideal) L R,
      val_main_v377 (F := Ideal) L R,
      val_main_v378 (F := Ideal) L R,
      val_main_v379 (F := Ideal) L R,
      val_main_v380 (F := Ideal) L R,
      val_main_v381 (F := Ideal) L R,
      val_main_v382 (F := Ideal) L R] _ r.val _ ⟨0, by decide⟩ r (by show 1 * r.val + 0 = r.val; omega) b g h x

/-- Disparity 32 of the volume is the plane of disparity 32. -/
theorem slot_32 (L R : FVec Ideal S2x320x128x240 .f32) (b : Fin 2) (g : Fin 40) (h : Fin 128) (x : Fin 240) :
    val_main_v386 (F := Ideal) L R (ix5 b g (⟨32, by decide⟩ : Fin 48) h x) = val_main_v229 (F := Ideal) L R (ix4 b g h x) :=
  (outer L R ⟨2, by decide⟩ ⟨0, by decide⟩ ⟨32, by decide⟩ rfl b g h x).trans
    ((block_2 L R ⟨0, by decide⟩ b g h x).trans
      ((val_main_v367_apply (F := Ideal) L R (ix5 b g (⟨0, by decide⟩ : Fin 1) h x)).trans
        (congrArg (val_main_v229 (F := Ideal) L R) (funext fun a => match a with
          | ⟨0, _⟩ => rfl | ⟨1, _⟩ => rfl | ⟨2, _⟩ => rfl | ⟨3, _⟩ => rfl))))

/-- Disparity 33 of the volume is the plane of disparity 33. -/
theorem slot_33 (L R : FVec Ideal S2x320x128x240 .f32) (b : Fin 2) (g : Fin 40) (h : Fin 128) (x : Fin 240) :
    val_main_v386 (F := Ideal) L R (ix5 b g (⟨33, by decide⟩ : Fin 48) h x) = val_main_v236 (F := Ideal) L R (ix4 b g h x) :=
  (outer L R ⟨2, by decide⟩ ⟨1, by decide⟩ ⟨33, by decide⟩ rfl b g h x).trans
    ((block_2 L R ⟨1, by decide⟩ b g h x).trans
      ((val_main_v368_apply (F := Ideal) L R (ix5 b g (⟨0, by decide⟩ : Fin 1) h x)).trans
        (congrArg (val_main_v236 (F := Ideal) L R) (funext fun a => match a with
          | ⟨0, _⟩ => rfl | ⟨1, _⟩ => rfl | ⟨2, _⟩ => rfl | ⟨3, _⟩ => rfl))))

/-- Disparity 34 of the volume is the plane of disparity 34. -/
theorem slot_34 (L R : FVec Ideal S2x320x128x240 .f32) (b : Fin 2) (g : Fin 40) (h : Fin 128) (x : Fin 240) :
    val_main_v386 (F := Ideal) L R (ix5 b g (⟨34, by decide⟩ : Fin 48) h x) = val_main_v243 (F := Ideal) L R (ix4 b g h x) :=
  (outer L R ⟨2, by decide⟩ ⟨2, by decide⟩ ⟨34, by decide⟩ rfl b g h x).trans
    ((block_2 L R ⟨2, by decide⟩ b g h x).trans
      ((val_main_v369_apply (F := Ideal) L R (ix5 b g (⟨0, by decide⟩ : Fin 1) h x)).trans
        (congrArg (val_main_v243 (F := Ideal) L R) (funext fun a => match a with
          | ⟨0, _⟩ => rfl | ⟨1, _⟩ => rfl | ⟨2, _⟩ => rfl | ⟨3, _⟩ => rfl))))

/-- Disparity 35 of the volume is the plane of disparity 35. -/
theorem slot_35 (L R : FVec Ideal S2x320x128x240 .f32) (b : Fin 2) (g : Fin 40) (h : Fin 128) (x : Fin 240) :
    val_main_v386 (F := Ideal) L R (ix5 b g (⟨35, by decide⟩ : Fin 48) h x) = val_main_v250 (F := Ideal) L R (ix4 b g h x) :=
  (outer L R ⟨2, by decide⟩ ⟨3, by decide⟩ ⟨35, by decide⟩ rfl b g h x).trans
    ((block_2 L R ⟨3, by decide⟩ b g h x).trans
      ((val_main_v370_apply (F := Ideal) L R (ix5 b g (⟨0, by decide⟩ : Fin 1) h x)).trans
        (congrArg (val_main_v250 (F := Ideal) L R) (funext fun a => match a with
          | ⟨0, _⟩ => rfl | ⟨1, _⟩ => rfl | ⟨2, _⟩ => rfl | ⟨3, _⟩ => rfl))))

/-- Disparity 36 of the volume is the plane of disparity 36. -/
theorem slot_36 (L R : FVec Ideal S2x320x128x240 .f32) (b : Fin 2) (g : Fin 40) (h : Fin 128) (x : Fin 240) :
    val_main_v386 (F := Ideal) L R (ix5 b g (⟨36, by decide⟩ : Fin 48) h x) = val_main_v257 (F := Ideal) L R (ix4 b g h x) :=
  (outer L R ⟨2, by decide⟩ ⟨4, by decide⟩ ⟨36, by decide⟩ rfl b g h x).trans
    ((block_2 L R ⟨4, by decide⟩ b g h x).trans
      ((val_main_v371_apply (F := Ideal) L R (ix5 b g (⟨0, by decide⟩ : Fin 1) h x)).trans
        (congrArg (val_main_v257 (F := Ideal) L R) (funext fun a => match a with
          | ⟨0, _⟩ => rfl | ⟨1, _⟩ => rfl | ⟨2, _⟩ => rfl | ⟨3, _⟩ => rfl))))

/-- Disparity 37 of the volume is the plane of disparity 37. -/
theorem slot_37 (L R : FVec Ideal S2x320x128x240 .f32) (b : Fin 2) (g : Fin 40) (h : Fin 128) (x : Fin 240) :
    val_main_v386 (F := Ideal) L R (ix5 b g (⟨37, by decide⟩ : Fin 48) h x) = val_main_v264 (F := Ideal) L R (ix4 b g h x) :=
  (outer L R ⟨2, by decide⟩ ⟨5, by decide⟩ ⟨37, by decide⟩ rfl b g h x).trans
    ((block_2 L R ⟨5, by decide⟩ b g h x).trans
      ((val_main_v372_apply (F := Ideal) L R (ix5 b g (⟨0, by decide⟩ : Fin 1) h x)).trans
        (congrArg (val_main_v264 (F := Ideal) L R) (funext fun a => match a with
          | ⟨0, _⟩ => rfl | ⟨1, _⟩ => rfl | ⟨2, _⟩ => rfl | ⟨3, _⟩ => rfl))))

/-- Disparity 38 of the volume is the plane of disparity 38. -/
theorem slot_38 (L R : FVec Ideal S2x320x128x240 .f32) (b : Fin 2) (g : Fin 40) (h : Fin 128) (x : Fin 240) :
    val_main_v386 (F := Ideal) L R (ix5 b g (⟨38, by decide⟩ : Fin 48) h x) = val_main_v271 (F := Ideal) L R (ix4 b g h x) :=
  (outer L R ⟨2, by decide⟩ ⟨6, by decide⟩ ⟨38, by decide⟩ rfl b g h x).trans
    ((block_2 L R ⟨6, by decide⟩ b g h x).trans
      ((val_main_v373_apply (F := Ideal) L R (ix5 b g (⟨0, by decide⟩ : Fin 1) h x)).trans
        (congrArg (val_main_v271 (F := Ideal) L R) (funext fun a => match a with
          | ⟨0, _⟩ => rfl | ⟨1, _⟩ => rfl | ⟨2, _⟩ => rfl | ⟨3, _⟩ => rfl))))

/-- Disparity 39 of the volume is the plane of disparity 39. -/
theorem slot_39 (L R : FVec Ideal S2x320x128x240 .f32) (b : Fin 2) (g : Fin 40) (h : Fin 128) (x : Fin 240) :
    val_main_v386 (F := Ideal) L R (ix5 b g (⟨39, by decide⟩ : Fin 48) h x) = val_main_v278 (F := Ideal) L R (ix4 b g h x) :=
  (outer L R ⟨2, by decide⟩ ⟨7, by decide⟩ ⟨39, by decide⟩ rfl b g h x).trans
    ((block_2 L R ⟨7, by decide⟩ b g h x).trans
      ((val_main_v374_apply (F := Ideal) L R (ix5 b g (⟨0, by decide⟩ : Fin 1) h x)).trans
        (congrArg (val_main_v278 (F := Ideal) L R) (funext fun a => match a with
          | ⟨0, _⟩ => rfl | ⟨1, _⟩ => rfl | ⟨2, _⟩ => rfl | ⟨3, _⟩ => rfl))))

/-- Disparity 40 of the volume is the plane of disparity 40. -/
theorem slot_40 (L R : FVec Ideal S2x320x128x240 .f32) (b : Fin 2) (g : Fin 40) (h : Fin 128) (x : Fin 240) :
    val_main_v386 (F := Ideal) L R (ix5 b g (⟨40, by decide⟩ : Fin 48) h x) = val_main_v285 (F := Ideal) L R (ix4 b g h x) :=
  (outer L R ⟨2, by decide⟩ ⟨8, by decide⟩ ⟨40, by decide⟩ rfl b g h x).trans
    ((block_2 L R ⟨8, by decide⟩ b g h x).trans
      ((val_main_v375_apply (F := Ideal) L R (ix5 b g (⟨0, by decide⟩ : Fin 1) h x)).trans
        (congrArg (val_main_v285 (F := Ideal) L R) (funext fun a => match a with
          | ⟨0, _⟩ => rfl | ⟨1, _⟩ => rfl | ⟨2, _⟩ => rfl | ⟨3, _⟩ => rfl))))

/-- Disparity 41 of the volume is the plane of disparity 41. -/
theorem slot_41 (L R : FVec Ideal S2x320x128x240 .f32) (b : Fin 2) (g : Fin 40) (h : Fin 128) (x : Fin 240) :
    val_main_v386 (F := Ideal) L R (ix5 b g (⟨41, by decide⟩ : Fin 48) h x) = val_main_v292 (F := Ideal) L R (ix4 b g h x) :=
  (outer L R ⟨2, by decide⟩ ⟨9, by decide⟩ ⟨41, by decide⟩ rfl b g h x).trans
    ((block_2 L R ⟨9, by decide⟩ b g h x).trans
      ((val_main_v376_apply (F := Ideal) L R (ix5 b g (⟨0, by decide⟩ : Fin 1) h x)).trans
        (congrArg (val_main_v292 (F := Ideal) L R) (funext fun a => match a with
          | ⟨0, _⟩ => rfl | ⟨1, _⟩ => rfl | ⟨2, _⟩ => rfl | ⟨3, _⟩ => rfl))))

/-- Disparity 42 of the volume is the plane of disparity 42. -/
theorem slot_42 (L R : FVec Ideal S2x320x128x240 .f32) (b : Fin 2) (g : Fin 40) (h : Fin 128) (x : Fin 240) :
    val_main_v386 (F := Ideal) L R (ix5 b g (⟨42, by decide⟩ : Fin 48) h x) = val_main_v299 (F := Ideal) L R (ix4 b g h x) :=
  (outer L R ⟨2, by decide⟩ ⟨10, by decide⟩ ⟨42, by decide⟩ rfl b g h x).trans
    ((block_2 L R ⟨10, by decide⟩ b g h x).trans
      ((val_main_v377_apply (F := Ideal) L R (ix5 b g (⟨0, by decide⟩ : Fin 1) h x)).trans
        (congrArg (val_main_v299 (F := Ideal) L R) (funext fun a => match a with
          | ⟨0, _⟩ => rfl | ⟨1, _⟩ => rfl | ⟨2, _⟩ => rfl | ⟨3, _⟩ => rfl))))

/-- Disparity 43 of the volume is the plane of disparity 43. -/
theorem slot_43 (L R : FVec Ideal S2x320x128x240 .f32) (b : Fin 2) (g : Fin 40) (h : Fin 128) (x : Fin 240) :
    val_main_v386 (F := Ideal) L R (ix5 b g (⟨43, by decide⟩ : Fin 48) h x) = val_main_v306 (F := Ideal) L R (ix4 b g h x) :=
  (outer L R ⟨2, by decide⟩ ⟨11, by decide⟩ ⟨43, by decide⟩ rfl b g h x).trans
    ((block_2 L R ⟨11, by decide⟩ b g h x).trans
      ((val_main_v378_apply (F := Ideal) L R (ix5 b g (⟨0, by decide⟩ : Fin 1) h x)).trans
        (congrArg (val_main_v306 (F := Ideal) L R) (funext fun a => match a with
          | ⟨0, _⟩ => rfl | ⟨1, _⟩ => rfl | ⟨2, _⟩ => rfl | ⟨3, _⟩ => rfl))))

/-- Disparity 44 of the volume is the plane of disparity 44. -/
theorem slot_44 (L R : FVec Ideal S2x320x128x240 .f32) (b : Fin 2) (g : Fin 40) (h : Fin 128) (x : Fin 240) :
    val_main_v386 (F := Ideal) L R (ix5 b g (⟨44, by decide⟩ : Fin 48) h x) = val_main_v313 (F := Ideal) L R (ix4 b g h x) :=
  (outer L R ⟨2, by decide⟩ ⟨12, by decide⟩ ⟨44, by decide⟩ rfl b g h x).trans
    ((block_2 L R ⟨12, by decide⟩ b g h x).trans
      ((val_main_v379_apply (F := Ideal) L R (ix5 b g (⟨0, by decide⟩ : Fin 1) h x)).trans
        (congrArg (val_main_v313 (F := Ideal) L R) (funext fun a => match a with
          | ⟨0, _⟩ => rfl | ⟨1, _⟩ => rfl | ⟨2, _⟩ => rfl | ⟨3, _⟩ => rfl))))

/-- Disparity 45 of the volume is the plane of disparity 45. -/
theorem slot_45 (L R : FVec Ideal S2x320x128x240 .f32) (b : Fin 2) (g : Fin 40) (h : Fin 128) (x : Fin 240) :
    val_main_v386 (F := Ideal) L R (ix5 b g (⟨45, by decide⟩ : Fin 48) h x) = val_main_v320 (F := Ideal) L R (ix4 b g h x) :=
  (outer L R ⟨2, by decide⟩ ⟨13, by decide⟩ ⟨45, by decide⟩ rfl b g h x).trans
    ((block_2 L R ⟨13, by decide⟩ b g h x).trans
      ((val_main_v380_apply (F := Ideal) L R (ix5 b g (⟨0, by decide⟩ : Fin 1) h x)).trans
        (congrArg (val_main_v320 (F := Ideal) L R) (funext fun a => match a with
          | ⟨0, _⟩ => rfl | ⟨1, _⟩ => rfl | ⟨2, _⟩ => rfl | ⟨3, _⟩ => rfl))))

/-- Disparity 46 of the volume is the plane of disparity 46. -/
theorem slot_46 (L R : FVec Ideal S2x320x128x240 .f32) (b : Fin 2) (g : Fin 40) (h : Fin 128) (x : Fin 240) :
    val_main_v386 (F := Ideal) L R (ix5 b g (⟨46, by decide⟩ : Fin 48) h x) = val_main_v327 (F := Ideal) L R (ix4 b g h x) :=
  (outer L R ⟨2, by decide⟩ ⟨14, by decide⟩ ⟨46, by decide⟩ rfl b g h x).trans
    ((block_2 L R ⟨14, by decide⟩ b g h x).trans
      ((val_main_v381_apply (F := Ideal) L R (ix5 b g (⟨0, by decide⟩ : Fin 1) h x)).trans
        (congrArg (val_main_v327 (F := Ideal) L R) (funext fun a => match a with
          | ⟨0, _⟩ => rfl | ⟨1, _⟩ => rfl | ⟨2, _⟩ => rfl | ⟨3, _⟩ => rfl))))

/-- Disparity 47 of the volume is the plane of disparity 47. -/
theorem slot_47 (L R : FVec Ideal S2x320x128x240 .f32) (b : Fin 2) (g : Fin 40) (h : Fin 128) (x : Fin 240) :
    val_main_v386 (F := Ideal) L R (ix5 b g (⟨47, by decide⟩ : Fin 48) h x) = val_main_v334 (F := Ideal) L R (ix4 b g h x) :=
  (outer L R ⟨2, by decide⟩ ⟨15, by decide⟩ ⟨47, by decide⟩ rfl b g h x).trans
    ((block_2 L R ⟨15, by decide⟩ b g h x).trans
      ((val_main_v382_apply (F := Ideal) L R (ix5 b g (⟨0, by decide⟩ : Fin 1) h x)).trans
        (congrArg (val_main_v334 (F := Ideal) L R) (funext fun a => match a with
          | ⟨0, _⟩ => rfl | ⟨1, _⟩ => rfl | ⟨2, _⟩ => rfl | ⟨3, _⟩ => rfl))))

end Cert.Gwc.Ref

end
-- ==== Proof.RefEntries.lean ====
/- Table of cases written out by `bun scratch/gen_ref.js entries` (run from the unit directory) from the stage names of the generated
   module Gen/ReferenceIdeal/Read.lean (imported through its copy RefRead.lean). Every entry of the stacked volume is the specification's cost entry: one row per disparity,
   the stacking row followed by the plane row. -/
import proofs.«179842_j85048942395524_1_alg».proof.Proof.RefRead
import proofs.«179842_j85048942395524_1_alg».proof.Proof.RefFeat
import proofs.«179842_j85048942395524_1_alg».proof.Proof.RefPads1
import proofs.«179842_j85048942395524_1_alg».proof.Proof.RefPads2
import proofs.«179842_j85048942395524_1_alg».proof.Proof.RefPads3
import proofs.«179842_j85048942395524_1_alg».proof.Proof.RefPads4
import proofs.«179842_j85048942395524_1_alg».proof.Proof.RefPads5
import proofs.«179842_j85048942395524_1_alg».proof.Proof.RefPads6
import proofs.«179842_j85048942395524_1_alg».proof.Proof.RefSlots0
import proofs.«179842_j85048942395524_1_alg».proof.Proof.RefSlots1
import proofs.«179842_j85048942395524_1_alg».proof.Proof.RefSlots2

noncomputable section

namespace Cert.Gwc.Ref

open Idealize.ShloMosaic Idealize.ShloMosaic.ValueIdx Cert.ReferenceIdeal Cert.ReferenceIdeal.ReadP

/-- The stacked volume at (b, g, d, h, x) is the cost entry there. -/
theorem entry (L R : FVec Ideal S2x320x128x240 .f32) (b : Fin 2) (g : Fin 40) (d : Fin 48) (h : Fin 128) (x : Fin 240) :
    val_main_v386 (F := Ideal) L R (ix5 b g d h x) = cost L R b g d h x := by
  rcases d with ⟨d, hd⟩
  interval_cases d
  · exact (slot_0 L R b g h x).trans (plane_0 L R b g h x)
  · exact (slot_1 L R b g h x).trans (plane_1 L R b g h x)
  · exact (slot_2 L R b g h x).trans (plane_2 L R b g h x)
  · exact (slot_3 L R b g h x).trans (plane_3 L R b g h x)
  · exact (slot_4 L R b g h x).trans (plane_4 L R b g h x)
  · exact (slot_5 L R b g h x).trans (plane_5 L R b g h x)
  · exact (slot_6 L R b g h x).trans (plane_6 L R b g h x)
  · exact (slot_7 L R b g h x).trans (plane_7 L R b g h x)
  · exact (slot_8 L R b g h x).trans (plane_8 L R b g h x)
  · exact (slot_9 L R b g h x).trans (plane_9 L R b g h x)
  · exact (slot_10 L R b g h x).trans (plane_10 L R b g h x)
  · exact (slot_11 L R b g h x).trans (plane_11 L R b g h x)
  · exact (slot_12 L R b g h x).trans (plane_12 L R b g h x)
  · exact (slot_13 L R b g h x).trans (plane_13 L R b g h x)
  · exact (slot_14 L R b g h x).trans (plane_14 L R b g h x)
  · exact (slot_15 L R b g h x).trans (plane_15 L R b g h x)
  · exact (slot_16 L R b g h x).trans (plane_16 L R b g h x)
  · exact (slot_17 L R b g h x).trans (plane_17 L R b g h x)
  · exact (slot_18 L R b g h x).trans (plane_18 L R b g h x)
  · exact (slot_19 L R b g h x).trans (plane_19 L R b g h x)
  · exact (slot_20 L R b g h x).trans (plane_20 L R b g h x)
  · exact (slot_21 L R b g h x).trans (plane_21 L R b g h x)
  · exact (slot_22 L R b g h x).trans (plane_22 L R b g h x)
  · exact (slot_23 L R b g h x).trans (plane_23 L R b g h x)
  · exact (slot_24 L R b g h x).trans (plane_24 L R b g h x)
  · exact (slot_25 L R b g h x).trans (plane_25 L R b g h x)
  · exact (slot_26 L R b g h x).trans (plane_26 L R b g h x)
  · exact (slot_27 L R b g h x).trans (plane_27 L R b g h x)
  · exact (slot_28 L R b g h x).trans (plane_28 L R b g h x)
  · exact (slot_29 L R b g h x).trans (plane_29 L R b g h x)
  · exact (slot_30 L R b g h x).trans (plane_30 L R b g h x)
  · exact (slot_31 L R b g h x).trans (plane_31 L R b g h x)
  · exact (slot_32 L R b g h x).trans (plane_32 L R b g h x)
  · exact (slot_33 L R b g h x).trans (plane_33 L R b g h x)
  · exact (slot_34 L R b g h x).trans (plane_34 L R b g h x)
  · exact (slot_35 L R b g h x).trans (plane_35 L R b g h x)
  · exact (slot_36 L R b g h x).trans (plane_36 L R b g h x)
  · exact (slot_37 L R b g h x).trans (plane_37 L R b g h x)
  · exact (slot_38 L R b g h x).trans (plane_38 L R b g h x)
  · exact (slot_39 L R b g h x).trans (plane_39 L R b g h x)
  · exact (slot_40 L R b g h x).trans (plane_40 L R b g h x)
  · exact (slot_41 L R b g h x).trans (plane_41 L R b g h x)
  · exact (slot_42 L R b g h x).trans (plane_42 L R b g h x)
  · exact (slot_43 L R b g h x).trans (plane_43 L R b g h x)
  · exact (slot_44 L R b g h x).trans (plane_44 L R b g h x)
  · exact (slot_45 L R b g h x).trans (plane_45 L R b g h x)
  · exact (slot_46 L R b g h x).trans (plane_46 L R b g h x)
  · exact (slot_47 L R b g h x).trans (plane_47 L R b g h x)

end Cert.Gwc.Ref

end
-- ==== Proof.RefVolume.lean ====
/-
  The reference computes the specified cost volume.

  Every index of the volume is (b, g, d, h, x); the reference's stacked result there is the plane of disparity `d` at
  (b, g, h, x), which is the specification's cost entry (RefEntries.lean, one row per disparity).
-/
import proofs.«179842_j85048942395524_1_alg».proof.Proof.RefEntries

noncomputable section

namespace Cert.Gwc.Ref

open Idealize.ShloMosaic Idealize.ShloMosaic.ValueIdx

/-- The reference's result is the cost volume of the specification. -/
theorem ref_eq (L R : FVec Ideal Cert.ReferenceIdeal.S2x320x128x240 .f32) :
    Cert.ReferenceIdeal.ReadP.val_main_v386 (F := Ideal) L R = Cert.Gwc.volume L R := by
  funext j
  obtain ⟨b, g, d, h, x, rfl⟩ : ∃ (b : Fin 2) (g : Fin 40) (d : Fin 48) (h : Fin 128) (x : Fin 240),
      j = ix5 b g d h x := ⟨j 0, j 1, j 2, j 3, j 4, eq_ix5 j⟩
  rw [volume_ix5]
  exact entry L R b g d h x

end Cert.Gwc.Ref

end
-- ==== Proof.RefRun0.lean ====
/- Gen/ReferenceIdeal/Run.lean and the stage names of Gen/ReferenceIdeal/Read.lean. Part 0 of @main (operations 1 to 65): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 0, in order. -/
abbrev p0 : List (HloOp τ sig (Elt F)) :=
  [ reshape main_arg0 main_v0 rfl shapeCasts_S2x320x128x240_S2x40x8x128x240,
    reshape main_arg1 main_v1 rfl shapeCasts_S2x320x128x240_S2x40x8x128x240,
    binary main_v0 main_v1 main_v2 (mulf : (⟨S2x40x8x128x240, .f32⟩ : BufTy).Contents (Elt F) → (⟨S2x40x8x128x240, .f32⟩ : BufTy).Contents (Elt F) → (⟨S2x40x8x128x240, .f32⟩ : BufTy).Contents (Elt F)),
    nullary main_cst (constant S_ .f32 0x00000000#32),
    binary main_v2 main_cst main_v3 ((fun x v => Host.reduceAdd x v reducesTo_S2x40x8x128x240_S2x40x128x240_d2 h_S_) : (⟨S2x40x8x128x240, .f32⟩ : BufTy).Contents (Elt F) → (⟨S_, .f32⟩ : BufTy).Contents (Elt F) → (⟨S2x40x128x240, .f32⟩ : BufTy).Contents (Elt F)),
    nullary main_cst_0 (constant S_ .f32 0x41000000#32),
    unary main_cst_0 main_v4 (broadcastInDim S2x40x128x240 ![] bcast_S_S2x40x128x240 : (⟨S_, .f32⟩ : BufTy).Contents (Elt F) → (⟨S2x40x128x240, .f32⟩ : BufTy).Contents (Elt F)),
    binary main_v3 main_v4 main_v5 (Host.divf : (⟨S2x40x128x240, .f32⟩ : BufTy).Contents (Elt F) → (⟨S2x40x128x240, .f32⟩ : BufTy).Contents (Elt F) → (⟨S2x40x128x240, .f32⟩ : BufTy).Contents (Elt F)),
    unary main_v0 main_v6 ((extractStridedSlice S2x40x8x128x239 ![0, 0, 0, 0, 1] · slices_S2x40x8x128x240_S2x40x8x128x239_0_0_0_0_1) : (⟨S2x40x8x128x240, .f32⟩ : BufTy).Contents (Elt F) → (⟨S2x40x8x128x239, .f32⟩ : BufTy).Contents (Elt F)),
    unary main_v1 main_v7 ((extractStridedSlice S2x40x8x128x239 ![0, 0, 0, 0, 0] · slices_S2x40x8x128x240_S2x40x8x128x239_0_0_0_0_0) : (⟨S2x40x8x128x240, .f32⟩ : BufTy).Contents (Elt F) → (⟨S2x40x8x128x239, .f32⟩ : BufTy).Contents (Elt F)),
    binary main_v6 main_v7 main_v8 (mulf : (⟨S2x40x8x128x239, .f32⟩ : BufTy).Contents (Elt F) → (⟨S2x40x8x128x239, .f32⟩ : BufTy).Contents (Elt F) → (⟨S2x40x8x128x239, .f32⟩ : BufTy).Contents (Elt F)),
    nullary main_cst_1 (constant S_ .f32 0x00000000#32),
    binary main_v8 main_cst_1 main_v9 ((fun x v => Host.reduceAdd x v reducesTo_S2x40x8x128x239_S2x40x128x239_d2 h_S_) : (⟨S2x40x8x128x239, .f32⟩ : BufTy).Contents (Elt F) → (⟨S_, .f32⟩ : BufTy).Contents (Elt F) → (⟨S2x40x128x239, .f32⟩ : BufTy).Contents (Elt F)),
    nullary main_cst_2 (constant S_ .f32 0x41000000#32),
    unary main_cst_2 main_v10 (broadcastInDim S2x40x128x239 ![] bcast_S_S2x40x128x239 : (⟨S_, .f32⟩ : BufTy).Contents (Elt F) → (⟨S2x40x128x239, .f32⟩ : BufTy).Contents (Elt F)),
    binary main_v9 main_v10 main_v11 (Host.divf : (⟨S2x40x128x239, .f32⟩ : BufTy).Contents (Elt F) → (⟨S2x40x128x239, .f32⟩ : BufTy).Contents (Elt F) → (⟨S2x40x128x239, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x40x128x239, .f32⟩) main_v11) (TRef.of (T := ⟨S_, .f32⟩) main_call0_v0) (TRef.of (T := ⟨S2x40x128x240, .f32⟩) main_v12) (fun x v => pad S2x40x128x240 ![0, 0, 0, 1] ![0, 0, 0, 0] ![0, 0, 0, 0] x v pads_S2x40x128x239_S2x40x128x240_000_000_000_100 h_S_),
    unary main_v0 main_v13 ((extractStridedSlice S2x40x8x128x238 ![0, 0, 0, 0, 2] · slices_S2x40x8x128x240_S2x40x8x128x238_0_0_0_0_2) : (⟨S2x40x8x128x240, .f32⟩ : BufTy).Contents (Elt F) → (⟨S2x40x8x128x238, .f32⟩ : BufTy).Contents (Elt F)),
    unary main_v1 main_v14 ((extractStridedSlice S2x40x8x128x238 ![0, 0, 0, 0, 0] · slices_S2x40x8x128x240_S2x40x8x128x238_0_0_0_0_0) : (⟨S2x40x8x128x240, .f32⟩ : BufTy).Contents (Elt F) → (⟨S2x40x8x128x238, .f32⟩ : BufTy).Contents (Elt F)),
    binary main_v13 main_v14 main_v15 (mulf : (⟨S2x40x8x128x238, .f32⟩ : BufTy).Contents (Elt F) → (⟨S2x40x8x128x238, .f32⟩ : BufTy).Contents (Elt F) → (⟨S2x40x8x128x238, .f32⟩ : BufTy).Contents (Elt F)),
    nullary main_cst_3 (constant S_ .f32 0x00000000#32),
    binary main_v15 main_cst_3 main_v16 ((fun x v => Host.reduceAdd x v reducesTo_S2x40x8x128x238_S2x40x128x238_d2 h_S_) : (⟨S2x40x8x128x238, .f32⟩ : BufTy).Contents (Elt F) → (⟨S_, .f32⟩ : BufTy).Contents (Elt F) → (⟨S2x40x128x238, .f32⟩ : BufTy).Contents (Elt F)),
    nullary main_cst_4 (constant S_ .f32 0x41000000#32),
    unary main_cst_4 main_v17 (broadcastInDim S2x40x128x238 ![] bcast_S_S2x40x128x238 : (⟨S_, .f32⟩ : BufTy).Contents (Elt F) → (⟨S2x40x128x238, .f32⟩ : BufTy).Contents (Elt F)),
    binary main_v16 main_v17 main_v18 (Host.divf : (⟨S2x40x128x238, .f32⟩ : BufTy).Contents (Elt F) → (⟨S2x40x128x238, .f32⟩ : BufTy).Contents (Elt F) → (⟨S2x40x128x238, .f32⟩ : BufTy).Contents (Elt F)),
    nullary main_c_5 (constantI S_ 32 0#32),
    TRef.unary (TRef.of (T := ⟨S_, .i32⟩) main_c_5) (TRef.of (T := ⟨S_, .f32⟩) main_call1_v0) (sitofp .f32),
    TRef.binary (TRef.of (T := ⟨S2x40x128x238, .f32⟩) main_v18) (TRef.of (T := ⟨S_, .f32⟩) main_call1_v0) (TRef.of (T := ⟨S2x40x128x240, .f32⟩) main_v19) (fun x v => pad S2x40x128x240 ![0, 0, 0, 2] ![0, 0, 0, 0] ![0, 0, 0, 0] x v pads_S2x40x128x238_S2x40x128x240_000_000_000_200 h_S_),
    unary main_v0 main_v20 ((extractStridedSlice S2x40x8x128x237 ![0, 0, 0, 0, 3] · slices_S2x40x8x128x240_S2x40x8x128x237_0_0_0_0_3) : (⟨S2x40x8x128x240, .f32⟩ : BufTy).Contents (Elt F) → (⟨S2x40x8x128x237, .f32⟩ : BufTy).Contents (Elt F)),
    unary main_v1 main_v21 ((extractStridedSlice S2x40x8x128x237 ![0, 0, 0, 0, 0] · slices_S2x40x8x128x240_S2x40x8x128x237_0_0_0_0_0) : (⟨S2x40x8x128x240, .f32⟩ : BufTy).Contents (Elt F) → (⟨S2x40x8x128x237, .f32⟩ : BufTy).Contents (Elt F)),
    binary main_v20 main_v21 main_v22 (mulf : (⟨S2x40x8x128x237, .f32⟩ : BufTy).Contents (Elt F) → (⟨S2x40x8x128x237, .f32⟩ : BufTy).Contents (Elt F) → (⟨S2x40x8x128x237, .f32⟩ : BufTy).Contents (Elt F)),
    nullary main_cst_6 (constant S_ .f32 0x00000000#32),
    binary main_v22 main_cst_6 main_v23 ((fun x v => Host.reduceAdd x v reducesTo_S2x40x8x128x237_S2x40x128x237_d2 h_S_) : (⟨S2x40x8x128x237, .f32⟩ : BufTy).Contents (Elt F) → (⟨S_, .f32⟩ : BufTy).Contents (Elt F) → (⟨S2x40x128x237, .f32⟩ : BufTy).Contents (Elt F)),
    nullary main_cst_7 (constant S_ .f32 0x41000000#32),
    unary main_cst_7 main_v24 (broadcastInDim S2x40x128x237 ![] bcast_S_S2x40x128x237 : (⟨S_, .f32⟩ : BufTy).Contents (Elt F) → (⟨S2x40x128x237, .f32⟩ : BufTy).Contents (Elt F)),
    binary main_v23 main_v24 main_v25 (Host.divf : (⟨S2x40x128x237, .f32⟩ : BufTy).Contents (Elt F) → (⟨S2x40x128x237, .f32⟩ : BufTy).Contents (Elt F) → (⟨S2x40x128x237, .f32⟩ : BufTy).Contents (Elt F)),
    nullary main_c_8 (constantI S_ 32 0#32),
    TRef.unary (TRef.of (T := ⟨S_, .i32⟩) main_c_8) (TRef.of (T := ⟨S_, .f32⟩) main_call2_v0) (sitofp .f32),
    TRef.binary (TRef.of (T := ⟨S2x40x128x237, .f32⟩) main_v25) (TRef.of (T := ⟨S_, .f32⟩) main_call2_v0) (TRef.of (T := ⟨S2x40x128x240, .f32⟩) main_v26) (fun x v => pad S2x40x128x240 ![0, 0, 0, 3] ![0, 0, 0, 0] ![0, 0, 0, 0] x v pads_S2x40x128x237_S2x40x128x240_000_000_000_300 h_S_),
    unary main_v0 main_v27 ((extractStridedSlice S2x40x8x128x236 ![0, 0, 0, 0, 4] · slices_S2x40x8x128x240_S2x40x8x128x236_0_0_0_0_4) : (⟨S2x40x8x128x240, .f32⟩ : BufTy).Contents (Elt F) → (⟨S2x40x8x128x236, .f32⟩ : BufTy).Contents (Elt F)),
    unary main_v1 main_v28 ((extractStridedSlice S2x40x8x128x236 ![0, 0, 0, 0, 0] · slices_S2x40x8x128x240_S2x40x8x128x236_0_0_0_0_0) : (⟨S2x40x8x128x240, .f32⟩ : BufTy).Contents (Elt F) → (⟨S2x40x8x128x236, .f32⟩ : BufTy).Contents (Elt F)),
    binary main_v27 main_v28 main_v29 (mulf : (⟨S2x40x8x128x236, .f32⟩ : BufTy).Contents (Elt F) → (⟨S2x40x8x128x236, .f32⟩ : BufTy).Contents (Elt F) → (⟨S2x40x8x128x236, .f32⟩ : BufTy).Contents (Elt F)),
    nullary main_cst_9 (constant S_ .f32 0x00000000#32),
    binary main_v29 main_cst_9 main_v30 ((fun x v => Host.reduceAdd x v reducesTo_S2x40x8x128x236_S2x40x128x236_d2 h_S_) : (⟨S2x40x8x128x236, .f32⟩ : BufTy).Contents (Elt F) → (⟨S_, .f32⟩ : BufTy).Contents (Elt F) → (⟨S2x40x128x236, .f32⟩ : BufTy).Contents (Elt F)),
    nullary main_cst_10 (constant S_ .f32 0x41000000#32),
    unary main_cst_10 main_v31 (broadcastInDim S2x40x128x236 ![] bcast_S_S2x40x128x236 : (⟨S_, .f32⟩ : BufTy).Contents (Elt F) → (⟨S2x40x128x236, .f32⟩ : BufTy).Contents (Elt F)),
    binary main_v30 main_v31 main_v32 (Host.divf : (⟨S2x40x128x236, .f32⟩ : BufTy).Contents (Elt F) → (⟨S2x40x128x236, .f32⟩ : BufTy).Contents (Elt F) → (⟨S2x40x128x236, .f32⟩ : BufTy).Contents (Elt F)),
    nullary main_c_11 (constantI S_ 32 0#32),
    TRef.unary (TRef.of (T := ⟨S_, .i32⟩) main_c_11) (TRef.of (T := ⟨S_, .f32⟩) main_call3_v0) (sitofp .f32),
    TRef.binary (TRef.of (T := ⟨S2x40x128x236, .f32⟩) main_v32) (TRef.of (T := ⟨S_, .f32⟩) main_call3_v0) (TRef.of (T := ⟨S2x40x128x240, .f32⟩) main_v33) (fun x v => pad S2x40x128x240 ![0, 0, 0, 4] ![0, 0, 0, 0] ![0, 0, 0, 0] x v pads_S2x40x128x236_S2x40x128x240_000_000_000_400 h_S_),
    unary main_v0 main_v34 ((extractStridedSlice S2x40x8x128x235 ![0, 0, 0, 0, 5] · slices_S2x40x8x128x240_S2x40x8x128x235_0_0_0_0_5) : (⟨S2x40x8x128x240, .f32⟩ : BufTy).Contents (Elt F) → (⟨S2x40x8x128x235, .f32⟩ : BufTy).Contents (Elt F)),
    unary main_v1 main_v35 ((extractStridedSlice S2x40x8x128x235 ![0, 0, 0, 0, 0] · slices_S2x40x8x128x240_S2x40x8x128x235_0_0_0_0_0) : (⟨S2x40x8x128x240, .f32⟩ : BufTy).Contents (Elt F) → (⟨S2x40x8x128x235, .f32⟩ : BufTy).Contents (Elt F)),
    binary main_v34 main_v35 main_v36 (mulf : (⟨S2x40x8x128x235, .f32⟩ : BufTy).Contents (Elt F) → (⟨S2x40x8x128x235, .f32⟩ : BufTy).Contents (Elt F) → (⟨S2x40x8x128x235, .f32⟩ : BufTy).Contents (Elt F)),
    nullary main_cst_12 (constant S_ .f32 0x00000000#32),
    binary main_v36 main_cst_12 main_v37 ((fun x v => Host.reduceAdd x v reducesTo_S2x40x8x128x235_S2x40x128x235_d2 h_S_) : (⟨S2x40x8x128x235, .f32⟩ : BufTy).Contents (Elt F) → (⟨S_, .f32⟩ : BufTy).Contents (Elt F) → (⟨S2x40x128x235, .f32⟩ : BufTy).Contents (Elt F)),
    nullary main_cst_13 (constant S_ .f32 0x41000000#32),
    unary main_cst_13 main_v38 (broadcastInDim S2x40x128x235 ![] bcast_S_S2x40x128x235 : (⟨S_, .f32⟩ : BufTy).Contents (Elt F) → (⟨S2x40x128x235, .f32⟩ : BufTy).Contents (Elt F)),
    binary main_v37 main_v38 main_v39 (Host.divf : (⟨S2x40x128x235, .f32⟩ : BufTy).Contents (Elt F) → (⟨S2x40x128x235, .f32⟩ : BufTy).Contents (Elt F) → (⟨S2x40x128x235, .f32⟩ : BufTy).Contents (Elt F)),
    nullary main_c_14 (constantI S_ 32 0#32),
    TRef.unary (TRef.of (T := ⟨S_, .i32⟩) main_c_14) (TRef.of (T := ⟨S_, .f32⟩) main_call4_v0) (sitofp .f32),
    TRef.binary (TRef.of (T := ⟨S2x40x128x235, .f32⟩) main_v39) (TRef.of (T := ⟨S_, .f32⟩) main_call4_v0) (TRef.of (T := ⟨S2x40x128x240, .f32⟩) main_v40) (fun x v => pad S2x40x128x240 ![0, 0, 0, 5] ![0, 0, 0, 0] ![0, 0, 0, 0] x v pads_S2x40x128x235_S2x40x128x240_000_000_000_500 h_S_),
    unary main_v0 main_v41 ((extractStridedSlice S2x40x8x128x234 ![0, 0, 0, 0, 6] · slices_S2x40x8x128x240_S2x40x8x128x234_0_0_0_0_6) : (⟨S2x40x8x128x240, .f32⟩ : BufTy).Contents (Elt F) → (⟨S2x40x8x128x234, .f32⟩ : BufTy).Contents (Elt F)),
    unary main_v1 main_v42 ((extractStridedSlice S2x40x8x128x234 ![0, 0, 0, 0, 0] · slices_S2x40x8x128x240_S2x40x8x128x234_0_0_0_0_0) : (⟨S2x40x8x128x240, .f32⟩ : BufTy).Contents (Elt F) → (⟨S2x40x8x128x234, .f32⟩ : BufTy).Contents (Elt F)) ]

set_option maxRecDepth 8192 in
set_option maxHeartbeats 4000000 in
theorem part0_eq (c : Dev nD) : main_part0 (F := F) c = seq p0 := rfl

theorem p0_sub : (p0 : List (HloOp τ sig (Elt F))).Forall fun op => op.bufs ⊆ tcRefs τ sig :=
  ⟨reshape_bufs_sub .., reshape_bufs_sub .., binary_bufs_sub .., nullary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p0_fresh : ∀ op ∈ (p0 : List (HloOp τ sig (Elt F))), op.fresh = ∅ := by
  intro _ h; (repeat (cases h with | head => rfl | tail _ h => ?_)); exact nomatch h

/-- The buffers the part's operations write. -/
abbrev p0_W : List (Ref sig .tc) := [main_v0, main_v1, main_v2, main_cst, main_v3, main_cst_0, main_v4, main_v5, main_v6, main_v7, main_v8, main_cst_1, main_v9, main_cst_2, main_v10, main_v11, main_c, main_call0_v0, main_v12, main_v13, main_v14, main_v15, main_cst_3, main_v16, main_cst_4, main_v17, main_v18, main_c_5, main_call1_v0, main_v19, main_v20, main_v21, main_v22, main_cst_6, main_v23, main_cst_7, main_v24, main_v25, main_c_8, main_call2_v0, main_v26, main_v27, main_v28, main_v29, main_cst_9, main_v30, main_cst_10, main_v31, main_v32, main_c_11, main_call3_v0, main_v33, main_v34, main_v35, main_v36, main_cst_12, main_v37, main_cst_13, main_v38, main_v39, main_c_14, main_call4_v0, main_v40, main_v41, main_v42]

theorem p0_writes : (p0 : List (HloOp τ sig (Elt F))).Forall fun op => op.writes ⊆ (p0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep0_main_arg0 (W : Valuation τ sig (Elt F)) (L R : (⟨S2x320x128x240, .f32⟩ : BufTy).Contents (Elt F)) : after p0 W (Proc.devRef .tc main_arg0) = W (Proc.devRef .tc main_arg0) :=
  after_of_writes_sub p0 W p0_writes (by decide)

theorem keep0_main_arg1 (W : Valuation τ sig (Elt F)) (L R : (⟨S2x320x128x240, .f32⟩ : BufTy).Contents (Elt F)) : after p0 W (Proc.devRef .tc main_arg1) = W (Proc.devRef .tc main_arg1) :=
  after_of_writes_sub p0 W p0_writes (by decide)

theorem out0_main_v0 (W : Valuation τ sig (Elt F)) (L R : (⟨S2x320x128x240, .f32⟩ : BufTy).Contents (Elt F))
    (h_main_arg0 : W (Proc.devRef .tc main_arg0) = L) :
    after p0 W (Proc.devRef .tc main_v0) = val_main_v0 (F := F) L := by
  after_results_simp
  simp only [h_main_arg0]
  rfl

theorem out0_main_v1 (W : Valuation τ sig (Elt F)) (L R : (⟨S2x320x128x240, .f32⟩ : BufTy).Contents (Elt F))
    (h_main_arg1 : W (Proc.devRef .tc main_arg1) = R) :
    after p0 W (Proc.devRef .tc main_v1) = val_main_v1 (F := F) R := by
  after_results_simp
  simp only [h_main_arg1]
  rfl

theorem out0_main_v5 (W : Valuation τ sig (Elt F)) (L R : (⟨S2x320x128x240, .f32⟩ : BufTy).Contents (Elt F))
    (h_main_arg1 : W (Proc.devRef .tc main_arg1) = R) (h_main_arg0 : W (Proc.devRef .tc main_arg0) = L) :
    after p0 W (Proc.devRef .tc main_v5) = val_main_v5 (F := F) L R := by
  after_results_simp
  simp only [h_main_arg1, h_main_arg0]
  rfl

theorem out0_main_v12 (W : Valuation τ sig (Elt F)) (L R : (⟨S2x320x128x240, .f32⟩ : BufTy).Contents (Elt F))
    (h_main_arg1 : W (Proc.devRef .tc main_arg1) = R) (h_main_arg0 : W (Proc.devRef .tc main_arg0) = L) :
    after p0 W (Proc.devRef .tc main_v12) = val_main_v12 (F := F) L R := by
  after_results_simp
  simp only [h_main_arg1, h_main_arg0]
  rfl

theorem out0_main_v19 (W : Valuation τ sig (Elt F)) (L R : (⟨S2x320x128x240, .f32⟩ : BufTy).Contents (Elt F))
    (h_main_arg1 : W (Proc.devRef .tc main_arg1) = R) (h_main_arg0 : W (Proc.devRef .tc main_arg0) = L) :
    after p0 W (Proc.devRef .tc main_v19) = val_main_v19 (F := F) L R := by
  after_results_simp
  simp only [h_main_arg1, h_main_arg0]
  rfl

theorem out0_main_v26 (W : Valuation τ sig (Elt F)) (L R : (⟨S2x320x128x240, .f32⟩ : BufTy).Contents (Elt F))
    (h_main_arg1 : W (Proc.devRef .tc main_arg1) = R) (h_main_arg0 : W (Proc.devRef .tc main_arg0) = L) :
    after p0 W (Proc.devRef .tc main_v26) = val_main_v26 (F := F) L R := by
  after_results_simp
  simp only [h_main_arg1, h_main_arg0]
  rfl

theorem out0_main_v33 (W : Valuation τ sig (Elt F)) (L R : (⟨S2x320x128x240, .f32⟩ : BufTy).Contents (Elt F))
    (h_main_arg1 : W (Proc.devRef .tc main_arg1) = R) (h_main_arg0 : W (Proc.devRef .tc main_arg0) = L) :
    after p0 W (Proc.devRef .tc main_v33) = val_main_v33 (F := F) L R := by
  after_results_simp
  simp only [h_main_arg1, h_main_arg0]
  rfl

theorem out0_main_v40 (W : Valuation τ sig (Elt F)) (L R : (⟨S2x320x128x240, .f32⟩ : BufTy).Contents (Elt F))
    (h_main_arg1 : W (Proc.devRef .tc main_arg1) = R) (h_main_arg0 : W (Proc.devRef .tc main_arg0) = L) :
    after p0 W (Proc.devRef .tc main_v40) = val_main_v40 (F := F) L R := by
  after_results_simp
  simp only [h_main_arg1, h_main_arg0]
  rfl

theorem out0_main_v41 (W : Valuation τ sig (Elt F)) (L R : (⟨S2x320x128x240, .f32⟩ : BufTy).Contents (Elt F))
    (h_main_arg0 : W (Proc.devRef .tc main_arg0) = L) :
    after p0 W (Proc.devRef .tc main_v41) = val_main_v41 (F := F) L := by
  after_results_simp
  simp only [h_main_arg0]
  rfl

theorem out0_main_v42 (W : Valuation τ sig (Elt F)) (L R : (⟨S2x320x128x240, .f32⟩ : BufTy).Contents (Elt F))
    (h_main_arg1 : W (Proc.devRef .tc main_arg1) = R) :
    after p0 W (Proc.devRef .tc main_v42) = val_main_v42 (F := F) R := by
  after_results_simp
  simp only [h_main_arg1]
  rfl

end Cert.ReferenceIdeal.RunP

end
-- ==== Proof.RefRun1.lean ====
/- Gen/ReferenceIdeal/Run.lean and the stage names of Gen/ReferenceIdeal/Read.lean. Part 1 of @main (operations 66 to 131): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 1, in order. -/
abbrev p1 : List (HloOp τ sig (Elt F)) :=
  [ binary main_v41 main_v42 main_v43 (mulf : (⟨S2x40x8x128x234, .f32⟩ : BufTy).Contents (Elt F) → (⟨S2x40x8x128x234, .f32⟩ : BufTy).Contents (Elt F) → (⟨S2x40x8x128x234, .f32⟩ : BufTy).Contents (Elt F)),
    nullary main_cst_15 (constant S_ .f32 0x00000000#32),
    binary main_v43 main_cst_15 main_v44 ((fun x v => Host.reduceAdd x v reducesTo_S2x40x8x128x234_S2x40x128x234_d2 h_S_) : (⟨S2x40x8x128x234, .f32⟩ : BufTy).Contents (Elt F) → (⟨S_, .f32⟩ : BufTy).Contents (Elt F) → (⟨S2x40x128x234, .f32⟩ : BufTy).Contents (Elt F)),
    nullary main_cst_16 (constant S_ .f32 0x41000000#32),
    unary main_cst_16 main_v45 (broadcastInDim S2x40x128x234 ![] bcast_S_S2x40x128x234 : (⟨S_, .f32⟩ : BufTy).Contents (Elt F) → (⟨S2x40x128x234, .f32⟩ : BufTy).Contents (Elt F)),
    binary main_v44 main_v45 main_v46 (Host.divf : (⟨S2x40x128x234, .f32⟩ : BufTy).Contents (Elt F) → (⟨S2x40x128x234, .f32⟩ : BufTy).Contents (Elt F) → (⟨S2x40x128x234, .f32⟩ : BufTy).Contents (Elt F)),
    nullary main_c_17 (constantI S_ 32 0#32),
    TRef.unary (TRef.of (T := ⟨S_, .i32⟩) main_c_17) (TRef.of (T := ⟨S_, .f32⟩) main_call5_v0) (sitofp .f32),
    TRef.binary (TRef.of (T := ⟨S2x40x128x234, .f32⟩) main_v46) (TRef.of (T := ⟨S_, .f32⟩) main_call5_v0) (TRef.of (T := ⟨S2x40x128x240, .f32⟩) main_v47) (fun x v => pad S2x40x128x240 ![0, 0, 0, 6] ![0, 0, 0, 0] ![0, 0, 0, 0] x v pads_S2x40x128x234_S2x40x128x240_000_000_000_600 h_S_),
    unary main_v0 main_v48 ((extractStridedSlice S2x40x8x128x233 ![0, 0, 0, 0, 7] · slices_S2x40x8x128x240_S2x40x8x128x233_0_0_0_0_7) : (⟨S2x40x8x128x240, .f32⟩ : BufTy).Contents (Elt F) → (⟨S2x40x8x128x233, .f32⟩ : BufTy).Contents (Elt F)),
    unary main_v1 main_v49 ((extractStridedSlice S2x40x8x128x233 ![0, 0, 0, 0, 0] · slices_S2x40x8x128x240_S2x40x8x128x233_0_0_0_0_0) : (⟨S2x40x8x128x240, .f32⟩ : BufTy).Contents (Elt F) → (⟨S2x40x8x128x233, .f32⟩ : BufTy).Contents (Elt F)),
    binary main_v48 main_v49 main_v50 (mulf : (⟨S2x40x8x128x233, .f32⟩ : BufTy).Contents (Elt F) → (⟨S2x40x8x128x233, .f32⟩ : BufTy).Contents (Elt F) → (⟨S2x40x8x128x233, .f32⟩ : BufTy).Contents (Elt F)),
    nullary main_cst_18 (constant S_ .f32 0x00000000#32),
    binary main_v50 main_cst_18 main_v51 ((fun x v => Host.reduceAdd x v reducesTo_S2x40x8x128x233_S2x40x128x233_d2 h_S_) : (⟨S2x40x8x128x233, .f32⟩ : BufTy).Contents (Elt F) → (⟨S_, .f32⟩ : BufTy).Contents (Elt F) → (⟨S2x40x128x233, .f32⟩ : BufTy).Contents (Elt F)),
    nullary main_cst_19 (constant S_ .f32 0x41000000#32),
    unary main_cst_19 main_v52 (broadcastInDim S2x40x128x233 ![] bcast_S_S2x40x128x233 : (⟨S_, .f32⟩ : BufTy).Contents (Elt F) → (⟨S2x40x128x233, .f32⟩ : BufTy).Contents (Elt F)),
    binary main_v51 main_v52 main_v53 (Host.divf : (⟨S2x40x128x233, .f32⟩ : BufTy).Contents (Elt F) → (⟨S2x40x128x233, .f32⟩ : BufTy).Contents (Elt F) → (⟨S2x40x128x233, .f32⟩ : BufTy).Contents (Elt F)),
    nullary main_c_20 (constantI S_ 32 0#32),
    TRef.unary (TRef.of (T := ⟨S_, .i32⟩) main_c_20) (TRef.of (T := ⟨S_, .f32⟩) main_call6_v0) (sitofp .f32),
    TRef.binary (TRef.of (T := ⟨S2x40x128x233, .f32⟩) main_v53) (TRef.of (T := ⟨S_, .f32⟩) main_call6_v0) (TRef.of (T := ⟨S2x40x128x240, .f32⟩) main_v54) (fun x v => pad S2x40x128x240 ![0, 0, 0, 7] ![0, 0, 0, 0] ![0, 0, 0, 0] x v pads_S2x40x128x233_S2x40x128x240_000_000_000_700 h_S_),
    unary main_v0 main_v55 ((extractStridedSlice S2x40x8x128x232 ![0, 0, 0, 0, 8] · slices_S2x40x8x128x240_S2x40x8x128x232_0_0_0_0_8) : (⟨S2x40x8x128x240, .f32⟩ : BufTy).Contents (Elt F) → (⟨S2x40x8x128x232, .f32⟩ : BufTy).Contents (Elt F)),
    unary main_v1 main_v56 ((extractStridedSlice S2x40x8x128x232 ![0, 0, 0, 0, 0] · slices_S2x40x8x128x240_S2x40x8x128x232_0_0_0_0_0) : (⟨S2x40x8x128x240, .f32⟩ : BufTy).Contents (Elt F) → (⟨S2x40x8x128x232, .f32⟩ : BufTy).Contents (Elt F)),
    binary main_v55 main_v56 main_v57 (mulf : (⟨S2x40x8x128x232, .f32⟩ : BufTy).Contents (Elt F) → (⟨S2x40x8x128x232, .f32⟩ : BufTy).Contents (Elt F) → (⟨S2x40x8x128x232, .f32⟩ : BufTy).Contents (Elt F)),
    nullary main_cst_21 (constant S_ .f32 0x00000000#32),
    binary main_v57 main_cst_21 main_v58 ((fun x v => Host.reduceAdd x v reducesTo_S2x40x8x128x232_S2x40x128x232_d2 h_S_) : (⟨S2x40x8x128x232, .f32⟩ : BufTy).Contents (Elt F) → (⟨S_, .f32⟩ : BufTy).Contents (Elt F) → (⟨S2x40x128x232, .f32⟩ : BufTy).Contents (Elt F)),
    nullary main_cst_22 (constant S_ .f32 0x41000000#32),
    unary main_cst_22 main_v59 (broadcastInDim S2x40x128x232 ![] bcast_S_S2x40x128x232 : (⟨S_, .f32⟩ : BufTy).Contents (Elt F) → (⟨S2x40x128x232, .f32⟩ : BufTy).Contents (Elt F)),
    binary main_v58 main_v59 main_v60 (Host.divf : (⟨S2x40x128x232, .f32⟩ : BufTy).Contents (Elt F) → (⟨S2x40x128x232, .f32⟩ : BufTy).Contents (Elt F) → (⟨S2x40x128x232, .f32⟩ : BufTy).Contents (Elt F)),
    nullary main_c_23 (constantI S_ 32 0#32),
    TRef.unary (TRef.of (T := ⟨S_, .i32⟩) main_c_23) (TRef.of (T := ⟨S_, .f32⟩) main_call7_v0) (sitofp .f32),
    TRef.binary (TRef.of (T := ⟨S2x40x128x232, .f32⟩) main_v60) (TRef.of (T := ⟨S_, .f32⟩) main_call7_v0) (TRef.of (T := ⟨S2x40x128x240, .f32⟩) main_v61) (fun x v => pad S2x40x128x240 ![0, 0, 0, 8] ![0, 0, 0, 0] ![0, 0, 0, 0] x v pads_S2x40x128x232_S2x40x128x240_000_000_000_800 h_S_),
    unary main_v0 main_v62 ((extractStridedSlice S2x40x8x128x231 ![0, 0, 0, 0, 9] · slices_S2x40x8x128x240_S2x40x8x128x231_0_0_0_0_9) : (⟨S2x40x8x128x240, .f32⟩ : BufTy).Contents (Elt F) → (⟨S2x40x8x128x231, .f32⟩ : BufTy).Contents (Elt F)),
    unary main_v1 main_v63 ((extractStridedSlice S2x40x8x128x231 ![0, 0, 0, 0, 0] · slices_S2x40x8x128x240_S2x40x8x128x231_0_0_0_0_0) : (⟨S2x40x8x128x240, .f32⟩ : BufTy).Contents (Elt F) → (⟨S2x40x8x128x231, .f32⟩ : BufTy).Contents (Elt F)),
    binary main_v62 main_v63 main_v64 (mulf : (⟨S2x40x8x128x231, .f32⟩ : BufTy).Contents (Elt F) → (⟨S2x40x8x128x231, .f32⟩ : BufTy).Contents (Elt F) → (⟨S2x40x8x128x231, .f32⟩ : BufTy).Contents (Elt F)),
    nullary main_cst_24 (constant S_ .f32 0x00000000#32),
    binary main_v64 main_cst_24 main_v65 ((fun x v => Host.reduceAdd x v reducesTo_S2x40x8x128x231_S2x40x128x231_d2 h_S_) : (⟨S2x40x8x128x231, .f32⟩ : BufTy).Contents (Elt F) → (⟨S_, .f32⟩ : BufTy).Contents (Elt F) → (⟨S2x40x128x231, .f32⟩ : BufTy).Contents (Elt F)),
    nullary main_cst_25 (constant S_ .f32 0x41000000#32),
    unary main_cst_25 main_v66 (broadcastInDim S2x40x128x231 ![] bcast_S_S2x40x128x231 : (⟨S_, .f32⟩ : BufTy).Contents (Elt F) → (⟨S2x40x128x231, .f32⟩ : BufTy).Contents (Elt F)),
    binary main_v65 main_v66 main_v67 (Host.divf : (⟨S2x40x128x231, .f32⟩ : BufTy).Contents (Elt F) → (⟨S2x40x128x231, .f32⟩ : BufTy).Contents (Elt F) → (⟨S2x40x128x231, .f32⟩ : BufTy).Contents (Elt F)),
    nullary main_c_26 (constantI S_ 32 0#32),
    TRef.unary (TRef.of (T := ⟨S_, .i32⟩) main_c_26) (TRef.of (T := ⟨S_, .f32⟩) main_call8_v0) (sitofp .f32),
    TRef.binary (TRef.of (T := ⟨S2x40x128x231, .f32⟩) main_v67) (TRef.of (T := ⟨S_, .f32⟩) main_call8_v0) (TRef.of (T := ⟨S2x40x128x240, .f32⟩) main_v68) (fun x v => pad S2x40x128x240 ![0, 0, 0, 9] ![0, 0, 0, 0] ![0, 0, 0, 0] x v pads_S2x40x128x231_S2x40x128x240_000_000_000_900 h_S_),
    unary main_v0 main_v69 ((extractStridedSlice S2x40x8x128x230 ![0, 0, 0, 0, 10] · slices_S2x40x8x128x240_S2x40x8x128x230_0_0_0_0_10) : (⟨S2x40x8x128x240, .f32⟩ : BufTy).Contents (Elt F) → (⟨S2x40x8x128x230, .f32⟩ : BufTy).Contents (Elt F)),
    unary main_v1 main_v70 ((extractStridedSlice S2x40x8x128x230 ![0, 0, 0, 0, 0] · slices_S2x40x8x128x240_S2x40x8x128x230_0_0_0_0_0) : (⟨S2x40x8x128x240, .f32⟩ : BufTy).Contents (Elt F) → (⟨S2x40x8x128x230, .f32⟩ : BufTy).Contents (Elt F)),
    binary main_v69 main_v70 main_v71 (mulf : (⟨S2x40x8x128x230, .f32⟩ : BufTy).Contents (Elt F) → (⟨S2x40x8x128x230, .f32⟩ : BufTy).Contents (Elt F) → (⟨S2x40x8x128x230, .f32⟩ : BufTy).Contents (Elt F)),
    nullary main_cst_27 (constant S_ .f32 0x00000000#32),
    binary main_v71 main_cst_27 main_v72 ((fun x v => Host.reduceAdd x v reducesTo_S2x40x8x128x230_S2x40x128x230_d2 h_S_) : (⟨S2x40x8x128x230, .f32⟩ : BufTy).Contents (Elt F) → (⟨S_, .f32⟩ : BufTy).Contents (Elt F) → (⟨S2x40x128x230, .f32⟩ : BufTy).Contents (Elt F)),
    nullary main_cst_28 (constant S_ .f32 0x41000000#32),
    unary main_cst_28 main_v73 (broadcastInDim S2x40x128x230 ![] bcast_S_S2x40x128x230 : (⟨S_, .f32⟩ : BufTy).Contents (Elt F) → (⟨S2x40x128x230, .f32⟩ : BufTy).Contents (Elt F)),
    binary main_v72 main_v73 main_v74 (Host.divf : (⟨S2x40x128x230, .f32⟩ : BufTy).Contents (Elt F) → (⟨S2x40x128x230, .f32⟩ : BufTy).Contents (Elt F) → (⟨S2x40x128x230, .f32⟩ : BufTy).Contents (Elt F)),
    nullary main_c_29 (constantI S_ 32 0#32),
    TRef.unary (TRef.of (T := ⟨S_, .i32⟩) main_c_29) (TRef.of (T := ⟨S_, .f32⟩) main_call9_v0) (sitofp .f32),
    TRef.binary (TRef.of (T := ⟨S2x40x128x230, .f32⟩) main_v74) (TRef.of (T := ⟨S_, .f32⟩) main_call9_v0) (TRef.of (T := ⟨S2x40x128x240, .f32⟩) main_v75) (fun x v => pad S2x40x128x240 ![0, 0, 0, 10] ![0, 0, 0, 0] ![0, 0, 0, 0] x v pads_S2x40x128x230_S2x40x128x240_000_000_000_1000 h_S_),
    unary main_v0 main_v76 ((extractStridedSlice S2x40x8x128x229 ![0, 0, 0, 0, 11] · slices_S2x40x8x128x240_S2x40x8x128x229_0_0_0_0_11) : (⟨S2x40x8x128x240, .f32⟩ : BufTy).Contents (Elt F) → (⟨S2x40x8x128x229, .f32⟩ : BufTy).Contents (Elt F)),
    unary main_v1 main_v77 ((extractStridedSlice S2x40x8x128x229 ![0, 0, 0, 0, 0] · slices_S2x40x8x128x240_S2x40x8x128x229_0_0_0_0_0) : (⟨S2x40x8x128x240, .f32⟩ : BufTy).Contents (Elt F) → (⟨S2x40x8x128x229, .f32⟩ : BufTy).Contents (Elt F)),
    binary main_v76 main_v77 main_v78 (mulf : (⟨S2x40x8x128x229, .f32⟩ : BufTy).Contents (Elt F) → (⟨S2x40x8x128x229, .f32⟩ : BufTy).Contents (Elt F) → (⟨S2x40x8x128x229, .f32⟩ : BufTy).Contents (Elt F)),
    nullary main_cst_30 (constant S_ .f32 0x00000000#32),
    binary main_v78 main_cst_30 main_v79 ((fun x v => Host.reduceAdd x v reducesTo_S2x40x8x128x229_S2x40x128x229_d2 h_S_) : (⟨S2x40x8x128x229, .f32⟩ : BufTy).Contents (Elt F) → (⟨S_, .f32⟩ : BufTy).Contents (Elt F) → (⟨S2x40x128x229, .f32⟩ : BufTy).Contents (Elt F)),
    nullary main_cst_31 (constant S_ .f32 0x41000000#32),
    unary main_cst_31 main_v80 (broadcastInDim S2x40x128x229 ![] bcast_S_S2x40x128x229 : (⟨S_, .f32⟩ : BufTy).Contents (Elt F) → (⟨S2x40x128x229, .f32⟩ : BufTy).Contents (Elt F)),
    binary main_v79 main_v80 main_v81 (Host.divf : (⟨S2x40x128x229, .f32⟩ : BufTy).Contents (Elt F) → (⟨S2x40x128x229, .f32⟩ : BufTy).Contents (Elt F) → (⟨S2x40x128x229, .f32⟩ : BufTy).Contents (Elt F)),
    nullary main_c_32 (constantI S_ 32 0#32),
    TRef.unary (TRef.of (T := ⟨S_, .i32⟩) main_c_32) (TRef.of (T := ⟨S_, .f32⟩) main_call10_v0) (sitofp .f32),
    TRef.binary (TRef.of (T := ⟨S2x40x128x229, .f32⟩) main_v81) (TRef.of (T := ⟨S_, .f32⟩) main_call10_v0) (TRef.of (T := ⟨S2x40x128x240, .f32⟩) main_v82) (fun x v => pad S2x40x128x240 ![0, 0, 0, 11] ![0, 0, 0, 0] ![0, 0, 0, 0] x v pads_S2x40x128x229_S2x40x128x240_000_000_000_1100 h_S_),
    unary main_v0 main_v83 ((extractStridedSlice S2x40x8x128x228 ![0, 0, 0, 0, 12] · slices_S2x40x8x128x240_S2x40x8x128x228_0_0_0_0_12) : (⟨S2x40x8x128x240, .f32⟩ : BufTy).Contents (Elt F) → (⟨S2x40x8x128x228, .f32⟩ : BufTy).Contents (Elt F)),
    unary main_v1 main_v84 ((extractStridedSlice S2x40x8x128x228 ![0, 0, 0, 0, 0] · slices_S2x40x8x128x240_S2x40x8x128x228_0_0_0_0_0) : (⟨S2x40x8x128x240, .f32⟩ : BufTy).Contents (Elt F) → (⟨S2x40x8x128x228, .f32⟩ : BufTy).Contents (Elt F)) ]

set_option maxRecDepth 8192 in
set_option maxHeartbeats 4000000 in
theorem part1_eq (c : Dev nD) : main_part1 (F := F) c = seq p1 := rfl

theorem p1_sub : (p1 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p1_fresh : ∀ op ∈ (p1 : List (HloOp τ sig (Elt F))), op.fresh = ∅ := by
  intro _ h; (repeat (cases h with | head => rfl | tail _ h => ?_)); exact nomatch h

/-- The buffers the part's operations write. -/
abbrev p1_W : List (Ref sig .tc) := [main_v43, main_cst_15, main_v44, main_cst_16, main_v45, main_v46, main_c_17, main_call5_v0, main_v47, main_v48, main_v49, main_v50, main_cst_18, main_v51, main_cst_19, main_v52, main_v53, main_c_20, main_call6_v0, main_v54, main_v55, main_v56, main_v57, main_cst_21, main_v58, main_cst_22, main_v59, main_v60, main_c_23, main_call7_v0, main_v61, main_v62, main_v63, main_v64, main_cst_24, main_v65, main_cst_25, main_v66, main_v67, main_c_26, main_call8_v0, main_v68, main_v69, main_v70, main_v71, main_cst_27, main_v72, main_cst_28, main_v73, main_v74, main_c_29, main_call9_v0, main_v75, main_v76, main_v77, main_v78, main_cst_30, main_v79, main_cst_31, main_v80, main_v81, main_c_32, main_call10_v0, main_v82, main_v83, main_v84]

theorem p1_writes : (p1 : List (HloOp τ sig (Elt F))).Forall fun op => op.writes ⊆ (p1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep1_main_arg0 (W : Valuation τ sig (Elt F)) (L R : (⟨S2x320x128x240, .f32⟩ : BufTy).Contents (Elt F)) : after p1 W (Proc.devRef .tc main_arg0) = W (Proc.devRef .tc main_arg0) :=
  after_of_writes_sub p1 W p1_writes (by decide)

theorem keep1_main_arg1 (W : Valuation τ sig (Elt F)) (L R : (⟨S2x320x128x240, .f32⟩ : BufTy).Contents (Elt F)) : after p1 W (Proc.devRef .tc main_arg1) = W (Proc.devRef .tc main_arg1) :=
  after_of_writes_sub p1 W p1_writes (by decide)

theorem keep1_main_v0 (W : Valuation τ sig (Elt F)) (L R : (⟨S2x320x128x240, .f32⟩ : BufTy).Contents (Elt F)) : after p1 W (Proc.devRef .tc main_v0) = W (Proc.devRef .tc main_v0) :=
  after_of_writes_sub p1 W p1_writes (by decide)

theorem keep1_main_v1 (W : Valuation τ sig (Elt F)) (L R : (⟨S2x320x128x240, .f32⟩ : BufTy).Contents (Elt F)) : after p1 W (Proc.devRef .tc main_v1) = W (Proc.devRef .tc main_v1) :=
  after_of_writes_sub p1 W p1_writes (by decide)

theorem keep1_main_v5 (W : Valuation τ sig (Elt F)) (L R : (⟨S2x320x128x240, .f32⟩ : BufTy).Contents (Elt F)) : after p1 W (Proc.devRef .tc main_v5) = W (Proc.devRef .tc main_v5) :=
  after_of_writes_sub p1 W p1_writes (by decide)

theorem keep1_main_v12 (W : Valuation τ sig (Elt F)) (L R : (⟨S2x320x128x240, .f32⟩ : BufTy).Contents (Elt F)) : after p1 W (Proc.devRef .tc main_v12) = W (Proc.devRef .tc main_v12) :=
  after_of_writes_sub p1 W p1_writes (by decide)

theorem keep1_main_v19 (W : Valuation τ sig (Elt F)) (L R : (⟨S2x320x128x240, .f32⟩ : BufTy).Contents (Elt F)) : after p1 W (Proc.devRef .tc main_v19) = W (Proc.devRef .tc main_v19) :=
  after_of_writes_sub p1 W p1_writes (by decide)

theorem keep1_main_v26 (W : Valuation τ sig (Elt F)) (L R : (⟨S2x320x128x240, .f32⟩ : BufTy).Contents (Elt F)) : after p1 W (Proc.devRef .tc main_v26) = W (Proc.devRef .tc main_v26) :=
  after_of_writes_sub p1 W p1_writes (by decide)

theorem keep1_main_v33 (W : Valuation τ sig (Elt F)) (L R : (⟨S2x320x128x240, .f32⟩ : BufTy).Contents (Elt F)) : after p1 W (Proc.devRef .tc main_v33) = W (Proc.devRef .tc main_v33) :=
  after_of_writes_sub p1 W p1_writes (by decide)

theorem keep1_main_v40 (W : Valuation τ sig (Elt F)) (L R : (⟨S2x320x128x240, .f32⟩ : BufTy).Contents (Elt F)) : after p1 W (Proc.devRef .tc main_v40) = W (Proc.devRef .tc main_v40) :=
  after_of_writes_sub p1 W p1_writes (by decide)

theorem out1_main_v47 (W : Valuation τ sig (Elt F)) (L R : (⟨S2x320x128x240, .f32⟩ : BufTy).Contents (Elt F))
    (h_main_v41 : W (Proc.devRef .tc main_v41) = val_main_v41 (F := F) L) (h_main_v42 : W (Proc.devRef .tc main_v42) = val_main_v42 (F := F) R) :
    after p1 W (Proc.devRef .tc main_v47) = val_main_v47 (F := F) L R := by
  after_results_simp
  simp only [h_main_v41, h_main_v42]
  rfl

theorem out1_main_v54 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p1 W (Proc.devRef .tc main_v54) = val_main_v54 (F := F) L R := by
  after_results_simp
  simp only [h_main_v0, h_main_v1]
  rfl

theorem out1_main_v61 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p1 W (Proc.devRef .tc main_v61) = val_main_v61 (F := F) L R := by
  after_results_simp
  simp only [h_main_v0, h_main_v1]
  rfl

theorem out1_main_v68 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p1 W (Proc.devRef .tc main_v68) = val_main_v68 (F := F) L R := by
  after_results_simp
  simp only [h_main_v0, h_main_v1]
  rfl

theorem out1_main_v75 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p1 W (Proc.devRef .tc main_v75) = val_main_v75 (F := F) L R := by
  after_results_simp
  simp only [h_main_v0, h_main_v1]
  rfl

theorem out1_main_v82 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p1 W (Proc.devRef .tc main_v82) = val_main_v82 (F := F) L R := by
  after_results_simp
  simp only [h_main_v0, h_main_v1]
  rfl

theorem out1_main_v83 (W : Valuation τ sig (Elt F)) (L R : (⟨S2x320x128x240, .f32⟩ : BufTy).Contents (Elt F))
    (h_main_v0 : W (Proc.devRef .tc main_v0) = val_main_v0 (F := F) L) :
    after p1 W (Proc.devRef .tc main_v83) = val_main_v83 (F := F) L := by
  after_results_simp
  simp only [h_main_v0]
  rfl

theorem out1_main_v84 (W : Valuation τ sig (Elt F)) (L R : (⟨S2x320x128x240, .f32⟩ : BufTy).Contents (Elt F))
    (h_main_v1 : W (Proc.devRef .tc main_v1) = val_main_v1 (F := F) R) :
    after p1 W (Proc.devRef .tc main_v84) = val_main_v84 (F := F) R := by
  after_results_simp
  simp only [h_main_v1]
  rfl

end Cert.ReferenceIdeal.RunP

end
-- ==== Proof.RefRun2.lean ====
/- Gen/ReferenceIdeal/Run.lean and the stage names of Gen/ReferenceIdeal/Read.lean. Part 2 of @main (operations 132 to 197): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 2, in order. -/
abbrev p2 : List (HloOp τ sig (Elt F)) :=
  [ binary main_v83 main_v84 main_v85 (mulf : (⟨S2x40x8x128x228, .f32⟩ : BufTy).Contents (Elt F) → (⟨S2x40x8x128x228, .f32⟩ : BufTy).Contents (Elt F) → (⟨S2x40x8x128x228, .f32⟩ : BufTy).Contents (Elt F)),
    nullary main_cst_33 (constant S_ .f32 0x00000000#32),
    binary main_v85 main_cst_33 main_v86 ((fun x v => Host.reduceAdd x v reducesTo_S2x40x8x128x228_S2x40x128x228_d2 h_S_) : (⟨S2x40x8x128x228, .f32⟩ : BufTy).Contents (Elt F) → (⟨S_, .f32⟩ : BufTy).Contents (Elt F) → (⟨S2x40x128x228, .f32⟩ : BufTy).Contents (Elt F)),
    nullary main_cst_34 (constant S_ .f32 0x41000000#32),
    unary main_cst_34 main_v87 (broadcastInDim S2x40x128x228 ![] bcast_S_S2x40x128x228 : (⟨S_, .f32⟩ : BufTy).Contents (Elt F) → (⟨S2x40x128x228, .f32⟩ : BufTy).Contents (Elt F)),
    binary main_v86 main_v87 main_v88 (Host.divf : (⟨S2x40x128x228, .f32⟩ : BufTy).Contents (Elt F) → (⟨S2x40x128x228, .f32⟩ : BufTy).Contents (Elt F) → (⟨S2x40x128x228, .f32⟩ : BufTy).Contents (Elt F)),
    nullary main_c_35 (constantI S_ 32 0#32),
    TRef.unary (TRef.of (T := ⟨S_, .i32⟩) main_c_35) (TRef.of (T := ⟨S_, .f32⟩) main_call11_v0) (sitofp .f32),
    TRef.binary (TRef.of (T := ⟨S2x40x128x228, .f32⟩) main_v88) (TRef.of (T := ⟨S_, .f32⟩) main_call11_v0) (TRef.of (T := ⟨S2x40x128x240, .f32⟩) main_v89) (fun x v => pad S2x40x128x240 ![0, 0, 0, 12] ![0, 0, 0, 0] ![0, 0, 0, 0] x v pads_S2x40x128x228_S2x40x128x240_000_000_000_1200 h_S_),
    unary main_v0 main_v90 ((extractStridedSlice S2x40x8x128x227 ![0, 0, 0, 0, 13] · slices_S2x40x8x128x240_S2x40x8x128x227_0_0_0_0_13) : (⟨S2x40x8x128x240, .f32⟩ : BufTy).Contents (Elt F) → (⟨S2x40x8x128x227, .f32⟩ : BufTy).Contents (Elt F)),
    unary main_v1 main_v91 ((extractStridedSlice S2x40x8x128x227 ![0, 0, 0, 0, 0] · slices_S2x40x8x128x240_S2x40x8x128x227_0_0_0_0_0) : (⟨S2x40x8x128x240, .f32⟩ : BufTy).Contents (Elt F) → (⟨S2x40x8x128x227, .f32⟩ : BufTy).Contents (Elt F)),
    binary main_v90 main_v91 main_v92 (mulf : (⟨S2x40x8x128x227, .f32⟩ : BufTy).Contents (Elt F) → (⟨S2x40x8x128x227, .f32⟩ : BufTy).Contents (Elt F) → (⟨S2x40x8x128x227, .f32⟩ : BufTy).Contents (Elt F)),
    nullary main_cst_36 (constant S_ .f32 0x00000000#32),
    binary main_v92 main_cst_36 main_v93 ((fun x v => Host.reduceAdd x v reducesTo_S2x40x8x128x227_S2x40x128x227_d2 h_S_) : (⟨S2x40x8x128x227, .f32⟩ : BufTy).Contents (Elt F) → (⟨S_, .f32⟩ : BufTy).Contents (Elt F) → (⟨S2x40x128x227, .f32⟩ : BufTy).Contents (Elt F)),
    nullary main_cst_37 (constant S_ .f32 0x41000000#32),
    unary main_cst_37 main_v94 (broadcastInDim S2x40x128x227 ![] bcast_S_S2x40x128x227 : (⟨S_, .f32⟩ : BufTy).Contents (Elt F) → (⟨S2x40x128x227, .f32⟩ : BufTy).Contents (Elt F)),
    binary main_v93 main_v94 main_v95 (Host.divf : (⟨S2x40x128x227, .f32⟩ : BufTy).Contents (Elt F) → (⟨S2x40x128x227, .f32⟩ : BufTy).Contents (Elt F) → (⟨S2x40x128x227, .f32⟩ : BufTy).Contents (Elt F)),
    nullary main_c_38 (constantI S_ 32 0#32),
    TRef.unary (TRef.of (T := ⟨S_, .i32⟩) main_c_38) (TRef.of (T := ⟨S_, .f32⟩) main_call12_v0) (sitofp .f32),
    TRef.binary (TRef.of (T := ⟨S2x40x128x227, .f32⟩) main_v95) (TRef.of (T := ⟨S_, .f32⟩) main_call12_v0) (TRef.of (T := ⟨S2x40x128x240, .f32⟩) main_v96) (fun x v => pad S2x40x128x240 ![0, 0, 0, 13] ![0, 0, 0, 0] ![0, 0, 0, 0] x v pads_S2x40x128x227_S2x40x128x240_000_000_000_1300 h_S_),
    unary main_v0 main_v97 ((extractStridedSlice S2x40x8x128x226 ![0, 0, 0, 0, 14] · slices_S2x40x8x128x240_S2x40x8x128x226_0_0_0_0_14) : (⟨S2x40x8x128x240, .f32⟩ : BufTy).Contents (Elt F) → (⟨S2x40x8x128x226, .f32⟩ : BufTy).Contents (Elt F)),
    unary main_v1 main_v98 ((extractStridedSlice S2x40x8x128x226 ![0, 0, 0, 0, 0] · slices_S2x40x8x128x240_S2x40x8x128x226_0_0_0_0_0) : (⟨S2x40x8x128x240, .f32⟩ : BufTy).Contents (Elt F) → (⟨S2x40x8x128x226, .f32⟩ : BufTy).Contents (Elt F)),
    binary main_v97 main_v98 main_v99 (mulf : (⟨S2x40x8x128x226, .f32⟩ : BufTy).Contents (Elt F) → (⟨S2x40x8x128x226, .f32⟩ : BufTy).Contents (Elt F) → (⟨S2x40x8x128x226, .f32⟩ : BufTy).Contents (Elt F)),
    nullary main_cst_39 (constant S_ .f32 0x00000000#32),
    binary main_v99 main_cst_39 main_v100 ((fun x v => Host.reduceAdd x v reducesTo_S2x40x8x128x226_S2x40x128x226_d2 h_S_) : (⟨S2x40x8x128x226, .f32⟩ : BufTy).Contents (Elt F) → (⟨S_, .f32⟩ : BufTy).Contents (Elt F) → (⟨S2x40x128x226, .f32⟩ : BufTy).Contents (Elt F)),
    nullary main_cst_40 (constant S_ .f32 0x41000000#32),
    unary main_cst_40 main_v101 (broadcastInDim S2x40x128x226 ![] bcast_S_S2x40x128x226 : (⟨S_, .f32⟩ : BufTy).Contents (Elt F) → (⟨S2x40x128x226, .f32⟩ : BufTy).Contents (Elt F)),
    binary main_v100 main_v101 main_v102 (Host.divf : (⟨S2x40x128x226, .f32⟩ : BufTy).Contents (Elt F) → (⟨S2x40x128x226, .f32⟩ : BufTy).Contents (Elt F) → (⟨S2x40x128x226, .f32⟩ : BufTy).Contents (Elt F)),
    nullary main_c_41 (constantI S_ 32 0#32),
    TRef.unary (TRef.of (T := ⟨S_, .i32⟩) main_c_41) (TRef.of (T := ⟨S_, .f32⟩) main_call13_v0) (sitofp .f32),
    TRef.binary (TRef.of (T := ⟨S2x40x128x226, .f32⟩) main_v102) (TRef.of (T := ⟨S_, .f32⟩) main_call13_v0) (TRef.of (T := ⟨S2x40x128x240, .f32⟩) main_v103) (fun x v => pad S2x40x128x240 ![0, 0, 0, 14] ![0, 0, 0, 0] ![0, 0, 0, 0] x v pads_S2x40x128x226_S2x40x128x240_000_000_000_1400 h_S_),
    unary main_v0 main_v104 ((extractStridedSlice S2x40x8x128x225 ![0, 0, 0, 0, 15] · slices_S2x40x8x128x240_S2x40x8x128x225_0_0_0_0_15) : (⟨S2x40x8x128x240, .f32⟩ : BufTy).Contents (Elt F) → (⟨S2x40x8x128x225, .f32⟩ : BufTy).Contents (Elt F)),
    unary main_v1 main_v105 ((extractStridedSlice S2x40x8x128x225 ![0, 0, 0, 0, 0] · slices_S2x40x8x128x240_S2x40x8x128x225_0_0_0_0_0) : (⟨S2x40x8x128x240, .f32⟩ : BufTy).Contents (Elt F) → (⟨S2x40x8x128x225, .f32⟩ : BufTy).Contents (Elt F)),
    binary main_v104 main_v105 main_v106 (mulf : (⟨S2x40x8x128x225, .f32⟩ : BufTy).Contents (Elt F) → (⟨S2x40x8x128x225, .f32⟩ : BufTy).Contents (Elt F) → (⟨S2x40x8x128x225, .f32⟩ : BufTy).Contents (Elt F)),
    nullary main_cst_42 (constant S_ .f32 0x00000000#32),
    binary main_v106 main_cst_42 main_v107 ((fun x v => Host.reduceAdd x v reducesTo_S2x40x8x128x225_S2x40x128x225_d2 h_S_) : (⟨S2x40x8x128x225, .f32⟩ : BufTy).Contents (Elt F) → (⟨S_, .f32⟩ : BufTy).Contents (Elt F) → (⟨S2x40x128x225, .f32⟩ : BufTy).Contents (Elt F)),
    nullary main_cst_43 (constant S_ .f32 0x41000000#32),
    unary main_cst_43 main_v108 (broadcastInDim S2x40x128x225 ![] bcast_S_S2x40x128x225 : (⟨S_, .f32⟩ : BufTy).Contents (Elt F) → (⟨S2x40x128x225, .f32⟩ : BufTy).Contents (Elt F)),
    binary main_v107 main_v108 main_v109 (Host.divf : (⟨S2x40x128x225, .f32⟩ : BufTy).Contents (Elt F) → (⟨S2x40x128x225, .f32⟩ : BufTy).Contents (Elt F) → (⟨S2x40x128x225, .f32⟩ : BufTy).Contents (Elt F)),
    nullary main_c_44 (constantI S_ 32 0#32),
    TRef.unary (TRef.of (T := ⟨S_, .i32⟩) main_c_44) (TRef.of (T := ⟨S_, .f32⟩) main_call14_v0) (sitofp .f32),
    TRef.binary (TRef.of (T := ⟨S2x40x128x225, .f32⟩) main_v109) (TRef.of (T := ⟨S_, .f32⟩) main_call14_v0) (TRef.of (T := ⟨S2x40x128x240, .f32⟩) main_v110) (fun x v => pad S2x40x128x240 ![0, 0, 0, 15] ![0, 0, 0, 0] ![0, 0, 0, 0] x v pads_S2x40x128x225_S2x40x128x240_000_000_000_1500 h_S_),
    unary main_v0 main_v111 ((extractStridedSlice S2x40x8x128x224 ![0, 0, 0, 0, 16] · slices_S2x40x8x128x240_S2x40x8x128x224_0_0_0_0_16) : (⟨S2x40x8x128x240, .f32⟩ : BufTy).Contents (Elt F) → (⟨S2x40x8x128x224, .f32⟩ : BufTy).Contents (Elt F)),
    unary main_v1 main_v112 ((extractStridedSlice S2x40x8x128x224 ![0, 0, 0, 0, 0] · slices_S2x40x8x128x240_S2x40x8x128x224_0_0_0_0_0) : (⟨S2x40x8x128x240, .f32⟩ : BufTy).Contents (Elt F) → (⟨S2x40x8x128x224, .f32⟩ : BufTy).Contents (Elt F)),
    binary main_v111 main_v112 main_v113 (mulf : (⟨S2x40x8x128x224, .f32⟩ : BufTy).Contents (Elt F) → (⟨S2x40x8x128x224, .f32⟩ : BufTy).Contents (Elt F) → (⟨S2x40x8x128x224, .f32⟩ : BufTy).Contents (Elt F)),
    nullary main_cst_45 (constant S_ .f32 0x00000000#32),
    binary main_v113 main_cst_45 main_v114 ((fun x v => Host.reduceAdd x v reducesTo_S2x40x8x128x224_S2x40x128x224_d2 h_S_) : (⟨S2x40x8x128x224, .f32⟩ : BufTy).Contents (Elt F) → (⟨S_, .f32⟩ : BufTy).Contents (Elt F) → (⟨S2x40x128x224, .f32⟩ : BufTy).Contents (Elt F)),
    nullary main_cst_46 (constant S_ .f32 0x41000000#32),
    unary main_cst_46 main_v115 (broadcastInDim S2x40x128x224 ![] bcast_S_S2x40x128x224 : (⟨S_, .f32⟩ : BufTy).Contents (Elt F) → (⟨S2x40x128x224, .f32⟩ : BufTy).Contents (Elt F)),
    binary main_v114 main_v115 main_v116 (Host.divf : (⟨S2x40x128x224, .f32⟩ : BufTy).Contents (Elt F) → (⟨S2x40x128x224, .f32⟩ : BufTy).Contents (Elt F) → (⟨S2x40x128x224, .f32⟩ : BufTy).Contents (Elt F)),
    nullary main_c_47 (constantI S_ 32 0#32),
    TRef.unary (TRef.of (T := ⟨S_, .i32⟩) main_c_47) (TRef.of (T := ⟨S_, .f32⟩) main_call15_v0) (sitofp .f32),
    TRef.binary (TRef.of (T := ⟨S2x40x128x224, .f32⟩) main_v116) (TRef.of (T := ⟨S_, .f32⟩) main_call15_v0) (TRef.of (T := ⟨S2x40x128x240, .f32⟩) main_v117) (fun x v => pad S2x40x128x240 ![0, 0, 0, 16] ![0, 0, 0, 0] ![0, 0, 0, 0] x v pads_S2x40x128x224_S2x40x128x240_000_000_000_1600 h_S_),
    unary main_v0 main_v118 ((extractStridedSlice S2x40x8x128x223 ![0, 0, 0, 0, 17] · slices_S2x40x8x128x240_S2x40x8x128x223_0_0_0_0_17) : (⟨S2x40x8x128x240, .f32⟩ : BufTy).Contents (Elt F) → (⟨S2x40x8x128x223, .f32⟩ : BufTy).Contents (Elt F)),
    unary main_v1 main_v119 ((extractStridedSlice S2x40x8x128x223 ![0, 0, 0, 0, 0] · slices_S2x40x8x128x240_S2x40x8x128x223_0_0_0_0_0) : (⟨S2x40x8x128x240, .f32⟩ : BufTy).Contents (Elt F) → (⟨S2x40x8x128x223, .f32⟩ : BufTy).Contents (Elt F)),
    binary main_v118 main_v119 main_v120 (mulf : (⟨S2x40x8x128x223, .f32⟩ : BufTy).Contents (Elt F) → (⟨S2x40x8x128x223, .f32⟩ : BufTy).Contents (Elt F) → (⟨S2x40x8x128x223, .f32⟩ : BufTy).Contents (Elt F)),
    nullary main_cst_48 (constant S_ .f32 0x00000000#32),
    binary main_v120 main_cst_48 main_v121 ((fun x v => Host.reduceAdd x v reducesTo_S2x40x8x128x223_S2x40x128x223_d2 h_S_) : (⟨S2x40x8x128x223, .f32⟩ : BufTy).Contents (Elt F) → (⟨S_, .f32⟩ : BufTy).Contents (Elt F) → (⟨S2x40x128x223, .f32⟩ : BufTy).Contents (Elt F)),
    nullary main_cst_49 (constant S_ .f32 0x41000000#32),
    unary main_cst_49 main_v122 (broadcastInDim S2x40x128x223 ![] bcast_S_S2x40x128x223 : (⟨S_, .f32⟩ : BufTy).Contents (Elt F) → (⟨S2x40x128x223, .f32⟩ : BufTy).Contents (Elt F)),
    binary main_v121 main_v122 main_v123 (Host.divf : (⟨S2x40x128x223, .f32⟩ : BufTy).Contents (Elt F) → (⟨S2x40x128x223, .f32⟩ : BufTy).Contents (Elt F) → (⟨S2x40x128x223, .f32⟩ : BufTy).Contents (Elt F)),
    nullary main_c_50 (constantI S_ 32 0#32),
    TRef.unary (TRef.of (T := ⟨S_, .i32⟩) main_c_50) (TRef.of (T := ⟨S_, .f32⟩) main_call16_v0) (sitofp .f32),
    TRef.binary (TRef.of (T := ⟨S2x40x128x223, .f32⟩) main_v123) (TRef.of (T := ⟨S_, .f32⟩) main_call16_v0) (TRef.of (T := ⟨S2x40x128x240, .f32⟩) main_v124) (fun x v => pad S2x40x128x240 ![0, 0, 0, 17] ![0, 0, 0, 0] ![0, 0, 0, 0] x v pads_S2x40x128x223_S2x40x128x240_000_000_000_1700 h_S_),
    unary main_v0 main_v125 ((extractStridedSlice S2x40x8x128x222 ![0, 0, 0, 0, 18] · slices_S2x40x8x128x240_S2x40x8x128x222_0_0_0_0_18) : (⟨S2x40x8x128x240, .f32⟩ : BufTy).Contents (Elt F) → (⟨S2x40x8x128x222, .f32⟩ : BufTy).Contents (Elt F)),
    unary main_v1 main_v126 ((extractStridedSlice S2x40x8x128x222 ![0, 0, 0, 0, 0] · slices_S2x40x8x128x240_S2x40x8x128x222_0_0_0_0_0) : (⟨S2x40x8x128x240, .f32⟩ : BufTy).Contents (Elt F) → (⟨S2x40x8x128x222, .f32⟩ : BufTy).Contents (Elt F)) ]

set_option maxRecDepth 8192 in
set_option maxHeartbeats 4000000 in
theorem part2_eq (c : Dev nD) : main_part2 (F := F) c = seq p2 := rfl

theorem p2_sub : (p2 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p2_fresh : ∀ op ∈ (p2 : List (HloOp τ sig (Elt F))), op.fresh = ∅ := by
  intro _ h; (repeat (cases h with | head => rfl | tail _ h => ?_)); exact nomatch h

/-- The buffers the part's operations write. -/
abbrev p2_W : List (Ref sig .tc) := [main_v85, main_cst_33, main_v86, main_cst_34, main_v87, main_v88, main_c_35, main_call11_v0, main_v89, main_v90, main_v91, main_v92, main_cst_36, main_v93, main_cst_37, main_v94, main_v95, main_c_38, main_call12_v0, main_v96, main_v97, main_v98, main_v99, main_cst_39, main_v100, main_cst_40, main_v101, main_v102, main_c_41, main_call13_v0, main_v103, main_v104, main_v105, main_v106, main_cst_42, main_v107, main_cst_43, main_v108, main_v109, main_c_44, main_call14_v0, main_v110, main_v111, main_v112, main_v113, main_cst_45, main_v114, main_cst_46, main_v115, main_v116, main_c_47, main_call15_v0, main_v117, main_v118, main_v119, main_v120, main_cst_48, main_v121, main_cst_49, main_v122, main_v123, main_c_50, main_call16_v0, main_v124, main_v125, main_v126]

theorem p2_writes : (p2 : List (HloOp τ sig (Elt F))).Forall fun op => op.writes ⊆ (p2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep2_main_arg0 (W : Valuation τ sig (Elt F)) (L R : (⟨S2x320x128x240, .f32⟩ : BufTy).Contents (Elt F)) : after p2 W (Proc.devRef .tc main_arg0) = W (Proc.devRef .tc main_arg0) :=
  after_of_writes_sub p2 W p2_writes (by decide)

theorem keep2_main_arg1 (W : Valuation τ sig (Elt F)) (L R : (⟨S2x320x128x240, .f32⟩ : BufTy).Contents (Elt F)) : after p2 W (Proc.devRef .tc main_arg1) = W (Proc.devRef .tc main_arg1) :=
  after_of_writes_sub p2 W p2_writes (by decide)

theorem keep2_main_v0 (W : Valuation τ sig (Elt F)) (L R : (⟨S2x320x128x240, .f32⟩ : BufTy).Contents (Elt F)) : after p2 W (Proc.devRef .tc main_v0) = W (Proc.devRef .tc main_v0) :=
  after_of_writes_sub p2 W p2_writes (by decide)

theorem keep2_main_v1 (W : Valuation τ sig (Elt F)) (L R : (⟨S2x320x128x240, .f32⟩ : BufTy).Contents (Elt F)) : after p2 W (Proc.devRef .tc main_v1) = W (Proc.devRef .tc main_v1) :=
  after_of_writes_sub p2 W p2_writes (by decide)

theorem keep2_main_v5 (W : Valuation τ sig (Elt F)) (L R : (⟨S2x320x128x240, .f32⟩ : BufTy).Contents (Elt F)) : after p2 W (Proc.devRef .tc main_v5) = W (Proc.devRef .tc main_v5) :=
  after_of_writes_sub p2 W p2_writes (by decide)

theorem keep2_main_v12 (W : Valuation τ sig (Elt F)) (L R : (⟨S2x320x128x240, .f32⟩ : BufTy).Contents (Elt F)) : after p2 W (Proc.devRef .tc main_v12) = W (Proc.devRef .tc main_v12) :=
  after_of_writes_sub p2 W p2_writes (by decide)

theorem keep2_main_v19 (W : Valuation τ sig (Elt F)) (L R : (⟨S2x320x128x240, .f32⟩ : BufTy).Contents (Elt F)) : after p2 W (Proc.devRef .tc main_v19) = W (Proc.devRef .tc main_v19) :=
  after_of_writes_sub p2 W p2_writes (by decide)

theorem keep2_main_v26 (W : Valuation τ sig (Elt F)) (L R : (⟨S2x320x128x240, .f32⟩ : BufTy).Contents (Elt F)) : after p2 W (Proc.devRef .tc main_v26) = W (Proc.devRef .tc main_v26) :=
  after_of_writes_sub p2 W p2_writes (by decide)

theorem keep2_main_v33 (W : Valuation τ sig (Elt F)) (L R : (⟨S2x320x128x240, .f32⟩ : BufTy).Contents (Elt F)) : after p2 W (Proc.devRef .tc main_v33) = W (Proc.devRef .tc main_v33) :=
  after_of_writes_sub p2 W p2_writes (by decide)

theorem keep2_main_v40 (W : Valuation τ sig (Elt F)) (L R : (⟨S2x320x128x240, .f32⟩ : BufTy).Contents (Elt F)) : after p2 W (Proc.devRef .tc main_v40) = W (Proc.devRef .tc main_v40) :=
  after_of_writes_sub p2 W p2_writes (by decide)

theorem keep2_main_v47 (W : Valuation τ sig (Elt F)) (L R : (⟨S2x320x128x240, .f32⟩ : BufTy).Contents (Elt F)) : after p2 W (Proc.devRef .tc main_v47) = W (Proc.devRef .tc main_v47) :=
  after_of_writes_sub p2 W p2_writes (by decide)

theorem keep2_main_v54 (W : Valuation τ sig (Elt F)) (L R : (⟨S2x320x128x240, .f32⟩ : BufTy).Contents (Elt F)) : after p2 W (Proc.devRef .tc main_v54) = W (Proc.devRef .tc main_v54) :=
  after_of_writes_sub p2 W p2_writes (by decide)

theorem keep2_main_v61 (W : Valuation τ sig (Elt F)) (L R : (⟨S2x320x128x240, .f32⟩ : BufTy).Contents (Elt F)) : after p2 W (Proc.devRef .tc main_v61) = W (Proc.devRef .tc main_v61) :=
  after_of_writes_sub p2 W p2_writes (by decide)

theorem keep2_main_v68 (W : Valuation τ sig (Elt F)) (L R : (⟨S2x320x128x240, .f32⟩ : BufTy).Contents (Elt F)) : after p2 W (Proc.devRef .tc main_v68) = W (Proc.devRef .tc main_v68) :=
  after_of_writes_sub p2 W p2_writes (by decide)

theorem keep2_main_v75 (W : Valuation τ sig (Elt F)) (L R : (⟨S2x320x128x240, .f32⟩ : BufTy).Contents (Elt F)) : after p2 W (Proc.devRef .tc main_v75) = W (Proc.devRef .tc main_v75) :=
  after_of_writes_sub p2 W p2_writes (by decide)

theorem keep2_main_v82 (W : Valuation τ sig (Elt F)) (L R : (⟨S2x320x128x240, .f32⟩ : BufTy).Contents (Elt F)) : after p2 W (Proc.devRef .tc main_v82) = W (Proc.devRef .tc main_v82) :=
  after_of_writes_sub p2 W p2_writes (by decide)

theorem out2_main_v89 (W : Valuation τ sig (Elt F)) (L R : (⟨S2x320x128x240, .f32⟩ : BufTy).Contents (Elt F))
    (h_main_v83 : W (Proc.devRef .tc main_v83) = val_main_v83 (F := F) L) (h_main_v84 : W (Proc.devRef .tc main_v84) = val_main_v84 (F := F) R) :
    after p2 W (Proc.devRef .tc main_v89) = val_main_v89 (F := F) L R := by
  after_results_simp
  simp only [h_main_v83, h_main_v84]
  rfl

theorem out2_main_v96 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p2 W (Proc.devRef .tc main_v96) = val_main_v96 (F := F) L R := by
  after_results_simp
  simp only [h_main_v0, h_main_v1]
  rfl

theorem out2_main_v103 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p2 W (Proc.devRef .tc main_v103) = val_main_v103 (F := F) L R := by
  after_results_simp
  simp only [h_main_v0, h_main_v1]
  rfl

theorem out2_main_v110 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p2 W (Proc.devRef .tc main_v110) = val_main_v110 (F := F) L R := by
  after_results_simp
  simp only [h_main_v0, h_main_v1]
  rfl

theorem out2_main_v117 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p2 W (Proc.devRef .tc main_v117) = val_main_v117 (F := F) L R := by
  after_results_simp
  simp only [h_main_v0, h_main_v1]
  rfl

theorem out2_main_v124 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p2 W (Proc.devRef .tc main_v124) = val_main_v124 (F := F) L R := by
  after_results_simp
  simp only [h_main_v0, h_main_v1]
  rfl

theorem out2_main_v125 (W : Valuation τ sig (Elt F)) (L R : (⟨S2x320x128x240, .f32⟩ : BufTy).Contents (Elt F))
    (h_main_v0 : W (Proc.devRef .tc main_v0) = val_main_v0 (F := F) L) :
    after p2 W (Proc.devRef .tc main_v125) = val_main_v125 (F := F) L := by
  after_results_simp
  simp only [h_main_v0]
  rfl

theorem out2_main_v126 (W : Valuation τ sig (Elt F)) (L R : (⟨S2x320x128x240, .f32⟩ : BufTy).Contents (Elt F))
    (h_main_v1 : W (Proc.devRef .tc main_v1) = val_main_v1 (F := F) R) :
    after p2 W (Proc.devRef .tc main_v126) = val_main_v126 (F := F) R := by
  after_results_simp
  simp only [h_main_v1]
  rfl

end Cert.ReferenceIdeal.RunP

end
-- ==== Proof.RefRun3.lean ====
/- Gen/ReferenceIdeal/Run.lean and the stage names of Gen/ReferenceIdeal/Read.lean. Part 3 of @main (operations 198 to 263): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 3, in order. -/
abbrev p3 : List (HloOp τ sig (Elt F)) :=
  [ binary main_v125 main_v126 main_v127 (mulf : (⟨S2x40x8x128x222, .f32⟩ : BufTy).Contents (Elt F) → (⟨S2x40x8x128x222, .f32⟩ : BufTy).Contents (Elt F) → (⟨S2x40x8x128x222, .f32⟩ : BufTy).Contents (Elt F)),
    nullary main_cst_51 (constant S_ .f32 0x00000000#32),
    binary main_v127 main_cst_51 main_v128 ((fun x v => Host.reduceAdd x v reducesTo_S2x40x8x128x222_S2x40x128x222_d2 h_S_) : (⟨S2x40x8x128x222, .f32⟩ : BufTy).Contents (Elt F) → (⟨S_, .f32⟩ : BufTy).Contents (Elt F) → (⟨S2x40x128x222, .f32⟩ : BufTy).Contents (Elt F)),
    nullary main_cst_52 (constant S_ .f32 0x41000000#32),
    unary main_cst_52 main_v129 (broadcastInDim S2x40x128x222 ![] bcast_S_S2x40x128x222 : (⟨S_, .f32⟩ : BufTy).Contents (Elt F) → (⟨S2x40x128x222, .f32⟩ : BufTy).Contents (Elt F)),
    binary main_v128 main_v129 main_v130 (Host.divf : (⟨S2x40x128x222, .f32⟩ : BufTy).Contents (Elt F) → (⟨S2x40x128x222, .f32⟩ : BufTy).Contents (Elt F) → (⟨S2x40x128x222, .f32⟩ : BufTy).Contents (Elt F)),
    nullary main_c_53 (constantI S_ 32 0#32),
    TRef.unary (TRef.of (T := ⟨S_, .i32⟩) main_c_53) (TRef.of (T := ⟨S_, .f32⟩) main_call17_v0) (sitofp .f32),
    TRef.binary (TRef.of (T := ⟨S2x40x128x222, .f32⟩) main_v130) (TRef.of (T := ⟨S_, .f32⟩) main_call17_v0) (TRef.of (T := ⟨S2x40x128x240, .f32⟩) main_v131) (fun x v => pad S2x40x128x240 ![0, 0, 0, 18] ![0, 0, 0, 0] ![0, 0, 0, 0] x v pads_S2x40x128x222_S2x40x128x240_000_000_000_1800 h_S_),
    unary main_v0 main_v132 ((extractStridedSlice S2x40x8x128x221 ![0, 0, 0, 0, 19] · slices_S2x40x8x128x240_S2x40x8x128x221_0_0_0_0_19) : (⟨S2x40x8x128x240, .f32⟩ : BufTy).Contents (Elt F) → (⟨S2x40x8x128x221, .f32⟩ : BufTy).Contents (Elt F)),
    unary main_v1 main_v133 ((extractStridedSlice S2x40x8x128x221 ![0, 0, 0, 0, 0] · slices_S2x40x8x128x240_S2x40x8x128x221_0_0_0_0_0) : (⟨S2x40x8x128x240, .f32⟩ : BufTy).Contents (Elt F) → (⟨S2x40x8x128x221, .f32⟩ : BufTy).Contents (Elt F)),
    binary main_v132 main_v133 main_v134 (mulf : (⟨S2x40x8x128x221, .f32⟩ : BufTy).Contents (Elt F) → (⟨S2x40x8x128x221, .f32⟩ : BufTy).Contents (Elt F) → (⟨S2x40x8x128x221, .f32⟩ : BufTy).Contents (Elt F)),
    nullary main_cst_54 (constant S_ .f32 0x00000000#32),
    binary main_v134 main_cst_54 main_v135 ((fun x v => Host.reduceAdd x v reducesTo_S2x40x8x128x221_S2x40x128x221_d2 h_S_) : (⟨S2x40x8x128x221, .f32⟩ : BufTy).Contents (Elt F) → (⟨S_, .f32⟩ : BufTy).Contents (Elt F) → (⟨S2x40x128x221, .f32⟩ : BufTy).Contents (Elt F)),
    nullary main_cst_55 (constant S_ .f32 0x41000000#32),
    unary main_cst_55 main_v136 (broadcastInDim S2x40x128x221 ![] bcast_S_S2x40x128x221 : (⟨S_, .f32⟩ : BufTy).Contents (Elt F) → (⟨S2x40x128x221, .f32⟩ : BufTy).Contents (Elt F)),
    binary main_v135 main_v136 main_v137 (Host.divf : (⟨S2x40x128x221, .f32⟩ : BufTy).Contents (Elt F) → (⟨S2x40x128x221, .f32⟩ : BufTy).Contents (Elt F) → (⟨S2x40x128x221, .f32⟩ : BufTy).Contents (Elt F)),
    nullary main_c_56 (constantI S_ 32 0#32),
    TRef.unary (TRef.of (T := ⟨S_, .i32⟩) main_c_56) (TRef.of (T := ⟨S_, .f32⟩) main_call18_v0) (sitofp .f32),
    TRef.binary (TRef.of (T := ⟨S2x40x128x221, .f32⟩) main_v137) (TRef.of (T := ⟨S_, .f32⟩) main_call18_v0) (TRef.of (T := ⟨S2x40x128x240, .f32⟩) main_v138) (fun x v => pad S2x40x128x240 ![0, 0, 0, 19] ![0, 0, 0, 0] ![0, 0, 0, 0] x v pads_S2x40x128x221_S2x40x128x240_000_000_000_1900 h_S_),
    unary main_v0 main_v139 ((extractStridedSlice S2x40x8x128x220 ![0, 0, 0, 0, 20] · slices_S2x40x8x128x240_S2x40x8x128x220_0_0_0_0_20) : (⟨S2x40x8x128x240, .f32⟩ : BufTy).Contents (Elt F) → (⟨S2x40x8x128x220, .f32⟩ : BufTy).Contents (Elt F)),
    unary main_v1 main_v140 ((extractStridedSlice S2x40x8x128x220 ![0, 0, 0, 0, 0] · slices_S2x40x8x128x240_S2x40x8x128x220_0_0_0_0_0) : (⟨S2x40x8x128x240, .f32⟩ : BufTy).Contents (Elt F) → (⟨S2x40x8x128x220, .f32⟩ : BufTy).Contents (Elt F)),
    binary main_v139 main_v140 main_v141 (mulf : (⟨S2x40x8x128x220, .f32⟩ : BufTy).Contents (Elt F) → (⟨S2x40x8x128x220, .f32⟩ : BufTy).Contents (Elt F) → (⟨S2x40x8x128x220, .f32⟩ : BufTy).Contents (Elt F)),
    nullary main_cst_57 (constant S_ .f32 0x00000000#32),
    binary main_v141 main_cst_57 main_v142 ((fun x v => Host.reduceAdd x v reducesTo_S2x40x8x128x220_S2x40x128x220_d2 h_S_) : (⟨S2x40x8x128x220, .f32⟩ : BufTy).Contents (Elt F) → (⟨S_, .f32⟩ : BufTy).Contents (Elt F) → (⟨S2x40x128x220, .f32⟩ : BufTy).Contents (Elt F)),
    nullary main_cst_58 (constant S_ .f32 0x41000000#32),
    unary main_cst_58 main_v143 (broadcastInDim S2x40x128x220 ![] bcast_S_S2x40x128x220 : (⟨S_, .f32⟩ : BufTy).Contents (Elt F) → (⟨S2x40x128x220, .f32⟩ : BufTy).Contents (Elt F)),
    binary main_v142 main_v143 main_v144 (Host.divf : (⟨S2x40x128x220, .f32⟩ : BufTy).Contents (Elt F) → (⟨S2x40x128x220, .f32⟩ : BufTy).Contents (Elt F) → (⟨S2x40x128x220, .f32⟩ : BufTy).Contents (Elt F)),
    nullary main_c_59 (constantI S_ 32 0#32),
    TRef.unary (TRef.of (T := ⟨S_, .i32⟩) main_c_59) (TRef.of (T := ⟨S_, .f32⟩) main_call19_v0) (sitofp .f32),
    TRef.binary (TRef.of (T := ⟨S2x40x128x220, .f32⟩) main_v144) (TRef.of (T := ⟨S_, .f32⟩) main_call19_v0) (TRef.of (T := ⟨S2x40x128x240, .f32⟩) main_v145) (fun x v => pad S2x40x128x240 ![0, 0, 0, 20] ![0, 0, 0, 0] ![0, 0, 0, 0] x v pads_S2x40x128x220_S2x40x128x240_000_000_000_2000 h_S_),
    unary main_v0 main_v146 ((extractStridedSlice S2x40x8x128x219 ![0, 0, 0, 0, 21] · slices_S2x40x8x128x240_S2x40x8x128x219_0_0_0_0_21) : (⟨S2x40x8x128x240, .f32⟩ : BufTy).Contents (Elt F) → (⟨S2x40x8x128x219, .f32⟩ : BufTy).Contents (Elt F)),
    unary main_v1 main_v147 ((extractStridedSlice S2x40x8x128x219 ![0, 0, 0, 0, 0] · slices_S2x40x8x128x240_S2x40x8x128x219_0_0_0_0_0) : (⟨S2x40x8x128x240, .f32⟩ : BufTy).Contents (Elt F) → (⟨S2x40x8x128x219, .f32⟩ : BufTy).Contents (Elt F)),
    binary main_v146 main_v147 main_v148 (mulf : (⟨S2x40x8x128x219, .f32⟩ : BufTy).Contents (Elt F) → (⟨S2x40x8x128x219, .f32⟩ : BufTy).Contents (Elt F) → (⟨S2x40x8x128x219, .f32⟩ : BufTy).Contents (Elt F)),
    nullary main_cst_60 (constant S_ .f32 0x00000000#32),
    binary main_v148 main_cst_60 main_v149 ((fun x v => Host.reduceAdd x v reducesTo_S2x40x8x128x219_S2x40x128x219_d2 h_S_) : (⟨S2x40x8x128x219, .f32⟩ : BufTy).Contents (Elt F) → (⟨S_, .f32⟩ : BufTy).Contents (Elt F) → (⟨S2x40x128x219, .f32⟩ : BufTy).Contents (Elt F)),
    nullary main_cst_61 (constant S_ .f32 0x41000000#32),
    unary main_cst_61 main_v150 (broadcastInDim S2x40x128x219 ![] bcast_S_S2x40x128x219 : (⟨S_, .f32⟩ : BufTy).Contents (Elt F) → (⟨S2x40x128x219, .f32⟩ : BufTy).Contents (Elt F)),
    binary main_v149 main_v150 main_v151 (Host.divf : (⟨S2x40x128x219, .f32⟩ : BufTy).Contents (Elt F) → (⟨S2x40x128x219, .f32⟩ : BufTy).Contents (Elt F) → (⟨S2x40x128x219, .f32⟩ : BufTy).Contents (Elt F)),
    nullary main_c_62 (constantI S_ 32 0#32),
    TRef.unary (TRef.of (T := ⟨S_, .i32⟩) main_c_62) (TRef.of (T := ⟨S_, .f32⟩) main_call20_v0) (sitofp .f32),
    TRef.binary (TRef.of (T := ⟨S2x40x128x219, .f32⟩) main_v151) (TRef.of (T := ⟨S_, .f32⟩) main_call20_v0) (TRef.of (T := ⟨S2x40x128x240, .f32⟩) main_v152) (fun x v => pad S2x40x128x240 ![0, 0, 0, 21] ![0, 0, 0, 0] ![0, 0, 0, 0] x v pads_S2x40x128x219_S2x40x128x240_000_000_000_2100 h_S_),
    unary main_v0 main_v153 ((extractStridedSlice S2x40x8x128x218 ![0, 0, 0, 0, 22] · slices_S2x40x8x128x240_S2x40x8x128x218_0_0_0_0_22) : (⟨S2x40x8x128x240, .f32⟩ : BufTy).Contents (Elt F) → (⟨S2x40x8x128x218, .f32⟩ : BufTy).Contents (Elt F)),
    unary main_v1 main_v154 ((extractStridedSlice S2x40x8x128x218 ![0, 0, 0, 0, 0] · slices_S2x40x8x128x240_S2x40x8x128x218_0_0_0_0_0) : (⟨S2x40x8x128x240, .f32⟩ : BufTy).Contents (Elt F) → (⟨S2x40x8x128x218, .f32⟩ : BufTy).Contents (Elt F)),
    binary main_v153 main_v154 main_v155 (mulf : (⟨S2x40x8x128x218, .f32⟩ : BufTy).Contents (Elt F) → (⟨S2x40x8x128x218, .f32⟩ : BufTy).Contents (Elt F) → (⟨S2x40x8x128x218, .f32⟩ : BufTy).Contents (Elt F)),
    nullary main_cst_63 (constant S_ .f32 0x00000000#32),
    binary main_v155 main_cst_63 main_v156 ((fun x v => Host.reduceAdd x v reducesTo_S2x40x8x128x218_S2x40x128x218_d2 h_S_) : (⟨S2x40x8x128x218, .f32⟩ : BufTy).Contents (Elt F) → (⟨S_, .f32⟩ : BufTy).Contents (Elt F) → (⟨S2x40x128x218, .f32⟩ : BufTy).Contents (Elt F)),
    nullary main_cst_64 (constant S_ .f32 0x41000000#32),
    unary main_cst_64 main_v157 (broadcastInDim S2x40x128x218 ![] bcast_S_S2x40x128x218 : (⟨S_, .f32⟩ : BufTy).Contents (Elt F) → (⟨S2x40x128x218, .f32⟩ : BufTy).Contents (Elt F)),
    binary main_v156 main_v157 main_v158 (Host.divf : (⟨S2x40x128x218, .f32⟩ : BufTy).Contents (Elt F) → (⟨S2x40x128x218, .f32⟩ : BufTy).Contents (Elt F) → (⟨S2x40x128x218, .f32⟩ : BufTy).Contents (Elt F)),
    nullary main_c_65 (constantI S_ 32 0#32),
    TRef.unary (TRef.of (T := ⟨S_, .i32⟩) main_c_65) (TRef.of (T := ⟨S_, .f32⟩) main_call21_v0) (sitofp .f32),
    TRef.binary (TRef.of (T := ⟨S2x40x128x218, .f32⟩) main_v158) (TRef.of (T := ⟨S_, .f32⟩) main_call21_v0) (TRef.of (T := ⟨S2x40x128x240, .f32⟩) main_v159) (fun x v => pad S2x40x128x240 ![0, 0, 0, 22] ![0, 0, 0, 0] ![0, 0, 0, 0] x v pads_S2x40x128x218_S2x40x128x240_000_000_000_2200 h_S_),
    unary main_v0 main_v160 ((extractStridedSlice S2x40x8x128x217 ![0, 0, 0, 0, 23] · slices_S2x40x8x128x240_S2x40x8x128x217_0_0_0_0_23) : (⟨S2x40x8x128x240, .f32⟩ : BufTy).Contents (Elt F) → (⟨S2x40x8x128x217, .f32⟩ : BufTy).Contents (Elt F)),
    unary main_v1 main_v161 ((extractStridedSlice S2x40x8x128x217 ![0, 0, 0, 0, 0] · slices_S2x40x8x128x240_S2x40x8x128x217_0_0_0_0_0) : (⟨S2x40x8x128x240, .f32⟩ : BufTy).Contents (Elt F) → (⟨S2x40x8x128x217, .f32⟩ : BufTy).Contents (Elt F)),
    binary main_v160 main_v161 main_v162 (mulf : (⟨S2x40x8x128x217, .f32⟩ : BufTy).Contents (Elt F) → (⟨S2x40x8x128x217, .f32⟩ : BufTy).Contents (Elt F) → (⟨S2x40x8x128x217, .f32⟩ : BufTy).Contents (Elt F)),
    nullary main_cst_66 (constant S_ .f32 0x00000000#32),
    binary main_v162 main_cst_66 main_v163 ((fun x v => Host.reduceAdd x v reducesTo_S2x40x8x128x217_S2x40x128x217_d2 h_S_) : (⟨S2x40x8x128x217, .f32⟩ : BufTy).Contents (Elt F) → (⟨S_, .f32⟩ : BufTy).Contents (Elt F) → (⟨S2x40x128x217, .f32⟩ : BufTy).Contents (Elt F)),
    nullary main_cst_67 (constant S_ .f32 0x41000000#32),
    unary main_cst_67 main_v164 (broadcastInDim S2x40x128x217 ![] bcast_S_S2x40x128x217 : (⟨S_, .f32⟩ : BufTy).Contents (Elt F) → (⟨S2x40x128x217, .f32⟩ : BufTy).Contents (Elt F)),
    binary main_v163 main_v164 main_v165 (Host.divf : (⟨S2x40x128x217, .f32⟩ : BufTy).Contents (Elt F) → (⟨S2x40x128x217, .f32⟩ : BufTy).Contents (Elt F) → (⟨S2x40x128x217, .f32⟩ : BufTy).Contents (Elt F)),
    nullary main_c_68 (constantI S_ 32 0#32),
    TRef.unary (TRef.of (T := ⟨S_, .i32⟩) main_c_68) (TRef.of (T := ⟨S_, .f32⟩) main_call22_v0) (sitofp .f32),
    TRef.binary (TRef.of (T := ⟨S2x40x128x217, .f32⟩) main_v165) (TRef.of (T := ⟨S_, .f32⟩) main_call22_v0) (TRef.of (T := ⟨S2x40x128x240, .f32⟩) main_v166) (fun x v => pad S2x40x128x240 ![0, 0, 0, 23] ![0, 0, 0, 0] ![0, 0, 0, 0] x v pads_S2x40x128x217_S2x40x128x240_000_000_000_2300 h_S_),
    unary main_v0 main_v167 ((extractStridedSlice S2x40x8x128x216 ![0, 0, 0, 0, 24] · slices_S2x40x8x128x240_S2x40x8x128x216_0_0_0_0_24) : (⟨S2x40x8x128x240, .f32⟩ : BufTy).Contents (Elt F) → (⟨S2x40x8x128x216, .f32⟩ : BufTy).Contents (Elt F)),
    unary main_v1 main_v168 ((extractStridedSlice S2x40x8x128x216 ![0, 0, 0, 0, 0] · slices_S2x40x8x128x240_S2x40x8x128x216_0_0_0_0_0) : (⟨S2x40x8x128x240, .f32⟩ : BufTy).Contents (Elt F) → (⟨S2x40x8x128x216, .f32⟩ : BufTy).Contents (Elt F)) ]

set_option maxRecDepth 8192 in
set_option maxHeartbeats 4000000 in
theorem part3_eq (c : Dev nD) : main_part3 (F := F) c = seq p3 := rfl

theorem p3_sub : (p3 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p3_fresh : ∀ op ∈ (p3 : List (HloOp τ sig (Elt F))), op.fresh = ∅ := by
  intro _ h; (repeat (cases h with | head => rfl | tail _ h => ?_)); exact nomatch h

/-- The buffers the part's operations write. -/
abbrev p3_W : List (Ref sig .tc) := [main_v127, main_cst_51, main_v128, main_cst_52, main_v129, main_v130, main_c_53, main_call17_v0, main_v131, main_v132, main_v133, main_v134, main_cst_54, main_v135, main_cst_55, main_v136, main_v137, main_c_56, main_call18_v0, main_v138, main_v139, main_v140, main_v141, main_cst_57, main_v142, main_cst_58, main_v143, main_v144, main_c_59, main_call19_v0, main_v145, main_v146, main_v147, main_v148, main_cst_60, main_v149, main_cst_61, main_v150, main_v151, main_c_62, main_call20_v0, main_v152, main_v153, main_v154, main_v155, main_cst_63, main_v156, main_cst_64, main_v157, main_v158, main_c_65, main_call21_v0, main_v159, main_v160, main_v161, main_v162, main_cst_66, main_v163, main_cst_67, main_v164, main_v165, main_c_68, main_call22_v0, main_v166, main_v167, main_v168]

theorem p3_writes : (p3 : List (HloOp τ sig (Elt F))).Forall fun op => op.writes ⊆ (p3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep3_main_arg0 (W : Valuation τ sig (Elt F)) (L R : (⟨S2x320x128x240, .f32⟩ : BufTy).Contents (Elt F)) : after p3 W (Proc.devRef .tc main_arg0) = W (Proc.devRef .tc main_arg0) :=
  after_of_writes_sub p3 W p3_writes (by decide)

theorem keep3_main_arg1 (W : Valuation τ sig (Elt F)) (L R : (⟨S2x320x128x240, .f32⟩ : BufTy).Contents (Elt F)) : after p3 W (Proc.devRef .tc main_arg1) = W (Proc.devRef .tc main_arg1) :=
  after_of_writes_sub p3 W p3_writes (by decide)

theorem keep3_main_v0 (W : Valuation τ sig (Elt F)) (L R : (⟨S2x320x128x240, .f32⟩ : BufTy).Contents (Elt F)) : after p3 W (Proc.devRef .tc main_v0) = W (Proc.devRef .tc main_v0) :=
  after_of_writes_sub p3 W p3_writes (by decide)

theorem keep3_main_v1 (W : Valuation τ sig (Elt F)) (L R : (⟨S2x320x128x240, .f32⟩ : BufTy).Contents (Elt F)) : after p3 W (Proc.devRef .tc main_v1) = W (Proc.devRef .tc main_v1) :=
  after_of_writes_sub p3 W p3_writes (by decide)

theorem keep3_main_v5 (W : Valuation τ sig (Elt F)) (L R : (⟨S2x320x128x240, .f32⟩ : BufTy).Contents (Elt F)) : after p3 W (Proc.devRef .tc main_v5) = W (Proc.devRef .tc main_v5) :=
  after_of_writes_sub p3 W p3_writes (by decide)

theorem keep3_main_v12 (W : Valuation τ sig (Elt F)) (L R : (⟨S2x320x128x240, .f32⟩ : BufTy).Contents (Elt F)) : after p3 W (Proc.devRef .tc main_v12) = W (Proc.devRef .tc main_v12) :=
  after_of_writes_sub p3 W p3_writes (by decide)

theorem keep3_main_v19 (W : Valuation τ sig (Elt F)) (L R : (⟨S2x320x128x240, .f32⟩ : BufTy).Contents (Elt F)) : after p3 W (Proc.devRef .tc main_v19) = W (Proc.devRef .tc main_v19) :=
  after_of_writes_sub p3 W p3_writes (by decide)

theorem keep3_main_v26 (W : Valuation τ sig (Elt F)) (L R : (⟨S2x320x128x240, .f32⟩ : BufTy).Contents (Elt F)) : after p3 W (Proc.devRef .tc main_v26) = W (Proc.devRef .tc main_v26) :=
  after_of_writes_sub p3 W p3_writes (by decide)

theorem keep3_main_v33 (W : Valuation τ sig (Elt F)) (L R : (⟨S2x320x128x240, .f32⟩ : BufTy).Contents (Elt F)) : after p3 W (Proc.devRef .tc main_v33) = W (Proc.devRef .tc main_v33) :=
  after_of_writes_sub p3 W p3_writes (by decide)

theorem keep3_main_v40 (W : Valuation τ sig (Elt F)) (L R : (⟨S2x320x128x240, .f32⟩ : BufTy).Contents (Elt F)) : after p3 W (Proc.devRef .tc main_v40) = W (Proc.devRef .tc main_v40) :=
  after_of_writes_sub p3 W p3_writes (by decide)

theorem keep3_main_v47 (W : Valuation τ sig (Elt F)) (L R : (⟨S2x320x128x240, .f32⟩ : BufTy).Contents (Elt F)) : after p3 W (Proc.devRef .tc main_v47) = W (Proc.devRef .tc main_v47) :=
  after_of_writes_sub p3 W p3_writes (by decide)

theorem keep3_main_v54 (W : Valuation τ sig (Elt F)) (L R : (⟨S2x320x128x240, .f32⟩ : BufTy).Contents (Elt F)) : after p3 W (Proc.devRef .tc main_v54) = W (Proc.devRef .tc main_v54) :=
  after_of_writes_sub p3 W p3_writes (by decide)

theorem keep3_main_v61 (W : Valuation τ sig (Elt F)) (L R : (⟨S2x320x128x240, .f32⟩ : BufTy).Contents (Elt F)) : after p3 W (Proc.devRef .tc main_v61) = W (Proc.devRef .tc main_v61) :=
  after_of_writes_sub p3 W p3_writes (by decide)

theorem keep3_main_v68 (W : Valuation τ sig (Elt F)) (L R : (⟨S2x320x128x240, .f32⟩ : BufTy).Contents (Elt F)) : after p3 W (Proc.devRef .tc main_v68) = W (Proc.devRef .tc main_v68) :=
  after_of_writes_sub p3 W p3_writes (by decide)

theorem keep3_main_v75 (W : Valuation τ sig (Elt F)) (L R : (⟨S2x320x128x240, .f32⟩ : BufTy).Contents (Elt F)) : after p3 W (Proc.devRef .tc main_v75) = W (Proc.devRef .tc main_v75) :=
  after_of_writes_sub p3 W p3_writes (by decide)

theorem keep3_main_v82 (W : Valuation τ sig (Elt F)) (L R : (⟨S2x320x128x240, .f32⟩ : BufTy).Contents (Elt F)) : after p3 W (Proc.devRef .tc main_v82) = W (Proc.devRef .tc main_v82) :=
  after_of_writes_sub p3 W p3_writes (by decide)

theorem keep3_main_v89 (W : Valuation τ sig (Elt F)) (L R : (⟨S2x320x128x240, .f32⟩ : BufTy).Contents (Elt F)) : after p3 W (Proc.devRef .tc main_v89) = W (Proc.devRef .tc main_v89) :=
  after_of_writes_sub p3 W p3_writes (by decide)

theorem keep3_main_v96 (W : Valuation τ sig (Elt F)) (L R : (⟨S2x320x128x240, .f32⟩ : BufTy).Contents (Elt F)) : after p3 W (Proc.devRef .tc main_v96) = W (Proc.devRef .tc main_v96) :=
  after_of_writes_sub p3 W p3_writes (by decide)

theorem keep3_main_v103 (W : Valuation τ sig (Elt F)) (L R : (⟨S2x320x128x240, .f32⟩ : BufTy).Contents (Elt F)) : after p3 W (Proc.devRef .tc main_v103) = W (Proc.devRef .tc main_v103) :=
  after_of_writes_sub p3 W p3_writes (by decide)

theorem keep3_main_v110 (W : Valuation τ sig (Elt F)) (L R : (⟨S2x320x128x240, .f32⟩ : BufTy).Contents (Elt F)) : after p3 W (Proc.devRef .tc main_v110) = W (Proc.devRef .tc main_v110) :=
  after_of_writes_sub p3 W p3_writes (by decide)

theorem keep3_main_v117 (W : Valuation τ sig (Elt F)) (L R : (⟨S2x320x128x240, .f32⟩ : BufTy).Contents (Elt F)) : after p3 W (Proc.devRef .tc main_v117) = W (Proc.devRef .tc main_v117) :=
  after_of_writes_sub p3 W p3_writes (by decide)

theorem keep3_main_v124 (W : Valuation τ sig (Elt F)) (L R : (⟨S2x320x128x240, .f32⟩ : BufTy).Contents (Elt F)) : after p3 W (Proc.devRef .tc main_v124) = W (Proc.devRef .tc main_v124) :=
  after_of_writes_sub p3 W p3_writes (by decide)

theorem out3_main_v131 (W : Valuation τ sig (Elt F)) (L R : (⟨S2x320x128x240, .f32⟩ : BufTy).Contents (Elt F))
    (h_main_v125 : W (Proc.devRef .tc main_v125) = val_main_v125 (F := F) L) (h_main_v126 : W (Proc.devRef .tc main_v126) = val_main_v126 (F := F) R) :
    after p3 W (Proc.devRef .tc main_v131) = val_main_v131 (F := F) L R := by
  after_results_simp
  simp only [h_main_v125, h_main_v126]
  rfl

theorem out3_main_v138 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p3 W (Proc.devRef .tc main_v138) = val_main_v138 (F := F) L R := by
  after_results_simp
  simp only [h_main_v0, h_main_v1]
  rfl

theorem out3_main_v145 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p3 W (Proc.devRef .tc main_v145) = val_main_v145 (F := F) L R := by
  after_results_simp
  simp only [h_main_v0, h_main_v1]
  rfl

theorem out3_main_v152 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p3 W (Proc.devRef .tc main_v152) = val_main_v152 (F := F) L R := by
  after_results_simp
  simp only [h_main_v0, h_main_v1]
  rfl

theorem out3_main_v159 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p3 W (Proc.devRef .tc main_v159) = val_main_v159 (F := F) L R := by
  after_results_simp
  simp only [h_main_v0, h_main_v1]
  rfl

theorem out3_main_v166 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p3 W (Proc.devRef .tc main_v166) = val_main_v166 (F := F) L R := by
  after_results_simp
  simp only [h_main_v0, h_main_v1]
  rfl

theorem out3_main_v167 (W : Valuation τ sig (Elt F)) (L R : (⟨S2x320x128x240, .f32⟩ : BufTy).Contents (Elt F))
    (h_main_v0 : W (Proc.devRef .tc main_v0) = val_main_v0 (F := F) L) :
    after p3 W (Proc.devRef .tc main_v167) = val_main_v167 (F := F) L := by
  after_results_simp
  simp only [h_main_v0]
  rfl

theorem out3_main_v168 (W : Valuation τ sig (Elt F)) (L R : (⟨S2x320x128x240, .f32⟩ : BufTy).Contents (Elt F))
    (h_main_v1 : W (Proc.devRef .tc main_v1) = val_main_v1 (F := F) R) :
    after p3 W (Proc.devRef .tc main_v168) = val_main_v168 (F := F) R := by
  after_results_simp
  simp only [h_main_v1]
  rfl

end Cert.ReferenceIdeal.RunP

end
-- ==== Proof.RefRun4.lean ====
/- Gen/ReferenceIdeal/Run.lean and the stage names of Gen/ReferenceIdeal/Read.lean. Part 4 of @main (operations 264 to 329): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 4, in order. -/
abbrev p4 : List (HloOp τ sig (Elt F)) :=
  [ binary main_v167 main_v168 main_v169 (mulf : (⟨S2x40x8x128x216, .f32⟩ : BufTy).Contents (Elt F) → (⟨S2x40x8x128x216, .f32⟩ : BufTy).Contents (Elt F) → (⟨S2x40x8x128x216, .f32⟩ : BufTy).Contents (Elt F)),
    nullary main_cst_69 (constant S_ .f32 0x00000000#32),
    binary main_v169 main_cst_69 main_v170 ((fun x v => Host.reduceAdd x v reducesTo_S2x40x8x128x216_S2x40x128x216_d2 h_S_) : (⟨S2x40x8x128x216, .f32⟩ : BufTy).Contents (Elt F) → (⟨S_, .f32⟩ : BufTy).Contents (Elt F) → (⟨S2x40x128x216, .f32⟩ : BufTy).Contents (Elt F)),
    nullary main_cst_70 (constant S_ .f32 0x41000000#32),
    unary main_cst_70 main_v171 (broadcastInDim S2x40x128x216 ![] bcast_S_S2x40x128x216 : (⟨S_, .f32⟩ : BufTy).Contents (Elt F) → (⟨S2x40x128x216, .f32⟩ : BufTy).Contents (Elt F)),
    binary main_v170 main_v171 main_v172 (Host.divf : (⟨S2x40x128x216, .f32⟩ : BufTy).Contents (Elt F) → (⟨S2x40x128x216, .f32⟩ : BufTy).Contents (Elt F) → (⟨S2x40x128x216, .f32⟩ : BufTy).Contents (Elt F)),
    nullary main_c_71 (constantI S_ 32 0#32),
    TRef.unary (TRef.of (T := ⟨S_, .i32⟩) main_c_71) (TRef.of (T := ⟨S_, .f32⟩) main_call23_v0) (sitofp .f32),
    TRef.binary (TRef.of (T := ⟨S2x40x128x216, .f32⟩) main_v172) (TRef.of (T := ⟨S_, .f32⟩) main_call23_v0) (TRef.of (T := ⟨S2x40x128x240, .f32⟩) main_v173) (fun x v => pad S2x40x128x240 ![0, 0, 0, 24] ![0, 0, 0, 0] ![0, 0, 0, 0] x v pads_S2x40x128x216_S2x40x128x240_000_000_000_2400 h_S_),
    unary main_v0 main_v174 ((extractStridedSlice S2x40x8x128x215 ![0, 0, 0, 0, 25] · slices_S2x40x8x128x240_S2x40x8x128x215_0_0_0_0_25) : (⟨S2x40x8x128x240, .f32⟩ : BufTy).Contents (Elt F) → (⟨S2x40x8x128x215, .f32⟩ : BufTy).Contents (Elt F)),
    unary main_v1 main_v175 ((extractStridedSlice S2x40x8x128x215 ![0, 0, 0, 0, 0] · slices_S2x40x8x128x240_S2x40x8x128x215_0_0_0_0_0) : (⟨S2x40x8x128x240, .f32⟩ : BufTy).Contents (Elt F) → (⟨S2x40x8x128x215, .f32⟩ : BufTy).Contents (Elt F)),
    binary main_v174 main_v175 main_v176 (mulf : (⟨S2x40x8x128x215, .f32⟩ : BufTy).Contents (Elt F) → (⟨S2x40x8x128x215, .f32⟩ : BufTy).Contents (Elt F) → (⟨S2x40x8x128x215, .f32⟩ : BufTy).Contents (Elt F)),
    nullary main_cst_72 (constant S_ .f32 0x00000000#32),
    binary main_v176 main_cst_72 main_v177 ((fun x v => Host.reduceAdd x v reducesTo_S2x40x8x128x215_S2x40x128x215_d2 h_S_) : (⟨S2x40x8x128x215, .f32⟩ : BufTy).Contents (Elt F) → (⟨S_, .f32⟩ : BufTy).Contents (Elt F) → (⟨S2x40x128x215, .f32⟩ : BufTy).Contents (Elt F)),
    nullary main_cst_73 (constant S_ .f32 0x41000000#32),
    unary main_cst_73 main_v178 (broadcastInDim S2x40x128x215 ![] bcast_S_S2x40x128x215 : (⟨S_, .f32⟩ : BufTy).Contents (Elt F) → (⟨S2x40x128x215, .f32⟩ : BufTy).Contents (Elt F)),
    binary main_v177 main_v178 main_v179 (Host.divf : (⟨S2x40x128x215, .f32⟩ : BufTy).Contents (Elt F) → (⟨S2x40x128x215, .f32⟩ : BufTy).Contents (Elt F) → (⟨S2x40x128x215, .f32⟩ : BufTy).Contents (Elt F)),
    nullary main_c_74 (constantI S_ 32 0#32),
    TRef.unary (TRef.of (T := ⟨S_, .i32⟩) main_c_74) (TRef.of (T := ⟨S_, .f32⟩) main_call24_v0) (sitofp .f32),
    TRef.binary (TRef.of (T := ⟨S2x40x128x215, .f32⟩) main_v179) (TRef.of (T := ⟨S_, .f32⟩) main_call24_v0) (TRef.of (T := ⟨S2x40x128x240, .f32⟩) main_v180) (fun x v => pad S2x40x128x240 ![0, 0, 0, 25] ![0, 0, 0, 0] ![0, 0, 0, 0] x v pads_S2x40x128x215_S2x40x128x240_000_000_000_2500 h_S_),
    unary main_v0 main_v181 ((extractStridedSlice S2x40x8x128x214 ![0, 0, 0, 0, 26] · slices_S2x40x8x128x240_S2x40x8x128x214_0_0_0_0_26) : (⟨S2x40x8x128x240, .f32⟩ : BufTy).Contents (Elt F) → (⟨S2x40x8x128x214, .f32⟩ : BufTy).Contents (Elt F)),
    unary main_v1 main_v182 ((extractStridedSlice S2x40x8x128x214 ![0, 0, 0, 0, 0] · slices_S2x40x8x128x240_S2x40x8x128x214_0_0_0_0_0) : (⟨S2x40x8x128x240, .f32⟩ : BufTy).Contents (Elt F) → (⟨S2x40x8x128x214, .f32⟩ : BufTy).Contents (Elt F)),
    binary main_v181 main_v182 main_v183 (mulf : (⟨S2x40x8x128x214, .f32⟩ : BufTy).Contents (Elt F) → (⟨S2x40x8x128x214, .f32⟩ : BufTy).Contents (Elt F) → (⟨S2x40x8x128x214, .f32⟩ : BufTy).Contents (Elt F)),
    nullary main_cst_75 (constant S_ .f32 0x00000000#32),
    binary main_v183 main_cst_75 main_v184 ((fun x v => Host.reduceAdd x v reducesTo_S2x40x8x128x214_S2x40x128x214_d2 h_S_) : (⟨S2x40x8x128x214, .f32⟩ : BufTy).Contents (Elt F) → (⟨S_, .f32⟩ : BufTy).Contents (Elt F) → (⟨S2x40x128x214, .f32⟩ : BufTy).Contents (Elt F)),
    nullary main_cst_76 (constant S_ .f32 0x41000000#32),
    unary main_cst_76 main_v185 (broadcastInDim S2x40x128x214 ![] bcast_S_S2x40x128x214 : (⟨S_, .f32⟩ : BufTy).Contents (Elt F) → (⟨S2x40x128x214, .f32⟩ : BufTy).Contents (Elt F)),
    binary main_v184 main_v185 main_v186 (Host.divf : (⟨S2x40x128x214, .f32⟩ : BufTy).Contents (Elt F) → (⟨S2x40x128x214, .f32⟩ : BufTy).Contents (Elt F) → (⟨S2x40x128x214, .f32⟩ : BufTy).Contents (Elt F)),
    nullary main_c_77 (constantI S_ 32 0#32),
    TRef.unary (TRef.of (T := ⟨S_, .i32⟩) main_c_77) (TRef.of (T := ⟨S_, .f32⟩) main_call25_v0) (sitofp .f32),
    TRef.binary (TRef.of (T := ⟨S2x40x128x214, .f32⟩) main_v186) (TRef.of (T := ⟨S_, .f32⟩) main_call25_v0) (TRef.of (T := ⟨S2x40x128x240, .f32⟩) main_v187) (fun x v => pad S2x40x128x240 ![0, 0, 0, 26] ![0, 0, 0, 0] ![0, 0, 0, 0] x v pads_S2x40x128x214_S2x40x128x240_000_000_000_2600 h_S_),
    unary main_v0 main_v188 ((extractStridedSlice S2x40x8x128x213 ![0, 0, 0, 0, 27] · slices_S2x40x8x128x240_S2x40x8x128x213_0_0_0_0_27) : (⟨S2x40x8x128x240, .f32⟩ : BufTy).Contents (Elt F) → (⟨S2x40x8x128x213, .f32⟩ : BufTy).Contents (Elt F)),
    unary main_v1 main_v189 ((extractStridedSlice S2x40x8x128x213 ![0, 0, 0, 0, 0] · slices_S2x40x8x128x240_S2x40x8x128x213_0_0_0_0_0) : (⟨S2x40x8x128x240, .f32⟩ : BufTy).Contents (Elt F) → (⟨S2x40x8x128x213, .f32⟩ : BufTy).Contents (Elt F)),
    binary main_v188 main_v189 main_v190 (mulf : (⟨S2x40x8x128x213, .f32⟩ : BufTy).Contents (Elt F) → (⟨S2x40x8x128x213, .f32⟩ : BufTy).Contents (Elt F) → (⟨S2x40x8x128x213, .f32⟩ : BufTy).Contents (Elt F)),
    nullary main_cst_78 (constant S_ .f32 0x00000000#32),
    binary main_v190 main_cst_78 main_v191 ((fun x v => Host.reduceAdd x v reducesTo_S2x40x8x128x213_S2x40x128x213_d2 h_S_) : (⟨S2x40x8x128x213, .f32⟩ : BufTy).Contents (Elt F) → (⟨S_, .f32⟩ : BufTy).Contents (Elt F) → (⟨S2x40x128x213, .f32⟩ : BufTy).Contents (Elt F)),
    nullary main_cst_79 (constant S_ .f32 0x41000000#32),
    unary main_cst_79 main_v192 (broadcastInDim S2x40x128x213 ![] bcast_S_S2x40x128x213 : (⟨S_, .f32⟩ : BufTy).Contents (Elt F) → (⟨S2x40x128x213, .f32⟩ : BufTy).Contents (Elt F)),
    binary main_v191 main_v192 main_v193 (Host.divf : (⟨S2x40x128x213, .f32⟩ : BufTy).Contents (Elt F) → (⟨S2x40x128x213, .f32⟩ : BufTy).Contents (Elt F) → (⟨S2x40x128x213, .f32⟩ : BufTy).Contents (Elt F)),
    nullary main_c_80 (constantI S_ 32 0#32),
    TRef.unary (TRef.of (T := ⟨S_, .i32⟩) main_c_80) (TRef.of (T := ⟨S_, .f32⟩) main_call26_v0) (sitofp .f32),
    TRef.binary (TRef.of (T := ⟨S2x40x128x213, .f32⟩) main_v193) (TRef.of (T := ⟨S_, .f32⟩) main_call26_v0) (TRef.of (T := ⟨S2x40x128x240, .f32⟩) main_v194) (fun x v => pad S2x40x128x240 ![0, 0, 0, 27] ![0, 0, 0, 0] ![0, 0, 0, 0] x v pads_S2x40x128x213_S2x40x128x240_000_000_000_2700 h_S_),
    unary main_v0 main_v195 ((extractStridedSlice S2x40x8x128x212 ![0, 0, 0, 0, 28] · slices_S2x40x8x128x240_S2x40x8x128x212_0_0_0_0_28) : (⟨S2x40x8x128x240, .f32⟩ : BufTy).Contents (Elt F) → (⟨S2x40x8x128x212, .f32⟩ : BufTy).Contents (Elt F)),
    unary main_v1 main_v196 ((extractStridedSlice S2x40x8x128x212 ![0, 0, 0, 0, 0] · slices_S2x40x8x128x240_S2x40x8x128x212_0_0_0_0_0) : (⟨S2x40x8x128x240, .f32⟩ : BufTy).Contents (Elt F) → (⟨S2x40x8x128x212, .f32⟩ : BufTy).Contents (Elt F)),
    binary main_v195 main_v196 main_v197 (mulf : (⟨S2x40x8x128x212, .f32⟩ : BufTy).Contents (Elt F) → (⟨S2x40x8x128x212, .f32⟩ : BufTy).Contents (Elt F) → (⟨S2x40x8x128x212, .f32⟩ : BufTy).Contents (Elt F)),
    nullary main_cst_81 (constant S_ .f32 0x00000000#32),
    binary main_v197 main_cst_81 main_v198 ((fun x v => Host.reduceAdd x v reducesTo_S2x40x8x128x212_S2x40x128x212_d2 h_S_) : (⟨S2x40x8x128x212, .f32⟩ : BufTy).Contents (Elt F) → (⟨S_, .f32⟩ : BufTy).Contents (Elt F) → (⟨S2x40x128x212, .f32⟩ : BufTy).Contents (Elt F)),
    nullary main_cst_82 (constant S_ .f32 0x41000000#32),
    unary main_cst_82 main_v199 (broadcastInDim S2x40x128x212 ![] bcast_S_S2x40x128x212 : (⟨S_, .f32⟩ : BufTy).Contents (Elt F) → (⟨S2x40x128x212, .f32⟩ : BufTy).Contents (Elt F)),
    binary main_v198 main_v199 main_v200 (Host.divf : (⟨S2x40x128x212, .f32⟩ : BufTy).Contents (Elt F) → (⟨S2x40x128x212, .f32⟩ : BufTy).Contents (Elt F) → (⟨S2x40x128x212, .f32⟩ : BufTy).Contents (Elt F)),
    nullary main_c_83 (constantI S_ 32 0#32),
    TRef.unary (TRef.of (T := ⟨S_, .i32⟩) main_c_83) (TRef.of (T := ⟨S_, .f32⟩) main_call27_v0) (sitofp .f32),
    TRef.binary (TRef.of (T := ⟨S2x40x128x212, .f32⟩) main_v200) (TRef.of (T := ⟨S_, .f32⟩) main_call27_v0) (TRef.of (T := ⟨S2x40x128x240, .f32⟩) main_v201) (fun x v => pad S2x40x128x240 ![0, 0, 0, 28] ![0, 0, 0, 0] ![0, 0, 0, 0] x v pads_S2x40x128x212_S2x40x128x240_000_000_000_2800 h_S_),
    unary main_v0 main_v202 ((extractStridedSlice S2x40x8x128x211 ![0, 0, 0, 0, 29] · slices_S2x40x8x128x240_S2x40x8x128x211_0_0_0_0_29) : (⟨S2x40x8x128x240, .f32⟩ : BufTy).Contents (Elt F) → (⟨S2x40x8x128x211, .f32⟩ : BufTy).Contents (Elt F)),
    unary main_v1 main_v203 ((extractStridedSlice S2x40x8x128x211 ![0, 0, 0, 0, 0] · slices_S2x40x8x128x240_S2x40x8x128x211_0_0_0_0_0) : (⟨S2x40x8x128x240, .f32⟩ : BufTy).Contents (Elt F) → (⟨S2x40x8x128x211, .f32⟩ : BufTy).Contents (Elt F)),
    binary main_v202 main_v203 main_v204 (mulf : (⟨S2x40x8x128x211, .f32⟩ : BufTy).Contents (Elt F) → (⟨S2x40x8x128x211, .f32⟩ : BufTy).Contents (Elt F) → (⟨S2x40x8x128x211, .f32⟩ : BufTy).Contents (Elt F)),
    nullary main_cst_84 (constant S_ .f32 0x00000000#32),
    binary main_v204 main_cst_84 main_v205 ((fun x v => Host.reduceAdd x v reducesTo_S2x40x8x128x211_S2x40x128x211_d2 h_S_) : (⟨S2x40x8x128x211, .f32⟩ : BufTy).Contents (Elt F) → (⟨S_, .f32⟩ : BufTy).Contents (Elt F) → (⟨S2x40x128x211, .f32⟩ : BufTy).Contents (Elt F)),
    nullary main_cst_85 (constant S_ .f32 0x41000000#32),
    unary main_cst_85 main_v206 (broadcastInDim S2x40x128x211 ![] bcast_S_S2x40x128x211 : (⟨S_, .f32⟩ : BufTy).Contents (Elt F) → (⟨S2x40x128x211, .f32⟩ : BufTy).Contents (Elt F)),
    binary main_v205 main_v206 main_v207 (Host.divf : (⟨S2x40x128x211, .f32⟩ : BufTy).Contents (Elt F) → (⟨S2x40x128x211, .f32⟩ : BufTy).Contents (Elt F) → (⟨S2x40x128x211, .f32⟩ : BufTy).Contents (Elt F)),
    nullary main_c_86 (constantI S_ 32 0#32),
    TRef.unary (TRef.of (T := ⟨S_, .i32⟩) main_c_86) (TRef.of (T := ⟨S_, .f32⟩) main_call28_v0) (sitofp .f32),
    TRef.binary (TRef.of (T := ⟨S2x40x128x211, .f32⟩) main_v207) (TRef.of (T := ⟨S_, .f32⟩) main_call28_v0) (TRef.of (T := ⟨S2x40x128x240, .f32⟩) main_v208) (fun x v => pad S2x40x128x240 ![0, 0, 0, 29] ![0, 0, 0, 0] ![0, 0, 0, 0] x v pads_S2x40x128x211_S2x40x128x240_000_000_000_2900 h_S_),
    unary main_v0 main_v209 ((extractStridedSlice S2x40x8x128x210 ![0, 0, 0, 0, 30] · slices_S2x40x8x128x240_S2x40x8x128x210_0_0_0_0_30) : (⟨S2x40x8x128x240, .f32⟩ : BufTy).Contents (Elt F) → (⟨S2x40x8x128x210, .f32⟩ : BufTy).Contents (Elt F)),
    unary main_v1 main_v210 ((extractStridedSlice S2x40x8x128x210 ![0, 0, 0, 0, 0] · slices_S2x40x8x128x240_S2x40x8x128x210_0_0_0_0_0) : (⟨S2x40x8x128x240, .f32⟩ : BufTy).Contents (Elt F) → (⟨S2x40x8x128x210, .f32⟩ : BufTy).Contents (Elt F)) ]

set_option maxRecDepth 8192 in
set_option maxHeartbeats 4000000 in
theorem part4_eq (c : Dev nD) : main_part4 (F := F) c = seq p4 := rfl

theorem p4_sub : (p4 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p4_fresh : ∀ op ∈ (p4 : List (HloOp τ sig (Elt F))), op.fresh = ∅ := by
  intro _ h; (repeat (cases h with | head => rfl | tail _ h => ?_)); exact nomatch h

/-- The buffers the part's operations write. -/
abbrev p4_W : List (Ref sig .tc) := [main_v169, main_cst_69, main_v170, main_cst_70, main_v171, main_v172, main_c_71, main_call23_v0, main_v173, main_v174, main_v175, main_v176, main_cst_72, main_v177, main_cst_73, main_v178, main_v179, main_c_74, main_call24_v0, main_v180, main_v181, main_v182, main_v183, main_cst_75, main_v184, main_cst_76, main_v185, main_v186, main_c_77, main_call25_v0, main_v187, main_v188, main_v189, main_v190, main_cst_78, main_v191, main_cst_79, main_v192, main_v193, main_c_80, main_call26_v0, main_v194, main_v195, main_v196, main_v197, main_cst_81, main_v198, main_cst_82, main_v199, main_v200, main_c_83, main_call27_v0, main_v201, main_v202, main_v203, main_v204, main_cst_84, main_v205, main_cst_85, main_v206, main_v207, main_c_86, main_call28_v0, main_v208, main_v209, main_v210]

theorem p4_writes : (p4 : List (HloOp τ sig (Elt F))).Forall fun op => op.writes ⊆ (p4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep4_main_arg0 (W : Valuation τ sig (Elt F)) (L R : (⟨S2x320x128x240, .f32⟩ : BufTy).Contents (Elt F)) : after p4 W (Proc.devRef .tc main_arg0) = W (Proc.devRef .tc main_arg0) :=
  after_of_writes_sub p4 W p4_writes (by decide)

theorem keep4_main_arg1 (W : Valuation τ sig (Elt F)) (L R : (⟨S2x320x128x240, .f32⟩ : BufTy).Contents (Elt F)) : after p4 W (Proc.devRef .tc main_arg1) = W (Proc.devRef .tc main_arg1) :=
  after_of_writes_sub p4 W p4_writes (by decide)

theorem keep4_main_v0 (W : Valuation τ sig (Elt F)) (L R : (⟨S2x320x128x240, .f32⟩ : BufTy).Contents (Elt F)) : after p4 W (Proc.devRef .tc main_v0) = W (Proc.devRef .tc main_v0) :=
  after_of_writes_sub p4 W p4_writes (by decide)

theorem keep4_main_v1 (W : Valuation τ sig (Elt F)) (L R : (⟨S2x320x128x240, .f32⟩ : BufTy).Contents (Elt F)) : after p4 W (Proc.devRef .tc main_v1) = W (Proc.devRef .tc main_v1) :=
  after_of_writes_sub p4 W p4_writes (by decide)

theorem keep4_main_v5 (W : Valuation τ sig (Elt F)) (L R : (⟨S2x320x128x240, .f32⟩ : BufTy).Contents (Elt F)) : after p4 W (Proc.devRef .tc main_v5) = W (Proc.devRef .tc main_v5) :=
  after_of_writes_sub p4 W p4_writes (by decide)

theorem keep4_main_v12 (W : Valuation τ sig (Elt F)) (L R : (⟨S2x320x128x240, .f32⟩ : BufTy).Contents (Elt F)) : after p4 W (Proc.devRef .tc main_v12) = W (Proc.devRef .tc main_v12) :=
  after_of_writes_sub p4 W p4_writes (by decide)

theorem keep4_main_v19 (W : Valuation τ sig (Elt F)) (L R : (⟨S2x320x128x240, .f32⟩ : BufTy).Contents (Elt F)) : after p4 W (Proc.devRef .tc main_v19) = W (Proc.devRef .tc main_v19) :=
  after_of_writes_sub p4 W p4_writes (by decide)

theorem keep4_main_v26 (W : Valuation τ sig (Elt F)) (L R : (⟨S2x320x128x240, .f32⟩ : BufTy).Contents (Elt F)) : after p4 W (Proc.devRef .tc main_v26) = W (Proc.devRef .tc main_v26) :=
  after_of_writes_sub p4 W p4_writes (by decide)

theorem keep4_main_v33 (W : Valuation τ sig (Elt F)) (L R : (⟨S2x320x128x240, .f32⟩ : BufTy).Contents (Elt F)) : after p4 W (Proc.devRef .tc main_v33) = W (Proc.devRef .tc main_v33) :=
  after_of_writes_sub p4 W p4_writes (by decide)

theorem keep4_main_v40 (W : Valuation τ sig (Elt F)) (L R : (⟨S2x320x128x240, .f32⟩ : BufTy).Contents (Elt F)) : after p4 W (Proc.devRef .tc main_v40) = W (Proc.devRef .tc main_v40) :=
  after_of_writes_sub p4 W p4_writes (by decide)

theorem keep4_main_v47 (W : Valuation τ sig (Elt F)) (L R : (⟨S2x320x128x240, .f32⟩ : BufTy).Contents (Elt F)) : after p4 W (Proc.devRef .tc main_v47) = W (Proc.devRef .tc main_v47) :=
  after_of_writes_sub p4 W p4_writes (by decide)

theorem keep4_main_v54 (W : Valuation τ sig (Elt F)) (L R : (⟨S2x320x128x240, .f32⟩ : BufTy).Contents (Elt F)) : after p4 W (Proc.devRef .tc main_v54) = W (Proc.devRef .tc main_v54) :=
  after_of_writes_sub p4 W p4_writes (by decide)

theorem keep4_main_v61 (W : Valuation τ sig (Elt F)) (L R : (⟨S2x320x128x240, .f32⟩ : BufTy).Contents (Elt F)) : after p4 W (Proc.devRef .tc main_v61) = W (Proc.devRef .tc main_v61) :=
  after_of_writes_sub p4 W p4_writes (by decide)

theorem keep4_main_v68 (W : Valuation τ sig (Elt F)) (L R : (⟨S2x320x128x240, .f32⟩ : BufTy).Contents (Elt F)) : after p4 W (Proc.devRef .tc main_v68) = W (Proc.devRef .tc main_v68) :=
  after_of_writes_sub p4 W p4_writes (by decide)

theorem keep4_main_v75 (W : Valuation τ sig (Elt F)) (L R : (⟨S2x320x128x240, .f32⟩ : BufTy).Contents (Elt F)) : after p4 W (Proc.devRef .tc main_v75) = W (Proc.devRef .tc main_v75) :=
  after_of_writes_sub p4 W p4_writes (by decide)

theorem keep4_main_v82 (W : Valuation τ sig (Elt F)) (L R : (⟨S2x320x128x240, .f32⟩ : BufTy).Contents (Elt F)) : after p4 W (Proc.devRef .tc main_v82) = W (Proc.devRef .tc main_v82) :=
  after_of_writes_sub p4 W p4_writes (by decide)

theorem keep4_main_v89 (W : Valuation τ sig (Elt F)) (L R : (⟨S2x320x128x240, .f32⟩ : BufTy).Contents (Elt F)) : after p4 W (Proc.devRef .tc main_v89) = W (Proc.devRef .tc main_v89) :=
  after_of_writes_sub p4 W p4_writes (by decide)

theorem keep4_main_v96 (W : Valuation τ sig (Elt F)) (L R : (⟨S2x320x128x240, .f32⟩ : BufTy).Contents (Elt F)) : after p4 W (Proc.devRef .tc main_v96) = W (Proc.devRef .tc main_v96) :=
  after_of_writes_sub p4 W p4_writes (by decide)

theorem keep4_main_v103 (W : Valuation τ sig (Elt F)) (L R : (⟨S2x320x128x240, .f32⟩ : BufTy).Contents (Elt F)) : after p4 W (Proc.devRef .tc main_v103) = W (Proc.devRef .tc main_v103) :=
  after_of_writes_sub p4 W p4_writes (by decide)

theorem keep4_main_v110 (W : Valuation τ sig (Elt F)) (L R : (⟨S2x320x128x240, .f32⟩ : BufTy).Contents (Elt F)) : after p4 W (Proc.devRef .tc main_v110) = W (Proc.devRef .tc main_v110) :=
  after_of_writes_sub p4 W p4_writes (by decide)

theorem keep4_main_v117 (W : Valuation τ sig (Elt F)) (L R : (⟨S2x320x128x240, .f32⟩ : BufTy).Contents (Elt F)) : after p4 W (Proc.devRef .tc main_v117) = W (Proc.devRef .tc main_v117) :=
  after_of_writes_sub p4 W p4_writes (by decide)

theorem keep4_main_v124 (W : Valuation τ sig (Elt F)) (L R : (⟨S2x320x128x240, .f32⟩ : BufTy).Contents (Elt F)) : after p4 W (Proc.devRef .tc main_v124) = W (Proc.devRef .tc main_v124) :=
  after_of_writes_sub p4 W p4_writes (by decide)

theorem keep4_main_v131 (W : Valuation τ sig (Elt F)) (L R : (⟨S2x320x128x240, .f32⟩ : BufTy).Contents (Elt F)) : after p4 W (Proc.devRef .tc main_v131) = W (Proc.devRef .tc main_v131) :=
  after_of_writes_sub p4 W p4_writes (by decide)

theorem keep4_main_v138 (W : Valuation τ sig (Elt F)) (L R : (⟨S2x320x128x240, .f32⟩ : BufTy).Contents (Elt F)) : after p4 W (Proc.devRef .tc main_v138) = W (Proc.devRef .tc main_v138) :=
  after_of_writes_sub p4 W p4_writes (by decide)

theorem keep4_main_v145 (W : Valuation τ sig (Elt F)) (L R : (⟨S2x320x128x240, .f32⟩ : BufTy).Contents (Elt F)) : after p4 W (Proc.devRef .tc main_v145) = W (Proc.devRef .tc main_v145) :=
  after_of_writes_sub p4 W p4_writes (by decide)

theorem keep4_main_v152 (W : Valuation τ sig (Elt F)) (L R : (⟨S2x320x128x240, .f32⟩ : BufTy).Contents (Elt F)) : after p4 W (Proc.devRef .tc main_v152) = W (Proc.devRef .tc main_v152) :=
  after_of_writes_sub p4 W p4_writes (by decide)

theorem keep4_main_v159 (W : Valuation τ sig (Elt F)) (L R : (⟨S2x320x128x240, .f32⟩ : BufTy).Contents (Elt F)) : after p4 W (Proc.devRef .tc main_v159) = W (Proc.devRef .tc main_v159) :=
  after_of_writes_sub p4 W p4_writes (by decide)

theorem keep4_main_v166 (W : Valuation τ sig (Elt F)) (L R : (⟨S2x320x128x240, .f32⟩ : BufTy).Contents (Elt F)) : after p4 W (Proc.devRef .tc main_v166) = W (Proc.devRef .tc main_v166) :=
  after_of_writes_sub p4 W p4_writes (by decide)

theorem out4_main_v173 (W : Valuation τ sig (Elt F)) (L R : (⟨S2x320x128x240, .f32⟩ : BufTy).Contents (Elt F))
    (h_main_v167 : W (Proc.devRef .tc main_v167) = val_main_v167 (F := F) L) (h_main_v168 : W (Proc.devRef .tc main_v168) = val_main_v168 (F := F) R) :
    after p4 W (Proc.devRef .tc main_v173) = val_main_v173 (F := F) L R := by
  after_results_simp
  simp only [h_main_v167, h_main_v168]
  rfl

theorem out4_main_v180 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p4 W (Proc.devRef .tc main_v180) = val_main_v180 (F := F) L R := by
  after_results_simp
  simp only [h_main_v0, h_main_v1]
  rfl

theorem out4_main_v187 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p4 W (Proc.devRef .tc main_v187) = val_main_v187 (F := F) L R := by
  after_results_simp
  simp only [h_main_v0, h_main_v1]
  rfl

theorem out4_main_v194 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p4 W (Proc.devRef .tc main_v194) = val_main_v194 (F := F) L R := by
  after_results_simp
  simp only [h_main_v0, h_main_v1]
  rfl

theorem out4_main_v201 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p4 W (Proc.devRef .tc main_v201) = val_main_v201 (F := F) L R := by
  after_results_simp
  simp only [h_main_v0, h_main_v1]
  rfl

theorem out4_main_v208 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p4 W (Proc.devRef .tc main_v208) = val_main_v208 (F := F) L R := by
  after_results_simp
  simp only [h_main_v0, h_main_v1]
  rfl

theorem out4_main_v209 (W : Valuation τ sig (Elt F)) (L R : (⟨S2x320x128x240, .f32⟩ : BufTy).Contents (Elt F))
    (h_main_v0 : W (Proc.devRef .tc main_v0) = val_main_v0 (F := F) L) :
    after p4 W (Proc.devRef .tc main_v209) = val_main_v209 (F := F) L := by
  after_results_simp
  simp only [h_main_v0]
  rfl

theorem out4_main_v210 (W : Valuation τ sig (Elt F)) (L R : (⟨S2x320x128x240, .f32⟩ : BufTy).Contents (Elt F))
    (h_main_v1 : W (Proc.devRef .tc main_v1) = val_main_v1 (F := F) R) :
    after p4 W (Proc.devRef .tc main_v210) = val_main_v210 (F := F) R := by
  after_results_simp
  simp only [h_main_v1]
  rfl

end Cert.ReferenceIdeal.RunP

end
-- ==== Proof.RefRun5.lean ====
/- Gen/ReferenceIdeal/Run.lean and the stage names of Gen/ReferenceIdeal/Read.lean. Part 5 of @main (operations 330 to 395): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 5, in order. -/
abbrev p5 : List (HloOp τ sig (Elt F)) :=
  [ binary main_v209 main_v210 main_v211 (mulf : (⟨S2x40x8x128x210, .f32⟩ : BufTy).Contents (Elt F) → (⟨S2x40x8x128x210, .f32⟩ : BufTy).Contents (Elt F) → (⟨S2x40x8x128x210, .f32⟩ : BufTy).Contents (Elt F)),
    nullary main_cst_87 (constant S_ .f32 0x00000000#32),
    binary main_v211 main_cst_87 main_v212 ((fun x v => Host.reduceAdd x v reducesTo_S2x40x8x128x210_S2x40x128x210_d2 h_S_) : (⟨S2x40x8x128x210, .f32⟩ : BufTy).Contents (Elt F) → (⟨S_, .f32⟩ : BufTy).Contents (Elt F) → (⟨S2x40x128x210, .f32⟩ : BufTy).Contents (Elt F)),
    nullary main_cst_88 (constant S_ .f32 0x41000000#32),
    unary main_cst_88 main_v213 (broadcastInDim S2x40x128x210 ![] bcast_S_S2x40x128x210 : (⟨S_, .f32⟩ : BufTy).Contents (Elt F) → (⟨S2x40x128x210, .f32⟩ : BufTy).Contents (Elt F)),
    binary main_v212 main_v213 main_v214 (Host.divf : (⟨S2x40x128x210, .f32⟩ : BufTy).Contents (Elt F) → (⟨S2x40x128x210, .f32⟩ : BufTy).Contents (Elt F) → (⟨S2x40x128x210, .f32⟩ : BufTy).Contents (Elt F)),
    nullary main_c_89 (constantI S_ 32 0#32),
    TRef.unary (TRef.of (T := ⟨S_, .i32⟩) main_c_89) (TRef.of (T := ⟨S_, .f32⟩) main_call29_v0) (sitofp .f32),
    TRef.binary (TRef.of (T := ⟨S2x40x128x210, .f32⟩) main_v214) (TRef.of (T := ⟨S_, .f32⟩) main_call29_v0) (TRef.of (T := ⟨S2x40x128x240, .f32⟩) main_v215) (fun x v => pad S2x40x128x240 ![0, 0, 0, 30] ![0, 0, 0, 0] ![0, 0, 0, 0] x v pads_S2x40x128x210_S2x40x128x240_000_000_000_3000 h_S_),
    unary main_v0 main_v216 ((extractStridedSlice S2x40x8x128x209 ![0, 0, 0, 0, 31] · slices_S2x40x8x128x240_S2x40x8x128x209_0_0_0_0_31) : (⟨S2x40x8x128x240, .f32⟩ : BufTy).Contents (Elt F) → (⟨S2x40x8x128x209, .f32⟩ : BufTy).Contents (Elt F)),
    unary main_v1 main_v217 ((extractStridedSlice S2x40x8x128x209 ![0, 0, 0, 0, 0] · slices_S2x40x8x128x240_S2x40x8x128x209_0_0_0_0_0) : (⟨S2x40x8x128x240, .f32⟩ : BufTy).Contents (Elt F) → (⟨S2x40x8x128x209, .f32⟩ : BufTy).Contents (Elt F)),
    binary main_v216 main_v217 main_v218 (mulf : (⟨S2x40x8x128x209, .f32⟩ : BufTy).Contents (Elt F) → (⟨S2x40x8x128x209, .f32⟩ : BufTy).Contents (Elt F) → (⟨S2x40x8x128x209, .f32⟩ : BufTy).Contents (Elt F)),
    nullary main_cst_90 (constant S_ .f32 0x00000000#32),
    binary main_v218 main_cst_90 main_v219 ((fun x v => Host.reduceAdd x v reducesTo_S2x40x8x128x209_S2x40x128x209_d2 h_S_) : (⟨S2x40x8x128x209, .f32⟩ : BufTy).Contents (Elt F) → (⟨S_, .f32⟩ : BufTy).Contents (Elt F) → (⟨S2x40x128x209, .f32⟩ : BufTy).Contents (Elt F)),
    nullary main_cst_91 (constant S_ .f32 0x41000000#32),
    unary main_cst_91 main_v220 (broadcastInDim S2x40x128x209 ![] bcast_S_S2x40x128x209 : (⟨S_, .f32⟩ : BufTy).Contents (Elt F) → (⟨S2x40x128x209, .f32⟩ : BufTy).Contents (Elt F)),
    binary main_v219 main_v220 main_v221 (Host.divf : (⟨S2x40x128x209, .f32⟩ : BufTy).Contents (Elt F) → (⟨S2x40x128x209, .f32⟩ : BufTy).Contents (Elt F) → (⟨S2x40x128x209, .f32⟩ : BufTy).Contents (Elt F)),
    nullary main_c_92 (constantI S_ 32 0#32),
    TRef.unary (TRef.of (T := ⟨S_, .i32⟩) main_c_92) (TRef.of (T := ⟨S_, .f32⟩) main_call30_v0) (sitofp .f32),
    TRef.binary (TRef.of (T := ⟨S2x40x128x209, .f32⟩) main_v221) (TRef.of (T := ⟨S_, .f32⟩) main_call30_v0) (TRef.of (T := ⟨S2x40x128x240, .f32⟩) main_v222) (fun x v => pad S2x40x128x240 ![0, 0, 0, 31] ![0, 0, 0, 0] ![0, 0, 0, 0] x v pads_S2x40x128x209_S2x40x128x240_000_000_000_3100 h_S_),
    unary main_v0 main_v223 ((extractStridedSlice S2x40x8x128x208 ![0, 0, 0, 0, 32] · slices_S2x40x8x128x240_S2x40x8x128x208_0_0_0_0_32) : (⟨S2x40x8x128x240, .f32⟩ : BufTy).Contents (Elt F) → (⟨S2x40x8x128x208, .f32⟩ : BufTy).Contents (Elt F)),
    unary main_v1 main_v224 ((extractStridedSlice S2x40x8x128x208 ![0, 0, 0, 0, 0] · slices_S2x40x8x128x240_S2x40x8x128x208_0_0_0_0_0) : (⟨S2x40x8x128x240, .f32⟩ : BufTy).Contents (Elt F) → (⟨S2x40x8x128x208, .f32⟩ : BufTy).Contents (Elt F)),
    binary main_v223 main_v224 main_v225 (mulf : (⟨S2x40x8x128x208, .f32⟩ : BufTy).Contents (Elt F) → (⟨S2x40x8x128x208, .f32⟩ : BufTy).Contents (Elt F) → (⟨S2x40x8x128x208, .f32⟩ : BufTy).Contents (Elt F)),
    nullary main_cst_93 (constant S_ .f32 0x00000000#32),
    binary main_v225 main_cst_93 main_v226 ((fun x v => Host.reduceAdd x v reducesTo_S2x40x8x128x208_S2x40x128x208_d2 h_S_) : (⟨S2x40x8x128x208, .f32⟩ : BufTy).Contents (Elt F) → (⟨S_, .f32⟩ : BufTy).Contents (Elt F) → (⟨S2x40x128x208, .f32⟩ : BufTy).Contents (Elt F)),
    nullary main_cst_94 (constant S_ .f32 0x41000000#32),
    unary main_cst_94 main_v227 (broadcastInDim S2x40x128x208 ![] bcast_S_S2x40x128x208 : (⟨S_, .f32⟩ : BufTy).Contents (Elt F) → (⟨S2x40x128x208, .f32⟩ : BufTy).Contents (Elt F)),
    binary main_v226 main_v227 main_v228 (Host.divf : (⟨S2x40x128x208, .f32⟩ : BufTy).Contents (Elt F) → (⟨S2x40x128x208, .f32⟩ : BufTy).Contents (Elt F) → (⟨S2x40x128x208, .f32⟩ : BufTy).Contents (Elt F)),
    nullary main_c_95 (constantI S_ 32 0#32),
    TRef.unary (TRef.of (T := ⟨S_, .i32⟩) main_c_95) (TRef.of (T := ⟨S_, .f32⟩) main_call31_v0) (sitofp .f32),
    TRef.binary (TRef.of (T := ⟨S2x40x128x208, .f32⟩) main_v228) (TRef.of (T := ⟨S_, .f32⟩) main_call31_v0) (TRef.of (T := ⟨S2x40x128x240, .f32⟩) main_v229) (fun x v => pad S2x40x128x240 ![0, 0, 0, 32] ![0, 0, 0, 0] ![0, 0, 0, 0] x v pads_S2x40x128x208_S2x40x128x240_000_000_000_3200 h_S_),
    unary main_v0 main_v230 ((extractStridedSlice S2x40x8x128x207 ![0, 0, 0, 0, 33] · slices_S2x40x8x128x240_S2x40x8x128x207_0_0_0_0_33) : (⟨S2x40x8x128x240, .f32⟩ : BufTy).Contents (Elt F) → (⟨S2x40x8x128x207, .f32⟩ : BufTy).Contents (Elt F)),
    unary main_v1 main_v231 ((extractStridedSlice S2x40x8x128x207 ![0, 0, 0, 0, 0] · slices_S2x40x8x128x240_S2x40x8x128x207_0_0_0_0_0) : (⟨S2x40x8x128x240, .f32⟩ : BufTy).Contents (Elt F) → (⟨S2x40x8x128x207, .f32⟩ : BufTy).Contents (Elt F)),
    binary main_v230 main_v231 main_v232 (mulf : (⟨S2x40x8x128x207, .f32⟩ : BufTy).Contents (Elt F) → (⟨S2x40x8x128x207, .f32⟩ : BufTy).Contents (Elt F) → (⟨S2x40x8x128x207, .f32⟩ : BufTy).Contents (Elt F)),
    nullary main_cst_96 (constant S_ .f32 0x00000000#32),
    binary main_v232 main_cst_96 main_v233 ((fun x v => Host.reduceAdd x v reducesTo_S2x40x8x128x207_S2x40x128x207_d2 h_S_) : (⟨S2x40x8x128x207, .f32⟩ : BufTy).Contents (Elt F) → (⟨S_, .f32⟩ : BufTy).Contents (Elt F) → (⟨S2x40x128x207, .f32⟩ : BufTy).Contents (Elt F)),
    nullary main_cst_97 (constant S_ .f32 0x41000000#32),
    unary main_cst_97 main_v234 (broadcastInDim S2x40x128x207 ![] bcast_S_S2x40x128x207 : (⟨S_, .f32⟩ : BufTy).Contents (Elt F) → (⟨S2x40x128x207, .f32⟩ : BufTy).Contents (Elt F)),
    binary main_v233 main_v234 main_v235 (Host.divf : (⟨S2x40x128x207, .f32⟩ : BufTy).Contents (Elt F) → (⟨S2x40x128x207, .f32⟩ : BufTy).Contents (Elt F) → (⟨S2x40x128x207, .f32⟩ : BufTy).Contents (Elt F)),
    nullary main_c_98 (constantI S_ 32 0#32),
    TRef.unary (TRef.of (T := ⟨S_, .i32⟩) main_c_98) (TRef.of (T := ⟨S_, .f32⟩) main_call32_v0) (sitofp .f32),
    TRef.binary (TRef.of (T := ⟨S2x40x128x207, .f32⟩) main_v235) (TRef.of (T := ⟨S_, .f32⟩) main_call32_v0) (TRef.of (T := ⟨S2x40x128x240, .f32⟩) main_v236) (fun x v => pad S2x40x128x240 ![0, 0, 0, 33] ![0, 0, 0, 0] ![0, 0, 0, 0] x v pads_S2x40x128x207_S2x40x128x240_000_000_000_3300 h_S_),
    unary main_v0 main_v237 ((extractStridedSlice S2x40x8x128x206 ![0, 0, 0, 0, 34] · slices_S2x40x8x128x240_S2x40x8x128x206_0_0_0_0_34) : (⟨S2x40x8x128x240, .f32⟩ : BufTy).Contents (Elt F) → (⟨S2x40x8x128x206, .f32⟩ : BufTy).Contents (Elt F)),
    unary main_v1 main_v238 ((extractStridedSlice S2x40x8x128x206 ![0, 0, 0, 0, 0] · slices_S2x40x8x128x240_S2x40x8x128x206_0_0_0_0_0) : (⟨S2x40x8x128x240, .f32⟩ : BufTy).Contents (Elt F) → (⟨S2x40x8x128x206, .f32⟩ : BufTy).Contents (Elt F)),
    binary main_v237 main_v238 main_v239 (mulf : (⟨S2x40x8x128x206, .f32⟩ : BufTy).Contents (Elt F) → (⟨S2x40x8x128x206, .f32⟩ : BufTy).Contents (Elt F) → (⟨S2x40x8x128x206, .f32⟩ : BufTy).Contents (Elt F)),
    nullary main_cst_99 (constant S_ .f32 0x00000000#32),
    binary main_v239 main_cst_99 main_v240 ((fun x v => Host.reduceAdd x v reducesTo_S2x40x8x128x206_S2x40x128x206_d2 h_S_) : (⟨S2x40x8x128x206, .f32⟩ : BufTy).Contents (Elt F) → (⟨S_, .f32⟩ : BufTy).Contents (Elt F) → (⟨S2x40x128x206, .f32⟩ : BufTy).Contents (Elt F)),
    nullary main_cst_100 (constant S_ .f32 0x41000000#32),
    unary main_cst_100 main_v241 (broadcastInDim S2x40x128x206 ![] bcast_S_S2x40x128x206 : (⟨S_, .f32⟩ : BufTy).Contents (Elt F) → (⟨S2x40x128x206, .f32⟩ : BufTy).Contents (Elt F)),
    binary main_v240 main_v241 main_v242 (Host.divf : (⟨S2x40x128x206, .f32⟩ : BufTy).Contents (Elt F) → (⟨S2x40x128x206, .f32⟩ : BufTy).Contents (Elt F) → (⟨S2x40x128x206, .f32⟩ : BufTy).Contents (Elt F)),
    nullary main_c_101 (constantI S_ 32 0#32),
    TRef.unary (TRef.of (T := ⟨S_, .i32⟩) main_c_101) (TRef.of (T := ⟨S_, .f32⟩) main_call33_v0) (sitofp .f32),
    TRef.binary (TRef.of (T := ⟨S2x40x128x206, .f32⟩) main_v242) (TRef.of (T := ⟨S_, .f32⟩) main_call33_v0) (TRef.of (T := ⟨S2x40x128x240, .f32⟩) main_v243) (fun x v => pad S2x40x128x240 ![0, 0, 0, 34] ![0, 0, 0, 0] ![0, 0, 0, 0] x v pads_S2x40x128x206_S2x40x128x240_000_000_000_3400 h_S_),
    unary main_v0 main_v244 ((extractStridedSlice S2x40x8x128x205 ![0, 0, 0, 0, 35] · slices_S2x40x8x128x240_S2x40x8x128x205_0_0_0_0_35) : (⟨S2x40x8x128x240, .f32⟩ : BufTy).Contents (Elt F) → (⟨S2x40x8x128x205, .f32⟩ : BufTy).Contents (Elt F)),
    unary main_v1 main_v245 ((extractStridedSlice S2x40x8x128x205 ![0, 0, 0, 0, 0] · slices_S2x40x8x128x240_S2x40x8x128x205_0_0_0_0_0) : (⟨S2x40x8x128x240, .f32⟩ : BufTy).Contents (Elt F) → (⟨S2x40x8x128x205, .f32⟩ : BufTy).Contents (Elt F)),
    binary main_v244 main_v245 main_v246 (mulf : (⟨S2x40x8x128x205, .f32⟩ : BufTy).Contents (Elt F) → (⟨S2x40x8x128x205, .f32⟩ : BufTy).Contents (Elt F) → (⟨S2x40x8x128x205, .f32⟩ : BufTy).Contents (Elt F)),
    nullary main_cst_102 (constant S_ .f32 0x00000000#32),
    binary main_v246 main_cst_102 main_v247 ((fun x v => Host.reduceAdd x v reducesTo_S2x40x8x128x205_S2x40x128x205_d2 h_S_) : (⟨S2x40x8x128x205, .f32⟩ : BufTy).Contents (Elt F) → (⟨S_, .f32⟩ : BufTy).Contents (Elt F) → (⟨S2x40x128x205, .f32⟩ : BufTy).Contents (Elt F)),
    nullary main_cst_103 (constant S_ .f32 0x41000000#32),
    unary main_cst_103 main_v248 (broadcastInDim S2x40x128x205 ![] bcast_S_S2x40x128x205 : (⟨S_, .f32⟩ : BufTy).Contents (Elt F) → (⟨S2x40x128x205, .f32⟩ : BufTy).Contents (Elt F)),
    binary main_v247 main_v248 main_v249 (Host.divf : (⟨S2x40x128x205, .f32⟩ : BufTy).Contents (Elt F) → (⟨S2x40x128x205, .f32⟩ : BufTy).Contents (Elt F) → (⟨S2x40x128x205, .f32⟩ : BufTy).Contents (Elt F)),
    nullary main_c_104 (constantI S_ 32 0#32),
    TRef.unary (TRef.of (T := ⟨S_, .i32⟩) main_c_104) (TRef.of (T := ⟨S_, .f32⟩) main_call34_v0) (sitofp .f32),
    TRef.binary (TRef.of (T := ⟨S2x40x128x205, .f32⟩) main_v249) (TRef.of (T := ⟨S_, .f32⟩) main_call34_v0) (TRef.of (T := ⟨S2x40x128x240, .f32⟩) main_v250) (fun x v => pad S2x40x128x240 ![0, 0, 0, 35] ![0, 0, 0, 0] ![0, 0, 0, 0] x v pads_S2x40x128x205_S2x40x128x240_000_000_000_3500 h_S_),
    unary main_v0 main_v251 ((extractStridedSlice S2x40x8x128x204 ![0, 0, 0, 0, 36] · slices_S2x40x8x128x240_S2x40x8x128x204_0_0_0_0_36) : (⟨S2x40x8x128x240, .f32⟩ : BufTy).Contents (Elt F) → (⟨S2x40x8x128x204, .f32⟩ : BufTy).Contents (Elt F)),
    unary main_v1 main_v252 ((extractStridedSlice S2x40x8x128x204 ![0, 0, 0, 0, 0] · slices_S2x40x8x128x240_S2x40x8x128x204_0_0_0_0_0) : (⟨S2x40x8x128x240, .f32⟩ : BufTy).Contents (Elt F) → (⟨S2x40x8x128x204, .f32⟩ : BufTy).Contents (Elt F)) ]

set_option maxRecDepth 8192 in
set_option maxHeartbeats 4000000 in
theorem part5_eq (c : Dev nD) : main_part5 (F := F) c = seq p5 := rfl

theorem p5_sub : (p5 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p5_fresh : ∀ op ∈ (p5 : List (HloOp τ sig (Elt F))), op.fresh = ∅ := by
  intro _ h; (repeat (cases h with | head => rfl | tail _ h => ?_)); exact nomatch h

/-- The buffers the part's operations write. -/
abbrev p5_W : List (Ref sig .tc) := [main_v211, main_cst_87, main_v212, main_cst_88, main_v213, main_v214, main_c_89, main_call29_v0, main_v215, main_v216, main_v217, main_v218, main_cst_90, main_v219, main_cst_91, main_v220, main_v221, main_c_92, main_call30_v0, main_v222, main_v223, main_v224, main_v225, main_cst_93, main_v226, main_cst_94, main_v227, main_v228, main_c_95, main_call31_v0, main_v229, main_v230, main_v231, main_v232, main_cst_96, main_v233, main_cst_97, main_v234, main_v235, main_c_98, main_call32_v0, main_v236, main_v237, main_v238, main_v239, main_cst_99, main_v240, main_cst_100, main_v241, main_v242, main_c_101, main_call33_v0, main_v243, main_v244, main_v245, main_v246, main_cst_102, main_v247, main_cst_103, main_v248, main_v249, main_c_104, main_call34_v0, main_v250, main_v251, main_v252]

theorem p5_writes : (p5 : List (HloOp τ sig (Elt F))).Forall fun op => op.writes ⊆ (p5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep5_main_arg0 (W : Valuation τ sig (Elt F)) (L R : (⟨S2x320x128x240, .f32⟩ : BufTy).Contents (Elt F)) : after p5 W (Proc.devRef .tc main_arg0) = W (Proc.devRef .tc main_arg0) :=
  after_of_writes_sub p5 W p5_writes (by decide)

theorem keep5_main_arg1 (W : Valuation τ sig (Elt F)) (L R : (⟨S2x320x128x240, .f32⟩ : BufTy).Contents (Elt F)) : after p5 W (Proc.devRef .tc main_arg1) = W (Proc.devRef .tc main_arg1) :=
  after_of_writes_sub p5 W p5_writes (by decide)

theorem keep5_main_v0 (W : Valuation τ sig (Elt F)) (L R : (⟨S2x320x128x240, .f32⟩ : BufTy).Contents (Elt F)) : after p5 W (Proc.devRef .tc main_v0) = W (Proc.devRef .tc main_v0) :=
  after_of_writes_sub p5 W p5_writes (by decide)

theorem keep5_main_v1 (W : Valuation τ sig (Elt F)) (L R : (⟨S2x320x128x240, .f32⟩ : BufTy).Contents (Elt F)) : after p5 W (Proc.devRef .tc main_v1) = W (Proc.devRef .tc main_v1) :=
  after_of_writes_sub p5 W p5_writes (by decide)

theorem keep5_main_v5 (W : Valuation τ sig (Elt F)) (L R : (⟨S2x320x128x240, .f32⟩ : BufTy).Contents (Elt F)) : after p5 W (Proc.devRef .tc main_v5) = W (Proc.devRef .tc main_v5) :=
  after_of_writes_sub p5 W p5_writes (by decide)

theorem keep5_main_v12 (W : Valuation τ sig (Elt F)) (L R : (⟨S2x320x128x240, .f32⟩ : BufTy).Contents (Elt F)) : after p5 W (Proc.devRef .tc main_v12) = W (Proc.devRef .tc main_v12) :=
  after_of_writes_sub p5 W p5_writes (by decide)

theorem keep5_main_v19 (W : Valuation τ sig (Elt F)) (L R : (⟨S2x320x128x240, .f32⟩ : BufTy).Contents (Elt F)) : after p5 W (Proc.devRef .tc main_v19) = W (Proc.devRef .tc main_v19) :=
  after_of_writes_sub p5 W p5_writes (by decide)

theorem keep5_main_v26 (W : Valuation τ sig (Elt F)) (L R : (⟨S2x320x128x240, .f32⟩ : BufTy).Contents (Elt F)) : after p5 W (Proc.devRef .tc main_v26) = W (Proc.devRef .tc main_v26) :=
  after_of_writes_sub p5 W p5_writes (by decide)

theorem keep5_main_v33 (W : Valuation τ sig (Elt F)) (L R : (⟨S2x320x128x240, .f32⟩ : BufTy).Contents (Elt F)) : after p5 W (Proc.devRef .tc main_v33) = W (Proc.devRef .tc main_v33) :=
  after_of_writes_sub p5 W p5_writes (by decide)

theorem keep5_main_v40 (W : Valuation τ sig (Elt F)) (L R : (⟨S2x320x128x240, .f32⟩ : BufTy).Contents (Elt F)) : after p5 W (Proc.devRef .tc main_v40) = W (Proc.devRef .tc main_v40) :=
  after_of_writes_sub p5 W p5_writes (by decide)

theorem keep5_main_v47 (W : Valuation τ sig (Elt F)) (L R : (⟨S2x320x128x240, .f32⟩ : BufTy).Contents (Elt F)) : after p5 W (Proc.devRef .tc main_v47) = W (Proc.devRef .tc main_v47) :=
  after_of_writes_sub p5 W p5_writes (by decide)

theorem keep5_main_v54 (W : Valuation τ sig (Elt F)) (L R : (⟨S2x320x128x240, .f32⟩ : BufTy).Contents (Elt F)) : after p5 W (Proc.devRef .tc main_v54) = W (Proc.devRef .tc main_v54) :=
  after_of_writes_sub p5 W p5_writes (by decide)

theorem keep5_main_v61 (W : Valuation τ sig (Elt F)) (L R : (⟨S2x320x128x240, .f32⟩ : BufTy).Contents (Elt F)) : after p5 W (Proc.devRef .tc main_v61) = W (Proc.devRef .tc main_v61) :=
  after_of_writes_sub p5 W p5_writes (by decide)

theorem keep5_main_v68 (W : Valuation τ sig (Elt F)) (L R : (⟨S2x320x128x240, .f32⟩ : BufTy).Contents (Elt F)) : after p5 W (Proc.devRef .tc main_v68) = W (Proc.devRef .tc main_v68) :=
  after_of_writes_sub p5 W p5_writes (by decide)

theorem keep5_main_v75 (W : Valuation τ sig (Elt F)) (L R : (⟨S2x320x128x240, .f32⟩ : BufTy).Contents (Elt F)) : after p5 W (Proc.devRef .tc main_v75) = W (Proc.devRef .tc main_v75) :=
  after_of_writes_sub p5 W p5_writes (by decide)

theorem keep5_main_v82 (W : Valuation τ sig (Elt F)) (L R : (⟨S2x320x128x240, .f32⟩ : BufTy).Contents (Elt F)) : after p5 W (Proc.devRef .tc main_v82) = W (Proc.devRef .tc main_v82) :=
  after_of_writes_sub p5 W p5_writes (by decide)

theorem keep5_main_v89 (W : Valuation τ sig (Elt F)) (L R : (⟨S2x320x128x240, .f32⟩ : BufTy).Contents (Elt F)) : after p5 W (Proc.devRef .tc main_v89) = W (Proc.devRef .tc main_v89) :=
  after_of_writes_sub p5 W p5_writes (by decide)

theorem keep5_main_v96 (W : Valuation τ sig (Elt F)) (L R : (⟨S2x320x128x240, .f32⟩ : BufTy).Contents (Elt F)) : after p5 W (Proc.devRef .tc main_v96) = W (Proc.devRef .tc main_v96) :=
  after_of_writes_sub p5 W p5_writes (by decide)

theorem keep5_main_v103 (W : Valuation τ sig (Elt F)) (L R : (⟨S2x320x128x240, .f32⟩ : BufTy).Contents (Elt F)) : after p5 W (Proc.devRef .tc main_v103) = W (Proc.devRef .tc main_v103) :=
  after_of_writes_sub p5 W p5_writes (by decide)

theorem keep5_main_v110 (W : Valuation τ sig (Elt F)) (L R : (⟨S2x320x128x240, .f32⟩ : BufTy).Contents (Elt F)) : after p5 W (Proc.devRef .tc main_v110) = W (Proc.devRef .tc main_v110) :=
  after_of_writes_sub p5 W p5_writes (by decide)

theorem keep5_main_v117 (W : Valuation τ sig (Elt F)) (L R : (⟨S2x320x128x240, .f32⟩ : BufTy).Contents (Elt F)) : after p5 W (Proc.devRef .tc main_v117) = W (Proc.devRef .tc main_v117) :=
  after_of_writes_sub p5 W p5_writes (by decide)

theorem keep5_main_v124 (W : Valuation τ sig (Elt F)) (L R : (⟨S2x320x128x240, .f32⟩ : BufTy).Contents (Elt F)) : after p5 W (Proc.devRef .tc main_v124) = W (Proc.devRef .tc main_v124) :=
  after_of_writes_sub p5 W p5_writes (by decide)

theorem keep5_main_v131 (W : Valuation τ sig (Elt F)) (L R : (⟨S2x320x128x240, .f32⟩ : BufTy).Contents (Elt F)) : after p5 W (Proc.devRef .tc main_v131) = W (Proc.devRef .tc main_v131) :=
  after_of_writes_sub p5 W p5_writes (by decide)

theorem keep5_main_v138 (W : Valuation τ sig (Elt F)) (L R : (⟨S2x320x128x240, .f32⟩ : BufTy).Contents (Elt F)) : after p5 W (Proc.devRef .tc main_v138) = W (Proc.devRef .tc main_v138) :=
  after_of_writes_sub p5 W p5_writes (by decide)

theorem keep5_main_v145 (W : Valuation τ sig (Elt F)) (L R : (⟨S2x320x128x240, .f32⟩ : BufTy).Contents (Elt F)) : after p5 W (Proc.devRef .tc main_v145) = W (Proc.devRef .tc main_v145) :=
  after_of_writes_sub p5 W p5_writes (by decide)

theorem keep5_main_v152 (W : Valuation τ sig (Elt F)) (L R : (⟨S2x320x128x240, .f32⟩ : BufTy).Contents (Elt F)) : after p5 W (Proc.devRef .tc main_v152) = W (Proc.devRef .tc main_v152) :=
  after_of_writes_sub p5 W p5_writes (by decide)

theorem keep5_main_v159 (W : Valuation τ sig (Elt F)) (L R : (⟨S2x320x128x240, .f32⟩ : BufTy).Contents (Elt F)) : after p5 W (Proc.devRef .tc main_v159) = W (Proc.devRef .tc main_v159) :=
  after_of_writes_sub p5 W p5_writes (by decide)

theorem keep5_main_v166 (W : Valuation τ sig (Elt F)) (L R : (⟨S2x320x128x240, .f32⟩ : BufTy).Contents (Elt F)) : after p5 W (Proc.devRef .tc main_v166) = W (Proc.devRef .tc main_v166) :=
  after_of_writes_sub p5 W p5_writes (by decide)

theorem keep5_main_v173 (W : Valuation τ sig (Elt F)) (L R : (⟨S2x320x128x240, .f32⟩ : BufTy).Contents (Elt F)) : after p5 W (Proc.devRef .tc main_v173) = W (Proc.devRef .tc main_v173) :=
  after_of_writes_sub p5 W p5_writes (by decide)

theorem keep5_main_v180 (W : Valuation τ sig (Elt F)) (L R : (⟨S2x320x128x240, .f32⟩ : BufTy).Contents (Elt F)) : after p5 W (Proc.devRef .tc main_v180) = W (Proc.devRef .tc main_v180) :=
  after_of_writes_sub p5 W p5_writes (by decide)

theorem keep5_main_v187 (W : Valuation τ sig (Elt F)) (L R : (⟨S2x320x128x240, .f32⟩ : BufTy).Contents (Elt F)) : after p5 W (Proc.devRef .tc main_v187) = W (Proc.devRef .tc main_v187) :=
  after_of_writes_sub p5 W p5_writes (by decide)

theorem keep5_main_v194 (W : Valuation τ sig (Elt F)) (L R : (⟨S2x320x128x240, .f32⟩ : BufTy).Contents (Elt F)) : after p5 W (Proc.devRef .tc main_v194) = W (Proc.devRef .tc main_v194) :=
  after_of_writes_sub p5 W p5_writes (by decide)

theorem keep5_main_v201 (W : Valuation τ sig (Elt F)) (L R : (⟨S2x320x128x240, .f32⟩ : BufTy).Contents (Elt F)) : after p5 W (Proc.devRef .tc main_v201) = W (Proc.devRef .tc main_v201) :=
  after_of_writes_sub p5 W p5_writes (by decide)

theorem keep5_main_v208 (W : Valuation τ sig (Elt F)) (L R : (⟨S2x320x128x240, .f32⟩ : BufTy).Contents (Elt F)) : after p5 W (Proc.devRef .tc main_v208) = W (Proc.devRef .tc main_v208) :=
  after_of_writes_sub p5 W p5_writes (by decide)

theorem out5_main_v215 (W : Valuation τ sig (Elt F)) (L R : (⟨S2x320x128x240, .f32⟩ : BufTy).Contents (Elt F))
    (h_main_v209 : W (Proc.devRef .tc main_v209) = val_main_v209 (F := F) L) (h_main_v210 : W (Proc.devRef .tc main_v210) = val_main_v210 (F := F) R) :
    after p5 W (Proc.devRef .tc main_v215) = val_main_v215 (F := F) L R := by
  after_results_simp
  simp only [h_main_v209, h_main_v210]
  rfl

theorem out5_main_v222 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p5 W (Proc.devRef .tc main_v222) = val_main_v222 (F := F) L R := by
  after_results_simp
  simp only [h_main_v0, h_main_v1]
  rfl

theorem out5_main_v229 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p5 W (Proc.devRef .tc main_v229) = val_main_v229 (F := F) L R := by
  after_results_simp
  simp only [h_main_v0, h_main_v1]
  rfl

theorem out5_main_v236 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p5 W (Proc.devRef .tc main_v236) = val_main_v236 (F := F) L R := by
  after_results_simp
  simp only [h_main_v0, h_main_v1]
  rfl

theorem out5_main_v243 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p5 W (Proc.devRef .tc main_v243) = val_main_v243 (F := F) L R := by
  after_results_simp
  simp only [h_main_v0, h_main_v1]
  rfl

theorem out5_main_v250 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p5 W (Proc.devRef .tc main_v250) = val_main_v250 (F := F) L R := by
  after_results_simp
  simp only [h_main_v0, h_main_v1]
  rfl

theorem out5_main_v251 (W : Valuation τ sig (Elt F)) (L R : (⟨S2x320x128x240, .f32⟩ : BufTy).Contents (Elt F))
    (h_main_v0 : W (Proc.devRef .tc main_v0) = val_main_v0 (F := F) L) :
    after p5 W (Proc.devRef .tc main_v251) = val_main_v251 (F := F) L := by
  after_results_simp
  simp only [h_main_v0]
  rfl

theorem out5_main_v252 (W : Valuation τ sig (Elt F)) (L R : (⟨S2x320x128x240, .f32⟩ : BufTy).Contents (Elt F))
    (h_main_v1 : W (Proc.devRef .tc main_v1) = val_main_v1 (F := F) R) :
    after p5 W (Proc.devRef .tc main_v252) = val_main_v252 (F := F) R := by
  after_results_simp
  simp only [h_main_v1]
  rfl

end Cert.ReferenceIdeal.RunP

end
-- ==== Proof.RefRun6.lean ====
/- Gen/ReferenceIdeal/Run.lean and the stage names of Gen/ReferenceIdeal/Read.lean. Part 6 of @main (operations 396 to 461): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 6, in order. -/
abbrev p6 : List (HloOp τ sig (Elt F)) :=
  [ binary main_v251 main_v252 main_v253 (mulf : (⟨S2x40x8x128x204, .f32⟩ : BufTy).Contents (Elt F) → (⟨S2x40x8x128x204, .f32⟩ : BufTy).Contents (Elt F) → (⟨S2x40x8x128x204, .f32⟩ : BufTy).Contents (Elt F)),
    nullary main_cst_105 (constant S_ .f32 0x00000000#32),
    binary main_v253 main_cst_105 main_v254 ((fun x v => Host.reduceAdd x v reducesTo_S2x40x8x128x204_S2x40x128x204_d2 h_S_) : (⟨S2x40x8x128x204, .f32⟩ : BufTy).Contents (Elt F) → (⟨S_, .f32⟩ : BufTy).Contents (Elt F) → (⟨S2x40x128x204, .f32⟩ : BufTy).Contents (Elt F)),
    nullary main_cst_106 (constant S_ .f32 0x41000000#32),
    unary main_cst_106 main_v255 (broadcastInDim S2x40x128x204 ![] bcast_S_S2x40x128x204 : (⟨S_, .f32⟩ : BufTy).Contents (Elt F) → (⟨S2x40x128x204, .f32⟩ : BufTy).Contents (Elt F)),
    binary main_v254 main_v255 main_v256 (Host.divf : (⟨S2x40x128x204, .f32⟩ : BufTy).Contents (Elt F) → (⟨S2x40x128x204, .f32⟩ : BufTy).Contents (Elt F) → (⟨S2x40x128x204, .f32⟩ : BufTy).Contents (Elt F)),
    nullary main_c_107 (constantI S_ 32 0#32),
    TRef.unary (TRef.of (T := ⟨S_, .i32⟩) main_c_107) (TRef.of (T := ⟨S_, .f32⟩) main_call35_v0) (sitofp .f32),
    TRef.binary (TRef.of (T := ⟨S2x40x128x204, .f32⟩) main_v256) (TRef.of (T := ⟨S_, .f32⟩) main_call35_v0) (TRef.of (T := ⟨S2x40x128x240, .f32⟩) main_v257) (fun x v => pad S2x40x128x240 ![0, 0, 0, 36] ![0, 0, 0, 0] ![0, 0, 0, 0] x v pads_S2x40x128x204_S2x40x128x240_000_000_000_3600 h_S_),
    unary main_v0 main_v258 ((extractStridedSlice S2x40x8x128x203 ![0, 0, 0, 0, 37] · slices_S2x40x8x128x240_S2x40x8x128x203_0_0_0_0_37) : (⟨S2x40x8x128x240, .f32⟩ : BufTy).Contents (Elt F) → (⟨S2x40x8x128x203, .f32⟩ : BufTy).Contents (Elt F)),
    unary main_v1 main_v259 ((extractStridedSlice S2x40x8x128x203 ![0, 0, 0, 0, 0] · slices_S2x40x8x128x240_S2x40x8x128x203_0_0_0_0_0) : (⟨S2x40x8x128x240, .f32⟩ : BufTy).Contents (Elt F) → (⟨S2x40x8x128x203, .f32⟩ : BufTy).Contents (Elt F)),
    binary main_v258 main_v259 main_v260 (mulf : (⟨S2x40x8x128x203, .f32⟩ : BufTy).Contents (Elt F) → (⟨S2x40x8x128x203, .f32⟩ : BufTy).Contents (Elt F) → (⟨S2x40x8x128x203, .f32⟩ : BufTy).Contents (Elt F)),
    nullary main_cst_108 (constant S_ .f32 0x00000000#32),
    binary main_v260 main_cst_108 main_v261 ((fun x v => Host.reduceAdd x v reducesTo_S2x40x8x128x203_S2x40x128x203_d2 h_S_) : (⟨S2x40x8x128x203, .f32⟩ : BufTy).Contents (Elt F) → (⟨S_, .f32⟩ : BufTy).Contents (Elt F) → (⟨S2x40x128x203, .f32⟩ : BufTy).Contents (Elt F)),
    nullary main_cst_109 (constant S_ .f32 0x41000000#32),
    unary main_cst_109 main_v262 (broadcastInDim S2x40x128x203 ![] bcast_S_S2x40x128x203 : (⟨S_, .f32⟩ : BufTy).Contents (Elt F) → (⟨S2x40x128x203, .f32⟩ : BufTy).Contents (Elt F)),
    binary main_v261 main_v262 main_v263 (Host.divf : (⟨S2x40x128x203, .f32⟩ : BufTy).Contents (Elt F) → (⟨S2x40x128x203, .f32⟩ : BufTy).Contents (Elt F) → (⟨S2x40x128x203, .f32⟩ : BufTy).Contents (Elt F)),
    nullary main_c_110 (constantI S_ 32 0#32),
    TRef.unary (TRef.of (T := ⟨S_, .i32⟩) main_c_110) (TRef.of (T := ⟨S_, .f32⟩) main_call36_v0) (sitofp .f32),
    TRef.binary (TRef.of (T := ⟨S2x40x128x203, .f32⟩) main_v263) (TRef.of (T := ⟨S_, .f32⟩) main_call36_v0) (TRef.of (T := ⟨S2x40x128x240, .f32⟩) main_v264) (fun x v => pad S2x40x128x240 ![0, 0, 0, 37] ![0, 0, 0, 0] ![0, 0, 0, 0] x v pads_S2x40x128x203_S2x40x128x240_000_000_000_3700 h_S_),
    unary main_v0 main_v265 ((extractStridedSlice S2x40x8x128x202 ![0, 0, 0, 0, 38] · slices_S2x40x8x128x240_S2x40x8x128x202_0_0_0_0_38) : (⟨S2x40x8x128x240, .f32⟩ : BufTy).Contents (Elt F) → (⟨S2x40x8x128x202, .f32⟩ : BufTy).Contents (Elt F)),
    unary main_v1 main_v266 ((extractStridedSlice S2x40x8x128x202 ![0, 0, 0, 0, 0] · slices_S2x40x8x128x240_S2x40x8x128x202_0_0_0_0_0) : (⟨S2x40x8x128x240, .f32⟩ : BufTy).Contents (Elt F) → (⟨S2x40x8x128x202, .f32⟩ : BufTy).Contents (Elt F)),
    binary main_v265 main_v266 main_v267 (mulf : (⟨S2x40x8x128x202, .f32⟩ : BufTy).Contents (Elt F) → (⟨S2x40x8x128x202, .f32⟩ : BufTy).Contents (Elt F) → (⟨S2x40x8x128x202, .f32⟩ : BufTy).Contents (Elt F)),
    nullary main_cst_111 (constant S_ .f32 0x00000000#32),
    binary main_v267 main_cst_111 main_v268 ((fun x v => Host.reduceAdd x v reducesTo_S2x40x8x128x202_S2x40x128x202_d2 h_S_) : (⟨S2x40x8x128x202, .f32⟩ : BufTy).Contents (Elt F) → (⟨S_, .f32⟩ : BufTy).Contents (Elt F) → (⟨S2x40x128x202, .f32⟩ : BufTy).Contents (Elt F)),
    nullary main_cst_112 (constant S_ .f32 0x41000000#32),
    unary main_cst_112 main_v269 (broadcastInDim S2x40x128x202 ![] bcast_S_S2x40x128x202 : (⟨S_, .f32⟩ : BufTy).Contents (Elt F) → (⟨S2x40x128x202, .f32⟩ : BufTy).Contents (Elt F)),
    binary main_v268 main_v269 main_v270 (Host.divf : (⟨S2x40x128x202, .f32⟩ : BufTy).Contents (Elt F) → (⟨S2x40x128x202, .f32⟩ : BufTy).Contents (Elt F) → (⟨S2x40x128x202, .f32⟩ : BufTy).Contents (Elt F)),
    nullary main_c_113 (constantI S_ 32 0#32),
    TRef.unary (TRef.of (T := ⟨S_, .i32⟩) main_c_113) (TRef.of (T := ⟨S_, .f32⟩) main_call37_v0) (sitofp .f32),
    TRef.binary (TRef.of (T := ⟨S2x40x128x202, .f32⟩) main_v270) (TRef.of (T := ⟨S_, .f32⟩) main_call37_v0) (TRef.of (T := ⟨S2x40x128x240, .f32⟩) main_v271) (fun x v => pad S2x40x128x240 ![0, 0, 0, 38] ![0, 0, 0, 0] ![0, 0, 0, 0] x v pads_S2x40x128x202_S2x40x128x240_000_000_000_3800 h_S_),
    unary main_v0 main_v272 ((extractStridedSlice S2x40x8x128x201 ![0, 0, 0, 0, 39] · slices_S2x40x8x128x240_S2x40x8x128x201_0_0_0_0_39) : (⟨S2x40x8x128x240, .f32⟩ : BufTy).Contents (Elt F) → (⟨S2x40x8x128x201, .f32⟩ : BufTy).Contents (Elt F)),
    unary main_v1 main_v273 ((extractStridedSlice S2x40x8x128x201 ![0, 0, 0, 0, 0] · slices_S2x40x8x128x240_S2x40x8x128x201_0_0_0_0_0) : (⟨S2x40x8x128x240, .f32⟩ : BufTy).Contents (Elt F) → (⟨S2x40x8x128x201, .f32⟩ : BufTy).Contents (Elt F)),
    binary main_v272 main_v273 main_v274 (mulf : (⟨S2x40x8x128x201, .f32⟩ : BufTy).Contents (Elt F) → (⟨S2x40x8x128x201, .f32⟩ : BufTy).Contents (Elt F) → (⟨S2x40x8x128x201, .f32⟩ : BufTy).Contents (Elt F)),
    nullary main_cst_114 (constant S_ .f32 0x00000000#32),
    binary main_v274 main_cst_114 main_v275 ((fun x v => Host.reduceAdd x v reducesTo_S2x40x8x128x201_S2x40x128x201_d2 h_S_) : (⟨S2x40x8x128x201, .f32⟩ : BufTy).Contents (Elt F) → (⟨S_, .f32⟩ : BufTy).Contents (Elt F) → (⟨S2x40x128x201, .f32⟩ : BufTy).Contents (Elt F)),
    nullary main_cst_115 (constant S_ .f32 0x41000000#32),
    unary main_cst_115 main_v276 (broadcastInDim S2x40x128x201 ![] bcast_S_S2x40x128x201 : (⟨S_, .f32⟩ : BufTy).Contents (Elt F) → (⟨S2x40x128x201, .f32⟩ : BufTy).Contents (Elt F)),
    binary main_v275 main_v276 main_v277 (Host.divf : (⟨S2x40x128x201, .f32⟩ : BufTy).Contents (Elt F) → (⟨S2x40x128x201, .f32⟩ : BufTy).Contents (Elt F) → (⟨S2x40x128x201, .f32⟩ : BufTy).Contents (Elt F)),
    nullary main_c_116 (constantI S_ 32 0#32),
    TRef.unary (TRef.of (T := ⟨S_, .i32⟩) main_c_116) (TRef.of (T := ⟨S_, .f32⟩) main_call38_v0) (sitofp .f32),
    TRef.binary (TRef.of (T := ⟨S2x40x128x201, .f32⟩) main_v277) (TRef.of (T := ⟨S_, .f32⟩) main_call38_v0) (TRef.of (T := ⟨S2x40x128x240, .f32⟩) main_v278) (fun x v => pad S2x40x128x240 ![0, 0, 0, 39] ![0, 0, 0, 0] ![0, 0, 0, 0] x v pads_S2x40x128x201_S2x40x128x240_000_000_000_3900 h_S_),
    unary main_v0 main_v279 ((extractStridedSlice S2x40x8x128x200 ![0, 0, 0, 0, 40] · slices_S2x40x8x128x240_S2x40x8x128x200_0_0_0_0_40) : (⟨S2x40x8x128x240, .f32⟩ : BufTy).Contents (Elt F) → (⟨S2x40x8x128x200, .f32⟩ : BufTy).Contents (Elt F)),
    unary main_v1 main_v280 ((extractStridedSlice S2x40x8x128x200 ![0, 0, 0, 0, 0] · slices_S2x40x8x128x240_S2x40x8x128x200_0_0_0_0_0) : (⟨S2x40x8x128x240, .f32⟩ : BufTy).Contents (Elt F) → (⟨S2x40x8x128x200, .f32⟩ : BufTy).Contents (Elt F)),
    binary main_v279 main_v280 main_v281 (mulf : (⟨S2x40x8x128x200, .f32⟩ : BufTy).Contents (Elt F) → (⟨S2x40x8x128x200, .f32⟩ : BufTy).Contents (Elt F) → (⟨S2x40x8x128x200, .f32⟩ : BufTy).Contents (Elt F)),
    nullary main_cst_117 (constant S_ .f32 0x00000000#32),
    binary main_v281 main_cst_117 main_v282 ((fun x v => Host.reduceAdd x v reducesTo_S2x40x8x128x200_S2x40x128x200_d2 h_S_) : (⟨S2x40x8x128x200, .f32⟩ : BufTy).Contents (Elt F) → (⟨S_, .f32⟩ : BufTy).Contents (Elt F) → (⟨S2x40x128x200, .f32⟩ : BufTy).Contents (Elt F)),
    nullary main_cst_118 (constant S_ .f32 0x41000000#32),
    unary main_cst_118 main_v283 (broadcastInDim S2x40x128x200 ![] bcast_S_S2x40x128x200 : (⟨S_, .f32⟩ : BufTy).Contents (Elt F) → (⟨S2x40x128x200, .f32⟩ : BufTy).Contents (Elt F)),
    binary main_v282 main_v283 main_v284 (Host.divf : (⟨S2x40x128x200, .f32⟩ : BufTy).Contents (Elt F) → (⟨S2x40x128x200, .f32⟩ : BufTy).Contents (Elt F) → (⟨S2x40x128x200, .f32⟩ : BufTy).Contents (Elt F)),
    nullary main_c_119 (constantI S_ 32 0#32),
    TRef.unary (TRef.of (T := ⟨S_, .i32⟩) main_c_119) (TRef.of (T := ⟨S_, .f32⟩) main_call39_v0) (sitofp .f32),
    TRef.binary (TRef.of (T := ⟨S2x40x128x200, .f32⟩) main_v284) (TRef.of (T := ⟨S_, .f32⟩) main_call39_v0) (TRef.of (T := ⟨S2x40x128x240, .f32⟩) main_v285) (fun x v => pad S2x40x128x240 ![0, 0, 0, 40] ![0, 0, 0, 0] ![0, 0, 0, 0] x v pads_S2x40x128x200_S2x40x128x240_000_000_000_4000 h_S_),
    unary main_v0 main_v286 ((extractStridedSlice S2x40x8x128x199 ![0, 0, 0, 0, 41] · slices_S2x40x8x128x240_S2x40x8x128x199_0_0_0_0_41) : (⟨S2x40x8x128x240, .f32⟩ : BufTy).Contents (Elt F) → (⟨S2x40x8x128x199, .f32⟩ : BufTy).Contents (Elt F)),
    unary main_v1 main_v287 ((extractStridedSlice S2x40x8x128x199 ![0, 0, 0, 0, 0] · slices_S2x40x8x128x240_S2x40x8x128x199_0_0_0_0_0) : (⟨S2x40x8x128x240, .f32⟩ : BufTy).Contents (Elt F) → (⟨S2x40x8x128x199, .f32⟩ : BufTy).Contents (Elt F)),
    binary main_v286 main_v287 main_v288 (mulf : (⟨S2x40x8x128x199, .f32⟩ : BufTy).Contents (Elt F) → (⟨S2x40x8x128x199, .f32⟩ : BufTy).Contents (Elt F) → (⟨S2x40x8x128x199, .f32⟩ : BufTy).Contents (Elt F)),
    nullary main_cst_120 (constant S_ .f32 0x00000000#32),
    binary main_v288 main_cst_120 main_v289 ((fun x v => Host.reduceAdd x v reducesTo_S2x40x8x128x199_S2x40x128x199_d2 h_S_) : (⟨S2x40x8x128x199, .f32⟩ : BufTy).Contents (Elt F) → (⟨S_, .f32⟩ : BufTy).Contents (Elt F) → (⟨S2x40x128x199, .f32⟩ : BufTy).Contents (Elt F)),
    nullary main_cst_121 (constant S_ .f32 0x41000000#32),
    unary main_cst_121 main_v290 (broadcastInDim S2x40x128x199 ![] bcast_S_S2x40x128x199 : (⟨S_, .f32⟩ : BufTy).Contents (Elt F) → (⟨S2x40x128x199, .f32⟩ : BufTy).Contents (Elt F)),
    binary main_v289 main_v290 main_v291 (Host.divf : (⟨S2x40x128x199, .f32⟩ : BufTy).Contents (Elt F) → (⟨S2x40x128x199, .f32⟩ : BufTy).Contents (Elt F) → (⟨S2x40x128x199, .f32⟩ : BufTy).Contents (Elt F)),
    nullary main_c_122 (constantI S_ 32 0#32),
    TRef.unary (TRef.of (T := ⟨S_, .i32⟩) main_c_122) (TRef.of (T := ⟨S_, .f32⟩) main_call40_v0) (sitofp .f32),
    TRef.binary (TRef.of (T := ⟨S2x40x128x199, .f32⟩) main_v291) (TRef.of (T := ⟨S_, .f32⟩) main_call40_v0) (TRef.of (T := ⟨S2x40x128x240, .f32⟩) main_v292) (fun x v => pad S2x40x128x240 ![0, 0, 0, 41] ![0, 0, 0, 0] ![0, 0, 0, 0] x v pads_S2x40x128x199_S2x40x128x240_000_000_000_4100 h_S_),
    unary main_v0 main_v293 ((extractStridedSlice S2x40x8x128x198 ![0, 0, 0, 0, 42] · slices_S2x40x8x128x240_S2x40x8x128x198_0_0_0_0_42) : (⟨S2x40x8x128x240, .f32⟩ : BufTy).Contents (Elt F) → (⟨S2x40x8x128x198, .f32⟩ : BufTy).Contents (Elt F)),
    unary main_v1 main_v294 ((extractStridedSlice S2x40x8x128x198 ![0, 0, 0, 0, 0] · slices_S2x40x8x128x240_S2x40x8x128x198_0_0_0_0_0) : (⟨S2x40x8x128x240, .f32⟩ : BufTy).Contents (Elt F) → (⟨S2x40x8x128x198, .f32⟩ : BufTy).Contents (Elt F)) ]

set_option maxRecDepth 8192 in
set_option maxHeartbeats 4000000 in
theorem part6_eq (c : Dev nD) : main_part6 (F := F) c = seq p6 := rfl

theorem p6_sub : (p6 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p6_fresh : ∀ op ∈ (p6 : List (HloOp τ sig (Elt F))), op.fresh = ∅ := by
  intro _ h; (repeat (cases h with | head => rfl | tail _ h => ?_)); exact nomatch h

/-- The buffers the part's operations write. -/
abbrev p6_W : List (Ref sig .tc) := [main_v253, main_cst_105, main_v254, main_cst_106, main_v255, main_v256, main_c_107, main_call35_v0, main_v257, main_v258, main_v259, main_v260, main_cst_108, main_v261, main_cst_109, main_v262, main_v263, main_c_110, main_call36_v0, main_v264, main_v265, main_v266, main_v267, main_cst_111, main_v268, main_cst_112, main_v269, main_v270, main_c_113, main_call37_v0, main_v271, main_v272, main_v273, main_v274, main_cst_114, main_v275, main_cst_115, main_v276, main_v277, main_c_116, main_call38_v0, main_v278, main_v279, main_v280, main_v281, main_cst_117, main_v282, main_cst_118, main_v283, main_v284, main_c_119, main_call39_v0, main_v285, main_v286, main_v287, main_v288, main_cst_120, main_v289, main_cst_121, main_v290, main_v291, main_c_122, main_call40_v0, main_v292, main_v293, main_v294]

theorem p6_writes : (p6 : List (HloOp τ sig (Elt F))).Forall fun op => op.writes ⊆ (p6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep6_main_arg0 (W : Valuation τ sig (Elt F)) (L R : (⟨S2x320x128x240, .f32⟩ : BufTy).Contents (Elt F)) : after p6 W (Proc.devRef .tc main_arg0) = W (Proc.devRef .tc main_arg0) :=
  after_of_writes_sub p6 W p6_writes (by decide)

theorem keep6_main_arg1 (W : Valuation τ sig (Elt F)) (L R : (⟨S2x320x128x240, .f32⟩ : BufTy).Contents (Elt F)) : after p6 W (Proc.devRef .tc main_arg1) = W (Proc.devRef .tc main_arg1) :=
  after_of_writes_sub p6 W p6_writes (by decide)

theorem keep6_main_v0 (W : Valuation τ sig (Elt F)) (L R : (⟨S2x320x128x240, .f32⟩ : BufTy).Contents (Elt F)) : after p6 W (Proc.devRef .tc main_v0) = W (Proc.devRef .tc main_v0) :=
  after_of_writes_sub p6 W p6_writes (by decide)

theorem keep6_main_v1 (W : Valuation τ sig (Elt F)) (L R : (⟨S2x320x128x240, .f32⟩ : BufTy).Contents (Elt F)) : after p6 W (Proc.devRef .tc main_v1) = W (Proc.devRef .tc main_v1) :=
  after_of_writes_sub p6 W p6_writes (by decide)

theorem keep6_main_v5 (W : Valuation τ sig (Elt F)) (L R : (⟨S2x320x128x240, .f32⟩ : BufTy).Contents (Elt F)) : after p6 W (Proc.devRef .tc main_v5) = W (Proc.devRef .tc main_v5) :=
  after_of_writes_sub p6 W p6_writes (by decide)

theorem keep6_main_v12 (W : Valuation τ sig (Elt F)) (L R : (⟨S2x320x128x240, .f32⟩ : BufTy).Contents (Elt F)) : after p6 W (Proc.devRef .tc main_v12) = W (Proc.devRef .tc main_v12) :=
  after_of_writes_sub p6 W p6_writes (by decide)

theorem keep6_main_v19 (W : Valuation τ sig (Elt F)) (L R : (⟨S2x320x128x240, .f32⟩ : BufTy).Contents (Elt F)) : after p6 W (Proc.devRef .tc main_v19) = W (Proc.devRef .tc main_v19) :=
  after_of_writes_sub p6 W p6_writes (by decide)

theorem keep6_main_v26 (W : Valuation τ sig (Elt F)) (L R : (⟨S2x320x128x240, .f32⟩ : BufTy).Contents (Elt F)) : after p6 W (Proc.devRef .tc main_v26) = W (Proc.devRef .tc main_v26) :=
  after_of_writes_sub p6 W p6_writes (by decide)

theorem keep6_main_v33 (W : Valuation τ sig (Elt F)) (L R : (⟨S2x320x128x240, .f32⟩ : BufTy).Contents (Elt F)) : after p6 W (Proc.devRef .tc main_v33) = W (Proc.devRef .tc main_v33) :=
  after_of_writes_sub p6 W p6_writes (by decide)

theorem keep6_main_v40 (W : Valuation τ sig (Elt F)) (L R : (⟨S2x320x128x240, .f32⟩ : BufTy).Contents (Elt F)) : after p6 W (Proc.devRef .tc main_v40) = W (Proc.devRef .tc main_v40) :=
  after_of_writes_sub p6 W p6_writes (by decide)

theorem keep6_main_v47 (W : Valuation τ sig (Elt F)) (L R : (⟨S2x320x128x240, .f32⟩ : BufTy).Contents (Elt F)) : after p6 W (Proc.devRef .tc main_v47) = W (Proc.devRef .tc main_v47) :=
  after_of_writes_sub p6 W p6_writes (by decide)

theorem keep6_main_v54 (W : Valuation τ sig (Elt F)) (L R : (⟨S2x320x128x240, .f32⟩ : BufTy).Contents (Elt F)) : after p6 W (Proc.devRef .tc main_v54) = W (Proc.devRef .tc main_v54) :=
  after_of_writes_sub p6 W p6_writes (by decide)

theorem keep6_main_v61 (W : Valuation τ sig (Elt F)) (L R : (⟨S2x320x128x240, .f32⟩ : BufTy).Contents (Elt F)) : after p6 W (Proc.devRef .tc main_v61) = W (Proc.devRef .tc main_v61) :=
  after_of_writes_sub p6 W p6_writes (by decide)

theorem keep6_main_v68 (W : Valuation τ sig (Elt F)) (L R : (⟨S2x320x128x240, .f32⟩ : BufTy).Contents (Elt F)) : after p6 W (Proc.devRef .tc main_v68) = W (Proc.devRef .tc main_v68) :=
  after_of_writes_sub p6 W p6_writes (by decide)

theorem keep6_main_v75 (W : Valuation τ sig (Elt F)) (L R : (⟨S2x320x128x240, .f32⟩ : BufTy).Contents (Elt F)) : after p6 W (Proc.devRef .tc main_v75) = W (Proc.devRef .tc main_v75) :=
  after_of_writes_sub p6 W p6_writes (by decide)

theorem keep6_main_v82 (W : Valuation τ sig (Elt F)) (L R : (⟨S2x320x128x240, .f32⟩ : BufTy).Contents (Elt F)) : after p6 W (Proc.devRef .tc main_v82) = W (Proc.devRef .tc main_v82) :=
  after_of_writes_sub p6 W p6_writes (by decide)

theorem keep6_main_v89 (W : Valuation τ sig (Elt F)) (L R : (⟨S2x320x128x240, .f32⟩ : BufTy).Contents (Elt F)) : after p6 W (Proc.devRef .tc main_v89) = W (Proc.devRef .tc main_v89) :=
  after_of_writes_sub p6 W p6_writes (by decide)

theorem keep6_main_v96 (W : Valuation τ sig (Elt F)) (L R : (⟨S2x320x128x240, .f32⟩ : BufTy).Contents (Elt F)) : after p6 W (Proc.devRef .tc main_v96) = W (Proc.devRef .tc main_v96) :=
  after_of_writes_sub p6 W p6_writes (by decide)

theorem keep6_main_v103 (W : Valuation τ sig (Elt F)) (L R : (⟨S2x320x128x240, .f32⟩ : BufTy).Contents (Elt F)) : after p6 W (Proc.devRef .tc main_v103) = W (Proc.devRef .tc main_v103) :=
  after_of_writes_sub p6 W p6_writes (by decide)

theorem keep6_main_v110 (W : Valuation τ sig (Elt F)) (L R : (⟨S2x320x128x240, .f32⟩ : BufTy).Contents (Elt F)) : after p6 W (Proc.devRef .tc main_v110) = W (Proc.devRef .tc main_v110) :=
  after_of_writes_sub p6 W p6_writes (by decide)

theorem keep6_main_v117 (W : Valuation τ sig (Elt F)) (L R : (⟨S2x320x128x240, .f32⟩ : BufTy).Contents (Elt F)) : after p6 W (Proc.devRef .tc main_v117) = W (Proc.devRef .tc main_v117) :=
  after_of_writes_sub p6 W p6_writes (by decide)

theorem keep6_main_v124 (W : Valuation τ sig (Elt F)) (L R : (⟨S2x320x128x240, .f32⟩ : BufTy).Contents (Elt F)) : after p6 W (Proc.devRef .tc main_v124) = W (Proc.devRef .tc main_v124) :=
  after_of_writes_sub p6 W p6_writes (by decide)

theorem keep6_main_v131 (W : Valuation τ sig (Elt F)) (L R : (⟨S2x320x128x240, .f32⟩ : BufTy).Contents (Elt F)) : after p6 W (Proc.devRef .tc main_v131) = W (Proc.devRef .tc main_v131) :=
  after_of_writes_sub p6 W p6_writes (by decide)

theorem keep6_main_v138 (W : Valuation τ sig (Elt F)) (L R : (⟨S2x320x128x240, .f32⟩ : BufTy).Contents (Elt F)) : after p6 W (Proc.devRef .tc main_v138) = W (Proc.devRef .tc main_v138) :=
  after_of_writes_sub p6 W p6_writes (by decide)

theorem keep6_main_v145 (W : Valuation τ sig (Elt F)) (L R : (⟨S2x320x128x240, .f32⟩ : BufTy).Contents (Elt F)) : after p6 W (Proc.devRef .tc main_v145) = W (Proc.devRef .tc main_v145) :=
  after_of_writes_sub p6 W p6_writes (by decide)

theorem keep6_main_v152 (W : Valuation τ sig (Elt F)) (L R : (⟨S2x320x128x240, .f32⟩ : BufTy).Contents (Elt F)) : after p6 W (Proc.devRef .tc main_v152) = W (Proc.devRef .tc main_v152) :=
  after_of_writes_sub p6 W p6_writes (by decide)

theorem keep6_main_v159 (W : Valuation τ sig (Elt F)) (L R : (⟨S2x320x128x240, .f32⟩ : BufTy).Contents (Elt F)) : after p6 W (Proc.devRef .tc main_v159) = W (Proc.devRef .tc main_v159) :=
  after_of_writes_sub p6 W p6_writes (by decide)

theorem keep6_main_v166 (W : Valuation τ sig (Elt F)) (L R : (⟨S2x320x128x240, .f32⟩ : BufTy).Contents (Elt F)) : after p6 W (Proc.devRef .tc main_v166) = W (Proc.devRef .tc main_v166) :=
  after_of_writes_sub p6 W p6_writes (by decide)

theorem keep6_main_v173 (W : Valuation τ sig (Elt F)) (L R : (⟨S2x320x128x240, .f32⟩ : BufTy).Contents (Elt F)) : after p6 W (Proc.devRef .tc main_v173) = W (Proc.devRef .tc main_v173) :=
  after_of_writes_sub p6 W p6_writes (by decide)

theorem keep6_main_v180 (W : Valuation τ sig (Elt F)) (L R : (⟨S2x320x128x240, .f32⟩ : BufTy).Contents (Elt F)) : after p6 W (Proc.devRef .tc main_v180) = W (Proc.devRef .tc main_v180) :=
  after_of_writes_sub p6 W p6_writes (by decide)

theorem keep6_main_v187 (W : Valuation τ sig (Elt F)) (L R : (⟨S2x320x128x240, .f32⟩ : BufTy).Contents (Elt F)) : after p6 W (Proc.devRef .tc main_v187) = W (Proc.devRef .tc main_v187) :=
  after_of_writes_sub p6 W p6_writes (by decide)

theorem keep6_main_v194 (W : Valuation τ sig (Elt F)) (L R : (⟨S2x320x128x240, .f32⟩ : BufTy).Contents (Elt F)) : after p6 W (Proc.devRef .tc main_v194) = W (Proc.devRef .tc main_v194) :=
  after_of_writes_sub p6 W p6_writes (by decide)

theorem keep6_main_v201 (W : Valuation τ sig (Elt F)) (L R : (⟨S2x320x128x240, .f32⟩ : BufTy).Contents (Elt F)) : after p6 W (Proc.devRef .tc main_v201) = W (Proc.devRef .tc main_v201) :=
  after_of_writes_sub p6 W p6_writes (by decide)

theorem keep6_main_v208 (W : Valuation τ sig (Elt F)) (L R : (⟨S2x320x128x240, .f32⟩ : BufTy).Contents (Elt F)) : after p6 W (Proc.devRef .tc main_v208) = W (Proc.devRef .tc main_v208) :=
  after_of_writes_sub p6 W p6_writes (by decide)

theorem keep6_main_v215 (W : Valuation τ sig (Elt F)) (L R : (⟨S2x320x128x240, .f32⟩ : BufTy).Contents (Elt F)) : after p6 W (Proc.devRef .tc main_v215) = W (Proc.devRef .tc main_v215) :=
  after_of_writes_sub p6 W p6_writes (by decide)

theorem keep6_main_v222 (W : Valuation τ sig (Elt F)) (L R : (⟨S2x320x128x240, .f32⟩ : BufTy).Contents (Elt F)) : after p6 W (Proc.devRef .tc main_v222) = W (Proc.devRef .tc main_v222) :=
  after_of_writes_sub p6 W p6_writes (by decide)

theorem keep6_main_v229 (W : Valuation τ sig (Elt F)) (L R : (⟨S2x320x128x240, .f32⟩ : BufTy).Contents (Elt F)) : after p6 W (Proc.devRef .tc main_v229) = W (Proc.devRef .tc main_v229) :=
  after_of_writes_sub p6 W p6_writes (by decide)

theorem keep6_main_v236 (W : Valuation τ sig (Elt F)) (L R : (⟨S2x320x128x240, .f32⟩ : BufTy).Contents (Elt F)) : after p6 W (Proc.devRef .tc main_v236) = W (Proc.devRef .tc main_v236) :=
  after_of_writes_sub p6 W p6_writes (by decide)

theorem keep6_main_v243 (W : Valuation τ sig (Elt F)) (L R : (⟨S2x320x128x240, .f32⟩ : BufTy).Contents (Elt F)) : after p6 W (Proc.devRef .tc main_v243) = W (Proc.devRef .tc main_v243) :=
  after_of_writes_sub p6 W p6_writes (by decide)

theorem keep6_main_v250 (W : Valuation τ sig (Elt F)) (L R : (⟨S2x320x128x240, .f32⟩ : BufTy).Contents (Elt F)) : after p6 W (Proc.devRef .tc main_v250) = W (Proc.devRef .tc main_v250) :=
  after_of_writes_sub p6 W p6_writes (by decide)

theorem out6_main_v257 (W : Valuation τ sig (Elt F)) (L R : (⟨S2x320x128x240, .f32⟩ : BufTy).Contents (Elt F))
    (h_main_v251 : W (Proc.devRef .tc main_v251) = val_main_v251 (F := F) L) (h_main_v252 : W (Proc.devRef .tc main_v252) = val_main_v252 (F := F) R) :
    after p6 W (Proc.devRef .tc main_v257) = val_main_v257 (F := F) L R := by
  after_results_simp
  simp only [h_main_v251, h_main_v252]
  rfl

theorem out6_main_v264 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p6 W (Proc.devRef .tc main_v264) = val_main_v264 (F := F) L R := by
  after_results_simp
  simp only [h_main_v0, h_main_v1]
  rfl

theorem out6_main_v271 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p6 W (Proc.devRef .tc main_v271) = val_main_v271 (F := F) L R := by
  after_results_simp
  simp only [h_main_v0, h_main_v1]
  rfl

theorem out6_main_v278 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p6 W (Proc.devRef .tc main_v278) = val_main_v278 (F := F) L R := by
  after_results_simp
  simp only [h_main_v0, h_main_v1]
  rfl

theorem out6_main_v285 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p6 W (Proc.devRef .tc main_v285) = val_main_v285 (F := F) L R := by
  after_results_simp
  simp only [h_main_v0, h_main_v1]
  rfl

theorem out6_main_v292 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p6 W (Proc.devRef .tc main_v292) = val_main_v292 (F := F) L R := by
  after_results_simp
  simp only [h_main_v0, h_main_v1]
  rfl

theorem out6_main_v293 (W : Valuation τ sig (Elt F)) (L R : (⟨S2x320x128x240, .f32⟩ : BufTy).Contents (Elt F))
    (h_main_v0 : W (Proc.devRef .tc main_v0) = val_main_v0 (F := F) L) :
    after p6 W (Proc.devRef .tc main_v293) = val_main_v293 (F := F) L := by
  after_results_simp
  simp only [h_main_v0]
  rfl

theorem out6_main_v294 (W : Valuation τ sig (Elt F)) (L R : (⟨S2x320x128x240, .f32⟩ : BufTy).Contents (Elt F))
    (h_main_v1 : W (Proc.devRef .tc main_v1) = val_main_v1 (F := F) R) :
    after p6 W (Proc.devRef .tc main_v294) = val_main_v294 (F := F) R := by
  after_results_simp
  simp only [h_main_v1]
  rfl

end Cert.ReferenceIdeal.RunP

end
-- ==== Proof.RefRun7.lean ====
/- Gen/ReferenceIdeal/Run.lean and the stage names of Gen/ReferenceIdeal/Read.lean. Part 7 of @main (operations 462 to 527): the part is the line of its operations; every operation's buffers are TensorCore buffers; and what the line leaves in each buffer a later part reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 7, in order. -/
abbrev p7 : List (HloOp τ sig (Elt F)) :=
  [ binary main_v293 main_v294 main_v295 (mulf : (⟨S2x40x8x128x198, .f32⟩ : BufTy).Contents (Elt F) → (⟨S2x40x8x128x198, .f32⟩ : BufTy).Contents (Elt F) → (⟨S2x40x8x128x198, .f32⟩ : BufTy).Contents (Elt F)),
    nullary main_cst_123 (constant S_ .f32 0x00000000#32),
    binary main_v295 main_cst_123 main_v296 ((fun x v => Host.reduceAdd x v reducesTo_S2x40x8x128x198_S2x40x128x198_d2 h_S_) : (⟨S2x40x8x128x198, .f32⟩ : BufTy).Contents (Elt F) → (⟨S_, .f32⟩ : BufTy).Contents (Elt F) → (⟨S2x40x128x198, .f32⟩ : BufTy).Contents (Elt F)),
    nullary main_cst_124 (constant S_ .f32 0x41000000#32),
    unary main_cst_124 main_v297 (broadcastInDim S2x40x128x198 ![] bcast_S_S2x40x128x198 : (⟨S_, .f32⟩ : BufTy).Contents (Elt F) → (⟨S2x40x128x198, .f32⟩ : BufTy).Contents (Elt F)),
    binary main_v296 main_v297 main_v298 (Host.divf : (⟨S2x40x128x198, .f32⟩ : BufTy).Contents (Elt F) → (⟨S2x40x128x198, .f32⟩ : BufTy).Contents (Elt F) → (⟨S2x40x128x198, .f32⟩ : BufTy).Contents (Elt F)),
    nullary main_c_125 (constantI S_ 32 0#32),
    TRef.unary (TRef.of (T := ⟨S_, .i32⟩) main_c_125) (TRef.of (T := ⟨S_, .f32⟩) main_call41_v0) (sitofp .f32),
    TRef.binary (TRef.of (T := ⟨S2x40x128x198, .f32⟩) main_v298) (TRef.of (T := ⟨S_, .f32⟩) main_call41_v0) (TRef.of (T := ⟨S2x40x128x240, .f32⟩) main_v299) (fun x v => pad S2x40x128x240 ![0, 0, 0, 42] ![0, 0, 0, 0] ![0, 0, 0, 0] x v pads_S2x40x128x198_S2x40x128x240_000_000_000_4200 h_S_),
    unary main_v0 main_v300 ((extractStridedSlice S2x40x8x128x197 ![0, 0, 0, 0, 43] · slices_S2x40x8x128x240_S2x40x8x128x197_0_0_0_0_43) : (⟨S2x40x8x128x240, .f32⟩ : BufTy).Contents (Elt F) → (⟨S2x40x8x128x197, .f32⟩ : BufTy).Contents (Elt F)),
    unary main_v1 main_v301 ((extractStridedSlice S2x40x8x128x197 ![0, 0, 0, 0, 0] · slices_S2x40x8x128x240_S2x40x8x128x197_0_0_0_0_0) : (⟨S2x40x8x128x240, .f32⟩ : BufTy).Contents (Elt F) → (⟨S2x40x8x128x197, .f32⟩ : BufTy).Contents (Elt F)),
    binary main_v300 main_v301 main_v302 (mulf : (⟨S2x40x8x128x197, .f32⟩ : BufTy).Contents (Elt F) → (⟨S2x40x8x128x197, .f32⟩ : BufTy).Contents (Elt F) → (⟨S2x40x8x128x197, .f32⟩ : BufTy).Contents (Elt F)),
    nullary main_cst_126 (constant S_ .f32 0x00000000#32),
    binary main_v302 main_cst_126 main_v303 ((fun x v => Host.reduceAdd x v reducesTo_S2x40x8x128x197_S2x40x128x197_d2 h_S_) : (⟨S2x40x8x128x197, .f32⟩ : BufTy).Contents (Elt F) → (⟨S_, .f32⟩ : BufTy).Contents (Elt F) → (⟨S2x40x128x197, .f32⟩ : BufTy).Contents (Elt F)),
    nullary main_cst_127 (constant S_ .f32 0x41000000#32),
    unary main_cst_127 main_v304 (broadcastInDim S2x40x128x197 ![] bcast_S_S2x40x128x197 : (⟨S_, .f32⟩ : BufTy).Contents (Elt F) → (⟨S2x40x128x197, .f32⟩ : BufTy).Contents (Elt F)),
    binary main_v303 main_v304 main_v305 (Host.divf : (⟨S2x40x128x197, .f32⟩ : BufTy).Contents (Elt F) → (⟨S2x40x128x197, .f32⟩ : BufTy).Contents (Elt F) → (⟨S2x40x128x197, .f32⟩ : BufTy).Contents (Elt F)),
    nullary main_c_128 (constantI S_ 32 0#32),
    TRef.unary (TRef.of (T := ⟨S_, .i32⟩) main_c_128) (TRef.of (T := ⟨S_, .f32⟩) main_call42_v0) (sitofp .f32),
    TRef.binary (TRef.of (T := ⟨S2x40x128x197, .f32⟩) main_v305) (TRef.of (T := ⟨S_, .f32⟩) main_call42_v0) (TRef.of (T := ⟨S2x40x128x240, .f32⟩) main_v306) (fun x v => pad S2x40x128x240 ![0, 0, 0, 43] ![0, 0, 0, 0] ![0, 0, 0, 0] x v pads_S2x40x128x197_S2x40x128x240_000_000_000_4300 h_S_),
    unary main_v0 main_v307 ((extractStridedSlice S2x40x8x128x196 ![0, 0, 0, 0, 44] · slices_S2x40x8x128x240_S2x40x8x128x196_0_0_0_0_44) : (⟨S2x40x8x128x240, .f32⟩ : BufTy).Contents (Elt F) → (⟨S2x40x8x128x196, .f32⟩ : BufTy).Contents (Elt F)),
    unary main_v1 main_v308 ((extractStridedSlice S2x40x8x128x196 ![0, 0, 0, 0, 0] · slices_S2x40x8x128x240_S2x40x8x128x196_0_0_0_0_0) : (⟨S2x40x8x128x240, .f32⟩ : BufTy).Contents (Elt F) → (⟨S2x40x8x128x196, .f32⟩ : BufTy).Contents (Elt F)),
    binary main_v307 main_v308 main_v309 (mulf : (⟨S2x40x8x128x196, .f32⟩ : BufTy).Contents (Elt F) → (⟨S2x40x8x128x196, .f32⟩ : BufTy).Contents (Elt F) → (⟨S2x40x8x128x196, .f32⟩ : BufTy).Contents (Elt F)),
    nullary main_cst_129 (constant S_ .f32 0x00000000#32),
    binary main_v309 main_cst_129 main_v310 ((fun x v => Host.reduceAdd x v reducesTo_S2x40x8x128x196_S2x40x128x196_d2 h_S_) : (⟨S2x40x8x128x196, .f32⟩ : BufTy).Contents (Elt F) → (⟨S_, .f32⟩ : BufTy).Contents (Elt F) → (⟨S2x40x128x196, .f32⟩ : BufTy).Contents (Elt F)),
    nullary main_cst_130 (constant S_ .f32 0x41000000#32),
    unary main_cst_130 main_v311 (broadcastInDim S2x40x128x196 ![] bcast_S_S2x40x128x196 : (⟨S_, .f32⟩ : BufTy).Contents (Elt F) → (⟨S2x40x128x196, .f32⟩ : BufTy).Contents (Elt F)),
    binary main_v310 main_v311 main_v312 (Host.divf : (⟨S2x40x128x196, .f32⟩ : BufTy).Contents (Elt F) → (⟨S2x40x128x196, .f32⟩ : BufTy).Contents (Elt F) → (⟨S2x40x128x196, .f32⟩ : BufTy).Contents (Elt F)),
    nullary main_c_131 (constantI S_ 32 0#32),
    TRef.unary (TRef.of (T := ⟨S_, .i32⟩) main_c_131) (TRef.of (T := ⟨S_, .f32⟩) main_call43_v0) (sitofp .f32),
    TRef.binary (TRef.of (T := ⟨S2x40x128x196, .f32⟩) main_v312) (TRef.of (T := ⟨S_, .f32⟩) main_call43_v0) (TRef.of (T := ⟨S2x40x128x240, .f32⟩) main_v313) (fun x v => pad S2x40x128x240 ![0, 0, 0, 44] ![0, 0, 0, 0] ![0, 0, 0, 0] x v pads_S2x40x128x196_S2x40x128x240_000_000_000_4400 h_S_),
    unary main_v0 main_v314 ((extractStridedSlice S2x40x8x128x195 ![0, 0, 0, 0, 45] · slices_S2x40x8x128x240_S2x40x8x128x195_0_0_0_0_45) : (⟨S2x40x8x128x240, .f32⟩ : BufTy).Contents (Elt F) → (⟨S2x40x8x128x195, .f32⟩ : BufTy).Contents (Elt F)),
    unary main_v1 main_v315 ((extractStridedSlice S2x40x8x128x195 ![0, 0, 0, 0, 0] · slices_S2x40x8x128x240_S2x40x8x128x195_0_0_0_0_0) : (⟨S2x40x8x128x240, .f32⟩ : BufTy).Contents (Elt F) → (⟨S2x40x8x128x195, .f32⟩ : BufTy).Contents (Elt F)),
    binary main_v314 main_v315 main_v316 (mulf : (⟨S2x40x8x128x195, .f32⟩ : BufTy).Contents (Elt F) → (⟨S2x40x8x128x195, .f32⟩ : BufTy).Contents (Elt F) → (⟨S2x40x8x128x195, .f32⟩ : BufTy).Contents (Elt F)),
    nullary main_cst_132 (constant S_ .f32 0x00000000#32),
    binary main_v316 main_cst_132 main_v317 ((fun x v => Host.reduceAdd x v reducesTo_S2x40x8x128x195_S2x40x128x195_d2 h_S_) : (⟨S2x40x8x128x195, .f32⟩ : BufTy).Contents (Elt F) → (⟨S_, .f32⟩ : BufTy).Contents (Elt F) → (⟨S2x40x128x195, .f32⟩ : BufTy).Contents (Elt F)),
    nullary main_cst_133 (constant S_ .f32 0x41000000#32),
    unary main_cst_133 main_v318 (broadcastInDim S2x40x128x195 ![] bcast_S_S2x40x128x195 : (⟨S_, .f32⟩ : BufTy).Contents (Elt F) → (⟨S2x40x128x195, .f32⟩ : BufTy).Contents (Elt F)),
    binary main_v317 main_v318 main_v319 (Host.divf : (⟨S2x40x128x195, .f32⟩ : BufTy).Contents (Elt F) → (⟨S2x40x128x195, .f32⟩ : BufTy).Contents (Elt F) → (⟨S2x40x128x195, .f32⟩ : BufTy).Contents (Elt F)),
    nullary main_c_134 (constantI S_ 32 0#32),
    TRef.unary (TRef.of (T := ⟨S_, .i32⟩) main_c_134) (TRef.of (T := ⟨S_, .f32⟩) main_call44_v0) (sitofp .f32),
    TRef.binary (TRef.of (T := ⟨S2x40x128x195, .f32⟩) main_v319) (TRef.of (T := ⟨S_, .f32⟩) main_call44_v0) (TRef.of (T := ⟨S2x40x128x240, .f32⟩) main_v320) (fun x v => pad S2x40x128x240 ![0, 0, 0, 45] ![0, 0, 0, 0] ![0, 0, 0, 0] x v pads_S2x40x128x195_S2x40x128x240_000_000_000_4500 h_S_),
    unary main_v0 main_v321 ((extractStridedSlice S2x40x8x128x194 ![0, 0, 0, 0, 46] · slices_S2x40x8x128x240_S2x40x8x128x194_0_0_0_0_46) : (⟨S2x40x8x128x240, .f32⟩ : BufTy).Contents (Elt F) → (⟨S2x40x8x128x194, .f32⟩ : BufTy).Contents (Elt F)),
    unary main_v1 main_v322 ((extractStridedSlice S2x40x8x128x194 ![0, 0, 0, 0, 0] · slices_S2x40x8x128x240_S2x40x8x128x194_0_0_0_0_0) : (⟨S2x40x8x128x240, .f32⟩ : BufTy).Contents (Elt F) → (⟨S2x40x8x128x194, .f32⟩ : BufTy).Contents (Elt F)),
    binary main_v321 main_v322 main_v323 (mulf : (⟨S2x40x8x128x194, .f32⟩ : BufTy).Contents (Elt F) → (⟨S2x40x8x128x194, .f32⟩ : BufTy).Contents (Elt F) → (⟨S2x40x8x128x194, .f32⟩ : BufTy).Contents (Elt F)),
    nullary main_cst_135 (constant S_ .f32 0x00000000#32),
    binary main_v323 main_cst_135 main_v324 ((fun x v => Host.reduceAdd x v reducesTo_S2x40x8x128x194_S2x40x128x194_d2 h_S_) : (⟨S2x40x8x128x194, .f32⟩ : BufTy).Contents (Elt F) → (⟨S_, .f32⟩ : BufTy).Contents (Elt F) → (⟨S2x40x128x194, .f32⟩ : BufTy).Contents (Elt F)),
    nullary main_cst_136 (constant S_ .f32 0x41000000#32),
    unary main_cst_136 main_v325 (broadcastInDim S2x40x128x194 ![] bcast_S_S2x40x128x194 : (⟨S_, .f32⟩ : BufTy).Contents (Elt F) → (⟨S2x40x128x194, .f32⟩ : BufTy).Contents (Elt F)),
    binary main_v324 main_v325 main_v326 (Host.divf : (⟨S2x40x128x194, .f32⟩ : BufTy).Contents (Elt F) → (⟨S2x40x128x194, .f32⟩ : BufTy).Contents (Elt F) → (⟨S2x40x128x194, .f32⟩ : BufTy).Contents (Elt F)),
    nullary main_c_137 (constantI S_ 32 0#32),
    TRef.unary (TRef.of (T := ⟨S_, .i32⟩) main_c_137) (TRef.of (T := ⟨S_, .f32⟩) main_call45_v0) (sitofp .f32),
    TRef.binary (TRef.of (T := ⟨S2x40x128x194, .f32⟩) main_v326) (TRef.of (T := ⟨S_, .f32⟩) main_call45_v0) (TRef.of (T := ⟨S2x40x128x240, .f32⟩) main_v327) (fun x v => pad S2x40x128x240 ![0, 0, 0, 46] ![0, 0, 0, 0] ![0, 0, 0, 0] x v pads_S2x40x128x194_S2x40x128x240_000_000_000_4600 h_S_),
    unary main_v0 main_v328 ((extractStridedSlice S2x40x8x128x193 ![0, 0, 0, 0, 47] · slices_S2x40x8x128x240_S2x40x8x128x193_0_0_0_0_47) : (⟨S2x40x8x128x240, .f32⟩ : BufTy).Contents (Elt F) → (⟨S2x40x8x128x193, .f32⟩ : BufTy).Contents (Elt F)),
    unary main_v1 main_v329 ((extractStridedSlice S2x40x8x128x193 ![0, 0, 0, 0, 0] · slices_S2x40x8x128x240_S2x40x8x128x193_0_0_0_0_0) : (⟨S2x40x8x128x240, .f32⟩ : BufTy).Contents (Elt F) → (⟨S2x40x8x128x193, .f32⟩ : BufTy).Contents (Elt F)),
    binary main_v328 main_v329 main_v330 (mulf : (⟨S2x40x8x128x193, .f32⟩ : BufTy).Contents (Elt F) → (⟨S2x40x8x128x193, .f32⟩ : BufTy).Contents (Elt F) → (⟨S2x40x8x128x193, .f32⟩ : BufTy).Contents (Elt F)),
    nullary main_cst_138 (constant S_ .f32 0x00000000#32),
    binary main_v330 main_cst_138 main_v331 ((fun x v => Host.reduceAdd x v reducesTo_S2x40x8x128x193_S2x40x128x193_d2 h_S_) : (⟨S2x40x8x128x193, .f32⟩ : BufTy).Contents (Elt F) → (⟨S_, .f32⟩ : BufTy).Contents (Elt F) → (⟨S2x40x128x193, .f32⟩ : BufTy).Contents (Elt F)),
    nullary main_cst_139 (constant S_ .f32 0x41000000#32),
    unary main_cst_139 main_v332 (broadcastInDim S2x40x128x193 ![] bcast_S_S2x40x128x193 : (⟨S_, .f32⟩ : BufTy).Contents (Elt F) → (⟨S2x40x128x193, .f32⟩ : BufTy).Contents (Elt F)),
    binary main_v331 main_v332 main_v333 (Host.divf : (⟨S2x40x128x193, .f32⟩ : BufTy).Contents (Elt F) → (⟨S2x40x128x193, .f32⟩ : BufTy).Contents (Elt F) → (⟨S2x40x128x193, .f32⟩ : BufTy).Contents (Elt F)),
    nullary main_c_140 (constantI S_ 32 0#32),
    TRef.unary (TRef.of (T := ⟨S_, .i32⟩) main_c_140) (TRef.of (T := ⟨S_, .f32⟩) main_call46_v0) (sitofp .f32),
    TRef.binary (TRef.of (T := ⟨S2x40x128x193, .f32⟩) main_v333) (TRef.of (T := ⟨S_, .f32⟩) main_call46_v0) (TRef.of (T := ⟨S2x40x128x240, .f32⟩) main_v334) (fun x v => pad S2x40x128x240 ![0, 0, 0, 47] ![0, 0, 0, 0] ![0, 0, 0, 0] x v pads_S2x40x128x193_S2x40x128x240_000_000_000_4700 h_S_),
    unary main_v5 main_v335 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v12 main_v336 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)) ]

set_option maxRecDepth 8192 in
set_option maxHeartbeats 4000000 in
theorem part7_eq (c : Dev nD) : main_part7 (F := F) c = seq p7 := rfl

theorem p7_sub : (p7 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub ..⟩

theorem p7_fresh : ∀ op ∈ (p7 : List (HloOp τ sig (Elt F))), op.fresh = ∅ := by
  intro _ h; (repeat (cases h with | head => rfl | tail _ h => ?_)); exact nomatch h

/-- The buffers the part's operations write. -/
abbrev p7_W : List (Ref sig .tc) := [main_v295, main_cst_123, main_v296, main_cst_124, main_v297, main_v298, main_c_125, main_call41_v0, main_v299, main_v300, main_v301, main_v302, main_cst_126, main_v303, main_cst_127, main_v304, main_v305, main_c_128, main_call42_v0, main_v306, main_v307, main_v308, main_v309, main_cst_129, main_v310, main_cst_130, main_v311, main_v312, main_c_131, main_call43_v0, main_v313, main_v314, main_v315, main_v316, main_cst_132, main_v317, main_cst_133, main_v318, main_v319, main_c_134, main_call44_v0, main_v320, main_v321, main_v322, main_v323, main_cst_135, main_v324, main_cst_136, main_v325, main_v326, main_c_137, main_call45_v0, main_v327, main_v328, main_v329, main_v330, main_cst_138, main_v331, main_cst_139, main_v332, main_v333, main_c_140, main_call46_v0, main_v334, main_v335, main_v336]

theorem p7_writes : (p7 : List (HloOp τ sig (Elt F))).Forall fun op => op.writes ⊆ (p7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep7_main_arg0 (W : Valuation τ sig (Elt F)) (L R : (⟨S2x320x128x240, .f32⟩ : BufTy).Contents (Elt F)) : after p7 W (Proc.devRef .tc main_arg0) = W (Proc.devRef .tc main_arg0) :=
  after_of_writes_sub p7 W p7_writes (by decide)

theorem keep7_main_arg1 (W : Valuation τ sig (Elt F)) (L R : (⟨S2x320x128x240, .f32⟩ : BufTy).Contents (Elt F)) : after p7 W (Proc.devRef .tc main_arg1) = W (Proc.devRef .tc main_arg1) :=
  after_of_writes_sub p7 W p7_writes (by decide)

theorem keep7_main_v19 (W : Valuation τ sig (Elt F)) (L R : (⟨S2x320x128x240, .f32⟩ : BufTy).Contents (Elt F)) : after p7 W (Proc.devRef .tc main_v19) = W (Proc.devRef .tc main_v19) :=
  after_of_writes_sub p7 W p7_writes (by decide)

theorem keep7_main_v26 (W : Valuation τ sig (Elt F)) (L R : (⟨S2x320x128x240, .f32⟩ : BufTy).Contents (Elt F)) : after p7 W (Proc.devRef .tc main_v26) = W (Proc.devRef .tc main_v26) :=
  after_of_writes_sub p7 W p7_writes (by decide)

theorem keep7_main_v33 (W : Valuation τ sig (Elt F)) (L R : (⟨S2x320x128x240, .f32⟩ : BufTy).Contents (Elt F)) : after p7 W (Proc.devRef .tc main_v33) = W (Proc.devRef .tc main_v33) :=
  after_of_writes_sub p7 W p7_writes (by decide)

theorem keep7_main_v40 (W : Valuation τ sig (Elt F)) (L R : (⟨S2x320x128x240, .f32⟩ : BufTy).Contents (Elt F)) : after p7 W (Proc.devRef .tc main_v40) = W (Proc.devRef .tc main_v40) :=
  after_of_writes_sub p7 W p7_writes (by decide)

theorem keep7_main_v47 (W : Valuation τ sig (Elt F)) (L R : (⟨S2x320x128x240, .f32⟩ : BufTy).Contents (Elt F)) : after p7 W (Proc.devRef .tc main_v47) = W (Proc.devRef .tc main_v47) :=
  after_of_writes_sub p7 W p7_writes (by decide)

theorem keep7_main_v54 (W : Valuation τ sig (Elt F)) (L R : (⟨S2x320x128x240, .f32⟩ : BufTy).Contents (Elt F)) : after p7 W (Proc.devRef .tc main_v54) = W (Proc.devRef .tc main_v54) :=
  after_of_writes_sub p7 W p7_writes (by decide)

theorem keep7_main_v61 (W : Valuation τ sig (Elt F)) (L R : (⟨S2x320x128x240, .f32⟩ : BufTy).Contents (Elt F)) : after p7 W (Proc.devRef .tc main_v61) = W (Proc.devRef .tc main_v61) :=
  after_of_writes_sub p7 W p7_writes (by decide)

theorem keep7_main_v68 (W : Valuation τ sig (Elt F)) (L R : (⟨S2x320x128x240, .f32⟩ : BufTy).Contents (Elt F)) : after p7 W (Proc.devRef .tc main_v68) = W (Proc.devRef .tc main_v68) :=
  after_of_writes_sub p7 W p7_writes (by decide)

theorem keep7_main_v75 (W : Valuation τ sig (Elt F)) (L R : (⟨S2x320x128x240, .f32⟩ : BufTy).Contents (Elt F)) : after p7 W (Proc.devRef .tc main_v75) = W (Proc.devRef .tc main_v75) :=
  after_of_writes_sub p7 W p7_writes (by decide)

theorem keep7_main_v82 (W : Valuation τ sig (Elt F)) (L R : (⟨S2x320x128x240, .f32⟩ : BufTy).Contents (Elt F)) : after p7 W (Proc.devRef .tc main_v82) = W (Proc.devRef .tc main_v82) :=
  after_of_writes_sub p7 W p7_writes (by decide)

theorem keep7_main_v89 (W : Valuation τ sig (Elt F)) (L R : (⟨S2x320x128x240, .f32⟩ : BufTy).Contents (Elt F)) : after p7 W (Proc.devRef .tc main_v89) = W (Proc.devRef .tc main_v89) :=
  after_of_writes_sub p7 W p7_writes (by decide)

theorem keep7_main_v96 (W : Valuation τ sig (Elt F)) (L R : (⟨S2x320x128x240, .f32⟩ : BufTy).Contents (Elt F)) : after p7 W (Proc.devRef .tc main_v96) = W (Proc.devRef .tc main_v96) :=
  after_of_writes_sub p7 W p7_writes (by decide)

theorem keep7_main_v103 (W : Valuation τ sig (Elt F)) (L R : (⟨S2x320x128x240, .f32⟩ : BufTy).Contents (Elt F)) : after p7 W (Proc.devRef .tc main_v103) = W (Proc.devRef .tc main_v103) :=
  after_of_writes_sub p7 W p7_writes (by decide)

theorem keep7_main_v110 (W : Valuation τ sig (Elt F)) (L R : (⟨S2x320x128x240, .f32⟩ : BufTy).Contents (Elt F)) : after p7 W (Proc.devRef .tc main_v110) = W (Proc.devRef .tc main_v110) :=
  after_of_writes_sub p7 W p7_writes (by decide)

theorem keep7_main_v117 (W : Valuation τ sig (Elt F)) (L R : (⟨S2x320x128x240, .f32⟩ : BufTy).Contents (Elt F)) : after p7 W (Proc.devRef .tc main_v117) = W (Proc.devRef .tc main_v117) :=
  after_of_writes_sub p7 W p7_writes (by decide)

theorem keep7_main_v124 (W : Valuation τ sig (Elt F)) (L R : (⟨S2x320x128x240, .f32⟩ : BufTy).Contents (Elt F)) : after p7 W (Proc.devRef .tc main_v124) = W (Proc.devRef .tc main_v124) :=
  after_of_writes_sub p7 W p7_writes (by decide)

theorem keep7_main_v131 (W : Valuation τ sig (Elt F)) (L R : (⟨S2x320x128x240, .f32⟩ : BufTy).Contents (Elt F)) : after p7 W (Proc.devRef .tc main_v131) = W (Proc.devRef .tc main_v131) :=
  after_of_writes_sub p7 W p7_writes (by decide)

theorem keep7_main_v138 (W : Valuation τ sig (Elt F)) (L R : (⟨S2x320x128x240, .f32⟩ : BufTy).Contents (Elt F)) : after p7 W (Proc.devRef .tc main_v138) = W (Proc.devRef .tc main_v138) :=
  after_of_writes_sub p7 W p7_writes (by decide)

theorem keep7_main_v145 (W : Valuation τ sig (Elt F)) (L R : (⟨S2x320x128x240, .f32⟩ : BufTy).Contents (Elt F)) : after p7 W (Proc.devRef .tc main_v145) = W (Proc.devRef .tc main_v145) :=
  after_of_writes_sub p7 W p7_writes (by decide)

theorem keep7_main_v152 (W : Valuation τ sig (Elt F)) (L R : (⟨S2x320x128x240, .f32⟩ : BufTy).Contents (Elt F)) : after p7 W (Proc.devRef .tc main_v152) = W (Proc.devRef .tc main_v152) :=
  after_of_writes_sub p7 W p7_writes (by decide)

theorem keep7_main_v159 (W : Valuation τ sig (Elt F)) (L R : (⟨S2x320x128x240, .f32⟩ : BufTy).Contents (Elt F)) : after p7 W (Proc.devRef .tc main_v159) = W (Proc.devRef .tc main_v159) :=
  after_of_writes_sub p7 W p7_writes (by decide)

theorem keep7_main_v166 (W : Valuation τ sig (Elt F)) (L R : (⟨S2x320x128x240, .f32⟩ : BufTy).Contents (Elt F)) : after p7 W (Proc.devRef .tc main_v166) = W (Proc.devRef .tc main_v166) :=
  after_of_writes_sub p7 W p7_writes (by decide)

theorem keep7_main_v173 (W : Valuation τ sig (Elt F)) (L R : (⟨S2x320x128x240, .f32⟩ : BufTy).Contents (Elt F)) : after p7 W (Proc.devRef .tc main_v173) = W (Proc.devRef .tc main_v173) :=
  after_of_writes_sub p7 W p7_writes (by decide)

theorem keep7_main_v180 (W : Valuation τ sig (Elt F)) (L R : (⟨S2x320x128x240, .f32⟩ : BufTy).Contents (Elt F)) : after p7 W (Proc.devRef .tc main_v180) = W (Proc.devRef .tc main_v180) :=
  after_of_writes_sub p7 W p7_writes (by decide)

theorem keep7_main_v187 (W : Valuation τ sig (Elt F)) (L R : (⟨S2x320x128x240, .f32⟩ : BufTy).Contents (Elt F)) : after p7 W (Proc.devRef .tc main_v187) = W (Proc.devRef .tc main_v187) :=
  after_of_writes_sub p7 W p7_writes (by decide)

theorem keep7_main_v194 (W : Valuation τ sig (Elt F)) (L R : (⟨S2x320x128x240, .f32⟩ : BufTy).Contents (Elt F)) : after p7 W (Proc.devRef .tc main_v194) = W (Proc.devRef .tc main_v194) :=
  after_of_writes_sub p7 W p7_writes (by decide)

theorem keep7_main_v201 (W : Valuation τ sig (Elt F)) (L R : (⟨S2x320x128x240, .f32⟩ : BufTy).Contents (Elt F)) : after p7 W (Proc.devRef .tc main_v201) = W (Proc.devRef .tc main_v201) :=
  after_of_writes_sub p7 W p7_writes (by decide)

theorem keep7_main_v208 (W : Valuation τ sig (Elt F)) (L R : (⟨S2x320x128x240, .f32⟩ : BufTy).Contents (Elt F)) : after p7 W (Proc.devRef .tc main_v208) = W (Proc.devRef .tc main_v208) :=
  after_of_writes_sub p7 W p7_writes (by decide)

theorem keep7_main_v215 (W : Valuation τ sig (Elt F)) (L R : (⟨S2x320x128x240, .f32⟩ : BufTy).Contents (Elt F)) : after p7 W (Proc.devRef .tc main_v215) = W (Proc.devRef .tc main_v215) :=
  after_of_writes_sub p7 W p7_writes (by decide)

theorem keep7_main_v222 (W : Valuation τ sig (Elt F)) (L R : (⟨S2x320x128x240, .f32⟩ : BufTy).Contents (Elt F)) : after p7 W (Proc.devRef .tc main_v222) = W (Proc.devRef .tc main_v222) :=
  after_of_writes_sub p7 W p7_writes (by decide)

theorem keep7_main_v229 (W : Valuation τ sig (Elt F)) (L R : (⟨S2x320x128x240, .f32⟩ : BufTy).Contents (Elt F)) : after p7 W (Proc.devRef .tc main_v229) = W (Proc.devRef .tc main_v229) :=
  after_of_writes_sub p7 W p7_writes (by decide)

theorem keep7_main_v236 (W : Valuation τ sig (Elt F)) (L R : (⟨S2x320x128x240, .f32⟩ : BufTy).Contents (Elt F)) : after p7 W (Proc.devRef .tc main_v236) = W (Proc.devRef .tc main_v236) :=
  after_of_writes_sub p7 W p7_writes (by decide)

theorem keep7_main_v243 (W : Valuation τ sig (Elt F)) (L R : (⟨S2x320x128x240, .f32⟩ : BufTy).Contents (Elt F)) : after p7 W (Proc.devRef .tc main_v243) = W (Proc.devRef .tc main_v243) :=
  after_of_writes_sub p7 W p7_writes (by decide)

theorem keep7_main_v250 (W : Valuation τ sig (Elt F)) (L R : (⟨S2x320x128x240, .f32⟩ : BufTy).Contents (Elt F)) : after p7 W (Proc.devRef .tc main_v250) = W (Proc.devRef .tc main_v250) :=
  after_of_writes_sub p7 W p7_writes (by decide)

theorem keep7_main_v257 (W : Valuation τ sig (Elt F)) (L R : (⟨S2x320x128x240, .f32⟩ : BufTy).Contents (Elt F)) : after p7 W (Proc.devRef .tc main_v257) = W (Proc.devRef .tc main_v257) :=
  after_of_writes_sub p7 W p7_writes (by decide)

theorem keep7_main_v264 (W : Valuation τ sig (Elt F)) (L R : (⟨S2x320x128x240, .f32⟩ : BufTy).Contents (Elt F)) : after p7 W (Proc.devRef .tc main_v264) = W (Proc.devRef .tc main_v264) :=
  after_of_writes_sub p7 W p7_writes (by decide)

theorem keep7_main_v271 (W : Valuation τ sig (Elt F)) (L R : (⟨S2x320x128x240, .f32⟩ : BufTy).Contents (Elt F)) : after p7 W (Proc.devRef .tc main_v271) = W (Proc.devRef .tc main_v271) :=
  after_of_writes_sub p7 W p7_writes (by decide)

theorem keep7_main_v278 (W : Valuation τ sig (Elt F)) (L R : (⟨S2x320x128x240, .f32⟩ : BufTy).Contents (Elt F)) : after p7 W (Proc.devRef .tc main_v278) = W (Proc.devRef .tc main_v278) :=
  after_of_writes_sub p7 W p7_writes (by decide)

theorem keep7_main_v285 (W : Valuation τ sig (Elt F)) (L R : (⟨S2x320x128x240, .f32⟩ : BufTy).Contents (Elt F)) : after p7 W (Proc.devRef .tc main_v285) = W (Proc.devRef .tc main_v285) :=
  after_of_writes_sub p7 W p7_writes (by decide)

theorem keep7_main_v292 (W : Valuation τ sig (Elt F)) (L R : (⟨S2x320x128x240, .f32⟩ : BufTy).Contents (Elt F)) : after p7 W (Proc.devRef .tc main_v292) = W (Proc.devRef .tc main_v292) :=
  after_of_writes_sub p7 W p7_writes (by decide)

theorem out7_main_v299 (W : Valuation τ sig (Elt F)) (L R : (⟨S2x320x128x240, .f32⟩ : BufTy).Contents (Elt F))
    (h_main_v293 : W (Proc.devRef .tc main_v293) = val_main_v293 (F := F) L) (h_main_v294 : W (Proc.devRef .tc main_v294) = val_main_v294 (F := F) R) :
    after p7 W (Proc.devRef .tc main_v299) = val_main_v299 (F := F) L R := by
  after_results_simp
  simp only [h_main_v293, h_main_v294]
  rfl

theorem out7_main_v306 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p7 W (Proc.devRef .tc main_v306) = val_main_v306 (F := F) L R := by
  after_results_simp
  simp only [h_main_v0, h_main_v1]
  rfl

theorem out7_main_v313 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p7 W (Proc.devRef .tc main_v313) = val_main_v313 (F := F) L R := by
  after_results_simp
  simp only [h_main_v0, h_main_v1]
  rfl

theorem out7_main_v320 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p7 W (Proc.devRef .tc main_v320) = val_main_v320 (F := F) L R := by
  after_results_simp
  simp only [h_main_v0, h_main_v1]
  rfl

theorem out7_main_v327 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p7 W (Proc.devRef .tc main_v327) = val_main_v327 (F := F) L R := by
  after_results_simp
  simp only [h_main_v0, h_main_v1]
  rfl

theorem out7_main_v334 (W : Valuation τ sig (Elt F)) (L R : (⟨S2x320x128x240, .f32⟩ : BufTy).Contents (Elt F))
    (h_main_v0 : W (Proc.devRef .tc main_v0) = val_main_v0 (F := F) L) (h_main_v1 : W (Proc.devRef .tc main_v1) = val_main_v1 (F := F) R) :
    after p7 W (Proc.devRef .tc main_v334) = val_main_v334 (F := F) L R := by
  after_results_simp
  simp only [h_main_v0, h_main_v1]
  rfl

theorem out7_main_v335 (W : Valuation τ sig (Elt F)) (L R : (⟨S2x320x128x240, .f32⟩ : BufTy).Contents (Elt F))
    (h_main_v5 : W (Proc.devRef .tc main_v5) = val_main_v5 (F := F) L R) :
    after p7 W (Proc.devRef .tc main_v335) = val_main_v335 (F := F) L R := by
  after_results_simp
  simp only [h_main_v5]
  rfl

theorem out7_main_v336 (W : Valuation τ sig (Elt F)) (L R : (⟨S2x320x128x240, .f32⟩ : BufTy).Contents (Elt F))
    (h_main_v12 : W (Proc.devRef .tc main_v12) = val_main_v12 (F := F) L R) :
    after p7 W (Proc.devRef .tc main_v336) = val_main_v336 (F := F) L R := by
  after_results_simp
  simp only [h_main_v12]
  rfl

end Cert.ReferenceIdeal.RunP

end
-- ==== Proof.RefRun8a.lean ====
/- Gen/ReferenceIdeal/Run.lean and the stage names of Gen/ReferenceIdeal/Read.lean. Operations 528 to 573 of @main (within its part 8): the line of these operations; every operation's buffers are TensorCore buffers; and what the line leaves in each buffer a later line reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of this line, in order. -/
abbrev p8a : List (HloOp τ sig (Elt F)) :=
  [ unary main_v19 main_v337 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v26 main_v338 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v33 main_v339 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v40 main_v340 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v47 main_v341 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v54 main_v342 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v61 main_v343 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v68 main_v344 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v75 main_v345 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v82 main_v346 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v89 main_v347 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v96 main_v348 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v103 main_v349 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v110 main_v350 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v117 main_v351 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v124 main_v352 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v131 main_v353 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v138 main_v354 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v145 main_v355 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v152 main_v356 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v159 main_v357 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v166 main_v358 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v173 main_v359 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v180 main_v360 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v187 main_v361 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v194 main_v362 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v201 main_v363 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v208 main_v364 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v215 main_v365 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v222 main_v366 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v229 main_v367 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v236 main_v368 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v243 main_v369 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v250 main_v370 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v257 main_v371 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v264 main_v372 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v271 main_v373 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v278 main_v374 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v285 main_v375 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v292 main_v376 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v299 main_v377 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v306 main_v378 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v313 main_v379 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v320 main_v380 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v327 main_v381 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)),
    unary main_v334 main_v382 (broadcastInDim S2x40x1x128x240 ![0, 1, 3, 4] bcast_S2x40x128x240_S2x40x1x128x240_0_1_3_4 : (⟨S2x40x128x240, .f32⟩ : BufTy).Contents (Elt F) → (⟨S2x40x1x128x240, .f32⟩ : BufTy).Contents (Elt F)) ]

theorem p8a_sub : (p8a : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

theorem p8a_fresh : ∀ op ∈ (p8a : List (HloOp τ sig (Elt F))), op.fresh = ∅ := by
  intro _ h; (repeat (cases h with | head => rfl | tail _ h => ?_)); exact nomatch h

/-- The buffers the line's operations write. -/
abbrev p8a_W : List (Ref sig .tc) := [main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382]

theorem p8a_writes : (p8a : List (HloOp τ sig (Elt F))).Forall fun op => op.writes ⊆ (p8a_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem keep8a_main_arg0 (W : Valuation τ sig (Elt F)) (L R : (⟨S2x320x128x240, .f32⟩ : BufTy).Contents (Elt F)) : after p8a W (Proc.devRef .tc main_arg0) = W (Proc.devRef .tc main_arg0) :=
  after_of_writes_sub p8a W p8a_writes (by decide)

theorem keep8a_main_arg1 (W : Valuation τ sig (Elt F)) (L R : (⟨S2x320x128x240, .f32⟩ : BufTy).Contents (Elt F)) : after p8a W (Proc.devRef .tc main_arg1) = W (Proc.devRef .tc main_arg1) :=
  after_of_writes_sub p8a W p8a_writes (by decide)

theorem keep8a_main_v335 (W : Valuation τ sig (Elt F)) (L R : (⟨S2x320x128x240, .f32⟩ : BufTy).Contents (Elt F)) : after p8a W (Proc.devRef .tc main_v335) = W (Proc.devRef .tc main_v335) :=
  after_of_writes_sub p8a W p8a_writes (by decide)

theorem keep8a_main_v336 (W : Valuation τ sig (Elt F)) (L R : (⟨S2x320x128x240, .f32⟩ : BufTy).Contents (Elt F)) : after p8a W (Proc.devRef .tc main_v336) = W (Proc.devRef .tc main_v336) :=
  after_of_writes_sub p8a W p8a_writes (by decide)

theorem out8a_main_v337 (W : Valuation τ sig (Elt F)) (L R : (⟨S2x320x128x240, .f32⟩ : BufTy).Contents (Elt F))
    (h_main_v19 : W (Proc.devRef .tc main_v19) = val_main_v19 (F := F) L R) :
    after p8a W (Proc.devRef .tc main_v337) = val_main_v337 (F := F) L R := by
  after_results_simp
  simp only [h_main_v19]
  rfl

theorem out8a_main_v338 (W : Valuation τ sig (Elt F)) (L R : (⟨S2x320x128x240, .f32⟩ : BufTy).Contents (Elt F))
    (h_main_v26 : W (Proc.devRef .tc main_v26) = val_main_v26 (F := F) L R) :
    after p8a W (Proc.devRef .tc main_v338) = val_main_v338 (F := F) L R := by
  after_results_simp
  simp only [h_main_v26]
  rfl

theorem out8a_main_v339 (W : Valuation τ sig (Elt F)) (L R : (⟨S2x320x128x240, .f32⟩ : BufTy).Contents (Elt F))
    (h_main_v33 : W (Proc.devRef .tc main_v33) = val_main_v33 (F := F) L R) :
    after p8a W (Proc.devRef .tc main_v339) = val_main_v339 (F := F) L R := by
  after_results_simp
  simp only [h_main_v33]
  rfl

theorem out8a_main_v340 (W : Valuation τ sig (Elt F)) (L R : (⟨S2x320x128x240, .f32⟩ : BufTy).Contents (Elt F))
    (h_main_v40 : W (Proc.devRef .tc main_v40) = val_main_v40 (F := F) L R) :
    after p8a W (Proc.devRef .tc main_v340) = val_main_v340 (F := F) L R := by
  after_results_simp
  simp only [h_main_v40]
  rfl

theorem out8a_main_v341 (W : Valuation τ sig (Elt F)) (L R : (⟨S2x320x128x240, .f32⟩ : BufTy).Contents (Elt F))
    (h_main_v47 : W (Proc.devRef .tc main_v47) = val_main_v47 (F := F) L R) :
    after p8a W (Proc.devRef .tc main_v341) = val_main_v341 (F := F) L R := by
  after_results_simp
  simp only [h_main_v47]
  rfl

theorem out8a_main_v342 (W : Valuation τ sig (Elt F)) (L R : (⟨S2x320x128x240, .f32⟩ : BufTy).Contents (Elt F))
    (h_main_v54 : W (Proc.devRef .tc main_v54) = val_main_v54 (F := F) L R) :
    after p8a W (Proc.devRef .tc main_v342) = val_main_v342 (F := F) L R := by
  after_results_simp
  simp only [h_main_v54]
  rfl

theorem out8a_main_v343 (W : Valuation τ sig (Elt F)) (L R : (⟨S2x320x128x240, .f32⟩ : BufTy).Contents (Elt F))
    (h_main_v61 : W (Proc.devRef .tc main_v61) = val_main_v61 (F := F) L R) :
    after p8a W (Proc.devRef .tc main_v343) = val_main_v343 (F := F) L R := by
  after_results_simp
  simp only [h_main_v61]
  rfl

theorem out8a_main_v344 (W : Valuation τ sig (Elt F)) (L R : (⟨S2x320x128x240, .f32⟩ : BufTy).Contents (Elt F))
    (h_main_v68 : W (Proc.devRef .tc main_v68) = val_main_v68 (F := F) L R) :
    after p8a W (Proc.devRef .tc main_v344) = val_main_v344 (F := F) L R := by
  after_results_simp
  simp only [h_main_v68]
  rfl

theorem out8a_main_v345 (W : Valuation τ sig (Elt F)) (L R : (⟨S2x320x128x240, .f32⟩ : BufTy).Contents (Elt F))
    (h_main_v75 : W (Proc.devRef .tc main_v75) = val_main_v75 (F := F) L R) :
    after p8a W (Proc.devRef .tc main_v345) = val_main_v345 (F := F) L R := by
  after_results_simp
  simp only [h_main_v75]
  rfl

theorem out8a_main_v346 (W : Valuation τ sig (Elt F)) (L R : (⟨S2x320x128x240, .f32⟩ : BufTy).Contents (Elt F))
    (h_main_v82 : W (Proc.devRef .tc main_v82) = val_main_v82 (F := F) L R) :
    after p8a W (Proc.devRef .tc main_v346) = val_main_v346 (F := F) L R := by
  after_results_simp
  simp only [h_main_v82]
  rfl

theorem out8a_main_v347 (W : Valuation τ sig (Elt F)) (L R : (⟨S2x320x128x240, .f32⟩ : BufTy).Contents (Elt F))
    (h_main_v89 : W (Proc.devRef .tc main_v89) = val_main_v89 (F := F) L R) :
    after p8a W (Proc.devRef .tc main_v347) = val_main_v347 (F := F) L R := by
  after_results_simp
  simp only [h_main_v89]
  rfl

theorem out8a_main_v348 (W : Valuation τ sig (Elt F)) (L R : (⟨S2x320x128x240, .f32⟩ : BufTy).Contents (Elt F))
    (h_main_v96 : W (Proc.devRef .tc main_v96) = val_main_v96 (F := F) L R) :
    after p8a W (Proc.devRef .tc main_v348) = val_main_v348 (F := F) L R := by
  after_results_simp
  simp only [h_main_v96]
  rfl

theorem out8a_main_v349 (W : Valuation τ sig (Elt F)) (L R : (⟨S2x320x128x240, .f32⟩ : BufTy).Contents (Elt F))
    (h_main_v103 : W (Proc.devRef .tc main_v103) = val_main_v103 (F := F) L R) :
    after p8a W (Proc.devRef .tc main_v349) = val_main_v349 (F := F) L R := by
  after_results_simp
  simp only [h_main_v103]
  rfl

theorem out8a_main_v350 (W : Valuation τ sig (Elt F)) (L R : (⟨S2x320x128x240, .f32⟩ : BufTy).Contents (Elt F))
    (h_main_v110 : W (Proc.devRef .tc main_v110) = val_main_v110 (F := F) L R) :
    after p8a W (Proc.devRef .tc main_v350) = val_main_v350 (F := F) L R := by
  after_results_simp
  simp only [h_main_v110]
  rfl

theorem out8a_main_v351 (W : Valuation τ sig (Elt F)) (L R : (⟨S2x320x128x240, .f32⟩ : BufTy).Contents (Elt F))
    (h_main_v117 : W (Proc.devRef .tc main_v117) = val_main_v117 (F := F) L R) :
    after p8a W (Proc.devRef .tc main_v351) = val_main_v351 (F := F) L R := by
  after_results_simp
  simp only [h_main_v117]
  rfl

theorem out8a_main_v352 (W : Valuation τ sig (Elt F)) (L R : (⟨S2x320x128x240, .f32⟩ : BufTy).Contents (Elt F))
    (h_main_v124 : W (Proc.devRef .tc main_v124) = val_main_v124 (F := F) L R) :
    after p8a W (Proc.devRef .tc main_v352) = val_main_v352 (F := F) L R := by
  after_results_simp
  simp only [h_main_v124]
  rfl

theorem out8a_main_v353 (W : Valuation τ sig (Elt F)) (L R : (⟨S2x320x128x240, .f32⟩ : BufTy).Contents (Elt F))
    (h_main_v131 : W (Proc.devRef .tc main_v131) = val_main_v131 (F := F) L R) :
    after p8a W (Proc.devRef .tc main_v353) = val_main_v353 (F := F) L R := by
  after_results_simp
  simp only [h_main_v131]
  rfl

theorem out8a_main_v354 (W : Valuation τ sig (Elt F)) (L R : (⟨S2x320x128x240, .f32⟩ : BufTy).Contents (Elt F))
    (h_main_v138 : W (Proc.devRef .tc main_v138) = val_main_v138 (F := F) L R) :
    after p8a W (Proc.devRef .tc main_v354) = val_main_v354 (F := F) L R := by
  after_results_simp
  simp only [h_main_v138]
  rfl

theorem out8a_main_v355 (W : Valuation τ sig (Elt F)) (L R : (⟨S2x320x128x240, .f32⟩ : BufTy).Contents (Elt F))
    (h_main_v145 : W (Proc.devRef .tc main_v145) = val_main_v145 (F := F) L R) :
    after p8a W (Proc.devRef .tc main_v355) = val_main_v355 (F := F) L R := by
  after_results_simp
  simp only [h_main_v145]
  rfl

theorem out8a_main_v356 (W : Valuation τ sig (Elt F)) (L R : (⟨S2x320x128x240, .f32⟩ : BufTy).Contents (Elt F))
    (h_main_v152 : W (Proc.devRef .tc main_v152) = val_main_v152 (F := F) L R) :
    after p8a W (Proc.devRef .tc main_v356) = val_main_v356 (F := F) L R := by
  after_results_simp
  simp only [h_main_v152]
  rfl

theorem out8a_main_v357 (W : Valuation τ sig (Elt F)) (L R : (⟨S2x320x128x240, .f32⟩ : BufTy).Contents (Elt F))
    (h_main_v159 : W (Proc.devRef .tc main_v159) = val_main_v159 (F := F) L R) :
    after p8a W (Proc.devRef .tc main_v357) = val_main_v357 (F := F) L R := by
  after_results_simp
  simp only [h_main_v159]
  rfl

theorem out8a_main_v358 (W : Valuation τ sig (Elt F)) (L R : (⟨S2x320x128x240, .f32⟩ : BufTy).Contents (Elt F))
    (h_main_v166 : W (Proc.devRef .tc main_v166) = val_main_v166 (F := F) L R) :
    after p8a W (Proc.devRef .tc main_v358) = val_main_v358 (F := F) L R := by
  after_results_simp
  simp only [h_main_v166]
  rfl

theorem out8a_main_v359 (W : Valuation τ sig (Elt F)) (L R : (⟨S2x320x128x240, .f32⟩ : BufTy).Contents (Elt F))
    (h_main_v173 : W (Proc.devRef .tc main_v173) = val_main_v173 (F := F) L R) :
    after p8a W (Proc.devRef .tc main_v359) = val_main_v359 (F := F) L R := by
  after_results_simp
  simp only [h_main_v173]
  rfl

theorem out8a_main_v360 (W : Valuation τ sig (Elt F)) (L R : (⟨S2x320x128x240, .f32⟩ : BufTy).Contents (Elt F))
    (h_main_v180 : W (Proc.devRef .tc main_v180) = val_main_v180 (F := F) L R) :
    after p8a W (Proc.devRef .tc main_v360) = val_main_v360 (F := F) L R := by
  after_results_simp
  simp only [h_main_v180]
  rfl

theorem out8a_main_v361 (W : Valuation τ sig (Elt F)) (L R : (⟨S2x320x128x240, .f32⟩ : BufTy).Contents (Elt F))
    (h_main_v187 : W (Proc.devRef .tc main_v187) = val_main_v187 (F := F) L R) :
    after p8a W (Proc.devRef .tc main_v361) = val_main_v361 (F := F) L R := by
  after_results_simp
  simp only [h_main_v187]
  rfl

theorem out8a_main_v362 (W : Valuation τ sig (Elt F)) (L R : (⟨S2x320x128x240, .f32⟩ : BufTy).Contents (Elt F))
    (h_main_v194 : W (Proc.devRef .tc main_v194) = val_main_v194 (F := F) L R) :
    after p8a W (Proc.devRef .tc main_v362) = val_main_v362 (F := F) L R := by
  after_results_simp
  simp only [h_main_v194]
  rfl

theorem out8a_main_v363 (W : Valuation τ sig (Elt F)) (L R : (⟨S2x320x128x240, .f32⟩ : BufTy).Contents (Elt F))
    (h_main_v201 : W (Proc.devRef .tc main_v201) = val_main_v201 (F := F) L R) :
    after p8a W (Proc.devRef .tc main_v363) = val_main_v363 (F := F) L R := by
  after_results_simp
  simp only [h_main_v201]
  rfl

theorem out8a_main_v364 (W : Valuation τ sig (Elt F)) (L R : (⟨S2x320x128x240, .f32⟩ : BufTy).Contents (Elt F))
    (h_main_v208 : W (Proc.devRef .tc main_v208) = val_main_v208 (F := F) L R) :
    after p8a W (Proc.devRef .tc main_v364) = val_main_v364 (F := F) L R := by
  after_results_simp
  simp only [h_main_v208]
  rfl

theorem out8a_main_v365 (W : Valuation τ sig (Elt F)) (L R : (⟨S2x320x128x240, .f32⟩ : BufTy).Contents (Elt F))
    (h_main_v215 : W (Proc.devRef .tc main_v215) = val_main_v215 (F := F) L R) :
    after p8a W (Proc.devRef .tc main_v365) = val_main_v365 (F := F) L R := by
  after_results_simp
  simp only [h_main_v215]
  rfl

theorem out8a_main_v366 (W : Valuation τ sig (Elt F)) (L R : (⟨S2x320x128x240, .f32⟩ : BufTy).Contents (Elt F))
    (h_main_v222 : W (Proc.devRef .tc main_v222) = val_main_v222 (F := F) L R) :
    after p8a W (Proc.devRef .tc main_v366) = val_main_v366 (F := F) L R := by
  after_results_simp
  simp only [h_main_v222]
  rfl

theorem out8a_main_v367 (W : Valuation τ sig (Elt F)) (L R : (⟨S2x320x128x240, .f32⟩ : BufTy).Contents (Elt F))
    (h_main_v229 : W (Proc.devRef .tc main_v229) = val_main_v229 (F := F) L R) :
    after p8a W (Proc.devRef .tc main_v367) = val_main_v367 (F := F) L R := by
  after_results_simp
  simp only [h_main_v229]
  rfl

theorem out8a_main_v368 (W : Valuation τ sig (Elt F)) (L R : (⟨S2x320x128x240, .f32⟩ : BufTy).Contents (Elt F))
    (h_main_v236 : W (Proc.devRef .tc main_v236) = val_main_v236 (F := F) L R) :
    after p8a W (Proc.devRef .tc main_v368) = val_main_v368 (F := F) L R := by
  after_results_simp
  simp only [h_main_v236]
  rfl

theorem out8a_main_v369 (W : Valuation τ sig (Elt F)) (L R : (⟨S2x320x128x240, .f32⟩ : BufTy).Contents (Elt F))
    (h_main_v243 : W (Proc.devRef .tc main_v243) = val_main_v243 (F := F) L R) :
    after p8a W (Proc.devRef .tc main_v369) = val_main_v369 (F := F) L R := by
  after_results_simp
  simp only [h_main_v243]
  rfl

theorem out8a_main_v370 (W : Valuation τ sig (Elt F)) (L R : (⟨S2x320x128x240, .f32⟩ : BufTy).Contents (Elt F))
    (h_main_v250 : W (Proc.devRef .tc main_v250) = val_main_v250 (F := F) L R) :
    after p8a W (Proc.devRef .tc main_v370) = val_main_v370 (F := F) L R := by
  after_results_simp
  simp only [h_main_v250]
  rfl

theorem out8a_main_v371 (W : Valuation τ sig (Elt F)) (L R : (⟨S2x320x128x240, .f32⟩ : BufTy).Contents (Elt F))
    (h_main_v257 : W (Proc.devRef .tc main_v257) = val_main_v257 (F := F) L R) :
    after p8a W (Proc.devRef .tc main_v371) = val_main_v371 (F := F) L R := by
  after_results_simp
  simp only [h_main_v257]
  rfl

theorem out8a_main_v372 (W : Valuation τ sig (Elt F)) (L R : (⟨S2x320x128x240, .f32⟩ : BufTy).Contents (Elt F))
    (h_main_v264 : W (Proc.devRef .tc main_v264) = val_main_v264 (F := F) L R) :
    after p8a W (Proc.devRef .tc main_v372) = val_main_v372 (F := F) L R := by
  after_results_simp
  simp only [h_main_v264]
  rfl

theorem out8a_main_v373 (W : Valuation τ sig (Elt F)) (L R : (⟨S2x320x128x240, .f32⟩ : BufTy).Contents (Elt F))
    (h_main_v271 : W (Proc.devRef .tc main_v271) = val_main_v271 (F := F) L R) :
    after p8a W (Proc.devRef .tc main_v373) = val_main_v373 (F := F) L R := by
  after_results_simp
  simp only [h_main_v271]
  rfl

theorem out8a_main_v374 (W : Valuation τ sig (Elt F)) (L R : (⟨S2x320x128x240, .f32⟩ : BufTy).Contents (Elt F))
    (h_main_v278 : W (Proc.devRef .tc main_v278) = val_main_v278 (F := F) L R) :
    after p8a W (Proc.devRef .tc main_v374) = val_main_v374 (F := F) L R := by
  after_results_simp
  simp only [h_main_v278]
  rfl

theorem out8a_main_v375 (W : Valuation τ sig (Elt F)) (L R : (⟨S2x320x128x240, .f32⟩ : BufTy).Contents (Elt F))
    (h_main_v285 : W (Proc.devRef .tc main_v285) = val_main_v285 (F := F) L R) :
    after p8a W (Proc.devRef .tc main_v375) = val_main_v375 (F := F) L R := by
  after_results_simp
  simp only [h_main_v285]
  rfl

theorem out8a_main_v376 (W : Valuation τ sig (Elt F)) (L R : (⟨S2x320x128x240, .f32⟩ : BufTy).Contents (Elt F))
    (h_main_v292 : W (Proc.devRef .tc main_v292) = val_main_v292 (F := F) L R) :
    after p8a W (Proc.devRef .tc main_v376) = val_main_v376 (F := F) L R := by
  after_results_simp
  simp only [h_main_v292]
  rfl

theorem out8a_main_v377 (W : Valuation τ sig (Elt F)) (L R : (⟨S2x320x128x240, .f32⟩ : BufTy).Contents (Elt F))
    (h_main_v299 : W (Proc.devRef .tc main_v299) = val_main_v299 (F := F) L R) :
    after p8a W (Proc.devRef .tc main_v377) = val_main_v377 (F := F) L R := by
  after_results_simp
  simp only [h_main_v299]
  rfl

theorem out8a_main_v378 (W : Valuation τ sig (Elt F)) (L R : (⟨S2x320x128x240, .f32⟩ : BufTy).Contents (Elt F))
    (h_main_v306 : W (Proc.devRef .tc main_v306) = val_main_v306 (F := F) L R) :
    after p8a W (Proc.devRef .tc main_v378) = val_main_v378 (F := F) L R := by
  after_results_simp
  simp only [h_main_v306]
  rfl

theorem out8a_main_v379 (W : Valuation τ sig (Elt F)) (L R : (⟨S2x320x128x240, .f32⟩ : BufTy).Contents (Elt F))
    (h_main_v313 : W (Proc.devRef .tc main_v313) = val_main_v313 (F := F) L R) :
    after p8a W (Proc.devRef .tc main_v379) = val_main_v379 (F := F) L R := by
  after_results_simp
  simp only [h_main_v313]
  rfl

theorem out8a_main_v380 (W : Valuation τ sig (Elt F)) (L R : (⟨S2x320x128x240, .f32⟩ : BufTy).Contents (Elt F))
    (h_main_v320 : W (Proc.devRef .tc main_v320) = val_main_v320 (F := F) L R) :
    after p8a W (Proc.devRef .tc main_v380) = val_main_v380 (F := F) L R := by
  after_results_simp
  simp only [h_main_v320]
  rfl

theorem out8a_main_v381 (W : Valuation τ sig (Elt F)) (L R : (⟨S2x320x128x240, .f32⟩ : BufTy).Contents (Elt F))
    (h_main_v327 : W (Proc.devRef .tc main_v327) = val_main_v327 (F := F) L R) :
    after p8a W (Proc.devRef .tc main_v381) = val_main_v381 (F := F) L R := by
  after_results_simp
  simp only [h_main_v327]
  rfl

theorem out8a_main_v382 (W : Valuation τ sig (Elt F)) (L R : (⟨S2x320x128x240, .f32⟩ : BufTy).Contents (Elt F))
    (h_main_v334 : W (Proc.devRef .tc main_v334) = val_main_v334 (F := F) L R) :
    after p8a W (Proc.devRef .tc main_v382) = val_main_v382 (F := F) L R := by
  after_results_simp
  simp only [h_main_v334]
  rfl

end Cert.ReferenceIdeal.RunP

end
-- ==== Proof.RefRun8b.lean ====
/- Gen/ReferenceIdeal/Run.lean and the stage names of Gen/ReferenceIdeal/Read.lean. Operations 574 to 574 of @main (within its part 8): the line of these operations; every operation's buffers are TensorCore buffers; and what the line leaves in each buffer a later line reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of this line, in order. -/
abbrev p8b : List (HloOp τ sig (Elt F)) :=
  [ nary ![main_v335, main_v336, main_v337, main_v338, main_v339, main_v340, main_v341, main_v342, main_v343, main_v344, main_v345, main_v346, main_v347, main_v348, main_v349, main_v350] main_v383 (fun u => concatenate S2x40x16x128x240 2 [⟨S2x40x1x128x240, u 0⟩, ⟨S2x40x1x128x240, u 1⟩, ⟨S2x40x1x128x240, u 2⟩, ⟨S2x40x1x128x240, u 3⟩, ⟨S2x40x1x128x240, u 4⟩, ⟨S2x40x1x128x240, u 5⟩, ⟨S2x40x1x128x240, u 6⟩, ⟨S2x40x1x128x240, u 7⟩, ⟨S2x40x1x128x240, u 8⟩, ⟨S2x40x1x128x240, u 9⟩, ⟨S2x40x1x128x240, u 10⟩, ⟨S2x40x1x128x240, u 11⟩, ⟨S2x40x1x128x240, u 12⟩, ⟨S2x40x1x128x240, u 13⟩, ⟨S2x40x1x128x240, u 14⟩, ⟨S2x40x1x128x240, u 15⟩] concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2) ]

theorem p8b_sub : (p8b : List (HloOp τ sig (Elt F))).Forall fun op => op.bufs ⊆ tcRefs τ sig :=
  nary_bufs_sub ..

theorem p8b_fresh : ∀ op ∈ (p8b : List (HloOp τ sig (Elt F))), op.fresh = ∅ := by
  intro _ h; (repeat (cases h with | head => rfl | tail _ h => ?_)); exact nomatch h

/-- The buffers the line's operations write. -/
abbrev p8b_W : List (Ref sig .tc) := [main_v383]

theorem p8b_writes : (p8b : List (HloOp τ sig (Elt F))).Forall fun op => op.writes ⊆ (p8b_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

theorem keep8b_main_arg0 (W : Valuation τ sig (Elt F)) (L R : (⟨S2x320x128x240, .f32⟩ : BufTy).Contents (Elt F)) : after p8b W (Proc.devRef .tc main_arg0) = W (Proc.devRef .tc main_arg0) :=
  after_of_writes_sub p8b W p8b_writes (by decide)

theorem keep8b_main_arg1 (W : Valuation τ sig (Elt F)) (L R : (⟨S2x320x128x240, .f32⟩ : BufTy).Contents (Elt F)) : after p8b W (Proc.devRef .tc main_arg1) = W (Proc.devRef .tc main_arg1) :=
  after_of_writes_sub p8b W p8b_writes (by decide)

theorem keep8b_main_v351 (W : Valuation τ sig (Elt F)) (L R : (⟨S2x320x128x240, .f32⟩ : BufTy).Contents (Elt F)) : after p8b W (Proc.devRef .tc main_v351) = W (Proc.devRef .tc main_v351) :=
  after_of_writes_sub p8b W p8b_writes (by decide)

theorem keep8b_main_v352 (W : Valuation τ sig (Elt F)) (L R : (⟨S2x320x128x240, .f32⟩ : BufTy).Contents (Elt F)) : after p8b W (Proc.devRef .tc main_v352) = W (Proc.devRef .tc main_v352) :=
  after_of_writes_sub p8b W p8b_writes (by decide)

theorem keep8b_main_v353 (W : Valuation τ sig (Elt F)) (L R : (⟨S2x320x128x240, .f32⟩ : BufTy).Contents (Elt F)) : after p8b W (Proc.devRef .tc main_v353) = W (Proc.devRef .tc main_v353) :=
  after_of_writes_sub p8b W p8b_writes (by decide)

theorem keep8b_main_v354 (W : Valuation τ sig (Elt F)) (L R : (⟨S2x320x128x240, .f32⟩ : BufTy).Contents (Elt F)) : after p8b W (Proc.devRef .tc main_v354) = W (Proc.devRef .tc main_v354) :=
  after_of_writes_sub p8b W p8b_writes (by decide)

theorem keep8b_main_v355 (W : Valuation τ sig (Elt F)) (L R : (⟨S2x320x128x240, .f32⟩ : BufTy).Contents (Elt F)) : after p8b W (Proc.devRef .tc main_v355) = W (Proc.devRef .tc main_v355) :=
  after_of_writes_sub p8b W p8b_writes (by decide)

theorem keep8b_main_v356 (W : Valuation τ sig (Elt F)) (L R : (⟨S2x320x128x240, .f32⟩ : BufTy).Contents (Elt F)) : after p8b W (Proc.devRef .tc main_v356) = W (Proc.devRef .tc main_v356) :=
  after_of_writes_sub p8b W p8b_writes (by decide)

theorem keep8b_main_v357 (W : Valuation τ sig (Elt F)) (L R : (⟨S2x320x128x240, .f32⟩ : BufTy).Contents (Elt F)) : after p8b W (Proc.devRef .tc main_v357) = W (Proc.devRef .tc main_v357) :=
  after_of_writes_sub p8b W p8b_writes (by decide)

theorem keep8b_main_v358 (W : Valuation τ sig (Elt F)) (L R : (⟨S2x320x128x240, .f32⟩ : BufTy).Contents (Elt F)) : after p8b W (Proc.devRef .tc main_v358) = W (Proc.devRef .tc main_v358) :=
  after_of_writes_sub p8b W p8b_writes (by decide)

theorem keep8b_main_v359 (W : Valuation τ sig (Elt F)) (L R : (⟨S2x320x128x240, .f32⟩ : BufTy).Contents (Elt F)) : after p8b W (Proc.devRef .tc main_v359) = W (Proc.devRef .tc main_v359) :=
  after_of_writes_sub p8b W p8b_writes (by decide)

theorem keep8b_main_v360 (W : Valuation τ sig (Elt F)) (L R : (⟨S2x320x128x240, .f32⟩ : BufTy).Contents (Elt F)) : after p8b W (Proc.devRef .tc main_v360) = W (Proc.devRef .tc main_v360) :=
  after_of_writes_sub p8b W p8b_writes (by decide)

theorem keep8b_main_v361 (W : Valuation τ sig (Elt F)) (L R : (⟨S2x320x128x240, .f32⟩ : BufTy).Contents (Elt F)) : after p8b W (Proc.devRef .tc main_v361) = W (Proc.devRef .tc main_v361) :=
  after_of_writes_sub p8b W p8b_writes (by decide)

theorem keep8b_main_v362 (W : Valuation τ sig (Elt F)) (L R : (⟨S2x320x128x240, .f32⟩ : BufTy).Contents (Elt F)) : after p8b W (Proc.devRef .tc main_v362) = W (Proc.devRef .tc main_v362) :=
  after_of_writes_sub p8b W p8b_writes (by decide)

theorem keep8b_main_v363 (W : Valuation τ sig (Elt F)) (L R : (⟨S2x320x128x240, .f32⟩ : BufTy).Contents (Elt F)) : after p8b W (Proc.devRef .tc main_v363) = W (Proc.devRef .tc main_v363) :=
  after_of_writes_sub p8b W p8b_writes (by decide)

theorem keep8b_main_v364 (W : Valuation τ sig (Elt F)) (L R : (⟨S2x320x128x240, .f32⟩ : BufTy).Contents (Elt F)) : after p8b W (Proc.devRef .tc main_v364) = W (Proc.devRef .tc main_v364) :=
  after_of_writes_sub p8b W p8b_writes (by decide)

theorem keep8b_main_v365 (W : Valuation τ sig (Elt F)) (L R : (⟨S2x320x128x240, .f32⟩ : BufTy).Contents (Elt F)) : after p8b W (Proc.devRef .tc main_v365) = W (Proc.devRef .tc main_v365) :=
  after_of_writes_sub p8b W p8b_writes (by decide)

theorem keep8b_main_v366 (W : Valuation τ sig (Elt F)) (L R : (⟨S2x320x128x240, .f32⟩ : BufTy).Contents (Elt F)) : after p8b W (Proc.devRef .tc main_v366) = W (Proc.devRef .tc main_v366) :=
  after_of_writes_sub p8b W p8b_writes (by decide)

theorem keep8b_main_v367 (W : Valuation τ sig (Elt F)) (L R : (⟨S2x320x128x240, .f32⟩ : BufTy).Contents (Elt F)) : after p8b W (Proc.devRef .tc main_v367) = W (Proc.devRef .tc main_v367) :=
  after_of_writes_sub p8b W p8b_writes (by decide)

theorem keep8b_main_v368 (W : Valuation τ sig (Elt F)) (L R : (⟨S2x320x128x240, .f32⟩ : BufTy).Contents (Elt F)) : after p8b W (Proc.devRef .tc main_v368) = W (Proc.devRef .tc main_v368) :=
  after_of_writes_sub p8b W p8b_writes (by decide)

theorem keep8b_main_v369 (W : Valuation τ sig (Elt F)) (L R : (⟨S2x320x128x240, .f32⟩ : BufTy).Contents (Elt F)) : after p8b W (Proc.devRef .tc main_v369) = W (Proc.devRef .tc main_v369) :=
  after_of_writes_sub p8b W p8b_writes (by decide)

theorem keep8b_main_v370 (W : Valuation τ sig (Elt F)) (L R : (⟨S2x320x128x240, .f32⟩ : BufTy).Contents (Elt F)) : after p8b W (Proc.devRef .tc main_v370) = W (Proc.devRef .tc main_v370) :=
  after_of_writes_sub p8b W p8b_writes (by decide)

theorem keep8b_main_v371 (W : Valuation τ sig (Elt F)) (L R : (⟨S2x320x128x240, .f32⟩ : BufTy).Contents (Elt F)) : after p8b W (Proc.devRef .tc main_v371) = W (Proc.devRef .tc main_v371) :=
  after_of_writes_sub p8b W p8b_writes (by decide)

theorem keep8b_main_v372 (W : Valuation τ sig (Elt F)) (L R : (⟨S2x320x128x240, .f32⟩ : BufTy).Contents (Elt F)) : after p8b W (Proc.devRef .tc main_v372) = W (Proc.devRef .tc main_v372) :=
  after_of_writes_sub p8b W p8b_writes (by decide)

theorem keep8b_main_v373 (W : Valuation τ sig (Elt F)) (L R : (⟨S2x320x128x240, .f32⟩ : BufTy).Contents (Elt F)) : after p8b W (Proc.devRef .tc main_v373) = W (Proc.devRef .tc main_v373) :=
  after_of_writes_sub p8b W p8b_writes (by decide)

theorem keep8b_main_v374 (W : Valuation τ sig (Elt F)) (L R : (⟨S2x320x128x240, .f32⟩ : BufTy).Contents (Elt F)) : after p8b W (Proc.devRef .tc main_v374) = W (Proc.devRef .tc main_v374) :=
  after_of_writes_sub p8b W p8b_writes (by decide)

theorem keep8b_main_v375 (W : Valuation τ sig (Elt F)) (L R : (⟨S2x320x128x240, .f32⟩ : BufTy).Contents (Elt F)) : after p8b W (Proc.devRef .tc main_v375) = W (Proc.devRef .tc main_v375) :=
  after_of_writes_sub p8b W p8b_writes (by decide)

theorem keep8b_main_v376 (W : Valuation τ sig (Elt F)) (L R : (⟨S2x320x128x240, .f32⟩ : BufTy).Contents (Elt F)) : after p8b W (Proc.devRef .tc main_v376) = W (Proc.devRef .tc main_v376) :=
  after_of_writes_sub p8b W p8b_writes (by decide)

theorem keep8b_main_v377 (W : Valuation τ sig (Elt F)) (L R : (⟨S2x320x128x240, .f32⟩ : BufTy).Contents (Elt F)) : after p8b W (Proc.devRef .tc main_v377) = W (Proc.devRef .tc main_v377) :=
  after_of_writes_sub p8b W p8b_writes (by decide)

theorem keep8b_main_v378 (W : Valuation τ sig (Elt F)) (L R : (⟨S2x320x128x240, .f32⟩ : BufTy).Contents (Elt F)) : after p8b W (Proc.devRef .tc main_v378) = W (Proc.devRef .tc main_v378) :=
  after_of_writes_sub p8b W p8b_writes (by decide)

theorem keep8b_main_v379 (W : Valuation τ sig (Elt F)) (L R : (⟨S2x320x128x240, .f32⟩ : BufTy).Contents (Elt F)) : after p8b W (Proc.devRef .tc main_v379) = W (Proc.devRef .tc main_v379) :=
  after_of_writes_sub p8b W p8b_writes (by decide)

theorem keep8b_main_v380 (W : Valuation τ sig (Elt F)) (L R : (⟨S2x320x128x240, .f32⟩ : BufTy).Contents (Elt F)) : after p8b W (Proc.devRef .tc main_v380) = W (Proc.devRef .tc main_v380) :=
  after_of_writes_sub p8b W p8b_writes (by decide)

theorem keep8b_main_v381 (W : Valuation τ sig (Elt F)) (L R : (⟨S2x320x128x240, .f32⟩ : BufTy).Contents (Elt F)) : after p8b W (Proc.devRef .tc main_v381) = W (Proc.devRef .tc main_v381) :=
  after_of_writes_sub p8b W p8b_writes (by decide)

theorem keep8b_main_v382 (W : Valuation τ sig (Elt F)) (L R : (⟨S2x320x128x240, .f32⟩ : BufTy).Contents (Elt F)) : after p8b W (Proc.devRef .tc main_v382) = W (Proc.devRef .tc main_v382) :=
  after_of_writes_sub p8b W p8b_writes (by decide)

theorem out8b_main_v383 (W : Valuation τ sig (Elt F)) (L R : (⟨S2x320x128x240, .f32⟩ : BufTy).Contents (Elt F))
    (h_main_v335 : W (Proc.devRef .tc main_v335) = val_main_v335 (F := F) L R) (h_main_v336 : W (Proc.devRef .tc main_v336) = val_main_v336 (F := F) L R) (h_main_v337 : W (Proc.devRef .tc main_v337) = val_main_v337 (F := F) L R) (h_main_v338 : W (Proc.devRef .tc main_v338) = val_main_v338 (F := F) L R) (h_main_v339 : W (Proc.devRef .tc main_v339) = val_main_v339 (F := F) L R) (h_main_v340 : W (Proc.devRef .tc main_v340) = val_main_v340 (F := F) L R) (h_main_v341 : W (Proc.devRef .tc main_v341) = val_main_v341 (F := F) L R) (h_main_v342 : W (Proc.devRef .tc main_v342) = val_main_v342 (F := F) L R) (h_main_v343 : W (Proc.devRef .tc main_v343) = val_main_v343 (F := F) L R) (h_main_v344 : W (Proc.devRef .tc main_v344) = val_main_v344 (F := F) L R) (h_main_v345 : W (Proc.devRef .tc main_v345) = val_main_v345 (F := F) L R) (h_main_v346 : W (Proc.devRef .tc main_v346) = val_main_v346 (F := F) L R) (h_main_v347 : W (Proc.devRef .tc main_v347) = val_main_v347 (F := F) L R) (h_main_v348 : W (Proc.devRef .tc main_v348) = val_main_v348 (F := F) L R) (h_main_v349 : W (Proc.devRef .tc main_v349) = val_main_v349 (F := F) L R) (h_main_v350 : W (Proc.devRef .tc main_v350) = val_main_v350 (F := F) L R) :
    after p8b W (Proc.devRef .tc main_v383) = val_main_v383 (F := F) L R := by
  simp only [after_cons, after_nil]
  rw [nary_result]
  show concatenate S2x40x16x128x240 2 [⟨S2x40x1x128x240, W (Proc.devRef .tc main_v335)⟩, ⟨S2x40x1x128x240, W (Proc.devRef .tc main_v336)⟩, ⟨S2x40x1x128x240, W (Proc.devRef .tc main_v337)⟩, ⟨S2x40x1x128x240, W (Proc.devRef .tc main_v338)⟩, ⟨S2x40x1x128x240, W (Proc.devRef .tc main_v339)⟩, ⟨S2x40x1x128x240, W (Proc.devRef .tc main_v340)⟩, ⟨S2x40x1x128x240, W (Proc.devRef .tc main_v341)⟩, ⟨S2x40x1x128x240, W (Proc.devRef .tc main_v342)⟩, ⟨S2x40x1x128x240, W (Proc.devRef .tc main_v343)⟩, ⟨S2x40x1x128x240, W (Proc.devRef .tc main_v344)⟩, ⟨S2x40x1x128x240, W (Proc.devRef .tc main_v345)⟩, ⟨S2x40x1x128x240, W (Proc.devRef .tc main_v346)⟩, ⟨S2x40x1x128x240, W (Proc.devRef .tc main_v347)⟩, ⟨S2x40x1x128x240, W (Proc.devRef .tc main_v348)⟩, ⟨S2x40x1x128x240, W (Proc.devRef .tc main_v349)⟩, ⟨S2x40x1x128x240, W (Proc.devRef .tc main_v350)⟩] concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2 = _
  rw [h_main_v335, h_main_v336, h_main_v337, h_main_v338, h_main_v339, h_main_v340, h_main_v341, h_main_v342, h_main_v343, h_main_v344, h_main_v345, h_main_v346, h_main_v347, h_main_v348, h_main_v349, h_main_v350]
  rfl

end Cert.ReferenceIdeal.RunP

end
-- ==== Proof.RefRun8c.lean ====
/- Gen/ReferenceIdeal/Run.lean and the stage names of Gen/ReferenceIdeal/Read.lean. Operations 575 to 575 of @main (within its part 8): the line of these operations; every operation's buffers are TensorCore buffers; and what the line leaves in each buffer a later line reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of this line, in order. -/
abbrev p8c : List (HloOp τ sig (Elt F)) :=
  [ nary ![main_v351, main_v352, main_v353, main_v354, main_v355, main_v356, main_v357, main_v358, main_v359, main_v360, main_v361, main_v362, main_v363, main_v364, main_v365, main_v366] main_v384 (fun u => concatenate S2x40x16x128x240 2 [⟨S2x40x1x128x240, u 0⟩, ⟨S2x40x1x128x240, u 1⟩, ⟨S2x40x1x128x240, u 2⟩, ⟨S2x40x1x128x240, u 3⟩, ⟨S2x40x1x128x240, u 4⟩, ⟨S2x40x1x128x240, u 5⟩, ⟨S2x40x1x128x240, u 6⟩, ⟨S2x40x1x128x240, u 7⟩, ⟨S2x40x1x128x240, u 8⟩, ⟨S2x40x1x128x240, u 9⟩, ⟨S2x40x1x128x240, u 10⟩, ⟨S2x40x1x128x240, u 11⟩, ⟨S2x40x1x128x240, u 12⟩, ⟨S2x40x1x128x240, u 13⟩, ⟨S2x40x1x128x240, u 14⟩, ⟨S2x40x1x128x240, u 15⟩] concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2) ]

theorem p8c_sub : (p8c : List (HloOp τ sig (Elt F))).Forall fun op => op.bufs ⊆ tcRefs τ sig :=
  nary_bufs_sub ..

theorem p8c_fresh : ∀ op ∈ (p8c : List (HloOp τ sig (Elt F))), op.fresh = ∅ := by
  intro _ h; (repeat (cases h with | head => rfl | tail _ h => ?_)); exact nomatch h

/-- The buffers the line's operations write. -/
abbrev p8c_W : List (Ref sig .tc) := [main_v384]

theorem p8c_writes : (p8c : List (HloOp τ sig (Elt F))).Forall fun op => op.writes ⊆ (p8c_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

theorem keep8c_main_arg0 (W : Valuation τ sig (Elt F)) (L R : (⟨S2x320x128x240, .f32⟩ : BufTy).Contents (Elt F)) : after p8c W (Proc.devRef .tc main_arg0) = W (Proc.devRef .tc main_arg0) :=
  after_of_writes_sub p8c W p8c_writes (by decide)

theorem keep8c_main_arg1 (W : Valuation τ sig (Elt F)) (L R : (⟨S2x320x128x240, .f32⟩ : BufTy).Contents (Elt F)) : after p8c W (Proc.devRef .tc main_arg1) = W (Proc.devRef .tc main_arg1) :=
  after_of_writes_sub p8c W p8c_writes (by decide)

theorem keep8c_main_v367 (W : Valuation τ sig (Elt F)) (L R : (⟨S2x320x128x240, .f32⟩ : BufTy).Contents (Elt F)) : after p8c W (Proc.devRef .tc main_v367) = W (Proc.devRef .tc main_v367) :=
  after_of_writes_sub p8c W p8c_writes (by decide)

theorem keep8c_main_v368 (W : Valuation τ sig (Elt F)) (L R : (⟨S2x320x128x240, .f32⟩ : BufTy).Contents (Elt F)) : after p8c W (Proc.devRef .tc main_v368) = W (Proc.devRef .tc main_v368) :=
  after_of_writes_sub p8c W p8c_writes (by decide)

theorem keep8c_main_v369 (W : Valuation τ sig (Elt F)) (L R : (⟨S2x320x128x240, .f32⟩ : BufTy).Contents (Elt F)) : after p8c W (Proc.devRef .tc main_v369) = W (Proc.devRef .tc main_v369) :=
  after_of_writes_sub p8c W p8c_writes (by decide)

theorem keep8c_main_v370 (W : Valuation τ sig (Elt F)) (L R : (⟨S2x320x128x240, .f32⟩ : BufTy).Contents (Elt F)) : after p8c W (Proc.devRef .tc main_v370) = W (Proc.devRef .tc main_v370) :=
  after_of_writes_sub p8c W p8c_writes (by decide)

theorem keep8c_main_v371 (W : Valuation τ sig (Elt F)) (L R : (⟨S2x320x128x240, .f32⟩ : BufTy).Contents (Elt F)) : after p8c W (Proc.devRef .tc main_v371) = W (Proc.devRef .tc main_v371) :=
  after_of_writes_sub p8c W p8c_writes (by decide)

theorem keep8c_main_v372 (W : Valuation τ sig (Elt F)) (L R : (⟨S2x320x128x240, .f32⟩ : BufTy).Contents (Elt F)) : after p8c W (Proc.devRef .tc main_v372) = W (Proc.devRef .tc main_v372) :=
  after_of_writes_sub p8c W p8c_writes (by decide)

theorem keep8c_main_v373 (W : Valuation τ sig (Elt F)) (L R : (⟨S2x320x128x240, .f32⟩ : BufTy).Contents (Elt F)) : after p8c W (Proc.devRef .tc main_v373) = W (Proc.devRef .tc main_v373) :=
  after_of_writes_sub p8c W p8c_writes (by decide)

theorem keep8c_main_v374 (W : Valuation τ sig (Elt F)) (L R : (⟨S2x320x128x240, .f32⟩ : BufTy).Contents (Elt F)) : after p8c W (Proc.devRef .tc main_v374) = W (Proc.devRef .tc main_v374) :=
  after_of_writes_sub p8c W p8c_writes (by decide)

theorem keep8c_main_v375 (W : Valuation τ sig (Elt F)) (L R : (⟨S2x320x128x240, .f32⟩ : BufTy).Contents (Elt F)) : after p8c W (Proc.devRef .tc main_v375) = W (Proc.devRef .tc main_v375) :=
  after_of_writes_sub p8c W p8c_writes (by decide)

theorem keep8c_main_v376 (W : Valuation τ sig (Elt F)) (L R : (⟨S2x320x128x240, .f32⟩ : BufTy).Contents (Elt F)) : after p8c W (Proc.devRef .tc main_v376) = W (Proc.devRef .tc main_v376) :=
  after_of_writes_sub p8c W p8c_writes (by decide)

theorem keep8c_main_v377 (W : Valuation τ sig (Elt F)) (L R : (⟨S2x320x128x240, .f32⟩ : BufTy).Contents (Elt F)) : after p8c W (Proc.devRef .tc main_v377) = W (Proc.devRef .tc main_v377) :=
  after_of_writes_sub p8c W p8c_writes (by decide)

theorem keep8c_main_v378 (W : Valuation τ sig (Elt F)) (L R : (⟨S2x320x128x240, .f32⟩ : BufTy).Contents (Elt F)) : after p8c W (Proc.devRef .tc main_v378) = W (Proc.devRef .tc main_v378) :=
  after_of_writes_sub p8c W p8c_writes (by decide)

theorem keep8c_main_v379 (W : Valuation τ sig (Elt F)) (L R : (⟨S2x320x128x240, .f32⟩ : BufTy).Contents (Elt F)) : after p8c W (Proc.devRef .tc main_v379) = W (Proc.devRef .tc main_v379) :=
  after_of_writes_sub p8c W p8c_writes (by decide)

theorem keep8c_main_v380 (W : Valuation τ sig (Elt F)) (L R : (⟨S2x320x128x240, .f32⟩ : BufTy).Contents (Elt F)) : after p8c W (Proc.devRef .tc main_v380) = W (Proc.devRef .tc main_v380) :=
  after_of_writes_sub p8c W p8c_writes (by decide)

theorem keep8c_main_v381 (W : Valuation τ sig (Elt F)) (L R : (⟨S2x320x128x240, .f32⟩ : BufTy).Contents (Elt F)) : after p8c W (Proc.devRef .tc main_v381) = W (Proc.devRef .tc main_v381) :=
  after_of_writes_sub p8c W p8c_writes (by decide)

theorem keep8c_main_v382 (W : Valuation τ sig (Elt F)) (L R : (⟨S2x320x128x240, .f32⟩ : BufTy).Contents (Elt F)) : after p8c W (Proc.devRef .tc main_v382) = W (Proc.devRef .tc main_v382) :=
  after_of_writes_sub p8c W p8c_writes (by decide)

theorem keep8c_main_v383 (W : Valuation τ sig (Elt F)) (L R : (⟨S2x320x128x240, .f32⟩ : BufTy).Contents (Elt F)) : after p8c W (Proc.devRef .tc main_v383) = W (Proc.devRef .tc main_v383) :=
  after_of_writes_sub p8c W p8c_writes (by decide)

theorem out8c_main_v384 (W : Valuation τ sig (Elt F)) (L R : (⟨S2x320x128x240, .f32⟩ : BufTy).Contents (Elt F))
    (h_main_v351 : W (Proc.devRef .tc main_v351) = val_main_v351 (F := F) L R) (h_main_v352 : W (Proc.devRef .tc main_v352) = val_main_v352 (F := F) L R) (h_main_v353 : W (Proc.devRef .tc main_v353) = val_main_v353 (F := F) L R) (h_main_v354 : W (Proc.devRef .tc main_v354) = val_main_v354 (F := F) L R) (h_main_v355 : W (Proc.devRef .tc main_v355) = val_main_v355 (F := F) L R) (h_main_v356 : W (Proc.devRef .tc main_v356) = val_main_v356 (F := F) L R) (h_main_v357 : W (Proc.devRef .tc main_v357) = val_main_v357 (F := F) L R) (h_main_v358 : W (Proc.devRef .tc main_v358) = val_main_v358 (F := F) L R) (h_main_v359 : W (Proc.devRef .tc main_v359) = val_main_v359 (F := F) L R) (h_main_v360 : W (Proc.devRef .tc main_v360) = val_main_v360 (F := F) L R) (h_main_v361 : W (Proc.devRef .tc main_v361) = val_main_v361 (F := F) L R) (h_main_v362 : W (Proc.devRef .tc main_v362) = val_main_v362 (F := F) L R) (h_main_v363 : W (Proc.devRef .tc main_v363) = val_main_v363 (F := F) L R) (h_main_v364 : W (Proc.devRef .tc main_v364) = val_main_v364 (F := F) L R) (h_main_v365 : W (Proc.devRef .tc main_v365) = val_main_v365 (F := F) L R) (h_main_v366 : W (Proc.devRef .tc main_v366) = val_main_v366 (F := F) L R) :
    after p8c W (Proc.devRef .tc main_v384) = val_main_v384 (F := F) L R := by
  simp only [after_cons, after_nil]
  rw [nary_result]
  show concatenate S2x40x16x128x240 2 [⟨S2x40x1x128x240, W (Proc.devRef .tc main_v351)⟩, ⟨S2x40x1x128x240, W (Proc.devRef .tc main_v352)⟩, ⟨S2x40x1x128x240, W (Proc.devRef .tc main_v353)⟩, ⟨S2x40x1x128x240, W (Proc.devRef .tc main_v354)⟩, ⟨S2x40x1x128x240, W (Proc.devRef .tc main_v355)⟩, ⟨S2x40x1x128x240, W (Proc.devRef .tc main_v356)⟩, ⟨S2x40x1x128x240, W (Proc.devRef .tc main_v357)⟩, ⟨S2x40x1x128x240, W (Proc.devRef .tc main_v358)⟩, ⟨S2x40x1x128x240, W (Proc.devRef .tc main_v359)⟩, ⟨S2x40x1x128x240, W (Proc.devRef .tc main_v360)⟩, ⟨S2x40x1x128x240, W (Proc.devRef .tc main_v361)⟩, ⟨S2x40x1x128x240, W (Proc.devRef .tc main_v362)⟩, ⟨S2x40x1x128x240, W (Proc.devRef .tc main_v363)⟩, ⟨S2x40x1x128x240, W (Proc.devRef .tc main_v364)⟩, ⟨S2x40x1x128x240, W (Proc.devRef .tc main_v365)⟩, ⟨S2x40x1x128x240, W (Proc.devRef .tc main_v366)⟩] concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2 = _
  rw [h_main_v351, h_main_v352, h_main_v353, h_main_v354, h_main_v355, h_main_v356, h_main_v357, h_main_v358, h_main_v359, h_main_v360, h_main_v361, h_main_v362, h_main_v363, h_main_v364, h_main_v365, h_main_v366]
  rfl

end Cert.ReferenceIdeal.RunP

end
-- ==== Proof.RefRun8d.lean ====
/- Gen/ReferenceIdeal/Run.lean and the stage names of Gen/ReferenceIdeal/Read.lean. Operations 576 to 576 of @main (within its part 8): the line of these operations; every operation's buffers are TensorCore buffers; and what the line leaves in each buffer a later line reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of this line, in order. -/
abbrev p8d : List (HloOp τ sig (Elt F)) :=
  [ nary ![main_v367, main_v368, main_v369, main_v370, main_v371, main_v372, main_v373, main_v374, main_v375, main_v376, main_v377, main_v378, main_v379, main_v380, main_v381, main_v382] main_v385 (fun u => concatenate S2x40x16x128x240 2 [⟨S2x40x1x128x240, u 0⟩, ⟨S2x40x1x128x240, u 1⟩, ⟨S2x40x1x128x240, u 2⟩, ⟨S2x40x1x128x240, u 3⟩, ⟨S2x40x1x128x240, u 4⟩, ⟨S2x40x1x128x240, u 5⟩, ⟨S2x40x1x128x240, u 6⟩, ⟨S2x40x1x128x240, u 7⟩, ⟨S2x40x1x128x240, u 8⟩, ⟨S2x40x1x128x240, u 9⟩, ⟨S2x40x1x128x240, u 10⟩, ⟨S2x40x1x128x240, u 11⟩, ⟨S2x40x1x128x240, u 12⟩, ⟨S2x40x1x128x240, u 13⟩, ⟨S2x40x1x128x240, u 14⟩, ⟨S2x40x1x128x240, u 15⟩] concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2) ]

theorem p8d_sub : (p8d : List (HloOp τ sig (Elt F))).Forall fun op => op.bufs ⊆ tcRefs τ sig :=
  nary_bufs_sub ..

theorem p8d_fresh : ∀ op ∈ (p8d : List (HloOp τ sig (Elt F))), op.fresh = ∅ := by
  intro _ h; (repeat (cases h with | head => rfl | tail _ h => ?_)); exact nomatch h

/-- The buffers the line's operations write. -/
abbrev p8d_W : List (Ref sig .tc) := [main_v385]

theorem p8d_writes : (p8d : List (HloOp τ sig (Elt F))).Forall fun op => op.writes ⊆ (p8d_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

theorem keep8d_main_arg0 (W : Valuation τ sig (Elt F)) (L R : (⟨S2x320x128x240, .f32⟩ : BufTy).Contents (Elt F)) : after p8d W (Proc.devRef .tc main_arg0) = W (Proc.devRef .tc main_arg0) :=
  after_of_writes_sub p8d W p8d_writes (by decide)

theorem keep8d_main_arg1 (W : Valuation τ sig (Elt F)) (L R : (⟨S2x320x128x240, .f32⟩ : BufTy).Contents (Elt F)) : after p8d W (Proc.devRef .tc main_arg1) = W (Proc.devRef .tc main_arg1) :=
  after_of_writes_sub p8d W p8d_writes (by decide)

theorem keep8d_main_v383 (W : Valuation τ sig (Elt F)) (L R : (⟨S2x320x128x240, .f32⟩ : BufTy).Contents (Elt F)) : after p8d W (Proc.devRef .tc main_v383) = W (Proc.devRef .tc main_v383) :=
  after_of_writes_sub p8d W p8d_writes (by decide)

theorem keep8d_main_v384 (W : Valuation τ sig (Elt F)) (L R : (⟨S2x320x128x240, .f32⟩ : BufTy).Contents (Elt F)) : after p8d W (Proc.devRef .tc main_v384) = W (Proc.devRef .tc main_v384) :=
  after_of_writes_sub p8d W p8d_writes (by decide)

theorem out8d_main_v385 (W : Valuation τ sig (Elt F)) (L R : (⟨S2x320x128x240, .f32⟩ : BufTy).Contents (Elt F))
    (h_main_v367 : W (Proc.devRef .tc main_v367) = val_main_v367 (F := F) L R) (h_main_v368 : W (Proc.devRef .tc main_v368) = val_main_v368 (F := F) L R) (h_main_v369 : W (Proc.devRef .tc main_v369) = val_main_v369 (F := F) L R) (h_main_v370 : W (Proc.devRef .tc main_v370) = val_main_v370 (F := F) L R) (h_main_v371 : W (Proc.devRef .tc main_v371) = val_main_v371 (F := F) L R) (h_main_v372 : W (Proc.devRef .tc main_v372) = val_main_v372 (F := F) L R) (h_main_v373 : W (Proc.devRef .tc main_v373) = val_main_v373 (F := F) L R) (h_main_v374 : W (Proc.devRef .tc main_v374) = val_main_v374 (F := F) L R) (h_main_v375 : W (Proc.devRef .tc main_v375) = val_main_v375 (F := F) L R) (h_main_v376 : W (Proc.devRef .tc main_v376) = val_main_v376 (F := F) L R) (h_main_v377 : W (Proc.devRef .tc main_v377) = val_main_v377 (F := F) L R) (h_main_v378 : W (Proc.devRef .tc main_v378) = val_main_v378 (F := F) L R) (h_main_v379 : W (Proc.devRef .tc main_v379) = val_main_v379 (F := F) L R) (h_main_v380 : W (Proc.devRef .tc main_v380) = val_main_v380 (F := F) L R) (h_main_v381 : W (Proc.devRef .tc main_v381) = val_main_v381 (F := F) L R) (h_main_v382 : W (Proc.devRef .tc main_v382) = val_main_v382 (F := F) L R) :
    after p8d W (Proc.devRef .tc main_v385) = val_main_v385 (F := F) L R := by
  simp only [after_cons, after_nil]
  rw [nary_result]
  show concatenate S2x40x16x128x240 2 [⟨S2x40x1x128x240, W (Proc.devRef .tc main_v367)⟩, ⟨S2x40x1x128x240, W (Proc.devRef .tc main_v368)⟩, ⟨S2x40x1x128x240, W (Proc.devRef .tc main_v369)⟩, ⟨S2x40x1x128x240, W (Proc.devRef .tc main_v370)⟩, ⟨S2x40x1x128x240, W (Proc.devRef .tc main_v371)⟩, ⟨S2x40x1x128x240, W (Proc.devRef .tc main_v372)⟩, ⟨S2x40x1x128x240, W (Proc.devRef .tc main_v373)⟩, ⟨S2x40x1x128x240, W (Proc.devRef .tc main_v374)⟩, ⟨S2x40x1x128x240, W (Proc.devRef .tc main_v375)⟩, ⟨S2x40x1x128x240, W (Proc.devRef .tc main_v376)⟩, ⟨S2x40x1x128x240, W (Proc.devRef .tc main_v377)⟩, ⟨S2x40x1x128x240, W (Proc.devRef .tc main_v378)⟩, ⟨S2x40x1x128x240, W (Proc.devRef .tc main_v379)⟩, ⟨S2x40x1x128x240, W (Proc.devRef .tc main_v380)⟩, ⟨S2x40x1x128x240, W (Proc.devRef .tc main_v381)⟩, ⟨S2x40x1x128x240, W (Proc.devRef .tc main_v382)⟩] concatenates_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x1x128x240_S2x40x16x128x240_d2 = _
  rw [h_main_v367, h_main_v368, h_main_v369, h_main_v370, h_main_v371, h_main_v372, h_main_v373, h_main_v374, h_main_v375, h_main_v376, h_main_v377, h_main_v378, h_main_v379, h_main_v380, h_main_v381, h_main_v382]
  rfl

end Cert.ReferenceIdeal.RunP

end
-- ==== Proof.RefRun8e.lean ====
/- Gen/ReferenceIdeal/Run.lean and the stage names of Gen/ReferenceIdeal/Read.lean. Operations 577 to 577 of @main (within its part 8): the line of these operations; every operation's buffers are TensorCore buffers; and what the line leaves in each buffer a later line reads — the stage of that buffer, or its contents before the line when the line does not write it. -/
import proofs.«179842_j85048942395524_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of this line, in order. -/
abbrev p8e : List (HloOp τ sig (Elt F)) :=
  [ nary ![main_v383, main_v384, main_v385] main_v386 (fun u => concatenate S2x40x48x128x240 2 [⟨S2x40x16x128x240, u 0⟩, ⟨S2x40x16x128x240, u 1⟩, ⟨S2x40x16x128x240, u 2⟩] concatenates_S2x40x16x128x240_S2x40x16x128x240_S2x40x16x128x240_S2x40x48x128x240_d2) ]

theorem p8e_sub : (p8e : List (HloOp τ sig (Elt F))).Forall fun op => op.bufs ⊆ tcRefs τ sig :=
  nary_bufs_sub ..

theorem p8e_fresh : ∀ op ∈ (p8e : List (HloOp τ sig (Elt F))), op.fresh = ∅ := by
  intro _ h; (repeat (cases h with | head => rfl | tail _ h => ?_)); exact nomatch h

/-- The buffers the line's operations write. -/
abbrev p8e_W : List (Ref sig .tc) := [main_v386]

theorem p8e_writes : (p8e : List (HloOp τ sig (Elt F))).Forall fun op => op.writes ⊆ (p8e_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))

theorem keep8e_main_arg0 (W : Valuation τ sig (Elt F)) (L R : (⟨S2x320x128x240, .f32⟩ : BufTy).Contents (Elt F)) : after p8e W (Proc.devRef .tc main_arg0) = W (Proc.devRef .tc main_arg0) :=
  after_of_writes_sub p8e W p8e_writes (by decide)

theorem keep8e_main_arg1 (W : Valuation τ sig (Elt F)) (L R : (⟨S2x320x128x240, .f32⟩ : BufTy).Contents (Elt F)) : after p8e W (Proc.devRef .tc main_arg1) = W (Proc.devRef .tc main_arg1) :=
  after_of_writes_sub p8e W p8e_writes (by decide)

theorem out8e_main_v386 (W : Valuation τ sig (Elt F)) (L R : (⟨S2x320x128x240, .f32⟩ : BufTy).Contents (Elt F))
    (h_main_v383 : W (Proc.devRef .tc main_v383) = val_main_v383 (F := F) L R) (h_main_v384 : W (Proc.devRef .tc main_v384) = val_main_v384 (F := F) L R) (h_main_v385 : W (Proc.devRef .tc main_v385) = val_main_v385 (F := F) L R) :
    after p8e W (Proc.devRef .tc main_v386) = val_main_v386 (F := F) L R := by
  simp only [after_cons, after_nil]
  rw [nary_result]
  show concatenate S2x40x48x128x240 2 [⟨S2x40x16x128x240, W (Proc.devRef .tc main_v383)⟩, ⟨S2x40x16x128x240, W (Proc.devRef .tc main_v384)⟩, ⟨S2x40x16x128x240, W (Proc.devRef .tc main_v385)⟩] concatenates_S2x40x16x128x240_S2x40x16x128x240_S2x40x16x128x240_S2x40x48x128x240_d2 = _
  rw [h_main_v383, h_main_v384, h_main_v385]
  rfl

end Cert.ReferenceIdeal.RunP

end
-- ==== Proof.RefRun8.lean ====
/- Gen/ReferenceIdeal/Run.lean and the stage names of Gen/ReferenceIdeal/Read.lean. Part 8 of @main (operations 528 to 577) is its five lines end to end: the forty-six broadcasts, then the four stacking operations one by one. -/
import proofs.«179842_j85048942395524_1_alg».proof.Proof.RefRead
import Idealize.ShloMosaic.Lib.StableHlo.Run
import proofs.«179842_j85048942395524_1_alg».proof.Proof.RefRun8a
import proofs.«179842_j85048942395524_1_alg».proof.Proof.RefRun8b
import proofs.«179842_j85048942395524_1_alg».proof.Proof.RefRun8c
import proofs.«179842_j85048942395524_1_alg».proof.Proof.RefRun8d
import proofs.«179842_j85048942395524_1_alg».proof.Proof.RefRun8e

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The operations of part 8, in order. -/
def p8 : List (HloOp τ sig (Elt F)) := p8a ++ (p8b ++ (p8c ++ (p8d ++ p8e)))

theorem p8_def : (p8 : List (HloOp τ sig (Elt F))) = p8a ++ (p8b ++ (p8c ++ (p8d ++ p8e))) := rfl

set_option maxRecDepth 8192 in
set_option maxHeartbeats 4000000 in
theorem part8_eq (c : Dev nD) : main_part8 (F := F) c = seq p8 := rfl

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem p8_sub : (p8 : List (HloOp τ sig (Elt F))).Forall fun op => op.bufs ⊆ tcRefs τ sig := by
  rw [p8_def]
  exact forall_append p8a_sub (forall_append (List.forall_iff_forall_mem.mpr fun x hx => by
      obtain rfl := List.mem_singleton.mp hx; exact p8b_sub) (forall_append (List.forall_iff_forall_mem.mpr fun x hx => by
      obtain rfl := List.mem_singleton.mp hx; exact p8c_sub) (forall_append (List.forall_iff_forall_mem.mpr fun x hx => by
      obtain rfl := List.mem_singleton.mp hx; exact p8d_sub) (List.forall_iff_forall_mem.mpr fun x hx => by
      obtain rfl := List.mem_singleton.mp hx; exact p8e_sub))))

theorem p8_fresh : ∀ op ∈ (p8 : List (HloOp τ sig (Elt F))), op.fresh = ∅ := by
  intro op h
  rw [p8_def] at h
  simp only [List.mem_append] at h
  rcases h with h | h | h | h | h
  · exact p8a_fresh op h
  · exact p8b_fresh op h
  · exact p8c_fresh op h
  · exact p8d_fresh op h
  · exact p8e_fresh op h

end Cert.ReferenceIdeal.RunP

end
-- ==== Proof.RefRun.lean ====
/- Gen/ReferenceIdeal/Run.lean and the stage names of Gen/ReferenceIdeal/Read.lean. The reference's @main is the line of its nine parts' operations; the run of that line; and what it leaves in the result buffer: carried line by line, each buffer a later line reads holds its stage of the two argument arrays. -/
import proofs.«179842_j85048942395524_1_alg».proof.Proof.RefRead
import Idealize.ShloMosaic.Lib.StableHlo.Run
import proofs.«179842_j85048942395524_1_alg».proof.Proof.RefRun0
import proofs.«179842_j85048942395524_1_alg».proof.Proof.RefRun1
import proofs.«179842_j85048942395524_1_alg».proof.Proof.RefRun2
import proofs.«179842_j85048942395524_1_alg».proof.Proof.RefRun3
import proofs.«179842_j85048942395524_1_alg».proof.Proof.RefRun4
import proofs.«179842_j85048942395524_1_alg».proof.Proof.RefRun5
import proofs.«179842_j85048942395524_1_alg».proof.Proof.RefRun6
import proofs.«179842_j85048942395524_1_alg».proof.Proof.RefRun7
import proofs.«179842_j85048942395524_1_alg».proof.Proof.RefRun8

noncomputable section

namespace Cert.ReferenceIdeal.RunP

open Cert.ReferenceIdeal Cert.ReferenceIdeal.Gen Cert.ReferenceIdeal.ReadP Idealize.ShloMosaic Idealize.ShloMosaic.TcCoe Idealize.SL.Sem
open Idealize.ShloMosaic.StableHlo

variable {F : FTy → Type} [FloatOps F]

/-- The contents after two lines run one after the other. -/
theorem after_append (l₁ l₂ : List (HloOp τ sig (Elt F))) : ∀ V : Valuation τ sig (Elt F), after (l₁ ++ l₂) V = after l₂ (after l₁ V) := by
  induction l₁ with
  | nil => intro V; rfl
  | cons op l ih => intro V; exact ih (op.result V)

/-- @main's operations, in order: the nine parts end to end. -/
abbrev ops : List (HloOp τ sig (Elt F)) := p0 ++ (p1 ++ (p2 ++ (p3 ++ (p4 ++ (p5 ++ (p6 ++ (p7 ++ p8)))))))

theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append p0_sub (forall_append p1_sub (forall_append p2_sub (forall_append p3_sub (forall_append p4_sub (forall_append p5_sub (forall_append p6_sub (forall_append p7_sub p8_sub)))))))

theorem ops_fresh : ∀ op ∈ (ops : List (HloOp τ sig (Elt F))), op.fresh = ∅ := by
  intro op h
  simp only [ops, List.mem_append] at h
  rcases h with h | h | h | h | h | h | h | h | h
  · exact p0_fresh op h
  · exact p1_fresh op h
  · exact p2_fresh op h
  · exact p3_fresh op h
  · exact p4_fresh op h
  · exact p5_fresh op h
  · exact p6_fresh op h
  · exact p7_fresh op h
  · exact p8_fresh op h

/-- What the whole line leaves in the result buffer and in the two argument buffers. -/
theorem value (V0 : Valuation τ sig (Elt F)) :
    after ops V0 (Proc.devRef .tc main_v386) = val_main_v386 (F := F) (V0 (Proc.devRef .tc main_arg0)) (V0 (Proc.devRef .tc main_arg1))
    ∧ after ops V0 (Proc.devRef .tc main_arg0) = V0 (Proc.devRef .tc main_arg0) ∧ after ops V0 (Proc.devRef .tc main_arg1) = V0 (Proc.devRef .tc main_arg1) := by
  simp only [ops, p8_def, after_append]
  generalize hL : V0 (Proc.devRef .tc main_arg0) = L
  generalize hR : V0 (Proc.devRef .tc main_arg1) = R
  have f0_main_arg0 : after p0 V0 (Proc.devRef .tc main_arg0) = L := (keep0_main_arg0 _ L R).trans hL
  have f0_main_arg1 : after p0 V0 (Proc.devRef .tc main_arg1) = R := (keep0_main_arg1 _ L R).trans hR
  have f0_main_v0 : after p0 V0 (Proc.devRef .tc main_v0) = val_main_v0 (F := F) L := out0_main_v0 _ L R hL
  have f0_main_v1 : after p0 V0 (Proc.devRef .tc main_v1) = val_main_v1 (F := F) R := out0_main_v1 _ L R hR
  have f0_main_v5 : after p0 V0 (Proc.devRef .tc main_v5) = val_main_v5 (F := F) L R := out0_main_v5 _ L R hR hL
  have f0_main_v12 : after p0 V0 (Proc.devRef .tc main_v12) = val_main_v12 (F := F) L R := out0_main_v12 _ L R hR hL
  have f0_main_v19 : after p0 V0 (Proc.devRef .tc main_v19) = val_main_v19 (F := F) L R := out0_main_v19 _ L R hR hL
  have f0_main_v26 : after p0 V0 (Proc.devRef .tc main_v26) = val_main_v26 (F := F) L R := out0_main_v26 _ L R hR hL
  have f0_main_v33 : after p0 V0 (Proc.devRef .tc main_v33) = val_main_v33 (F := F) L R := out0_main_v33 _ L R hR hL
  have f0_main_v40 : after p0 V0 (Proc.devRef .tc main_v40) = val_main_v40 (F := F) L R := out0_main_v40 _ L R hR hL
  have f0_main_v41 : after p0 V0 (Proc.devRef .tc main_v41) = val_main_v41 (F := F) L := out0_main_v41 _ L R hL
  have f0_main_v42 : after p0 V0 (Proc.devRef .tc main_v42) = val_main_v42 (F := F) R := out0_main_v42 _ L R hR
  have f1_main_arg0 : after p1 (after p0 V0) (Proc.devRef .tc main_arg0) = L := (keep1_main_arg0 _ L R).trans f0_main_arg0
  have f1_main_arg1 : after p1 (after p0 V0) (Proc.devRef .tc main_arg1) = R := (keep1_main_arg1 _ L R).trans f0_main_arg1
  have f1_main_v0 : after p1 (after p0 V0) (Proc.devRef .tc main_v0) = val_main_v0 (F := F) L := (keep1_main_v0 _ L R).trans f0_main_v0
  have f1_main_v1 : after p1 (after p0 V0) (Proc.devRef .tc main_v1) = val_main_v1 (F := F) R := (keep1_main_v1 _ L R).trans f0_main_v1
  have f1_main_v5 : after p1 (after p0 V0) (Proc.devRef .tc main_v5) = val_main_v5 (F := F) L R := (keep1_main_v5 _ L R).trans f0_main_v5
  have f1_main_v12 : after p1 (after p0 V0) (Proc.devRef .tc main_v12) = val_main_v12 (F := F) L R := (keep1_main_v12 _ L R).trans f0_main_v12
  have f1_main_v19 : after p1 (after p0 V0) (Proc.devRef .tc main_v19) = val_main_v19 (F := F) L R := (keep1_main_v19 _ L R).trans f0_main_v19
  have f1_main_v26 : after p1 (after p0 V0) (Proc.devRef .tc main_v26) = val_main_v26 (F := F) L R := (keep1_main_v26 _ L R).trans f0_main_v26
  have f1_main_v33 : after p1 (after p0 V0) (Proc.devRef .tc main_v33) = val_main_v33 (F := F) L R := (keep1_main_v33 _ L R).trans f0_main_v33
  have f1_main_v40 : after p1 (after p0 V0) (Proc.devRef .tc main_v40) = val_main_v40 (F := F) L R := (keep1_main_v40 _ L R).trans f0_main_v40
  have f1_main_v47 : after p1 (after p0 V0) (Proc.devRef .tc main_v47) = val_main_v47 (F := F) L R := out1_main_v47 _ L R f0_main_v41 f0_main_v42
  have f1_main_v54 : after p1 (after p0 V0) (Proc.devRef .tc main_v54) = val_main_v54 (F := F) L R := out1_main_v54 _ L R f0_main_v0 f0_main_v1
  have f1_main_v61 : after p1 (after p0 V0) (Proc.devRef .tc main_v61) = val_main_v61 (F := F) L R := out1_main_v61 _ L R f0_main_v0 f0_main_v1
  have f1_main_v68 : after p1 (after p0 V0) (Proc.devRef .tc main_v68) = val_main_v68 (F := F) L R := out1_main_v68 _ L R f0_main_v0 f0_main_v1
  have f1_main_v75 : after p1 (after p0 V0) (Proc.devRef .tc main_v75) = val_main_v75 (F := F) L R := out1_main_v75 _ L R f0_main_v0 f0_main_v1
  have f1_main_v82 : after p1 (after p0 V0) (Proc.devRef .tc main_v82) = val_main_v82 (F := F) L R := out1_main_v82 _ L R f0_main_v0 f0_main_v1
  have f1_main_v83 : after p1 (after p0 V0) (Proc.devRef .tc main_v83) = val_main_v83 (F := F) L := out1_main_v83 _ L R f0_main_v0
  have f1_main_v84 : after p1 (after p0 V0) (Proc.devRef .tc main_v84) = val_main_v84 (F := F) R := out1_main_v84 _ L R f0_main_v1
  have f2_main_arg0 : after p2 (after p1 (after p0 V0)) (Proc.devRef .tc main_arg0) = L := (keep2_main_arg0 _ L R).trans f1_main_arg0
  have f2_main_arg1 : after p2 (after p1 (after p0 V0)) (Proc.devRef .tc main_arg1) = R := (keep2_main_arg1 _ L R).trans f1_main_arg1
  have f2_main_v0 : after p2 (after p1 (after p0 V0)) (Proc.devRef .tc main_v0) = val_main_v0 (F := F) L := (keep2_main_v0 _ L R).trans f1_main_v0
  have f2_main_v1 : after p2 (after p1 (after p0 V0)) (Proc.devRef .tc main_v1) = val_main_v1 (F := F) R := (keep2_main_v1 _ L R).trans f1_main_v1
  have f2_main_v5 : after p2 (after p1 (after p0 V0)) (Proc.devRef .tc main_v5) = val_main_v5 (F := F) L R := (keep2_main_v5 _ L R).trans f1_main_v5
  have f2_main_v12 : after p2 (after p1 (after p0 V0)) (Proc.devRef .tc main_v12) = val_main_v12 (F := F) L R := (keep2_main_v12 _ L R).trans f1_main_v12
  have f2_main_v19 : after p2 (after p1 (after p0 V0)) (Proc.devRef .tc main_v19) = val_main_v19 (F := F) L R := (keep2_main_v19 _ L R).trans f1_main_v19
  have f2_main_v26 : after p2 (after p1 (after p0 V0)) (Proc.devRef .tc main_v26) = val_main_v26 (F := F) L R := (keep2_main_v26 _ L R).trans f1_main_v26
  have f2_main_v33 : after p2 (after p1 (after p0 V0)) (Proc.devRef .tc main_v33) = val_main_v33 (F := F) L R := (keep2_main_v33 _ L R).trans f1_main_v33
  have f2_main_v40 : after p2 (after p1 (after p0 V0)) (Proc.devRef .tc main_v40) = val_main_v40 (F := F) L R := (keep2_main_v40 _ L R).trans f1_main_v40
  have f2_main_v47 : after p2 (after p1 (after p0 V0)) (Proc.devRef .tc main_v47) = val_main_v47 (F := F) L R := (keep2_main_v47 _ L R).trans f1_main_v47
  have f2_main_v54 : after p2 (after p1 (after p0 V0)) (Proc.devRef .tc main_v54) = val_main_v54 (F := F) L R := (keep2_main_v54 _ L R).trans f1_main_v54
  have f2_main_v61 : after p2 (after p1 (after p0 V0)) (Proc.devRef .tc main_v61) = val_main_v61 (F := F) L R := (keep2_main_v61 _ L R).trans f1_main_v61
  have f2_main_v68 : after p2 (after p1 (after p0 V0)) (Proc.devRef .tc main_v68) = val_main_v68 (F := F) L R := (keep2_main_v68 _ L R).trans f1_main_v68
  have f2_main_v75 : after p2 (after p1 (after p0 V0)) (Proc.devRef .tc main_v75) = val_main_v75 (F := F) L R := (keep2_main_v75 _ L R).trans f1_main_v75
  have f2_main_v82 : after p2 (after p1 (after p0 V0)) (Proc.devRef .tc main_v82) = val_main_v82 (F := F) L R := (keep2_main_v82 _ L R).trans f1_main_v82
  have f2_main_v89 : after p2 (after p1 (after p0 V0)) (Proc.devRef .tc main_v89) = val_main_v89 (F := F) L R := out2_main_v89 _ L R f1_main_v83 f1_main_v84
  have f2_main_v96 : after p2 (after p1 (after p0 V0)) (Proc.devRef .tc main_v96) = val_main_v96 (F := F) L R := out2_main_v96 _ L R f1_main_v0 f1_main_v1
  have f2_main_v103 : after p2 (after p1 (after p0 V0)) (Proc.devRef .tc main_v103) = val_main_v103 (F := F) L R := out2_main_v103 _ L R f1_main_v0 f1_main_v1
  have f2_main_v110 : after p2 (after p1 (after p0 V0)) (Proc.devRef .tc main_v110) = val_main_v110 (F := F) L R := out2_main_v110 _ L R f1_main_v0 f1_main_v1
  have f2_main_v117 : after p2 (after p1 (after p0 V0)) (Proc.devRef .tc main_v117) = val_main_v117 (F := F) L R := out2_main_v117 _ L R f1_main_v0 f1_main_v1
  have f2_main_v124 : after p2 (after p1 (after p0 V0)) (Proc.devRef .tc main_v124) = val_main_v124 (F := F) L R := out2_main_v124 _ L R f1_main_v0 f1_main_v1
  have f2_main_v125 : after p2 (after p1 (after p0 V0)) (Proc.devRef .tc main_v125) = val_main_v125 (F := F) L := out2_main_v125 _ L R f1_main_v0
  have f2_main_v126 : after p2 (after p1 (after p0 V0)) (Proc.devRef .tc main_v126) = val_main_v126 (F := F) R := out2_main_v126 _ L R f1_main_v1
  have f3_main_arg0 : after p3 (after p2 (after p1 (after p0 V0))) (Proc.devRef .tc main_arg0) = L := (keep3_main_arg0 _ L R).trans f2_main_arg0
  have f3_main_arg1 : after p3 (after p2 (after p1 (after p0 V0))) (Proc.devRef .tc main_arg1) = R := (keep3_main_arg1 _ L R).trans f2_main_arg1
  have f3_main_v0 : after p3 (after p2 (after p1 (after p0 V0))) (Proc.devRef .tc main_v0) = val_main_v0 (F := F) L := (keep3_main_v0 _ L R).trans f2_main_v0
  have f3_main_v1 : after p3 (after p2 (after p1 (after p0 V0))) (Proc.devRef .tc main_v1) = val_main_v1 (F := F) R := (keep3_main_v1 _ L R).trans f2_main_v1
  have f3_main_v5 : after p3 (after p2 (after p1 (after p0 V0))) (Proc.devRef .tc main_v5) = val_main_v5 (F := F) L R := (keep3_main_v5 _ L R).trans f2_main_v5
  have f3_main_v12 : after p3 (after p2 (after p1 (after p0 V0))) (Proc.devRef .tc main_v12) = val_main_v12 (F := F) L R := (keep3_main_v12 _ L R).trans f2_main_v12
  have f3_main_v19 : after p3 (after p2 (after p1 (after p0 V0))) (Proc.devRef .tc main_v19) = val_main_v19 (F := F) L R := (keep3_main_v19 _ L R).trans f2_main_v19
  have f3_main_v26 : after p3 (after p2 (after p1 (after p0 V0))) (Proc.devRef .tc main_v26) = val_main_v26 (F := F) L R := (keep3_main_v26 _ L R).trans f2_main_v26
  have f3_main_v33 : after p3 (after p2 (after p1 (after p0 V0))) (Proc.devRef .tc main_v33) = val_main_v33 (F := F) L R := (keep3_main_v33 _ L R).trans f2_main_v33
  have f3_main_v40 : after p3 (after p2 (after p1 (after p0 V0))) (Proc.devRef .tc main_v40) = val_main_v40 (F := F) L R := (keep3_main_v40 _ L R).trans f2_main_v40
  have f3_main_v47 : after p3 (after p2 (after p1 (after p0 V0))) (Proc.devRef .tc main_v47) = val_main_v47 (F := F) L R := (keep3_main_v47 _ L R).trans f2_main_v47
  have f3_main_v54 : after p3 (after p2 (after p1 (after p0 V0))) (Proc.devRef .tc main_v54) = val_main_v54 (F := F) L R := (keep3_main_v54 _ L R).trans f2_main_v54
  have f3_main_v61 : after p3 (after p2 (after p1 (after p0 V0))) (Proc.devRef .tc main_v61) = val_main_v61 (F := F) L R := (keep3_main_v61 _ L R).trans f2_main_v61
  have f3_main_v68 : after p3 (after p2 (after p1 (after p0 V0))) (Proc.devRef .tc main_v68) = val_main_v68 (F := F) L R := (keep3_main_v68 _ L R).trans f2_main_v68
  have f3_main_v75 : after p3 (after p2 (after p1 (after p0 V0))) (Proc.devRef .tc main_v75) = val_main_v75 (F := F) L R := (keep3_main_v75 _ L R).trans f2_main_v75
  have f3_main_v82 : after p3 (after p2 (after p1 (after p0 V0))) (Proc.devRef .tc main_v82) = val_main_v82 (F := F) L R := (keep3_main_v82 _ L R).trans f2_main_v82
  have f3_main_v89 : after p3 (after p2 (after p1 (after p0 V0))) (Proc.devRef .tc main_v89) = val_main_v89 (F := F) L R := (keep3_main_v89 _ L R).trans f2_main_v89
  have f3_main_v96 : after p3 (after p2 (after p1 (after p0 V0))) (Proc.devRef .tc main_v96) = val_main_v96 (F := F) L R := (keep3_main_v96 _ L R).trans f2_main_v96
  have f3_main_v103 : after p3 (after p2 (after p1 (after p0 V0))) (Proc.devRef .tc main_v103) = val_main_v103 (F := F) L R := (keep3_main_v103 _ L R).trans f2_main_v103
  have f3_main_v110 : after p3 (after p2 (after p1 (after p0 V0))) (Proc.devRef .tc main_v110) = val_main_v110 (F := F) L R := (keep3_main_v110 _ L R).trans f2_main_v110
  have f3_main_v117 : after p3 (after p2 (after p1 (after p0 V0))) (Proc.devRef .tc main_v117) = val_main_v117 (F := F) L R := (keep3_main_v117 _ L R).trans f2_main_v117
  have f3_main_v124 : after p3 (after p2 (after p1 (after p0 V0))) (Proc.devRef .tc main_v124) = val_main_v124 (F := F) L R := (keep3_main_v124 _ L R).trans f2_main_v124
  have f3_main_v131 : after p3 (after p2 (after p1 (after p0 V0))) (Proc.devRef .tc main_v131) = val_main_v131 (F := F) L R := out3_main_v131 _ L R f2_main_v125 f2_main_v126
  have f3_main_v138 : after p3 (after p2 (after p1 (after p0 V0))) (Proc.devRef .tc main_v138) = val_main_v138 (F := F) L R := out3_main_v138 _ L R f2_main_v0 f2_main_v1
  have f3_main_v145 : after p3 (after p2 (after p1 (after p0 V0))) (Proc.devRef .tc main_v145) = val_main_v145 (F := F) L R := out3_main_v145 _ L R f2_main_v0 f2_main_v1
  have f3_main_v152 : after p3 (after p2 (after p1 (after p0 V0))) (Proc.devRef .tc main_v152) = val_main_v152 (F := F) L R := out3_main_v152 _ L R f2_main_v0 f2_main_v1
  have f3_main_v159 : after p3 (after p2 (after p1 (after p0 V0))) (Proc.devRef .tc main_v159) = val_main_v159 (F := F) L R := out3_main_v159 _ L R f2_main_v0 f2_main_v1
  have f3_main_v166 : after p3 (after p2 (after p1 (after p0 V0))) (Proc.devRef .tc main_v166) = val_main_v166 (F := F) L R := out3_main_v166 _ L R f2_main_v0 f2_main_v1
  have f3_main_v167 : after p3 (after p2 (after p1 (after p0 V0))) (Proc.devRef .tc main_v167) = val_main_v167 (F := F) L := out3_main_v167 _ L R f2_main_v0
  have f3_main_v168 : after p3 (after p2 (after p1 (after p0 V0))) (Proc.devRef .tc main_v168) = val_main_v168 (F := F) R := out3_main_v168 _ L R f2_main_v1
  have f4_main_arg0 : after p4 (after p3 (after p2 (after p1 (after p0 V0)))) (Proc.devRef .tc main_arg0) = L := (keep4_main_arg0 _ L R).trans f3_main_arg0
  have f4_main_arg1 : after p4 (after p3 (after p2 (after p1 (after p0 V0)))) (Proc.devRef .tc main_arg1) = R := (keep4_main_arg1 _ L R).trans f3_main_arg1
  have f4_main_v0 : after p4 (after p3 (after p2 (after p1 (after p0 V0)))) (Proc.devRef .tc main_v0) = val_main_v0 (F := F) L := (keep4_main_v0 _ L R).trans f3_main_v0
  have f4_main_v1 : after p4 (after p3 (after p2 (after p1 (after p0 V0)))) (Proc.devRef .tc main_v1) = val_main_v1 (F := F) R := (keep4_main_v1 _ L R).trans f3_main_v1
  have f4_main_v5 : after p4 (after p3 (after p2 (after p1 (after p0 V0)))) (Proc.devRef .tc main_v5) = val_main_v5 (F := F) L R := (keep4_main_v5 _ L R).trans f3_main_v5
  have f4_main_v12 : after p4 (after p3 (after p2 (after p1 (after p0 V0)))) (Proc.devRef .tc main_v12) = val_main_v12 (F := F) L R := (keep4_main_v12 _ L R).trans f3_main_v12
  have f4_main_v19 : after p4 (after p3 (after p2 (after p1 (after p0 V0)))) (Proc.devRef .tc main_v19) = val_main_v19 (F := F) L R := (keep4_main_v19 _ L R).trans f3_main_v19
  have f4_main_v26 : after p4 (after p3 (after p2 (after p1 (after p0 V0)))) (Proc.devRef .tc main_v26) = val_main_v26 (F := F) L R := (keep4_main_v26 _ L R).trans f3_main_v26
  have f4_main_v33 : after p4 (after p3 (after p2 (after p1 (after p0 V0)))) (Proc.devRef .tc main_v33) = val_main_v33 (F := F) L R := (keep4_main_v33 _ L R).trans f3_main_v33
  have f4_main_v40 : after p4 (after p3 (after p2 (after p1 (after p0 V0)))) (Proc.devRef .tc main_v40) = val_main_v40 (F := F) L R := (keep4_main_v40 _ L R).trans f3_main_v40
  have f4_main_v47 : after p4 (after p3 (after p2 (after p1 (after p0 V0)))) (Proc.devRef .tc main_v47) = val_main_v47 (F := F) L R := (keep4_main_v47 _ L R).trans f3_main_v47
  have f4_main_v54 : after p4 (after p3 (after p2 (after p1 (after p0 V0)))) (Proc.devRef .tc main_v54) = val_main_v54 (F := F) L R := (keep4_main_v54 _ L R).trans f3_main_v54
  have f4_main_v61 : after p4 (after p3 (after p2 (after p1 (after p0 V0)))) (Proc.devRef .tc main_v61) = val_main_v61 (F := F) L R := (keep4_main_v61 _ L R).trans f3_main_v61
  have f4_main_v68 : after p4 (after p3 (after p2 (after p1 (after p0 V0)))) (Proc.devRef .tc main_v68) = val_main_v68 (F := F) L R := (keep4_main_v68 _ L R).trans f3_main_v68
  have f4_main_v75 : after p4 (after p3 (after p2 (after p1 (after p0 V0)))) (Proc.devRef .tc main_v75) = val_main_v75 (F := F) L R := (keep4_main_v75 _ L R).trans f3_main_v75
  have f4_main_v82 : after p4 (after p3 (after p2 (after p1 (after p0 V0)))) (Proc.devRef .tc main_v82) = val_main_v82 (F := F) L R := (keep4_main_v82 _ L R).trans f3_main_v82
  have f4_main_v89 : after p4 (after p3 (after p2 (after p1 (after p0 V0)))) (Proc.devRef .tc main_v89) = val_main_v89 (F := F) L R := (keep4_main_v89 _ L R).trans f3_main_v89
  have f4_main_v96 : after p4 (after p3 (after p2 (after p1 (after p0 V0)))) (Proc.devRef .tc main_v96) = val_main_v96 (F := F) L R := (keep4_main_v96 _ L R).trans f3_main_v96
  have f4_main_v103 : after p4 (after p3 (after p2 (after p1 (after p0 V0)))) (Proc.devRef .tc main_v103) = val_main_v103 (F := F) L R := (keep4_main_v103 _ L R).trans f3_main_v103
  have f4_main_v110 : after p4 (after p3 (after p2 (after p1 (after p0 V0)))) (Proc.devRef .tc main_v110) = val_main_v110 (F := F) L R := (keep4_main_v110 _ L R).trans f3_main_v110
  have f4_main_v117 : after p4 (after p3 (after p2 (after p1 (after p0 V0)))) (Proc.devRef .tc main_v117) = val_main_v117 (F := F) L R := (keep4_main_v117 _ L R).trans f3_main_v117
  have f4_main_v124 : after p4 (after p3 (after p2 (after p1 (after p0 V0)))) (Proc.devRef .tc main_v124) = val_main_v124 (F := F) L R := (keep4_main_v124 _ L R).trans f3_main_v124
  have f4_main_v131 : after p4 (after p3 (after p2 (after p1 (after p0 V0)))) (Proc.devRef .tc main_v131) = val_main_v131 (F := F) L R := (keep4_main_v131 _ L R).trans f3_main_v131
  have f4_main_v138 : after p4 (after p3 (after p2 (after p1 (after p0 V0)))) (Proc.devRef .tc main_v138) = val_main_v138 (F := F) L R := (keep4_main_v138 _ L R).trans f3_main_v138
  have f4_main_v145 : after p4 (after p3 (after p2 (after p1 (after p0 V0)))) (Proc.devRef .tc main_v145) = val_main_v145 (F := F) L R := (keep4_main_v145 _ L R).trans f3_main_v145
  have f4_main_v152 : after p4 (after p3 (after p2 (after p1 (after p0 V0)))) (Proc.devRef .tc main_v152) = val_main_v152 (F := F) L R := (keep4_main_v152 _ L R).trans f3_main_v152
  have f4_main_v159 : after p4 (after p3 (after p2 (after p1 (after p0 V0)))) (Proc.devRef .tc main_v159) = val_main_v159 (F := F) L R := (keep4_main_v159 _ L R).trans f3_main_v159
  have f4_main_v166 : after p4 (after p3 (after p2 (after p1 (after p0 V0)))) (Proc.devRef .tc main_v166) = val_main_v166 (F := F) L R := (keep4_main_v166 _ L R).trans f3_main_v166
  have f4_main_v173 : after p4 (after p3 (after p2 (after p1 (after p0 V0)))) (Proc.devRef .tc main_v173) = val_main_v173 (F := F) L R := out4_main_v173 _ L R f3_main_v167 f3_main_v168
  have f4_main_v180 : after p4 (after p3 (after p2 (after p1 (after p0 V0)))) (Proc.devRef .tc main_v180) = val_main_v180 (F := F) L R := out4_main_v180 _ L R f3_main_v0 f3_main_v1
  have f4_main_v187 : after p4 (after p3 (after p2 (after p1 (after p0 V0)))) (Proc.devRef .tc main_v187) = val_main_v187 (F := F) L R := out4_main_v187 _ L R f3_main_v0 f3_main_v1
  have f4_main_v194 : after p4 (after p3 (after p2 (after p1 (after p0 V0)))) (Proc.devRef .tc main_v194) = val_main_v194 (F := F) L R := out4_main_v194 _ L R f3_main_v0 f3_main_v1
  have f4_main_v201 : after p4 (after p3 (after p2 (after p1 (after p0 V0)))) (Proc.devRef .tc main_v201) = val_main_v201 (F := F) L R := out4_main_v201 _ L R f3_main_v0 f3_main_v1
  have f4_main_v208 : after p4 (after p3 (after p2 (after p1 (after p0 V0)))) (Proc.devRef .tc main_v208) = val_main_v208 (F := F) L R := out4_main_v208 _ L R f3_main_v0 f3_main_v1
  have f4_main_v209 : after p4 (after p3 (after p2 (after p1 (after p0 V0)))) (Proc.devRef .tc main_v209) = val_main_v209 (F := F) L := out4_main_v209 _ L R f3_main_v0
  have f4_main_v210 : after p4 (after p3 (after p2 (after p1 (after p0 V0)))) (Proc.devRef .tc main_v210) = val_main_v210 (F := F) R := out4_main_v210 _ L R f3_main_v1
  have f5_main_arg0 : after p5 (after p4 (after p3 (after p2 (after p1 (after p0 V0))))) (Proc.devRef .tc main_arg0) = L := (keep5_main_arg0 _ L R).trans f4_main_arg0
  have f5_main_arg1 : after p5 (after p4 (after p3 (after p2 (after p1 (after p0 V0))))) (Proc.devRef .tc main_arg1) = R := (keep5_main_arg1 _ L R).trans f4_main_arg1
  have f5_main_v0 : after p5 (after p4 (after p3 (after p2 (after p1 (after p0 V0))))) (Proc.devRef .tc main_v0) = val_main_v0 (F := F) L := (keep5_main_v0 _ L R).trans f4_main_v0
  have f5_main_v1 : after p5 (after p4 (after p3 (after p2 (after p1 (after p0 V0))))) (Proc.devRef .tc main_v1) = val_main_v1 (F := F) R := (keep5_main_v1 _ L R).trans f4_main_v1
  have f5_main_v5 : after p5 (after p4 (after p3 (after p2 (after p1 (after p0 V0))))) (Proc.devRef .tc main_v5) = val_main_v5 (F := F) L R := (keep5_main_v5 _ L R).trans f4_main_v5
  have f5_main_v12 : after p5 (after p4 (after p3 (after p2 (after p1 (after p0 V0))))) (Proc.devRef .tc main_v12) = val_main_v12 (F := F) L R := (keep5_main_v12 _ L R).trans f4_main_v12
  have f5_main_v19 : after p5 (after p4 (after p3 (after p2 (after p1 (after p0 V0))))) (Proc.devRef .tc main_v19) = val_main_v19 (F := F) L R := (keep5_main_v19 _ L R).trans f4_main_v19
  have f5_main_v26 : after p5 (after p4 (after p3 (after p2 (after p1 (after p0 V0))))) (Proc.devRef .tc main_v26) = val_main_v26 (F := F) L R := (keep5_main_v26 _ L R).trans f4_main_v26
  have f5_main_v33 : after p5 (after p4 (after p3 (after p2 (after p1 (after p0 V0))))) (Proc.devRef .tc main_v33) = val_main_v33 (F := F) L R := (keep5_main_v33 _ L R).trans f4_main_v33
  have f5_main_v40 : after p5 (after p4 (after p3 (after p2 (after p1 (after p0 V0))))) (Proc.devRef .tc main_v40) = val_main_v40 (F := F) L R := (keep5_main_v40 _ L R).trans f4_main_v40
  have f5_main_v47 : after p5 (after p4 (after p3 (after p2 (after p1 (after p0 V0))))) (Proc.devRef .tc main_v47) = val_main_v47 (F := F) L R := (keep5_main_v47 _ L R).trans f4_main_v47
  have f5_main_v54 : after p5 (after p4 (after p3 (after p2 (after p1 (after p0 V0))))) (Proc.devRef .tc main_v54) = val_main_v54 (F := F) L R := (keep5_main_v54 _ L R).trans f4_main_v54
  have f5_main_v61 : after p5 (after p4 (after p3 (after p2 (after p1 (after p0 V0))))) (Proc.devRef .tc main_v61) = val_main_v61 (F := F) L R := (keep5_main_v61 _ L R).trans f4_main_v61
  have f5_main_v68 : after p5 (after p4 (after p3 (after p2 (after p1 (after p0 V0))))) (Proc.devRef .tc main_v68) = val_main_v68 (F := F) L R := (keep5_main_v68 _ L R).trans f4_main_v68
  have f5_main_v75 : after p5 (after p4 (after p3 (after p2 (after p1 (after p0 V0))))) (Proc.devRef .tc main_v75) = val_main_v75 (F := F) L R := (keep5_main_v75 _ L R).trans f4_main_v75
  have f5_main_v82 : after p5 (after p4 (after p3 (after p2 (after p1 (after p0 V0))))) (Proc.devRef .tc main_v82) = val_main_v82 (F := F) L R := (keep5_main_v82 _ L R).trans f4_main_v82
  have f5_main_v89 : after p5 (after p4 (after p3 (after p2 (after p1 (after p0 V0))))) (Proc.devRef .tc main_v89) = val_main_v89 (F := F) L R := (keep5_main_v89 _ L R).trans f4_main_v89
  have f5_main_v96 : after p5 (after p4 (after p3 (after p2 (after p1 (after p0 V0))))) (Proc.devRef .tc main_v96) = val_main_v96 (F := F) L R := (keep5_main_v96 _ L R).trans f4_main_v96
  have f5_main_v103 : after p5 (after p4 (after p3 (after p2 (after p1 (after p0 V0))))) (Proc.devRef .tc main_v103) = val_main_v103 (F := F) L R := (keep5_main_v103 _ L R).trans f4_main_v103
  have f5_main_v110 : after p5 (after p4 (after p3 (after p2 (after p1 (after p0 V0))))) (Proc.devRef .tc main_v110) = val_main_v110 (F := F) L R := (keep5_main_v110 _ L R).trans f4_main_v110
  have f5_main_v117 : after p5 (after p4 (after p3 (after p2 (after p1 (after p0 V0))))) (Proc.devRef .tc main_v117) = val_main_v117 (F := F) L R := (keep5_main_v117 _ L R).trans f4_main_v117
  have f5_main_v124 : after p5 (after p4 (after p3 (after p2 (after p1 (after p0 V0))))) (Proc.devRef .tc main_v124) = val_main_v124 (F := F) L R := (keep5_main_v124 _ L R).trans f4_main_v124
  have f5_main_v131 : after p5 (after p4 (after p3 (after p2 (after p1 (after p0 V0))))) (Proc.devRef .tc main_v131) = val_main_v131 (F := F) L R := (keep5_main_v131 _ L R).trans f4_main_v131
  have f5_main_v138 : after p5 (after p4 (after p3 (after p2 (after p1 (after p0 V0))))) (Proc.devRef .tc main_v138) = val_main_v138 (F := F) L R := (keep5_main_v138 _ L R).trans f4_main_v138
  have f5_main_v145 : after p5 (after p4 (after p3 (after p2 (after p1 (after p0 V0))))) (Proc.devRef .tc main_v145) = val_main_v145 (F := F) L R := (keep5_main_v145 _ L R).trans f4_main_v145
  have f5_main_v152 : after p5 (after p4 (after p3 (after p2 (after p1 (after p0 V0))))) (Proc.devRef .tc main_v152) = val_main_v152 (F := F) L R := (keep5_main_v152 _ L R).trans f4_main_v152
  have f5_main_v159 : after p5 (after p4 (after p3 (after p2 (after p1 (after p0 V0))))) (Proc.devRef .tc main_v159) = val_main_v159 (F := F) L R := (keep5_main_v159 _ L R).trans f4_main_v159
  have f5_main_v166 : after p5 (after p4 (after p3 (after p2 (after p1 (after p0 V0))))) (Proc.devRef .tc main_v166) = val_main_v166 (F := F) L R := (keep5_main_v166 _ L R).trans f4_main_v166
  have f5_main_v173 : after p5 (after p4 (after p3 (after p2 (after p1 (after p0 V0))))) (Proc.devRef .tc main_v173) = val_main_v173 (F := F) L R := (keep5_main_v173 _ L R).trans f4_main_v173
  have f5_main_v180 : after p5 (after p4 (after p3 (after p2 (after p1 (after p0 V0))))) (Proc.devRef .tc main_v180) = val_main_v180 (F := F) L R := (keep5_main_v180 _ L R).trans f4_main_v180
  have f5_main_v187 : after p5 (after p4 (after p3 (after p2 (after p1 (after p0 V0))))) (Proc.devRef .tc main_v187) = val_main_v187 (F := F) L R := (keep5_main_v187 _ L R).trans f4_main_v187
  have f5_main_v194 : after p5 (after p4 (after p3 (after p2 (after p1 (after p0 V0))))) (Proc.devRef .tc main_v194) = val_main_v194 (F := F) L R := (keep5_main_v194 _ L R).trans f4_main_v194
  have f5_main_v201 : after p5 (after p4 (after p3 (after p2 (after p1 (after p0 V0))))) (Proc.devRef .tc main_v201) = val_main_v201 (F := F) L R := (keep5_main_v201 _ L R).trans f4_main_v201
  have f5_main_v208 : after p5 (after p4 (after p3 (after p2 (after p1 (after p0 V0))))) (Proc.devRef .tc main_v208) = val_main_v208 (F := F) L R := (keep5_main_v208 _ L R).trans f4_main_v208
  have f5_main_v215 : after p5 (after p4 (after p3 (after p2 (after p1 (after p0 V0))))) (Proc.devRef .tc main_v215) = val_main_v215 (F := F) L R := out5_main_v215 _ L R f4_main_v209 f4_main_v210
  have f5_main_v222 : after p5 (after p4 (after p3 (after p2 (after p1 (after p0 V0))))) (Proc.devRef .tc main_v222) = val_main_v222 (F := F) L R := out5_main_v222 _ L R f4_main_v0 f4_main_v1
  have f5_main_v229 : after p5 (after p4 (after p3 (after p2 (after p1 (after p0 V0))))) (Proc.devRef .tc main_v229) = val_main_v229 (F := F) L R := out5_main_v229 _ L R f4_main_v0 f4_main_v1
  have f5_main_v236 : after p5 (after p4 (after p3 (after p2 (after p1 (after p0 V0))))) (Proc.devRef .tc main_v236) = val_main_v236 (F := F) L R := out5_main_v236 _ L R f4_main_v0 f4_main_v1
  have f5_main_v243 : after p5 (after p4 (after p3 (after p2 (after p1 (after p0 V0))))) (Proc.devRef .tc main_v243) = val_main_v243 (F := F) L R := out5_main_v243 _ L R f4_main_v0 f4_main_v1
  have f5_main_v250 : after p5 (after p4 (after p3 (after p2 (after p1 (after p0 V0))))) (Proc.devRef .tc main_v250) = val_main_v250 (F := F) L R := out5_main_v250 _ L R f4_main_v0 f4_main_v1
  have f5_main_v251 : after p5 (after p4 (after p3 (after p2 (after p1 (after p0 V0))))) (Proc.devRef .tc main_v251) = val_main_v251 (F := F) L := out5_main_v251 _ L R f4_main_v0
  have f5_main_v252 : after p5 (after p4 (after p3 (after p2 (after p1 (after p0 V0))))) (Proc.devRef .tc main_v252) = val_main_v252 (F := F) R := out5_main_v252 _ L R f4_main_v1
  have f6_main_arg0 : after p6 (after p5 (after p4 (after p3 (after p2 (after p1 (after p0 V0)))))) (Proc.devRef .tc main_arg0) = L := (keep6_main_arg0 _ L R).trans f5_main_arg0
  have f6_main_arg1 : after p6 (after p5 (after p4 (after p3 (after p2 (after p1 (after p0 V0)))))) (Proc.devRef .tc main_arg1) = R := (keep6_main_arg1 _ L R).trans f5_main_arg1
  have f6_main_v0 : after p6 (after p5 (after p4 (after p3 (after p2 (after p1 (after p0 V0)))))) (Proc.devRef .tc main_v0) = val_main_v0 (F := F) L := (keep6_main_v0 _ L R).trans f5_main_v0
  have f6_main_v1 : after p6 (after p5 (after p4 (after p3 (after p2 (after p1 (after p0 V0)))))) (Proc.devRef .tc main_v1) = val_main_v1 (F := F) R := (keep6_main_v1 _ L R).trans f5_main_v1
  have f6_main_v5 : after p6 (after p5 (after p4 (after p3 (after p2 (after p1 (after p0 V0)))))) (Proc.devRef .tc main_v5) = val_main_v5 (F := F) L R := (keep6_main_v5 _ L R).trans f5_main_v5
  have f6_main_v12 : after p6 (after p5 (after p4 (after p3 (after p2 (after p1 (after p0 V0)))))) (Proc.devRef .tc main_v12) = val_main_v12 (F := F) L R := (keep6_main_v12 _ L R).trans f5_main_v12
  have f6_main_v19 : after p6 (after p5 (after p4 (after p3 (after p2 (after p1 (after p0 V0)))))) (Proc.devRef .tc main_v19) = val_main_v19 (F := F) L R := (keep6_main_v19 _ L R).trans f5_main_v19
  have f6_main_v26 : after p6 (after p5 (after p4 (after p3 (after p2 (after p1 (after p0 V0)))))) (Proc.devRef .tc main_v26) = val_main_v26 (F := F) L R := (keep6_main_v26 _ L R).trans f5_main_v26
  have f6_main_v33 : after p6 (after p5 (after p4 (after p3 (after p2 (after p1 (after p0 V0)))))) (Proc.devRef .tc main_v33) = val_main_v33 (F := F) L R := (keep6_main_v33 _ L R).trans f5_main_v33
  have f6_main_v40 : after p6 (after p5 (after p4 (after p3 (after p2 (after p1 (after p0 V0)))))) (Proc.devRef .tc main_v40) = val_main_v40 (F := F) L R := (keep6_main_v40 _ L R).trans f5_main_v40
  have f6_main_v47 : after p6 (after p5 (after p4 (after p3 (after p2 (after p1 (after p0 V0)))))) (Proc.devRef .tc main_v47) = val_main_v47 (F := F) L R := (keep6_main_v47 _ L R).trans f5_main_v47
  have f6_main_v54 : after p6 (after p5 (after p4 (after p3 (after p2 (after p1 (after p0 V0)))))) (Proc.devRef .tc main_v54) = val_main_v54 (F := F) L R := (keep6_main_v54 _ L R).trans f5_main_v54
  have f6_main_v61 : after p6 (after p5 (after p4 (after p3 (after p2 (after p1 (after p0 V0)))))) (Proc.devRef .tc main_v61) = val_main_v61 (F := F) L R := (keep6_main_v61 _ L R).trans f5_main_v61
  have f6_main_v68 : after p6 (after p5 (after p4 (after p3 (after p2 (after p1 (after p0 V0)))))) (Proc.devRef .tc main_v68) = val_main_v68 (F := F) L R := (keep6_main_v68 _ L R).trans f5_main_v68
  have f6_main_v75 : after p6 (after p5 (after p4 (after p3 (after p2 (after p1 (after p0 V0)))))) (Proc.devRef .tc main_v75) = val_main_v75 (F := F) L R := (keep6_main_v75 _ L R).trans f5_main_v75
  have f6_main_v82 : after p6 (after p5 (after p4 (after p3 (after p2 (after p1 (after p0 V0)))))) (Proc.devRef .tc main_v82) = val_main_v82 (F := F) L R := (keep6_main_v82 _ L R).trans f5_main_v82
  have f6_main_v89 : after p6 (after p5 (after p4 (after p3 (after p2 (after p1 (after p0 V0)))))) (Proc.devRef .tc main_v89) = val_main_v89 (F := F) L R := (keep6_main_v89 _ L R).trans f5_main_v89
  have f6_main_v96 : after p6 (after p5 (after p4 (after p3 (after p2 (after p1 (after p0 V0)))))) (Proc.devRef .tc main_v96) = val_main_v96 (F := F) L R := (keep6_main_v96 _ L R).trans f5_main_v96
  have f6_main_v103 : after p6 (after p5 (after p4 (after p3 (after p2 (after p1 (after p0 V0)))))) (Proc.devRef .tc main_v103) = val_main_v103 (F := F) L R := (keep6_main_v103 _ L R).trans f5_main_v103
  have f6_main_v110 : after p6 (after p5 (after p4 (after p3 (after p2 (after p1 (after p0 V0)))))) (Proc.devRef .tc main_v110) = val_main_v110 (F := F) L R := (keep6_main_v110 _ L R).trans f5_main_v110
  have f6_main_v117 : after p6 (after p5 (after p4 (after p3 (after p2 (after p1 (after p0 V0)))))) (Proc.devRef .tc main_v117) = val_main_v117 (F := F) L R := (keep6_main_v117 _ L R).trans f5_main_v117
  have f6_main_v124 : after p6 (after p5 (after p4 (after p3 (after p2 (after p1 (after p0 V0)))))) (Proc.devRef .tc main_v124) = val_main_v124 (F := F) L R := (keep6_main_v124 _ L R).trans f5_main_v124
  have f6_main_v131 : after p6 (after p5 (after p4 (after p3 (after p2 (after p1 (after p0 V0)))))) (Proc.devRef .tc main_v131) = val_main_v131 (F := F) L R := (keep6_main_v131 _ L R).trans f5_main_v131
  have f6_main_v138 : after p6 (after p5 (after p4 (after p3 (after p2 (after p1 (after p0 V0)))))) (Proc.devRef .tc main_v138) = val_main_v138 (F := F) L R := (keep6_main_v138 _ L R).trans f5_main_v138
  have f6_main_v145 : after p6 (after p5 (after p4 (after p3 (after p2 (after p1 (after p0 V0)))))) (Proc.devRef .tc main_v145) = val_main_v145 (F := F) L R := (keep6_main_v145 _ L R).trans f5_main_v145
  have f6_main_v152 : after p6 (after p5 (after p4 (after p3 (after p2 (after p1 (after p0 V0)))))) (Proc.devRef .tc main_v152) = val_main_v152 (F := F) L R := (keep6_main_v152 _ L R).trans f5_main_v152
  have f6_main_v159 : after p6 (after p5 (after p4 (after p3 (after p2 (after p1 (after p0 V0)))))) (Proc.devRef .tc main_v159) = val_main_v159 (F := F) L R := (keep6_main_v159 _ L R).trans f5_main_v159
  have f6_main_v166 : after p6 (after p5 (after p4 (after p3 (after p2 (after p1 (after p0 V0)))))) (Proc.devRef .tc main_v166) = val_main_v166 (F := F) L R := (keep6_main_v166 _ L R).trans f5_main_v166
  have f6_main_v173 : after p6 (after p5 (after p4 (after p3 (after p2 (after p1 (after p0 V0)))))) (Proc.devRef .tc main_v173) = val_main_v173 (F := F) L R := (keep6_main_v173 _ L R).trans f5_main_v173
  have f6_main_v180 : after p6 (after p5 (after p4 (after p3 (after p2 (after p1 (after p0 V0)))))) (Proc.devRef .tc main_v180) = val_main_v180 (F := F) L R := (keep6_main_v180 _ L R).trans f5_main_v180
  have f6_main_v187 : after p6 (after p5 (after p4 (after p3 (after p2 (after p1 (after p0 V0)))))) (Proc.devRef .tc main_v187) = val_main_v187 (F := F) L R := (keep6_main_v187 _ L R).trans f5_main_v187
  have f6_main_v194 : after p6 (after p5 (after p4 (after p3 (after p2 (after p1 (after p0 V0)))))) (Proc.devRef .tc main_v194) = val_main_v194 (F := F) L R := (keep6_main_v194 _ L R).trans f5_main_v194
  have f6_main_v201 : after p6 (after p5 (after p4 (after p3 (after p2 (after p1 (after p0 V0)))))) (Proc.devRef .tc main_v201) = val_main_v201 (F := F) L R := (keep6_main_v201 _ L R).trans f5_main_v201
  have f6_main_v208 : after p6 (after p5 (after p4 (after p3 (after p2 (after p1 (after p0 V0)))))) (Proc.devRef .tc main_v208) = val_main_v208 (F := F) L R := (keep6_main_v208 _ L R).trans f5_main_v208
  have f6_main_v215 : after p6 (after p5 (after p4 (after p3 (after p2 (after p1 (after p0 V0)))))) (Proc.devRef .tc main_v215) = val_main_v215 (F := F) L R := (keep6_main_v215 _ L R).trans f5_main_v215
  have f6_main_v222 : after p6 (after p5 (after p4 (after p3 (after p2 (after p1 (after p0 V0)))))) (Proc.devRef .tc main_v222) = val_main_v222 (F := F) L R := (keep6_main_v222 _ L R).trans f5_main_v222
  have f6_main_v229 : after p6 (after p5 (after p4 (after p3 (after p2 (after p1 (after p0 V0)))))) (Proc.devRef .tc main_v229) = val_main_v229 (F := F) L R := (keep6_main_v229 _ L R).trans f5_main_v229
  have f6_main_v236 : after p6 (after p5 (after p4 (after p3 (after p2 (after p1 (after p0 V0)))))) (Proc.devRef .tc main_v236) = val_main_v236 (F := F) L R := (keep6_main_v236 _ L R).trans f5_main_v236
  have f6_main_v243 : after p6 (after p5 (after p4 (after p3 (after p2 (after p1 (after p0 V0)))))) (Proc.devRef .tc main_v243) = val_main_v243 (F := F) L R := (keep6_main_v243 _ L R).trans f5_main_v243
  have f6_main_v250 : after p6 (after p5 (after p4 (after p3 (after p2 (after p1 (after p0 V0)))))) (Proc.devRef .tc main_v250) = val_main_v250 (F := F) L R := (keep6_main_v250 _ L R).trans f5_main_v250
  have f6_main_v257 : after p6 (after p5 (after p4 (after p3 (after p2 (after p1 (after p0 V0)))))) (Proc.devRef .tc main_v257) = val_main_v257 (F := F) L R := out6_main_v257 _ L R f5_main_v251 f5_main_v252
  have f6_main_v264 : after p6 (after p5 (after p4 (after p3 (after p2 (after p1 (after p0 V0)))))) (Proc.devRef .tc main_v264) = val_main_v264 (F := F) L R := out6_main_v264 _ L R f5_main_v0 f5_main_v1
  have f6_main_v271 : after p6 (after p5 (after p4 (after p3 (after p2 (after p1 (after p0 V0)))))) (Proc.devRef .tc main_v271) = val_main_v271 (F := F) L R := out6_main_v271 _ L R f5_main_v0 f5_main_v1
  have f6_main_v278 : after p6 (after p5 (after p4 (after p3 (after p2 (after p1 (after p0 V0)))))) (Proc.devRef .tc main_v278) = val_main_v278 (F := F) L R := out6_main_v278 _ L R f5_main_v0 f5_main_v1
  have f6_main_v285 : after p6 (after p5 (after p4 (after p3 (after p2 (after p1 (after p0 V0)))))) (Proc.devRef .tc main_v285) = val_main_v285 (F := F) L R := out6_main_v285 _ L R f5_main_v0 f5_main_v1
  have f6_main_v292 : after p6 (after p5 (after p4 (after p3 (after p2 (after p1 (after p0 V0)))))) (Proc.devRef .tc main_v292) = val_main_v292 (F := F) L R := out6_main_v292 _ L R f5_main_v0 f5_main_v1
  have f6_main_v293 : after p6 (after p5 (after p4 (after p3 (after p2 (after p1 (after p0 V0)))))) (Proc.devRef .tc main_v293) = val_main_v293 (F := F) L := out6_main_v293 _ L R f5_main_v0
  have f6_main_v294 : after p6 (after p5 (after p4 (after p3 (after p2 (after p1 (after p0 V0)))))) (Proc.devRef .tc main_v294) = val_main_v294 (F := F) R := out6_main_v294 _ L R f5_main_v1
  have f7_main_arg0 : after p7 (after p6 (after p5 (after p4 (after p3 (after p2 (after p1 (after p0 V0))))))) (Proc.devRef .tc main_arg0) = L := (keep7_main_arg0 _ L R).trans f6_main_arg0
  have f7_main_arg1 : after p7 (after p6 (after p5 (after p4 (after p3 (after p2 (after p1 (after p0 V0))))))) (Proc.devRef .tc main_arg1) = R := (keep7_main_arg1 _ L R).trans f6_main_arg1
  have f7_main_v19 : after p7 (after p6 (after p5 (after p4 (after p3 (after p2 (after p1 (after p0 V0))))))) (Proc.devRef .tc main_v19) = val_main_v19 (F := F) L R := (keep7_main_v19 _ L R).trans f6_main_v19
  have f7_main_v26 : after p7 (after p6 (after p5 (after p4 (after p3 (after p2 (after p1 (after p0 V0))))))) (Proc.devRef .tc main_v26) = val_main_v26 (F := F) L R := (keep7_main_v26 _ L R).trans f6_main_v26
  have f7_main_v33 : after p7 (after p6 (after p5 (after p4 (after p3 (after p2 (after p1 (after p0 V0))))))) (Proc.devRef .tc main_v33) = val_main_v33 (F := F) L R := (keep7_main_v33 _ L R).trans f6_main_v33
  have f7_main_v40 : after p7 (after p6 (after p5 (after p4 (after p3 (after p2 (after p1 (after p0 V0))))))) (Proc.devRef .tc main_v40) = val_main_v40 (F := F) L R := (keep7_main_v40 _ L R).trans f6_main_v40
  have f7_main_v47 : after p7 (after p6 (after p5 (after p4 (after p3 (after p2 (after p1 (after p0 V0))))))) (Proc.devRef .tc main_v47) = val_main_v47 (F := F) L R := (keep7_main_v47 _ L R).trans f6_main_v47
  have f7_main_v54 : after p7 (after p6 (after p5 (after p4 (after p3 (after p2 (after p1 (after p0 V0))))))) (Proc.devRef .tc main_v54) = val_main_v54 (F := F) L R := (keep7_main_v54 _ L R).trans f6_main_v54
  have f7_main_v61 : after p7 (after p6 (after p5 (after p4 (after p3 (after p2 (after p1 (after p0 V0))))))) (Proc.devRef .tc main_v61) = val_main_v61 (F := F) L R := (keep7_main_v61 _ L R).trans f6_main_v61
  have f7_main_v68 : after p7 (after p6 (after p5 (after p4 (after p3 (after p2 (after p1 (after p0 V0))))))) (Proc.devRef .tc main_v68) = val_main_v68 (F := F) L R := (keep7_main_v68 _ L R).trans f6_main_v68
  have f7_main_v75 : after p7 (after p6 (after p5 (after p4 (after p3 (after p2 (after p1 (after p0 V0))))))) (Proc.devRef .tc main_v75) = val_main_v75 (F := F) L R := (keep7_main_v75 _ L R).trans f6_main_v75
  have f7_main_v82 : after p7 (after p6 (after p5 (after p4 (after p3 (after p2 (after p1 (after p0 V0))))))) (Proc.devRef .tc main_v82) = val_main_v82 (F := F) L R := (keep7_main_v82 _ L R).trans f6_main_v82
  have f7_main_v89 : after p7 (after p6 (after p5 (after p4 (after p3 (after p2 (after p1 (after p0 V0))))))) (Proc.devRef .tc main_v89) = val_main_v89 (F := F) L R := (keep7_main_v89 _ L R).trans f6_main_v89
  have f7_main_v96 : after p7 (after p6 (after p5 (after p4 (after p3 (after p2 (after p1 (after p0 V0))))))) (Proc.devRef .tc main_v96) = val_main_v96 (F := F) L R := (keep7_main_v96 _ L R).trans f6_main_v96
  have f7_main_v103 : after p7 (after p6 (after p5 (after p4 (after p3 (after p2 (after p1 (after p0 V0))))))) (Proc.devRef .tc main_v103) = val_main_v103 (F := F) L R := (keep7_main_v103 _ L R).trans f6_main_v103
  have f7_main_v110 : after p7 (after p6 (after p5 (after p4 (after p3 (after p2 (after p1 (after p0 V0))))))) (Proc.devRef .tc main_v110) = val_main_v110 (F := F) L R := (keep7_main_v110 _ L R).trans f6_main_v110
  have f7_main_v117 : after p7 (after p6 (after p5 (after p4 (after p3 (after p2 (after p1 (after p0 V0))))))) (Proc.devRef .tc main_v117) = val_main_v117 (F := F) L R := (keep7_main_v117 _ L R).trans f6_main_v117
  have f7_main_v124 : after p7 (after p6 (after p5 (after p4 (after p3 (after p2 (after p1 (after p0 V0))))))) (Proc.devRef .tc main_v124) = val_main_v124 (F := F) L R := (keep7_main_v124 _ L R).trans f6_main_v124
  have f7_main_v131 : after p7 (after p6 (after p5 (after p4 (after p3 (after p2 (after p1 (after p0 V0))))))) (Proc.devRef .tc main_v131) = val_main_v131 (F := F) L R := (keep7_main_v131 _ L R).trans f6_main_v131
  have f7_main_v138 : after p7 (after p6 (after p5 (after p4 (after p3 (after p2 (after p1 (after p0 V0))))))) (Proc.devRef .tc main_v138) = val_main_v138 (F := F) L R := (keep7_main_v138 _ L R).trans f6_main_v138
  have f7_main_v145 : after p7 (after p6 (after p5 (after p4 (after p3 (after p2 (after p1 (after p0 V0))))))) (Proc.devRef .tc main_v145) = val_main_v145 (F := F) L R := (keep7_main_v145 _ L R).trans f6_main_v145
  have f7_main_v152 : after p7 (after p6 (after p5 (after p4 (after p3 (after p2 (after p1 (after p0 V0))))))) (Proc.devRef .tc main_v152) = val_main_v152 (F := F) L R := (keep7_main_v152 _ L R).trans f6_main_v152
  have f7_main_v159 : after p7 (after p6 (after p5 (after p4 (after p3 (after p2 (after p1 (after p0 V0))))))) (Proc.devRef .tc main_v159) = val_main_v159 (F := F) L R := (keep7_main_v159 _ L R).trans f6_main_v159
  have f7_main_v166 : after p7 (after p6 (after p5 (after p4 (after p3 (after p2 (after p1 (after p0 V0))))))) (Proc.devRef .tc main_v166) = val_main_v166 (F := F) L R := (keep7_main_v166 _ L R).trans f6_main_v166
  have f7_main_v173 : after p7 (after p6 (after p5 (after p4 (after p3 (after p2 (after p1 (after p0 V0))))))) (Proc.devRef .tc main_v173) = val_main_v173 (F := F) L R := (keep7_main_v173 _ L R).trans f6_main_v173
  have f7_main_v180 : after p7 (after p6 (after p5 (after p4 (after p3 (after p2 (after p1 (after p0 V0))))))) (Proc.devRef .tc main_v180) = val_main_v180 (F := F) L R := (keep7_main_v180 _ L R).trans f6_main_v180
  have f7_main_v187 : after p7 (after p6 (after p5 (after p4 (after p3 (after p2 (after p1 (after p0 V0))))))) (Proc.devRef .tc main_v187) = val_main_v187 (F := F) L R := (keep7_main_v187 _ L R).trans f6_main_v187
  have f7_main_v194 : after p7 (after p6 (after p5 (after p4 (after p3 (after p2 (after p1 (after p0 V0))))))) (Proc.devRef .tc main_v194) = val_main_v194 (F := F) L R := (keep7_main_v194 _ L R).trans f6_main_v194
  have f7_main_v201 : after p7 (after p6 (after p5 (after p4 (after p3 (after p2 (after p1 (after p0 V0))))))) (Proc.devRef .tc main_v201) = val_main_v201 (F := F) L R := (keep7_main_v201 _ L R).trans f6_main_v201
  have f7_main_v208 : after p7 (after p6 (after p5 (after p4 (after p3 (after p2 (after p1 (after p0 V0))))))) (Proc.devRef .tc main_v208) = val_main_v208 (F := F) L R := (keep7_main_v208 _ L R).trans f6_main_v208
  have f7_main_v215 : after p7 (after p6 (after p5 (after p4 (after p3 (after p2 (after p1 (after p0 V0))))))) (Proc.devRef .tc main_v215) = val_main_v215 (F := F) L R := (keep7_main_v215 _ L R).trans f6_main_v215
  have f7_main_v222 : after p7 (after p6 (after p5 (after p4 (after p3 (after p2 (after p1 (after p0 V0))))))) (Proc.devRef .tc main_v222) = val_main_v222 (F := F) L R := (keep7_main_v222 _ L R).trans f6_main_v222
  have f7_main_v229 : after p7 (after p6 (after p5 (after p4 (after p3 (after p2 (after p1 (after p0 V0))))))) (Proc.devRef .tc main_v229) = val_main_v229 (F := F) L R := (keep7_main_v229 _ L R).trans f6_main_v229
  have f7_main_v236 : after p7 (after p6 (after p5 (after p4 (after p3 (after p2 (after p1 (after p0 V0))))))) (Proc.devRef .tc main_v236) = val_main_v236 (F := F) L R := (keep7_main_v236 _ L R).trans f6_main_v236
  have f7_main_v243 : after p7 (after p6 (after p5 (after p4 (after p3 (after p2 (after p1 (after p0 V0))))))) (Proc.devRef .tc main_v243) = val_main_v243 (F := F) L R := (keep7_main_v243 _ L R).trans f6_main_v243
  have f7_main_v250 : after p7 (after p6 (after p5 (after p4 (after p3 (after p2 (after p1 (after p0 V0))))))) (Proc.devRef .tc main_v250) = val_main_v250 (F := F) L R := (keep7_main_v250 _ L R).trans f6_main_v250
  have f7_main_v257 : after p7 (after p6 (after p5 (after p4 (after p3 (after p2 (after p1 (after p0 V0))))))) (Proc.devRef .tc main_v257) = val_main_v257 (F := F) L R := (keep7_main_v257 _ L R).trans f6_main_v257
  have f7_main_v264 : after p7 (after p6 (after p5 (after p4 (after p3 (after p2 (after p1 (after p0 V0))))))) (Proc.devRef .tc main_v264) = val_main_v264 (F := F) L R := (keep7_main_v264 _ L R).trans f6_main_v264
  have f7_main_v271 : after p7 (after p6 (after p5 (after p4 (after p3 (after p2 (after p1 (after p0 V0))))))) (Proc.devRef .tc main_v271) = val_main_v271 (F := F) L R := (keep7_main_v271 _ L R).trans f6_main_v271
  have f7_main_v278 : after p7 (after p6 (after p5 (after p4 (after p3 (after p2 (after p1 (after p0 V0))))))) (Proc.devRef .tc main_v278) = val_main_v278 (F := F) L R := (keep7_main_v278 _ L R).trans f6_main_v278
  have f7_main_v285 : after p7 (after p6 (after p5 (after p4 (after p3 (after p2 (after p1 (after p0 V0))))))) (Proc.devRef .tc main_v285) = val_main_v285 (F := F) L R := (keep7_main_v285 _ L R).trans f6_main_v285
  have f7_main_v292 : after p7 (after p6 (after p5 (after p4 (after p3 (after p2 (after p1 (after p0 V0))))))) (Proc.devRef .tc main_v292) = val_main_v292 (F := F) L R := (keep7_main_v292 _ L R).trans f6_main_v292
  have f7_main_v299 : after p7 (after p6 (after p5 (after p4 (after p3 (after p2 (after p1 (after p0 V0))))))) (Proc.devRef .tc main_v299) = val_main_v299 (F := F) L R := out7_main_v299 _ L R f6_main_v293 f6_main_v294
  have f7_main_v306 : after p7 (after p6 (after p5 (after p4 (after p3 (after p2 (after p1 (after p0 V0))))))) (Proc.devRef .tc main_v306) = val_main_v306 (F := F) L R := out7_main_v306 _ L R f6_main_v0 f6_main_v1
  have f7_main_v313 : after p7 (after p6 (after p5 (after p4 (after p3 (after p2 (after p1 (after p0 V0))))))) (Proc.devRef .tc main_v313) = val_main_v313 (F := F) L R := out7_main_v313 _ L R f6_main_v0 f6_main_v1
  have f7_main_v320 : after p7 (after p6 (after p5 (after p4 (after p3 (after p2 (after p1 (after p0 V0))))))) (Proc.devRef .tc main_v320) = val_main_v320 (F := F) L R := out7_main_v320 _ L R f6_main_v0 f6_main_v1
  have f7_main_v327 : after p7 (after p6 (after p5 (after p4 (after p3 (after p2 (after p1 (after p0 V0))))))) (Proc.devRef .tc main_v327) = val_main_v327 (F := F) L R := out7_main_v327 _ L R f6_main_v0 f6_main_v1
  have f7_main_v334 : after p7 (after p6 (after p5 (after p4 (after p3 (after p2 (after p1 (after p0 V0))))))) (Proc.devRef .tc main_v334) = val_main_v334 (F := F) L R := out7_main_v334 _ L R f6_main_v0 f6_main_v1
  have f7_main_v335 : after p7 (after p6 (after p5 (after p4 (after p3 (after p2 (after p1 (after p0 V0))))))) (Proc.devRef .tc main_v335) = val_main_v335 (F := F) L R := out7_main_v335 _ L R f6_main_v5
  have f7_main_v336 : after p7 (after p6 (after p5 (after p4 (after p3 (after p2 (after p1 (after p0 V0))))))) (Proc.devRef .tc main_v336) = val_main_v336 (F := F) L R := out7_main_v336 _ L R f6_main_v12
  have f8a_main_arg0 : after p8a (after p7 (after p6 (after p5 (after p4 (after p3 (after p2 (after p1 (after p0 V0)))))))) (Proc.devRef .tc main_arg0) = L := (keep8a_main_arg0 _ L R).trans f7_main_arg0
  have f8a_main_arg1 : after p8a (after p7 (after p6 (after p5 (after p4 (after p3 (after p2 (after p1 (after p0 V0)))))))) (Proc.devRef .tc main_arg1) = R := (keep8a_main_arg1 _ L R).trans f7_main_arg1
  have f8a_main_v335 : after p8a (after p7 (after p6 (after p5 (after p4 (after p3 (after p2 (after p1 (after p0 V0)))))))) (Proc.devRef .tc main_v335) = val_main_v335 (F := F) L R := (keep8a_main_v335 _ L R).trans f7_main_v335
  have f8a_main_v336 : after p8a (after p7 (after p6 (after p5 (after p4 (after p3 (after p2 (after p1 (after p0 V0)))))))) (Proc.devRef .tc main_v336) = val_main_v336 (F := F) L R := (keep8a_main_v336 _ L R).trans f7_main_v336
  have f8a_main_v337 : after p8a (after p7 (after p6 (after p5 (after p4 (after p3 (after p2 (after p1 (after p0 V0)))))))) (Proc.devRef .tc main_v337) = val_main_v337 (F := F) L R := out8a_main_v337 _ L R f7_main_v19
  have f8a_main_v338 : after p8a (after p7 (after p6 (after p5 (after p4 (after p3 (after p2 (after p1 (after p0 V0)))))))) (Proc.devRef .tc main_v338) = val_main_v338 (F := F) L R := out8a_main_v338 _ L R f7_main_v26
  have f8a_main_v339 : after p8a (after p7 (after p6 (after p5 (after p4 (after p3 (after p2 (after p1 (after p0 V0)))))))) (Proc.devRef .tc main_v339) = val_main_v339 (F := F) L R := out8a_main_v339 _ L R f7_main_v33
  have f8a_main_v340 : after p8a (after p7 (after p6 (after p5 (after p4 (after p3 (after p2 (after p1 (after p0 V0)))))))) (Proc.devRef .tc main_v340) = val_main_v340 (F := F) L R := out8a_main_v340 _ L R f7_main_v40
  have f8a_main_v341 : after p8a (after p7 (after p6 (after p5 (after p4 (after p3 (after p2 (after p1 (after p0 V0)))))))) (Proc.devRef .tc main_v341) = val_main_v341 (F := F) L R := out8a_main_v341 _ L R f7_main_v47
  have f8a_main_v342 : after p8a (after p7 (after p6 (after p5 (after p4 (after p3 (after p2 (after p1 (after p0 V0)))))))) (Proc.devRef .tc main_v342) = val_main_v342 (F := F) L R := out8a_main_v342 _ L R f7_main_v54
  have f8a_main_v343 : after p8a (after p7 (after p6 (after p5 (after p4 (after p3 (after p2 (after p1 (after p0 V0)))))))) (Proc.devRef .tc main_v343) = val_main_v343 (F := F) L R := out8a_main_v343 _ L R f7_main_v61
  have f8a_main_v344 : after p8a (after p7 (after p6 (after p5 (after p4 (after p3 (after p2 (after p1 (after p0 V0)))))))) (Proc.devRef .tc main_v344) = val_main_v344 (F := F) L R := out8a_main_v344 _ L R f7_main_v68
  have f8a_main_v345 : after p8a (after p7 (after p6 (after p5 (after p4 (after p3 (after p2 (after p1 (after p0 V0)))))))) (Proc.devRef .tc main_v345) = val_main_v345 (F := F) L R := out8a_main_v345 _ L R f7_main_v75
  have f8a_main_v346 : after p8a (after p7 (after p6 (after p5 (after p4 (after p3 (after p2 (after p1 (after p0 V0)))))))) (Proc.devRef .tc main_v346) = val_main_v346 (F := F) L R := out8a_main_v346 _ L R f7_main_v82
  have f8a_main_v347 : after p8a (after p7 (after p6 (after p5 (after p4 (after p3 (after p2 (after p1 (after p0 V0)))))))) (Proc.devRef .tc main_v347) = val_main_v347 (F := F) L R := out8a_main_v347 _ L R f7_main_v89
  have f8a_main_v348 : after p8a (after p7 (after p6 (after p5 (after p4 (after p3 (after p2 (after p1 (after p0 V0)))))))) (Proc.devRef .tc main_v348) = val_main_v348 (F := F) L R := out8a_main_v348 _ L R f7_main_v96
  have f8a_main_v349 : after p8a (after p7 (after p6 (after p5 (after p4 (after p3 (after p2 (after p1 (after p0 V0)))))))) (Proc.devRef .tc main_v349) = val_main_v349 (F := F) L R := out8a_main_v349 _ L R f7_main_v103
  have f8a_main_v350 : after p8a (after p7 (after p6 (after p5 (after p4 (after p3 (after p2 (after p1 (after p0 V0)))))))) (Proc.devRef .tc main_v350) = val_main_v350 (F := F) L R := out8a_main_v350 _ L R f7_main_v110
  have f8a_main_v351 : after p8a (after p7 (after p6 (after p5 (after p4 (after p3 (after p2 (after p1 (after p0 V0)))))))) (Proc.devRef .tc main_v351) = val_main_v351 (F := F) L R := out8a_main_v351 _ L R f7_main_v117
  have f8a_main_v352 : after p8a (after p7 (after p6 (after p5 (after p4 (after p3 (after p2 (after p1 (after p0 V0)))))))) (Proc.devRef .tc main_v352) = val_main_v352 (F := F) L R := out8a_main_v352 _ L R f7_main_v124
  have f8a_main_v353 : after p8a (after p7 (after p6 (after p5 (after p4 (after p3 (after p2 (after p1 (after p0 V0)))))))) (Proc.devRef .tc main_v353) = val_main_v353 (F := F) L R := out8a_main_v353 _ L R f7_main_v131
  have f8a_main_v354 : after p8a (after p7 (after p6 (after p5 (after p4 (after p3 (after p2 (after p1 (after p0 V0)))))))) (Proc.devRef .tc main_v354) = val_main_v354 (F := F) L R := out8a_main_v354 _ L R f7_main_v138
  have f8a_main_v355 : after p8a (after p7 (after p6 (after p5 (after p4 (after p3 (after p2 (after p1 (after p0 V0)))))))) (Proc.devRef .tc main_v355) = val_main_v355 (F := F) L R := out8a_main_v355 _ L R f7_main_v145
  have f8a_main_v356 : after p8a (after p7 (after p6 (after p5 (after p4 (after p3 (after p2 (after p1 (after p0 V0)))))))) (Proc.devRef .tc main_v356) = val_main_v356 (F := F) L R := out8a_main_v356 _ L R f7_main_v152
  have f8a_main_v357 : after p8a (after p7 (after p6 (after p5 (after p4 (after p3 (after p2 (after p1 (after p0 V0)))))))) (Proc.devRef .tc main_v357) = val_main_v357 (F := F) L R := out8a_main_v357 _ L R f7_main_v159
  have f8a_main_v358 : after p8a (after p7 (after p6 (after p5 (after p4 (after p3 (after p2 (after p1 (after p0 V0)))))))) (Proc.devRef .tc main_v358) = val_main_v358 (F := F) L R := out8a_main_v358 _ L R f7_main_v166
  have f8a_main_v359 : after p8a (after p7 (after p6 (after p5 (after p4 (after p3 (after p2 (after p1 (after p0 V0)))))))) (Proc.devRef .tc main_v359) = val_main_v359 (F := F) L R := out8a_main_v359 _ L R f7_main_v173
  have f8a_main_v360 : after p8a (after p7 (after p6 (after p5 (after p4 (after p3 (after p2 (after p1 (after p0 V0)))))))) (Proc.devRef .tc main_v360) = val_main_v360 (F := F) L R := out8a_main_v360 _ L R f7_main_v180
  have f8a_main_v361 : after p8a (after p7 (after p6 (after p5 (after p4 (after p3 (after p2 (after p1 (after p0 V0)))))))) (Proc.devRef .tc main_v361) = val_main_v361 (F := F) L R := out8a_main_v361 _ L R f7_main_v187
  have f8a_main_v362 : after p8a (after p7 (after p6 (after p5 (after p4 (after p3 (after p2 (after p1 (after p0 V0)))))))) (Proc.devRef .tc main_v362) = val_main_v362 (F := F) L R := out8a_main_v362 _ L R f7_main_v194
  have f8a_main_v363 : after p8a (after p7 (after p6 (after p5 (after p4 (after p3 (after p2 (after p1 (after p0 V0)))))))) (Proc.devRef .tc main_v363) = val_main_v363 (F := F) L R := out8a_main_v363 _ L R f7_main_v201
  have f8a_main_v364 : after p8a (after p7 (after p6 (after p5 (after p4 (after p3 (after p2 (after p1 (after p0 V0)))))))) (Proc.devRef .tc main_v364) = val_main_v364 (F := F) L R := out8a_main_v364 _ L R f7_main_v208
  have f8a_main_v365 : after p8a (after p7 (after p6 (after p5 (after p4 (after p3 (after p2 (after p1 (after p0 V0)))))))) (Proc.devRef .tc main_v365) = val_main_v365 (F := F) L R := out8a_main_v365 _ L R f7_main_v215
  have f8a_main_v366 : after p8a (after p7 (after p6 (after p5 (after p4 (after p3 (after p2 (after p1 (after p0 V0)))))))) (Proc.devRef .tc main_v366) = val_main_v366 (F := F) L R := out8a_main_v366 _ L R f7_main_v222
  have f8a_main_v367 : after p8a (after p7 (after p6 (after p5 (after p4 (after p3 (after p2 (after p1 (after p0 V0)))))))) (Proc.devRef .tc main_v367) = val_main_v367 (F := F) L R := out8a_main_v367 _ L R f7_main_v229
  have f8a_main_v368 : after p8a (after p7 (after p6 (after p5 (after p4 (after p3 (after p2 (after p1 (after p0 V0)))))))) (Proc.devRef .tc main_v368) = val_main_v368 (F := F) L R := out8a_main_v368 _ L R f7_main_v236
  have f8a_main_v369 : after p8a (after p7 (after p6 (after p5 (after p4 (after p3 (after p2 (after p1 (after p0 V0)))))))) (Proc.devRef .tc main_v369) = val_main_v369 (F := F) L R := out8a_main_v369 _ L R f7_main_v243
  have f8a_main_v370 : after p8a (after p7 (after p6 (after p5 (after p4 (after p3 (after p2 (after p1 (after p0 V0)))))))) (Proc.devRef .tc main_v370) = val_main_v370 (F := F) L R := out8a_main_v370 _ L R f7_main_v250
  have f8a_main_v371 : after p8a (after p7 (after p6 (after p5 (after p4 (after p3 (after p2 (after p1 (after p0 V0)))))))) (Proc.devRef .tc main_v371) = val_main_v371 (F := F) L R := out8a_main_v371 _ L R f7_main_v257
  have f8a_main_v372 : after p8a (after p7 (after p6 (after p5 (after p4 (after p3 (after p2 (after p1 (after p0 V0)))))))) (Proc.devRef .tc main_v372) = val_main_v372 (F := F) L R := out8a_main_v372 _ L R f7_main_v264
  have f8a_main_v373 : after p8a (after p7 (after p6 (after p5 (after p4 (after p3 (after p2 (after p1 (after p0 V0)))))))) (Proc.devRef .tc main_v373) = val_main_v373 (F := F) L R := out8a_main_v373 _ L R f7_main_v271
  have f8a_main_v374 : after p8a (after p7 (after p6 (after p5 (after p4 (after p3 (after p2 (after p1 (after p0 V0)))))))) (Proc.devRef .tc main_v374) = val_main_v374 (F := F) L R := out8a_main_v374 _ L R f7_main_v278
  have f8a_main_v375 : after p8a (after p7 (after p6 (after p5 (after p4 (after p3 (after p2 (after p1 (after p0 V0)))))))) (Proc.devRef .tc main_v375) = val_main_v375 (F := F) L R := out8a_main_v375 _ L R f7_main_v285
  have f8a_main_v376 : after p8a (after p7 (after p6 (after p5 (after p4 (after p3 (after p2 (after p1 (after p0 V0)))))))) (Proc.devRef .tc main_v376) = val_main_v376 (F := F) L R := out8a_main_v376 _ L R f7_main_v292
  have f8a_main_v377 : after p8a (after p7 (after p6 (after p5 (after p4 (after p3 (after p2 (after p1 (after p0 V0)))))))) (Proc.devRef .tc main_v377) = val_main_v377 (F := F) L R := out8a_main_v377 _ L R f7_main_v299
  have f8a_main_v378 : after p8a (after p7 (after p6 (after p5 (after p4 (after p3 (after p2 (after p1 (after p0 V0)))))))) (Proc.devRef .tc main_v378) = val_main_v378 (F := F) L R := out8a_main_v378 _ L R f7_main_v306
  have f8a_main_v379 : after p8a (after p7 (after p6 (after p5 (after p4 (after p3 (after p2 (after p1 (after p0 V0)))))))) (Proc.devRef .tc main_v379) = val_main_v379 (F := F) L R := out8a_main_v379 _ L R f7_main_v313
  have f8a_main_v380 : after p8a (after p7 (after p6 (after p5 (after p4 (after p3 (after p2 (after p1 (after p0 V0)))))))) (Proc.devRef .tc main_v380) = val_main_v380 (F := F) L R := out8a_main_v380 _ L R f7_main_v320
  have f8a_main_v381 : after p8a (after p7 (after p6 (after p5 (after p4 (after p3 (after p2 (after p1 (after p0 V0)))))))) (Proc.devRef .tc main_v381) = val_main_v381 (F := F) L R := out8a_main_v381 _ L R f7_main_v327
  have f8a_main_v382 : after p8a (after p7 (after p6 (after p5 (after p4 (after p3 (after p2 (after p1 (after p0 V0)))))))) (Proc.devRef .tc main_v382) = val_main_v382 (F := F) L R := out8a_main_v382 _ L R f7_main_v334
  have f8b_main_arg0 : after p8b (after p8a (after p7 (after p6 (after p5 (after p4 (after p3 (after p2 (after p1 (after p0 V0))))))))) (Proc.devRef .tc main_arg0) = L := (keep8b_main_arg0 _ L R).trans f8a_main_arg0
  have f8b_main_arg1 : after p8b (after p8a (after p7 (after p6 (after p5 (after p4 (after p3 (after p2 (after p1 (after p0 V0))))))))) (Proc.devRef .tc main_arg1) = R := (keep8b_main_arg1 _ L R).trans f8a_main_arg1
  have f8b_main_v351 : after p8b (after p8a (after p7 (after p6 (after p5 (after p4 (after p3 (after p2 (after p1 (after p0 V0))))))))) (Proc.devRef .tc main_v351) = val_main_v351 (F := F) L R := (keep8b_main_v351 _ L R).trans f8a_main_v351
  have f8b_main_v352 : after p8b (after p8a (after p7 (after p6 (after p5 (after p4 (after p3 (after p2 (after p1 (after p0 V0))))))))) (Proc.devRef .tc main_v352) = val_main_v352 (F := F) L R := (keep8b_main_v352 _ L R).trans f8a_main_v352
  have f8b_main_v353 : after p8b (after p8a (after p7 (after p6 (after p5 (after p4 (after p3 (after p2 (after p1 (after p0 V0))))))))) (Proc.devRef .tc main_v353) = val_main_v353 (F := F) L R := (keep8b_main_v353 _ L R).trans f8a_main_v353
  have f8b_main_v354 : after p8b (after p8a (after p7 (after p6 (after p5 (after p4 (after p3 (after p2 (after p1 (after p0 V0))))))))) (Proc.devRef .tc main_v354) = val_main_v354 (F := F) L R := (keep8b_main_v354 _ L R).trans f8a_main_v354
  have f8b_main_v355 : after p8b (after p8a (after p7 (after p6 (after p5 (after p4 (after p3 (after p2 (after p1 (after p0 V0))))))))) (Proc.devRef .tc main_v355) = val_main_v355 (F := F) L R := (keep8b_main_v355 _ L R).trans f8a_main_v355
  have f8b_main_v356 : after p8b (after p8a (after p7 (after p6 (after p5 (after p4 (after p3 (after p2 (after p1 (after p0 V0))))))))) (Proc.devRef .tc main_v356) = val_main_v356 (F := F) L R := (keep8b_main_v356 _ L R).trans f8a_main_v356
  have f8b_main_v357 : after p8b (after p8a (after p7 (after p6 (after p5 (after p4 (after p3 (after p2 (after p1 (after p0 V0))))))))) (Proc.devRef .tc main_v357) = val_main_v357 (F := F) L R := (keep8b_main_v357 _ L R).trans f8a_main_v357
  have f8b_main_v358 : after p8b (after p8a (after p7 (after p6 (after p5 (after p4 (after p3 (after p2 (after p1 (after p0 V0))))))))) (Proc.devRef .tc main_v358) = val_main_v358 (F := F) L R := (keep8b_main_v358 _ L R).trans f8a_main_v358
  have f8b_main_v359 : after p8b (after p8a (after p7 (after p6 (after p5 (after p4 (after p3 (after p2 (after p1 (after p0 V0))))))))) (Proc.devRef .tc main_v359) = val_main_v359 (F := F) L R := (keep8b_main_v359 _ L R).trans f8a_main_v359
  have f8b_main_v360 : after p8b (after p8a (after p7 (after p6 (after p5 (after p4 (after p3 (after p2 (after p1 (after p0 V0))))))))) (Proc.devRef .tc main_v360) = val_main_v360 (F := F) L R := (keep8b_main_v360 _ L R).trans f8a_main_v360
  have f8b_main_v361 : after p8b (after p8a (after p7 (after p6 (after p5 (after p4 (after p3 (after p2 (after p1 (after p0 V0))))))))) (Proc.devRef .tc main_v361) = val_main_v361 (F := F) L R := (keep8b_main_v361 _ L R).trans f8a_main_v361
  have f8b_main_v362 : after p8b (after p8a (after p7 (after p6 (after p5 (after p4 (after p3 (after p2 (after p1 (after p0 V0))))))))) (Proc.devRef .tc main_v362) = val_main_v362 (F := F) L R := (keep8b_main_v362 _ L R).trans f8a_main_v362
  have f8b_main_v363 : after p8b (after p8a (after p7 (after p6 (after p5 (after p4 (after p3 (after p2 (after p1 (after p0 V0))))))))) (Proc.devRef .tc main_v363) = val_main_v363 (F := F) L R := (keep8b_main_v363 _ L R).trans f8a_main_v363
  have f8b_main_v364 : after p8b (after p8a (after p7 (after p6 (after p5 (after p4 (after p3 (after p2 (after p1 (after p0 V0))))))))) (Proc.devRef .tc main_v364) = val_main_v364 (F := F) L R := (keep8b_main_v364 _ L R).trans f8a_main_v364
  have f8b_main_v365 : after p8b (after p8a (after p7 (after p6 (after p5 (after p4 (after p3 (after p2 (after p1 (after p0 V0))))))))) (Proc.devRef .tc main_v365) = val_main_v365 (F := F) L R := (keep8b_main_v365 _ L R).trans f8a_main_v365
  have f8b_main_v366 : after p8b (after p8a (after p7 (after p6 (after p5 (after p4 (after p3 (after p2 (after p1 (after p0 V0))))))))) (Proc.devRef .tc main_v366) = val_main_v366 (F := F) L R := (keep8b_main_v366 _ L R).trans f8a_main_v366
  have f8b_main_v367 : after p8b (after p8a (after p7 (after p6 (after p5 (after p4 (after p3 (after p2 (after p1 (after p0 V0))))))))) (Proc.devRef .tc main_v367) = val_main_v367 (F := F) L R := (keep8b_main_v367 _ L R).trans f8a_main_v367
  have f8b_main_v368 : after p8b (after p8a (after p7 (after p6 (after p5 (after p4 (after p3 (after p2 (after p1 (after p0 V0))))))))) (Proc.devRef .tc main_v368) = val_main_v368 (F := F) L R := (keep8b_main_v368 _ L R).trans f8a_main_v368
  have f8b_main_v369 : after p8b (after p8a (after p7 (after p6 (after p5 (after p4 (after p3 (after p2 (after p1 (after p0 V0))))))))) (Proc.devRef .tc main_v369) = val_main_v369 (F := F) L R := (keep8b_main_v369 _ L R).trans f8a_main_v369
  have f8b_main_v370 : after p8b (after p8a (after p7 (after p6 (after p5 (after p4 (after p3 (after p2 (after p1 (after p0 V0))))))))) (Proc.devRef .tc main_v370) = val_main_v370 (F := F) L R := (keep8b_main_v370 _ L R).trans f8a_main_v370
  have f8b_main_v371 : after p8b (after p8a (after p7 (after p6 (after p5 (after p4 (after p3 (after p2 (after p1 (after p0 V0))))))))) (Proc.devRef .tc main_v371) = val_main_v371 (F := F) L R := (keep8b_main_v371 _ L R).trans f8a_main_v371
  have f8b_main_v372 : after p8b (after p8a (after p7 (after p6 (after p5 (after p4 (after p3 (after p2 (after p1 (after p0 V0))))))))) (Proc.devRef .tc main_v372) = val_main_v372 (F := F) L R := (keep8b_main_v372 _ L R).trans f8a_main_v372
  have f8b_main_v373 : after p8b (after p8a (after p7 (after p6 (after p5 (after p4 (after p3 (after p2 (after p1 (after p0 V0))))))))) (Proc.devRef .tc main_v373) = val_main_v373 (F := F) L R := (keep8b_main_v373 _ L R).trans f8a_main_v373
  have f8b_main_v374 : after p8b (after p8a (after p7 (after p6 (after p5 (after p4 (after p3 (after p2 (after p1 (after p0 V0))))))))) (Proc.devRef .tc main_v374) = val_main_v374 (F := F) L R := (keep8b_main_v374 _ L R).trans f8a_main_v374
  have f8b_main_v375 : after p8b (after p8a (after p7 (after p6 (after p5 (after p4 (after p3 (after p2 (after p1 (after p0 V0))))))))) (Proc.devRef .tc main_v375) = val_main_v375 (F := F) L R := (keep8b_main_v375 _ L R).trans f8a_main_v375
  have f8b_main_v376 : after p8b (after p8a (after p7 (after p6 (after p5 (after p4 (after p3 (after p2 (after p1 (after p0 V0))))))))) (Proc.devRef .tc main_v376) = val_main_v376 (F := F) L R := (keep8b_main_v376 _ L R).trans f8a_main_v376
  have f8b_main_v377 : after p8b (after p8a (after p7 (after p6 (after p5 (after p4 (after p3 (after p2 (after p1 (after p0 V0))))))))) (Proc.devRef .tc main_v377) = val_main_v377 (F := F) L R := (keep8b_main_v377 _ L R).trans f8a_main_v377
  have f8b_main_v378 : after p8b (after p8a (after p7 (after p6 (after p5 (after p4 (after p3 (after p2 (after p1 (after p0 V0))))))))) (Proc.devRef .tc main_v378) = val_main_v378 (F := F) L R := (keep8b_main_v378 _ L R).trans f8a_main_v378
  have f8b_main_v379 : after p8b (after p8a (after p7 (after p6 (after p5 (after p4 (after p3 (after p2 (after p1 (after p0 V0))))))))) (Proc.devRef .tc main_v379) = val_main_v379 (F := F) L R := (keep8b_main_v379 _ L R).trans f8a_main_v379
  have f8b_main_v380 : after p8b (after p8a (after p7 (after p6 (after p5 (after p4 (after p3 (after p2 (after p1 (after p0 V0))))))))) (Proc.devRef .tc main_v380) = val_main_v380 (F := F) L R := (keep8b_main_v380 _ L R).trans f8a_main_v380
  have f8b_main_v381 : after p8b (after p8a (after p7 (after p6 (after p5 (after p4 (after p3 (after p2 (after p1 (after p0 V0))))))))) (Proc.devRef .tc main_v381) = val_main_v381 (F := F) L R := (keep8b_main_v381 _ L R).trans f8a_main_v381
  have f8b_main_v382 : after p8b (after p8a (after p7 (after p6 (after p5 (after p4 (after p3 (after p2 (after p1 (after p0 V0))))))))) (Proc.devRef .tc main_v382) = val_main_v382 (F := F) L R := (keep8b_main_v382 _ L R).trans f8a_main_v382
  have f8b_main_v383 : after p8b (after p8a (after p7 (after p6 (after p5 (after p4 (after p3 (after p2 (after p1 (after p0 V0))))))))) (Proc.devRef .tc main_v383) = val_main_v383 (F := F) L R := out8b_main_v383 _ L R f8a_main_v335 f8a_main_v336 f8a_main_v337 f8a_main_v338 f8a_main_v339 f8a_main_v340 f8a_main_v341 f8a_main_v342 f8a_main_v343 f8a_main_v344 f8a_main_v345 f8a_main_v346 f8a_main_v347 f8a_main_v348 f8a_main_v349 f8a_main_v350
  have f8c_main_arg0 : after p8c (after p8b (after p8a (after p7 (after p6 (after p5 (after p4 (after p3 (after p2 (after p1 (after p0 V0)))))))))) (Proc.devRef .tc main_arg0) = L := (keep8c_main_arg0 _ L R).trans f8b_main_arg0
  have f8c_main_arg1 : after p8c (after p8b (after p8a (after p7 (after p6 (after p5 (after p4 (after p3 (after p2 (after p1 (after p0 V0)))))))))) (Proc.devRef .tc main_arg1) = R := (keep8c_main_arg1 _ L R).trans f8b_main_arg1
  have f8c_main_v367 : after p8c (after p8b (after p8a (after p7 (after p6 (after p5 (after p4 (after p3 (after p2 (after p1 (after p0 V0)))))))))) (Proc.devRef .tc main_v367) = val_main_v367 (F := F) L R := (keep8c_main_v367 _ L R).trans f8b_main_v367
  have f8c_main_v368 : after p8c (after p8b (after p8a (after p7 (after p6 (after p5 (after p4 (after p3 (after p2 (after p1 (after p0 V0)))))))))) (Proc.devRef .tc main_v368) = val_main_v368 (F := F) L R := (keep8c_main_v368 _ L R).trans f8b_main_v368
  have f8c_main_v369 : after p8c (after p8b (after p8a (after p7 (after p6 (after p5 (after p4 (after p3 (after p2 (after p1 (after p0 V0)))))))))) (Proc.devRef .tc main_v369) = val_main_v369 (F := F) L R := (keep8c_main_v369 _ L R).trans f8b_main_v369
  have f8c_main_v370 : after p8c (after p8b (after p8a (after p7 (after p6 (after p5 (after p4 (after p3 (after p2 (after p1 (after p0 V0)))))))))) (Proc.devRef .tc main_v370) = val_main_v370 (F := F) L R := (keep8c_main_v370 _ L R).trans f8b_main_v370
  have f8c_main_v371 : after p8c (after p8b (after p8a (after p7 (after p6 (after p5 (after p4 (after p3 (after p2 (after p1 (after p0 V0)))))))))) (Proc.devRef .tc main_v371) = val_main_v371 (F := F) L R := (keep8c_main_v371 _ L R).trans f8b_main_v371
  have f8c_main_v372 : after p8c (after p8b (after p8a (after p7 (after p6 (after p5 (after p4 (after p3 (after p2 (after p1 (after p0 V0)))))))))) (Proc.devRef .tc main_v372) = val_main_v372 (F := F) L R := (keep8c_main_v372 _ L R).trans f8b_main_v372
  have f8c_main_v373 : after p8c (after p8b (after p8a (after p7 (after p6 (after p5 (after p4 (after p3 (after p2 (after p1 (after p0 V0)))))))))) (Proc.devRef .tc main_v373) = val_main_v373 (F := F) L R := (keep8c_main_v373 _ L R).trans f8b_main_v373
  have f8c_main_v374 : after p8c (after p8b (after p8a (after p7 (after p6 (after p5 (after p4 (after p3 (after p2 (after p1 (after p0 V0)))))))))) (Proc.devRef .tc main_v374) = val_main_v374 (F := F) L R := (keep8c_main_v374 _ L R).trans f8b_main_v374
  have f8c_main_v375 : after p8c (after p8b (after p8a (after p7 (after p6 (after p5 (after p4 (after p3 (after p2 (after p1 (after p0 V0)))))))))) (Proc.devRef .tc main_v375) = val_main_v375 (F := F) L R := (keep8c_main_v375 _ L R).trans f8b_main_v375
  have f8c_main_v376 : after p8c (after p8b (after p8a (after p7 (after p6 (after p5 (after p4 (after p3 (after p2 (after p1 (after p0 V0)))))))))) (Proc.devRef .tc main_v376) = val_main_v376 (F := F) L R := (keep8c_main_v376 _ L R).trans f8b_main_v376
  have f8c_main_v377 : after p8c (after p8b (after p8a (after p7 (after p6 (after p5 (after p4 (after p3 (after p2 (after p1 (after p0 V0)))))))))) (Proc.devRef .tc main_v377) = val_main_v377 (F := F) L R := (keep8c_main_v377 _ L R).trans f8b_main_v377
  have f8c_main_v378 : after p8c (after p8b (after p8a (after p7 (after p6 (after p5 (after p4 (after p3 (after p2 (after p1 (after p0 V0)))))))))) (Proc.devRef .tc main_v378) = val_main_v378 (F := F) L R := (keep8c_main_v378 _ L R).trans f8b_main_v378
  have f8c_main_v379 : after p8c (after p8b (after p8a (after p7 (after p6 (after p5 (after p4 (after p3 (after p2 (after p1 (after p0 V0)))))))))) (Proc.devRef .tc main_v379) = val_main_v379 (F := F) L R := (keep8c_main_v379 _ L R).trans f8b_main_v379
  have f8c_main_v380 : after p8c (after p8b (after p8a (after p7 (after p6 (after p5 (after p4 (after p3 (after p2 (after p1 (after p0 V0)))))))))) (Proc.devRef .tc main_v380) = val_main_v380 (F := F) L R := (keep8c_main_v380 _ L R).trans f8b_main_v380
  have f8c_main_v381 : after p8c (after p8b (after p8a (after p7 (after p6 (after p5 (after p4 (after p3 (after p2 (after p1 (after p0 V0)))))))))) (Proc.devRef .tc main_v381) = val_main_v381 (F := F) L R := (keep8c_main_v381 _ L R).trans f8b_main_v381
  have f8c_main_v382 : after p8c (after p8b (after p8a (after p7 (after p6 (after p5 (after p4 (after p3 (after p2 (after p1 (after p0 V0)))))))))) (Proc.devRef .tc main_v382) = val_main_v382 (F := F) L R := (keep8c_main_v382 _ L R).trans f8b_main_v382
  have f8c_main_v383 : after p8c (after p8b (after p8a (after p7 (after p6 (after p5 (after p4 (after p3 (after p2 (after p1 (after p0 V0)))))))))) (Proc.devRef .tc main_v383) = val_main_v383 (F := F) L R := (keep8c_main_v383 _ L R).trans f8b_main_v383
  have f8c_main_v384 : after p8c (after p8b (after p8a (after p7 (after p6 (after p5 (after p4 (after p3 (after p2 (after p1 (after p0 V0)))))))))) (Proc.devRef .tc main_v384) = val_main_v384 (F := F) L R := out8c_main_v384 _ L R f8b_main_v351 f8b_main_v352 f8b_main_v353 f8b_main_v354 f8b_main_v355 f8b_main_v356 f8b_main_v357 f8b_main_v358 f8b_main_v359 f8b_main_v360 f8b_main_v361 f8b_main_v362 f8b_main_v363 f8b_main_v364 f8b_main_v365 f8b_main_v366
  have f8d_main_arg0 : after p8d (after p8c (after p8b (after p8a (after p7 (after p6 (after p5 (after p4 (after p3 (after p2 (after p1 (after p0 V0))))))))))) (Proc.devRef .tc main_arg0) = L := (keep8d_main_arg0 _ L R).trans f8c_main_arg0
  have f8d_main_arg1 : after p8d (after p8c (after p8b (after p8a (after p7 (after p6 (after p5 (after p4 (after p3 (after p2 (after p1 (after p0 V0))))))))))) (Proc.devRef .tc main_arg1) = R := (keep8d_main_arg1 _ L R).trans f8c_main_arg1
  have f8d_main_v383 : after p8d (after p8c (after p8b (after p8a (after p7 (after p6 (after p5 (after p4 (after p3 (after p2 (after p1 (after p0 V0))))))))))) (Proc.devRef .tc main_v383) = val_main_v383 (F := F) L R := (keep8d_main_v383 _ L R).trans f8c_main_v383
  have f8d_main_v384 : after p8d (after p8c (after p8b (after p8a (after p7 (after p6 (after p5 (after p4 (after p3 (after p2 (after p1 (after p0 V0))))))))))) (Proc.devRef .tc main_v384) = val_main_v384 (F := F) L R := (keep8d_main_v384 _ L R).trans f8c_main_v384
  have f8d_main_v385 : after p8d (after p8c (after p8b (after p8a (after p7 (after p6 (after p5 (after p4 (after p3 (after p2 (after p1 (after p0 V0))))))))))) (Proc.devRef .tc main_v385) = val_main_v385 (F := F) L R := out8d_main_v385 _ L R f8c_main_v367 f8c_main_v368 f8c_main_v369 f8c_main_v370 f8c_main_v371 f8c_main_v372 f8c_main_v373 f8c_main_v374 f8c_main_v375 f8c_main_v376 f8c_main_v377 f8c_main_v378 f8c_main_v379 f8c_main_v380 f8c_main_v381 f8c_main_v382
  have f8e_main_arg0 : after p8e (after p8d (after p8c (after p8b (after p8a (after p7 (after p6 (after p5 (after p4 (after p3 (after p2 (after p1 (after p0 V0)))))))))))) (Proc.devRef .tc main_arg0) = L := (keep8e_main_arg0 _ L R).trans f8d_main_arg0
  have f8e_main_arg1 : after p8e (after p8d (after p8c (after p8b (after p8a (after p7 (after p6 (after p5 (after p4 (after p3 (after p2 (after p1 (after p0 V0)))))))))))) (Proc.devRef .tc main_arg1) = R := (keep8e_main_arg1 _ L R).trans f8d_main_arg1
  have f8e_main_v386 : after p8e (after p8d (after p8c (after p8b (after p8a (after p7 (after p6 (after p5 (after p4 (after p3 (after p2 (after p1 (after p0 V0)))))))))))) (Proc.devRef .tc main_v386) = val_main_v386 (F := F) L R := out8e_main_v386 _ L R f8d_main_v383 f8d_main_v384 f8d_main_v385
  exact ⟨f8e_main_v386, f8e_main_arg0, f8e_main_arg1⟩

/-- The reference's run: every weakly fair execution of @main terminates, the result buffer holds the last stage of the
    two argument arrays, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v386)
        = val_main_v386 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v386).trans (value (launchContents m c)).1,
      (h c main_arg0).trans (value (launchContents m c)).2.1,
      (h c main_arg1).trans (value (launchContents m c)).2.2⟩)
    (run_seq scopedRefs_eq scopedSems_eq defs main (fun _ => ops) main_eq (fun _ => ops_sub) m ρ (fun _ => ops_fresh))

end Cert.ReferenceIdeal.RunP

end
-- ==== Proof.lean ====
/-
  The kernel and the reference both compute the group-wise correlation cost volume of two feature arrays of shape
  [2, 320, 128, 240]: for each batch, each of the 40 groups of 8 channels, each disparity d = 0 … 47, each row and each
  column x, the mean over the group's channels of left[…, x] · right[…, x - d], and zero where x < d.

  Over the extended reals the two programs agree entry by entry. The kernel multiplies each sum of 8 products by the
  float 1/8, an exact dyadic, and fills the columns x < d by a block of zeros stored first; the reference divides the sum
  by the float 8 and pads each slice with d zero columns. Division by 8 is multiplication by 1/8 on every extended real
  (no finiteness is needed: both sides are the same sum of the same products times the same real number), so the law that
  joins the two sides is only that 0.125 = 1 / 8. The common value is `Cert.Gwc.volume` (Spec).

  The kernel's frame is the generated frame certificate with the cover of the output block proved from the first store
  (KernelFrame, KernelIdealFrame); its value is read off that frame run: the stores of one grid step (BlockPieces,
  KernelBlock) and the tiling of the result array by the 80 output blocks (KernelVolume). The reference's run is taken part by
  part of its @main (RefRun0 … RefRun8, RefRun): each buffer a later part reads holds its stage, a function of the two
  arguments (RefRead). The last stage is read one operation at a time: each disparity's chain of slice, product, sum,
  quotient and pad (RefChain and the modules after it) and the stacking of the 48 padded slices (RefVolume). No rewrite was applied when
  the kernel was idealized, so there is nothing to preserve.
-/
import proofs.«179842_j85048942395524_1_alg».proof.Defs
import proofs.«179842_j85048942395524_1_alg».proof.Proof.Gen.Kernel
import proofs.«179842_j85048942395524_1_alg».proof.Proof.Gen.KernelIdeal
import proofs.«179842_j85048942395524_1_alg».proof.Proof.Gen.ReferenceIdeal
import proofs.«179842_j85048942395524_1_alg».proof.Proof.Gen.Pre_finite_inputs
import proofs.«179842_j85048942395524_1_alg».proof.Proof.KernelFrame
import proofs.«179842_j85048942395524_1_alg».proof.Proof.KernelVolume
import proofs.«179842_j85048942395524_1_alg».proof.Proof.RefVolume
import proofs.«179842_j85048942395524_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the cost volume of the (agreeing) argument arrays. -/
theorem algebraic : Cert.algebraic_KernelIdeal_ReferenceIdeal := by
  intro m ρ m' ρ' _ hagree
  refine ⟨fun c => Cert.Gwc.volume (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.BlockValue.run m ρ, ?_⟩
  refine (θ_run Cert.ReferenceIdeal.defs _ _).mono (fun _ h c => ⟨(h c).1.trans ?_, (h c).2⟩)
    (Cert.ReferenceIdeal.RunP.run (F := Ideal) m' ρ')
  rw [Cert.Gwc.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
